-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  reducesTo_S_S_d : S_.ReducesTo [] S_

variable [Facts]

def fn {F : FTy → Type} [FloatOps F] (main_arg0 : FVec F S64x512x512 .f32) (main_arg1 : FVec F S_ .f32) (main_arg2 : FVec F S_ .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  main_v11
-- ==== Kernel.lean ====
abbrev S64x512x512 : Shape := ⟨3, ![64, 512, 512]⟩
abbrev S_ : Shape := ⟨0, ![]⟩
abbrev S16 : Shape := ⟨1, ![16]⟩
abbrev S16777216 : Shape := ⟨1, ![16777216]⟩
abbrev S32768 : Shape := ⟨1, ![32768]⟩
abbrev S16384 : Shape := ⟨1, ![16384]⟩
abbrev S1 : Shape := ⟨1, ![1]⟩

abbrev nBuf : Table → Nat
  | .hbm => 37
  | .local .scVector .vmem => 3
  | _ => 0

abbrev bufTy : (tb : Table) → Fin (nBuf tb) → BufTy
  | .hbm, ⟨0, _⟩ => ⟨S64x512x512, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i1⟩
  | .hbm, ⟨21, _⟩ => ⟨S_, .i1⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .i32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16777216, .f32⟩
  | .hbm, ⟨35, _⟩ => ⟨S16777216, .f32⟩
  | .hbm, ⟨36, _⟩ => ⟨S64x512x512, .f32⟩
  | .local .scVector .vmem, ⟨0, _⟩ => ⟨S16, .i32⟩
  | .local .scVector .vmem, ⟨1, _⟩ => ⟨S32768, .f32⟩
  | .local .scVector .vmem, ⟨2, _⟩ => ⟨S16384, .f32⟩
  | _, _ => ⟨S64x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 97 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | ⟨88, _⟩ => false
  | ⟨89, _⟩ => false
  | ⟨90, _⟩ => false
  | ⟨91, _⟩ => false
  | ⟨92, _⟩ => false
  | ⟨93, _⟩ => false
  | ⟨94, _⟩ => false
  | ⟨95, _⟩ => false
  | ⟨96, _⟩ => false
  | _ => false

abbrev sig : RefSig :=
  ofTables nBuf rfl bufTy 4 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call1_v0 : Ref sig .tc := ⟨.hbm, 9, rfl⟩
abbrev main_call1_c : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_c_1 : Ref sig .tc := ⟨.hbm, 15, rfl⟩
abbrev main_call1_v4 : Ref sig .tc := ⟨.hbm, 16, rfl⟩
abbrev main_call1_c_2 : Ref sig .tc := ⟨.hbm, 17, rfl⟩
abbrev main_call1_v5 : Ref sig .tc := ⟨.hbm, 18, rfl⟩
abbrev main_call1_c_3 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v9_scv : Ref sig .scVector := ⟨.hbm, 34, rfl⟩
abbrev main_v8_scv : Ref sig .scVector := ⟨.hbm, 33, rfl⟩
abbrev main_v10_scv : Ref sig .scVector := ⟨.hbm, 35, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (v5 : BitVec 32) (c0_i32 : BitVec 32) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v6 : BitVec 32 := Scalar.muli v1 c2_i32_0
  let v7 : BitVec 32 := Scalar.addi v6 c0_i32
  let c262144_i32 : BitVec 32 := 262144#32
  let v8 : BitVec 32 := Scalar.muli v7 c262144_i32
  let v9 : BitVec 32 := Scalar.subi c0_i32_1 v5
  let c262144_i32_2 : BitVec 32 := 262144#32
  let v10 : BitVec 32 := Scalar.addi v9 c262144_i32_2
  let c262144_i32_3 : BitVec 32 := 262144#32
  let v11 : BitVec 32 := Scalar.remsi v10 c262144_i32_3
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c16384_i32 : BitVec 32 := 16384#32
  let c0_i32_6 : BitVec 32 := 0#32
  let v18 : BitVec 1 := Scalar.cmpi .sgt c16384_i32 c0_i32_6
  let v19 : BitVec 32 := Scalar.extui v18
  let c0_i32_7 : BitVec 32 := 0#32
  let v20 : BitVec 1 := Scalar.cmpi .slt c16384_i32 c0_i32_7
  let v21 : BitVec 32 := Scalar.extui v20
  let v22 : BitVec 32 := Scalar.subi v19 v21
  let v23 : BitVec 1 := Scalar.cmpi .ne v17 v22
  let v24 : BitVec 32 := Scalar.remsi v11 c16384_i32
  let c0_i32_8 : BitVec 32 := 0#32
  let v25 : BitVec 1 := Scalar.cmpi .ne v24 c0_i32_8
  let v26 : BitVec 1 := Scalar.andi v23 v25
  let v12 : BitVec 32 := Scalar.divsi v11 c16384_i32
  let c1_i32 : BitVec 32 := 1#32
  let v27 : BitVec 32 := Scalar.subi v12 c1_i32
  let v28 : BitVec 32 := Scalar.select v26 v27 v12
  let c16384_i32_9 : BitVec 32 := 16384#32
  let v29 : BitVec 32 := Scalar.muli v28 c16384_i32_9
  let v33 : BitVec 32 := Scalar.addi v8 v29
  ![v33.toNat]

def k0_off2 (i : grid0.Coords) (v5 : BitVec 32) (c0_i32 : BitVec 32) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v6 : BitVec 32 := Scalar.muli v1 c2_i32_0
  let v7 : BitVec 32 := Scalar.addi v6 c0_i32
  let c262144_i32 : BitVec 32 := 262144#32
  let v8 : BitVec 32 := Scalar.muli v7 c262144_i32
  let v9 : BitVec 32 := Scalar.subi c0_i32_1 v5
  let c262144_i32_2 : BitVec 32 := 262144#32
  let v10 : BitVec 32 := Scalar.addi v9 c262144_i32_2
  let c262144_i32_3 : BitVec 32 := 262144#32
  let v11 : BitVec 32 := Scalar.remsi v10 c262144_i32_3
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c16384_i32 : BitVec 32 := 16384#32
  let c0_i32_6 : BitVec 32 := 0#32
  let v18 : BitVec 1 := Scalar.cmpi .sgt c16384_i32 c0_i32_6
  let v19 : BitVec 32 := Scalar.extui v18
  let c0_i32_7 : BitVec 32 := 0#32
  let v20 : BitVec 1 := Scalar.cmpi .slt c16384_i32 c0_i32_7
  let v21 : BitVec 32 := Scalar.extui v20
  let v22 : BitVec 32 := Scalar.subi v19 v21
  let v23 : BitVec 1 := Scalar.cmpi .ne v17 v22
  let v24 : BitVec 32 := Scalar.remsi v11 c16384_i32
  let c0_i32_8 : BitVec 32 := 0#32
  let v25 : BitVec 1 := Scalar.cmpi .ne v24 c0_i32_8
  let v26 : BitVec 1 := Scalar.andi v23 v25
  let v12 : BitVec 32 := Scalar.divsi v11 c16384_i32
  let c1_i32 : BitVec 32 := 1#32
  let v27 : BitVec 32 := Scalar.subi v12 c1_i32
  let v28 : BitVec 32 := Scalar.select v26 v27 v12
  let c16384_i32_9 : BitVec 32 := 16384#32
  let v29 : BitVec 32 := Scalar.muli v28 c16384_i32_9
  let c16384_i32_10 : BitVec 32 := 16384#32
  let v30 : BitVec 32 := Scalar.addi v29 c16384_i32_10
  let c262144_i32_11 : BitVec 32 := 262144#32
  let v31 : BitVec 32 := Scalar.remsi v30 c262144_i32_11
  let v34 : BitVec 32 := Scalar.addi v8 v31
  ![v34.toNat]
@[reducible] def k0_t1_loop : Scf.Loop 32 :=
  let c0_i32_13 : BitVec 32 := 0#32
  let c1024_i32 : BitVec 32 := 1024#32
  let v35 : BitVec 32 := Scalar.addi c0_i32_13 c1024_i32
  let c1_i32_14 : BitVec 32 := 1#32
  ⟨c0_i32_13, v35, c1_i32_14⟩
def k0_off3 (v5 : BitVec 32) (k0_t1 : Fin k0_t1_loop.trips) : Fin 1 → Nat :=
  let c0_i32_1 : BitVec 32 := 0#32
  let v9 : BitVec 32 := Scalar.subi c0_i32_1 v5
  let c262144_i32_2 : BitVec 32 := 262144#32
  let v10 : BitVec 32 := Scalar.addi v9 c262144_i32_2
  let c262144_i32_3 : BitVec 32 := 262144#32
  let v11 : BitVec 32 := Scalar.remsi v10 c262144_i32_3
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c16384_i32 : BitVec 32 := 16384#32
  let c0_i32_6 : BitVec 32 := 0#32
  let v18 : BitVec 1 := Scalar.cmpi .sgt c16384_i32 c0_i32_6
  let v19 : BitVec 32 := Scalar.extui v18
  let c0_i32_7 : BitVec 32 := 0#32
  let v20 : BitVec 1 := Scalar.cmpi .slt c16384_i32 c0_i32_7
  let v21 : BitVec 32 := Scalar.extui v20
  let v22 : BitVec 32 := Scalar.subi v19 v21
  let v23 : BitVec 1 := Scalar.cmpi .ne v17 v22
  let v24 : BitVec 32 := Scalar.remsi v11 c16384_i32
  let c0_i32_8 : BitVec 32 := 0#32
  let v25 : BitVec 1 := Scalar.cmpi .ne v24 c0_i32_8
  let v26 : BitVec 1 := Scalar.andi v23 v25
  let v12 : BitVec 32 := Scalar.divsi v11 c16384_i32
  let c1_i32 : BitVec 32 := 1#32
  let v27 : BitVec 32 := Scalar.subi v12 c1_i32
  let v28 : BitVec 32 := Scalar.select v26 v27 v12
  let c16384_i32_9 : BitVec 32 := 16384#32
  let v29 : BitVec 32 := Scalar.muli v28 c16384_i32_9
  let v32 : BitVec 32 := Scalar.subi v11 v29
  let c0_i32_13 : BitVec 32 := 0#32
  let c1_i32_14 : BitVec 32 := 1#32
  let arg8 : BitVec 32 := Scf.iv c0_i32_13 c1_i32_14 k0_t1
  let c16_i32 : BitVec 32 := 16#32
  let v908 : BitVec 32 := Scalar.muli arg8 c16_i32
  let v909 : BitVec 32 := Scalar.addi v32 v908
  let v910 : Index := Scalar.indexCast v909
  ![v910.toNat]
def k0_off4 (k0_t1 : Fin k0_t1_loop.trips) : Fin 1 → Nat :=
  let c0_i32_13 : BitVec 32 := 0#32
  let c1_i32_14 : BitVec 32 := 1#32
  let arg8 : BitVec 32 := Scf.iv c0_i32_13 c1_i32_14 k0_t1
  let c16_i32_595 : BitVec 32 := 16#32
  let v913 : BitVec 32 := Scalar.muli arg8 c16_i32_595
  let v914 : Index := Scalar.indexCast v913
  ![v914.toNat]
def k0_off5 (i : grid0.Coords) (c0_i32 : BitVec 32) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v6 : BitVec 32 := Scalar.muli v1 c2_i32_0
  let v7 : BitVec 32 := Scalar.addi v6 c0_i32
  let c262144_i32 : BitVec 32 := 262144#32
  let v8 : BitVec 32 := Scalar.muli v7 c262144_i32
  let v36 : BitVec 32 := Scalar.addi v8 c0_i32_16
  ![v36.toNat]
@[reducible] def k0_t2_loop : Scf.Loop 32 :=
  let c0_i32_31 : BitVec 32 := 0#32
  let c1024_i32_32 : BitVec 32 := 1024#32
  let v63 : BitVec 32 := Scalar.addi c0_i32_31 c1024_i32_32
  let c1_i32_33 : BitVec 32 := 1#32
  ⟨c0_i32_31, v63, c1_i32_33⟩
def k0_off6 (v5 : BitVec 32) (k0_t2 : Fin k0_t2_loop.trips) : Fin 1 → Nat :=
  let c16384_i32_17 : BitVec 32 := 16384#32
  let v37 : BitVec 32 := Scalar.subi c16384_i32_17 v5
  let c262144_i32_18 : BitVec 32 := 262144#32
  let v38 : BitVec 32 := Scalar.addi v37 c262144_i32_18
  let c262144_i32_19 : BitVec 32 := 262144#32
  let v39 : BitVec 32 := Scalar.remsi v38 c262144_i32_19
  let c0_i32_21 : BitVec 32 := 0#32
  let v41 : BitVec 1 := Scalar.cmpi .sgt v39 c0_i32_21
  let v42 : BitVec 32 := Scalar.extui v41
  let c0_i32_22 : BitVec 32 := 0#32
  let v43 : BitVec 1 := Scalar.cmpi .slt v39 c0_i32_22
  let v44 : BitVec 32 := Scalar.extui v43
  let v45 : BitVec 32 := Scalar.subi v42 v44
  let c16384_i32_20 : BitVec 32 := 16384#32
  let c0_i32_23 : BitVec 32 := 0#32
  let v46 : BitVec 1 := Scalar.cmpi .sgt c16384_i32_20 c0_i32_23
  let v47 : BitVec 32 := Scalar.extui v46
  let c0_i32_24 : BitVec 32 := 0#32
  let v48 : BitVec 1 := Scalar.cmpi .slt c16384_i32_20 c0_i32_24
  let v49 : BitVec 32 := Scalar.extui v48
  let v50 : BitVec 32 := Scalar.subi v47 v49
  let v51 : BitVec 1 := Scalar.cmpi .ne v45 v50
  let v52 : BitVec 32 := Scalar.remsi v39 c16384_i32_20
  let c0_i32_25 : BitVec 32 := 0#32
  let v53 : BitVec 1 := Scalar.cmpi .ne v52 c0_i32_25
  let v54 : BitVec 1 := Scalar.andi v51 v53
  let v40 : BitVec 32 := Scalar.divsi v39 c16384_i32_20
  let c1_i32_26 : BitVec 32 := 1#32
  let v55 : BitVec 32 := Scalar.subi v40 c1_i32_26
  let v56 : BitVec 32 := Scalar.select v54 v55 v40
  let c16384_i32_27 : BitVec 32 := 16384#32
  let v57 : BitVec 32 := Scalar.muli v56 c16384_i32_27
  let v60 : BitVec 32 := Scalar.subi v39 v57
  let c0_i32_31 : BitVec 32 := 0#32
  let c1_i32_33 : BitVec 32 := 1#32
  let arg8 : BitVec 32 := Scf.iv c0_i32_31 c1_i32_33 k0_t2
  let c16_i32 : BitVec 32 := 16#32
  let v908 : BitVec 32 := Scalar.muli arg8 c16_i32
  let v909 : BitVec 32 := Scalar.addi v60 v908
  let v910 : Index := Scalar.indexCast v909
  ![v910.toNat]
def k0_off7 (k0_t2 : Fin k0_t2_loop.trips) : Fin 1 → Nat :=
  let c0_i32_31 : BitVec 32 := 0#32
  let c1_i32_33 : BitVec 32 := 1#32
  let arg8 : BitVec 32 := Scf.iv c0_i32_31 c1_i32_33 k0_t2
  let c16_i32_595 : BitVec 32 := 16#32
  let v913 : BitVec 32 := Scalar.muli arg8 c16_i32_595
  let v914 : Index := Scalar.indexCast v913
  ![v914.toNat]
@[reducible] def k0_t3_loop : Scf.Loop 32 :=
  let c0_i32_49 : BitVec 32 := 0#32
  let c1024_i32_50 : BitVec 32 := 1024#32
  let v91 : BitVec 32 := Scalar.addi c0_i32_49 c1024_i32_50
  let c1_i32_51 : BitVec 32 := 1#32
  ⟨c0_i32_49, v91, c1_i32_51⟩
def k0_off8 (v5 : BitVec 32) (k0_t3 : Fin k0_t3_loop.trips) : Fin 1 → Nat :=
  let c32768_i32 : BitVec 32 := 32768#32
  let v65 : BitVec 32 := Scalar.subi c32768_i32 v5
  let c262144_i32_36 : BitVec 32 := 262144#32
  let v66 : BitVec 32 := Scalar.addi v65 c262144_i32_36
  let c262144_i32_37 : BitVec 32 := 262144#32
  let v67 : BitVec 32 := Scalar.remsi v66 c262144_i32_37
  let c0_i32_39 : BitVec 32 := 0#32
  let v69 : BitVec 1 := Scalar.cmpi .sgt v67 c0_i32_39
  let v70 : BitVec 32 := Scalar.extui v69
  let c0_i32_40 : BitVec 32 := 0#32
  let v71 : BitVec 1 := Scalar.cmpi .slt v67 c0_i32_40
  let v72 : BitVec 32 := Scalar.extui v71
  let v73 : BitVec 32 := Scalar.subi v70 v72
  let c16384_i32_38 : BitVec 32 := 16384#32
  let c0_i32_41 : BitVec 32 := 0#32
  let v74 : BitVec 1 := Scalar.cmpi .sgt c16384_i32_38 c0_i32_41
  let v75 : BitVec 32 := Scalar.extui v74
  let c0_i32_42 : BitVec 32 := 0#32
  let v76 : BitVec 1 := Scalar.cmpi .slt c16384_i32_38 c0_i32_42
  let v77 : BitVec 32 := Scalar.extui v76
  let v78 : BitVec 32 := Scalar.subi v75 v77
  let v79 : BitVec 1 := Scalar.cmpi .ne v73 v78
  let v80 : BitVec 32 := Scalar.remsi v67 c16384_i32_38
  let c0_i32_43 : BitVec 32 := 0#32
  let v81 : BitVec 1 := Scalar.cmpi .ne v80 c0_i32_43
  let v82 : BitVec 1 := Scalar.andi v79 v81
  let v68 : BitVec 32 := Scalar.divsi v67 c16384_i32_38
  let c1_i32_44 : BitVec 32 := 1#32
  let v83 : BitVec 32 := Scalar.subi v68 c1_i32_44
  let v84 : BitVec 32 := Scalar.select v82 v83 v68
  let c16384_i32_45 : BitVec 32 := 16384#32
  let v85 : BitVec 32 := Scalar.muli v84 c16384_i32_45
  let v88 : BitVec 32 := Scalar.subi v67 v85
  let c0_i32_49 : BitVec 32 := 0#32
  let c1_i32_51 : BitVec 32 := 1#32
  let arg8 : BitVec 32 := Scf.iv c0_i32_49 c1_i32_51 k0_t3
  let c16_i32 : BitVec 32 := 16#32
  let v908 : BitVec 32 := Scalar.muli arg8 c16_i32
  let v909 : BitVec 32 := Scalar.addi v88 v908
  let v910 : Index := Scalar.indexCast v909
  ![v910.toNat]
def k0_off9 (k0_t3 : Fin k0_t3_loop.trips) : Fin 1 → Nat :=
  let c0_i32_49 : BitVec 32 := 0#32
  let c1_i32_51 : BitVec 32 := 1#32
  let arg8 : BitVec 32 := Scf.iv c0_i32_49 c1_i32_51 k0_t3
  let c16_i32_595 : BitVec 32 := 16#32
  let v913 : BitVec 32 := Scalar.muli arg8 c16_i32_595
  let v914 : Index := Scalar.indexCast v913
  ![v914.toNat]
@[reducible] def k0_t4_loop : Scf.Loop 32 :=
  let c0_i32_67 : BitVec 32 := 0#32
  let c1024_i32_68 : BitVec 32 := 1024#32
  let v119 : BitVec 32 := Scalar.addi c0_i32_67 c1024_i32_68
  let c1_i32_69 : BitVec 32 := 1#32
  ⟨c0_i32_67, v119, c1_i32_69⟩
def k0_off10 (v5 : BitVec 32) (k0_t4 : Fin k0_t4_loop.trips) : Fin 1 → Nat :=
  let c49152_i32 : BitVec 32 := 49152#32
  let v93 : BitVec 32 := Scalar.subi c49152_i32 v5
  let c262144_i32_54 : BitVec 32 := 262144#32
  let v94 : BitVec 32 := Scalar.addi v93 c262144_i32_54
  let c262144_i32_55 : BitVec 32 := 262144#32
  let v95 : BitVec 32 := Scalar.remsi v94 c262144_i32_55
  let c0_i32_57 : BitVec 32 := 0#32
  let v97 : BitVec 1 := Scalar.cmpi .sgt v95 c0_i32_57
  let v98 : BitVec 32 := Scalar.extui v97
  let c0_i32_58 : BitVec 32 := 0#32
  let v99 : BitVec 1 := Scalar.cmpi .slt v95 c0_i32_58
  let v100 : BitVec 32 := Scalar.extui v99
  let v101 : BitVec 32 := Scalar.subi v98 v100
  let c16384_i32_56 : BitVec 32 := 16384#32
  let c0_i32_59 : BitVec 32 := 0#32
  let v102 : BitVec 1 := Scalar.cmpi .sgt c16384_i32_56 c0_i32_59
  let v103 : BitVec 32 := Scalar.extui v102
  let c0_i32_60 : BitVec 32 := 0#32
  let v104 : BitVec 1 := Scalar.cmpi .slt c16384_i32_56 c0_i32_60
  let v105 : BitVec 32 := Scalar.extui v104
  let v106 : BitVec 32 := Scalar.subi v103 v105
  let v107 : BitVec 1 := Scalar.cmpi .ne v101 v106
  let v108 : BitVec 32 := Scalar.remsi v95 c16384_i32_56
  let c0_i32_61 : BitVec 32 := 0#32
  let v109 : BitVec 1 := Scalar.cmpi .ne v108 c0_i32_61
  let v110 : BitVec 1 := Scalar.andi v107 v109
  let v96 : BitVec 32 := Scalar.divsi v95 c16384_i32_56
  let c1_i32_62 : BitVec 32 := 1#32
  let v111 : BitVec 32 := Scalar.subi v96 c1_i32_62
  let v112 : BitVec 32 := Scalar.select v110 v111 v96
  let c16384_i32_63 : BitVec 32 := 16384#32
  let v113 : BitVec 32 := Scalar.muli v112 c16384_i32_63
  let v116 : BitVec 32 := Scalar.subi v95 v113
  let c0_i32_67 : BitVec 32 := 0#32
  let c1_i32_69 : BitVec 32 := 1#32
  let arg8 : BitVec 32 := Scf.iv c0_i32_67 c1_i32_69 k0_t4
  let c16_i32 : BitVec 32 := 16#32
  let v908 : BitVec 32 := Scalar.muli arg8 c16_i32
  let v909 : BitVec 32 := Scalar.addi v116 v908
  let v910 : Index := Scalar.indexCast v909
  ![v910.toNat]
def k0_off11 (k0_t4 : Fin k0_t4_loop.trips) : Fin 1 → Nat :=
  let c0_i32_67 : BitVec 32 := 0#32
  let c1_i32_69 : BitVec 32 := 1#32
  let arg8 : BitVec 32 := Scf.iv c0_i32_67 c1_i32_69 k0_t4
  let c16_i32_595 : BitVec 32 := 16#32
  let v913 : BitVec 32 := Scalar.muli arg8 c16_i32_595
  let v914 : Index := Scalar.indexCast v913
  ![v914.toNat]
@[reducible] def k0_t5_loop : Scf.Loop 32 :=
  let c0_i32_85 : BitVec 32 := 0#32
  let c1024_i32_86 : BitVec 32 := 1024#32
  let v147 : BitVec 32 := Scalar.addi c0_i32_85 c1024_i32_86
  let c1_i32_87 : BitVec 32 := 1#32
  ⟨c0_i32_85, v147, c1_i32_87⟩
def k0_off12 (v5 : BitVec 32) (k0_t5 : Fin k0_t5_loop.trips) : Fin 1 → Nat :=
  let c65536_i32 : BitVec 32 := 65536#32
  let v121 : BitVec 32 := Scalar.subi c65536_i32 v5
  let c262144_i32_72 : BitVec 32 := 262144#32
  let v122 : BitVec 32 := Scalar.addi v121 c262144_i32_72
  let c262144_i32_73 : BitVec 32 := 262144#32
  let v123 : BitVec 32 := Scalar.remsi v122 c262144_i32_73
  let c0_i32_75 : BitVec 32 := 0#32
  let v125 : BitVec 1 := Scalar.cmpi .sgt v123 c0_i32_75
  let v126 : BitVec 32 := Scalar.extui v125
  let c0_i32_76 : BitVec 32 := 0#32
  let v127 : BitVec 1 := Scalar.cmpi .slt v123 c0_i32_76
  let v128 : BitVec 32 := Scalar.extui v127
  let v129 : BitVec 32 := Scalar.subi v126 v128
  let c16384_i32_74 : BitVec 32 := 16384#32
  let c0_i32_77 : BitVec 32 := 0#32
  let v130 : BitVec 1 := Scalar.cmpi .sgt c16384_i32_74 c0_i32_77
  let v131 : BitVec 32 := Scalar.extui v130
  let c0_i32_78 : BitVec 32 := 0#32
  let v132 : BitVec 1 := Scalar.cmpi .slt c16384_i32_74 c0_i32_78
  let v133 : BitVec 32 := Scalar.extui v132
  let v134 : BitVec 32 := Scalar.subi v131 v133
  let v135 : BitVec 1 := Scalar.cmpi .ne v129 v134
  let v136 : BitVec 32 := Scalar.remsi v123 c16384_i32_74
  let c0_i32_79 : BitVec 32 := 0#32
  let v137 : BitVec 1 := Scalar.cmpi .ne v136 c0_i32_79
  let v138 : BitVec 1 := Scalar.andi v135 v137
  let v124 : BitVec 32 := Scalar.divsi v123 c16384_i32_74
  let c1_i32_80 : BitVec 32 := 1#32
  let v139 : BitVec 32 := Scalar.subi v124 c1_i32_80
  let v140 : BitVec 32 := Scalar.select v138 v139 v124
  let c16384_i32_81 : BitVec 32 := 16384#32
  let v141 : BitVec 32 := Scalar.muli v140 c16384_i32_81
  let v144 : BitVec 32 := Scalar.subi v123 v141
  let c0_i32_85 : BitVec 32 := 0#32
  let c1_i32_87 : BitVec 32 := 1#32
  let arg8 : BitVec 32 := Scf.iv c0_i32_85 c1_i32_87 k0_t5
  let c16_i32 : BitVec 32 := 16#32
  let v908 : BitVec 32 := Scalar.muli arg8 c16_i32
  let v909 : BitVec 32 := Scalar.addi v144 v908
  let v910 : Index := Scalar.indexCast v909
  ![v910.toNat]
def k0_off13 (k0_t5 : Fin k0_t5_loop.trips) : Fin 1 → Nat :=
  let c0_i32_85 : BitVec 32 := 0#32
  let c1_i32_87 : BitVec 32 := 1#32
  let arg8 : BitVec 32 := Scf.iv c0_i32_85 c1_i32_87 k0_t5
  let c16_i32_595 : BitVec 32 := 16#32
  let v913 : BitVec 32 := Scalar.muli arg8 c16_i32_595
  let v914 : Index := Scalar.indexCast v913
  ![v914.toNat]
@[reducible] def k0_t6_loop : Scf.Loop 32 :=
  let c0_i32_103 : BitVec 32 := 0#32
  let c1024_i32_104 : BitVec 32 := 1024#32
  let v175 : BitVec 32 := Scalar.addi c0_i32_103 c1024_i32_104
  let c1_i32_105 : BitVec 32 := 1#32
  ⟨c0_i32_103, v175, c1_i32_105⟩
def k0_off14 (v5 : BitVec 32) (k0_t6 : Fin k0_t6_loop.trips) : Fin 1 → Nat :=
  let c81920_i32 : BitVec 32 := 81920#32
  let v149 : BitVec 32 := Scalar.subi c81920_i32 v5
  let c262144_i32_90 : BitVec 32 := 262144#32
  let v150 : BitVec 32 := Scalar.addi v149 c262144_i32_90
  let c262144_i32_91 : BitVec 32 := 262144#32
  let v151 : BitVec 32 := Scalar.remsi v150 c262144_i32_91
  let c0_i32_93 : BitVec 32 := 0#32
  let v153 : BitVec 1 := Scalar.cmpi .sgt v151 c0_i32_93
  let v154 : BitVec 32 := Scalar.extui v153
  let c0_i32_94 : BitVec 32 := 0#32
  let v155 : BitVec 1 := Scalar.cmpi .slt v151 c0_i32_94
  let v156 : BitVec 32 := Scalar.extui v155
  let v157 : BitVec 32 := Scalar.subi v154 v156
  let c16384_i32_92 : BitVec 32 := 16384#32
  let c0_i32_95 : BitVec 32 := 0#32
  let v158 : BitVec 1 := Scalar.cmpi .sgt c16384_i32_92 c0_i32_95
  let v159 : BitVec 32 := Scalar.extui v158
  let c0_i32_96 : BitVec 32 := 0#32
  let v160 : BitVec 1 := Scalar.cmpi .slt c16384_i32_92 c0_i32_96
  let v161 : BitVec 32 := Scalar.extui v160
  let v162 : BitVec 32 := Scalar.subi v159 v161
  let v163 : BitVec 1 := Scalar.cmpi .ne v157 v162
  let v164 : BitVec 32 := Scalar.remsi v151 c16384_i32_92
  let c0_i32_97 : BitVec 32 := 0#32
  let v165 : BitVec 1 := Scalar.cmpi .ne v164 c0_i32_97
  let v166 : BitVec 1 := Scalar.andi v163 v165
  let v152 : BitVec 32 := Scalar.divsi v151 c16384_i32_92
  let c1_i32_98 : BitVec 32 := 1#32
  let v167 : BitVec 32 := Scalar.subi v152 c1_i32_98
  let v168 : BitVec 32 := Scalar.select v166 v167 v152
  let c16384_i32_99 : BitVec 32 := 16384#32
  let v169 : BitVec 32 := Scalar.muli v168 c16384_i32_99
  let v172 : BitVec 32 := Scalar.subi v151 v169
  let c0_i32_103 : BitVec 32 := 0#32
  let c1_i32_105 : BitVec 32 := 1#32
  let arg8 : BitVec 32 := Scf.iv c0_i32_103 c1_i32_105 k0_t6
  let c16_i32 : BitVec 32 := 16#32
  let v908 : BitVec 32 := Scalar.muli arg8 c16_i32
  let v909 : BitVec 32 := Scalar.addi v172 v908
  let v910 : Index := Scalar.indexCast v909
  ![v910.toNat]
def k0_off15 (k0_t6 : Fin k0_t6_loop.trips) : Fin 1 → Nat :=
  let c0_i32_103 : BitVec 32 := 0#32
  let c1_i32_105 : BitVec 32 := 1#32
  let arg8 : BitVec 32 := Scf.iv c0_i32_103 c1_i32_105 k0_t6
  let c16_i32_595 : BitVec 32 := 16#32
  let v913 : BitVec 32 := Scalar.muli arg8 c16_i32_595
  let v914 : Index := Scalar.indexCast v913
  ![v914.toNat]
@[reducible] def k0_t7_loop : Scf.Loop 32 :=
  let c0_i32_121 : BitVec 32 := 0#32
  let c1024_i32_122 : BitVec 32 := 1024#32
  let v203 : BitVec 32 := Scalar.addi c0_i32_121 c1024_i32_122
  let c1_i32_123 : BitVec 32 := 1#32
  ⟨c0_i32_121, v203, c1_i32_123⟩
def k0_off16 (v5 : BitVec 32) (k0_t7 : Fin k0_t7_loop.trips) : Fin 1 → Nat :=
  let c98304_i32 : BitVec 32 := 98304#32
  let v177 : BitVec 32 := Scalar.subi c98304_i32 v5
  let c262144_i32_108 : BitVec 32 := 262144#32
  let v178 : BitVec 32 := Scalar.addi v177 c262144_i32_108
  let c262144_i32_109 : BitVec 32 := 262144#32
  let v179 : BitVec 32 := Scalar.remsi v178 c262144_i32_109
  let c0_i32_111 : BitVec 32 := 0#32
  let v181 : BitVec 1 := Scalar.cmpi .sgt v179 c0_i32_111
  let v182 : BitVec 32 := Scalar.extui v181
  let c0_i32_112 : BitVec 32 := 0#32
  let v183 : BitVec 1 := Scalar.cmpi .slt v179 c0_i32_112
  let v184 : BitVec 32 := Scalar.extui v183
  let v185 : BitVec 32 := Scalar.subi v182 v184
  let c16384_i32_110 : BitVec 32 := 16384#32
  let c0_i32_113 : BitVec 32 := 0#32
  let v186 : BitVec 1 := Scalar.cmpi .sgt c16384_i32_110 c0_i32_113
  let v187 : BitVec 32 := Scalar.extui v186
  let c0_i32_114 : BitVec 32 := 0#32
  let v188 : BitVec 1 := Scalar.cmpi .slt c16384_i32_110 c0_i32_114
  let v189 : BitVec 32 := Scalar.extui v188
  let v190 : BitVec 32 := Scalar.subi v187 v189
  let v191 : BitVec 1 := Scalar.cmpi .ne v185 v190
  let v192 : BitVec 32 := Scalar.remsi v179 c16384_i32_110
  let c0_i32_115 : BitVec 32 := 0#32
  let v193 : BitVec 1 := Scalar.cmpi .ne v192 c0_i32_115
  let v194 : BitVec 1 := Scalar.andi v191 v193
  let v180 : BitVec 32 := Scalar.divsi v179 c16384_i32_110
  let c1_i32_116 : BitVec 32 := 1#32
  let v195 : BitVec 32 := Scalar.subi v180 c1_i32_116
  let v196 : BitVec 32 := Scalar.select v194 v195 v180
  let c16384_i32_117 : BitVec 32 := 16384#32
  let v197 : BitVec 32 := Scalar.muli v196 c16384_i32_117
  let v200 : BitVec 32 := Scalar.subi v179 v197
  let c0_i32_121 : BitVec 32 := 0#32
  let c1_i32_123 : BitVec 32 := 1#32
  let arg8 : BitVec 32 := Scf.iv c0_i32_121 c1_i32_123 k0_t7
  let c16_i32 : BitVec 32 := 16#32
  let v908 : BitVec 32 := Scalar.muli arg8 c16_i32
  let v909 : BitVec 32 := Scalar.addi v200 v908
  let v910 : Index := Scalar.indexCast v909
  ![v910.toNat]
def k0_off17 (k0_t7 : Fin k0_t7_loop.trips) : Fin 1 → Nat :=
  let c0_i32_121 : BitVec 32 := 0#32
  let c1_i32_123 : BitVec 32 := 1#32
  let arg8 : BitVec 32 := Scf.iv c0_i32_121 c1_i32_123 k0_t7
  let c16_i32_595 : BitVec 32 := 16#32
  let v913 : BitVec 32 := Scalar.muli arg8 c16_i32_595
  let v914 : Index := Scalar.indexCast v913
  ![v914.toNat]
@[reducible] def k0_t8_loop : Scf.Loop 32 :=
  let c0_i32_139 : BitVec 32 := 0#32
  let c1024_i32_140 : BitVec 32 := 1024#32
  let v231 : BitVec 32 := Scalar.addi c0_i32_139 c1024_i32_140
  let c1_i32_141 : BitVec 32 := 1#32
  ⟨c0_i32_139, v231, c1_i32_141⟩
def k0_off18 (v5 : BitVec 32) (k0_t8 : Fin k0_t8_loop.trips) : Fin 1 → Nat :=
  let c114688_i32 : BitVec 32 := 114688#32
  let v205 : BitVec 32 := Scalar.subi c114688_i32 v5
  let c262144_i32_126 : BitVec 32 := 262144#32
  let v206 : BitVec 32 := Scalar.addi v205 c262144_i32_126
  let c262144_i32_127 : BitVec 32 := 262144#32
  let v207 : BitVec 32 := Scalar.remsi v206 c262144_i32_127
  let c0_i32_129 : BitVec 32 := 0#32
  let v209 : BitVec 1 := Scalar.cmpi .sgt v207 c0_i32_129
  let v210 : BitVec 32 := Scalar.extui v209
  let c0_i32_130 : BitVec 32 := 0#32
  let v211 : BitVec 1 := Scalar.cmpi .slt v207 c0_i32_130
  let v212 : BitVec 32 := Scalar.extui v211
  let v213 : BitVec 32 := Scalar.subi v210 v212
  let c16384_i32_128 : BitVec 32 := 16384#32
  let c0_i32_131 : BitVec 32 := 0#32
  let v214 : BitVec 1 := Scalar.cmpi .sgt c16384_i32_128 c0_i32_131
  let v215 : BitVec 32 := Scalar.extui v214
  let c0_i32_132 : BitVec 32 := 0#32
  let v216 : BitVec 1 := Scalar.cmpi .slt c16384_i32_128 c0_i32_132
  let v217 : BitVec 32 := Scalar.extui v216
  let v218 : BitVec 32 := Scalar.subi v215 v217
  let v219 : BitVec 1 := Scalar.cmpi .ne v213 v218
  let v220 : BitVec 32 := Scalar.remsi v207 c16384_i32_128
  let c0_i32_133 : BitVec 32 := 0#32
  let v221 : BitVec 1 := Scalar.cmpi .ne v220 c0_i32_133
  let v222 : BitVec 1 := Scalar.andi v219 v221
  let v208 : BitVec 32 := Scalar.divsi v207 c16384_i32_128
  let c1_i32_134 : BitVec 32 := 1#32
  let v223 : BitVec 32 := Scalar.subi v208 c1_i32_134
  let v224 : BitVec 32 := Scalar.select v222 v223 v208
  let c16384_i32_135 : BitVec 32 := 16384#32
  let v225 : BitVec 32 := Scalar.muli v224 c16384_i32_135
  let v228 : BitVec 32 := Scalar.subi v207 v225
  let c0_i32_139 : BitVec 32 := 0#32
  let c1_i32_141 : BitVec 32 := 1#32
  let arg8 : BitVec 32 := Scf.iv c0_i32_139 c1_i32_141 k0_t8
  let c16_i32 : BitVec 32 := 16#32
  let v908 : BitVec 32 := Scalar.muli arg8 c16_i32
  let v909 : BitVec 32 := Scalar.addi v228 v908
  let v910 : Index := Scalar.indexCast v909
  ![v910.toNat]
def k0_off19 (k0_t8 : Fin k0_t8_loop.trips) : Fin 1 → Nat :=
  let c0_i32_139 : BitVec 32 := 0#32
  let c1_i32_141 : BitVec 32 := 1#32
  let arg8 : BitVec 32 := Scf.iv c0_i32_139 c1_i32_141 k0_t8
  let c16_i32_595 : BitVec 32 := 16#32
  let v913 : BitVec 32 := Scalar.muli arg8 c16_i32_595
  let v914 : Index := Scalar.indexCast v913
  ![v914.toNat]
@[reducible] def k0_t9_loop : Scf.Loop 32 :=
  let c0_i32_157 : BitVec 32 := 0#32
  let c1024_i32_158 : BitVec 32 := 1024#32
  let v259 : BitVec 32 := Scalar.addi c0_i32_157 c1024_i32_158
  let c1_i32_159 : BitVec 32 := 1#32
  ⟨c0_i32_157, v259, c1_i32_159⟩
def k0_off20 (v5 : BitVec 32) (k0_t9 : Fin k0_t9_loop.trips) : Fin 1 → Nat :=
  let c131072_i32 : BitVec 32 := 131072#32
  let v233 : BitVec 32 := Scalar.subi c131072_i32 v5
  let c262144_i32_144 : BitVec 32 := 262144#32
  let v234 : BitVec 32 := Scalar.addi v233 c262144_i32_144
  let c262144_i32_145 : BitVec 32 := 262144#32
  let v235 : BitVec 32 := Scalar.remsi v234 c262144_i32_145
  let c0_i32_147 : BitVec 32 := 0#32
  let v237 : BitVec 1 := Scalar.cmpi .sgt v235 c0_i32_147
  let v238 : BitVec 32 := Scalar.extui v237
  let c0_i32_148 : BitVec 32 := 0#32
  let v239 : BitVec 1 := Scalar.cmpi .slt v235 c0_i32_148
  let v240 : BitVec 32 := Scalar.extui v239
  let v241 : BitVec 32 := Scalar.subi v238 v240
  let c16384_i32_146 : BitVec 32 := 16384#32
  let c0_i32_149 : BitVec 32 := 0#32
  let v242 : BitVec 1 := Scalar.cmpi .sgt c16384_i32_146 c0_i32_149
  let v243 : BitVec 32 := Scalar.extui v242
  let c0_i32_150 : BitVec 32 := 0#32
  let v244 : BitVec 1 := Scalar.cmpi .slt c16384_i32_146 c0_i32_150
  let v245 : BitVec 32 := Scalar.extui v244
  let v246 : BitVec 32 := Scalar.subi v243 v245
  let v247 : BitVec 1 := Scalar.cmpi .ne v241 v246
  let v248 : BitVec 32 := Scalar.remsi v235 c16384_i32_146
  let c0_i32_151 : BitVec 32 := 0#32
  let v249 : BitVec 1 := Scalar.cmpi .ne v248 c0_i32_151
  let v250 : BitVec 1 := Scalar.andi v247 v249
  let v236 : BitVec 32 := Scalar.divsi v235 c16384_i32_146
  let c1_i32_152 : BitVec 32 := 1#32
  let v251 : BitVec 32 := Scalar.subi v236 c1_i32_152
  let v252 : BitVec 32 := Scalar.select v250 v251 v236
  let c16384_i32_153 : BitVec 32 := 16384#32
  let v253 : BitVec 32 := Scalar.muli v252 c16384_i32_153
  let v256 : BitVec 32 := Scalar.subi v235 v253
  let c0_i32_157 : BitVec 32 := 0#32
  let c1_i32_159 : BitVec 32 := 1#32
  let arg8 : BitVec 32 := Scf.iv c0_i32_157 c1_i32_159 k0_t9
  let c16_i32 : BitVec 32 := 16#32
  let v908 : BitVec 32 := Scalar.muli arg8 c16_i32
  let v909 : BitVec 32 := Scalar.addi v256 v908
  let v910 : Index := Scalar.indexCast v909
  ![v910.toNat]
def k0_off21 (k0_t9 : Fin k0_t9_loop.trips) : Fin 1 → Nat :=
  let c0_i32_157 : BitVec 32 := 0#32
  let c1_i32_159 : BitVec 32 := 1#32
  let arg8 : BitVec 32 := Scf.iv c0_i32_157 c1_i32_159 k0_t9
  let c16_i32_595 : BitVec 32 := 16#32
  let v913 : BitVec 32 := Scalar.muli arg8 c16_i32_595
  let v914 : Index := Scalar.indexCast v913
  ![v914.toNat]
@[reducible] def k0_t10_loop : Scf.Loop 32 :=
  let c0_i32_175 : BitVec 32 := 0#32
  let c1024_i32_176 : BitVec 32 := 1024#32
  let v287 : BitVec 32 := Scalar.addi c0_i32_175 c1024_i32_176
  let c1_i32_177 : BitVec 32 := 1#32
  ⟨c0_i32_175, v287, c1_i32_177⟩
def k0_off22 (v5 : BitVec 32) (k0_t10 : Fin k0_t10_loop.trips) : Fin 1 → Nat :=
  let c147456_i32 : BitVec 32 := 147456#32
  let v261 : BitVec 32 := Scalar.subi c147456_i32 v5
  let c262144_i32_162 : BitVec 32 := 262144#32
  let v262 : BitVec 32 := Scalar.addi v261 c262144_i32_162
  let c262144_i32_163 : BitVec 32 := 262144#32
  let v263 : BitVec 32 := Scalar.remsi v262 c262144_i32_163
  let c0_i32_165 : BitVec 32 := 0#32
  let v265 : BitVec 1 := Scalar.cmpi .sgt v263 c0_i32_165
  let v266 : BitVec 32 := Scalar.extui v265
  let c0_i32_166 : BitVec 32 := 0#32
  let v267 : BitVec 1 := Scalar.cmpi .slt v263 c0_i32_166
  let v268 : BitVec 32 := Scalar.extui v267
  let v269 : BitVec 32 := Scalar.subi v266 v268
  let c16384_i32_164 : BitVec 32 := 16384#32
  let c0_i32_167 : BitVec 32 := 0#32
  let v270 : BitVec 1 := Scalar.cmpi .sgt c16384_i32_164 c0_i32_167
  let v271 : BitVec 32 := Scalar.extui v270
  let c0_i32_168 : BitVec 32 := 0#32
  let v272 : BitVec 1 := Scalar.cmpi .slt c16384_i32_164 c0_i32_168
  let v273 : BitVec 32 := Scalar.extui v272
  let v274 : BitVec 32 := Scalar.subi v271 v273
  let v275 : BitVec 1 := Scalar.cmpi .ne v269 v274
  let v276 : BitVec 32 := Scalar.remsi v263 c16384_i32_164
  let c0_i32_169 : BitVec 32 := 0#32
  let v277 : BitVec 1 := Scalar.cmpi .ne v276 c0_i32_169
  let v278 : BitVec 1 := Scalar.andi v275 v277
  let v264 : BitVec 32 := Scalar.divsi v263 c16384_i32_164
  let c1_i32_170 : BitVec 32 := 1#32
  let v279 : BitVec 32 := Scalar.subi v264 c1_i32_170
  let v280 : BitVec 32 := Scalar.select v278 v279 v264
  let c16384_i32_171 : BitVec 32 := 16384#32
  let v281 : BitVec 32 := Scalar.muli v280 c16384_i32_171
  let v284 : BitVec 32 := Scalar.subi v263 v281
  let c0_i32_175 : BitVec 32 := 0#32
  let c1_i32_177 : BitVec 32 := 1#32
  let arg8 : BitVec 32 := Scf.iv c0_i32_175 c1_i32_177 k0_t10
  let c16_i32 : BitVec 32 := 16#32
  let v908 : BitVec 32 := Scalar.muli arg8 c16_i32
  let v909 : BitVec 32 := Scalar.addi v284 v908
  let v910 : Index := Scalar.indexCast v909
  ![v910.toNat]
def k0_off23 (k0_t10 : Fin k0_t10_loop.trips) : Fin 1 → Nat :=
  let c0_i32_175 : BitVec 32 := 0#32
  let c1_i32_177 : BitVec 32 := 1#32
  let arg8 : BitVec 32 := Scf.iv c0_i32_175 c1_i32_177 k0_t10
  let c16_i32_595 : BitVec 32 := 16#32
  let v913 : BitVec 32 := Scalar.muli arg8 c16_i32_595
  let v914 : Index := Scalar.indexCast v913
  ![v914.toNat]
@[reducible] def k0_t11_loop : Scf.Loop 32 :=
  let c0_i32_193 : BitVec 32 := 0#32
  let c1024_i32_194 : BitVec 32 := 1024#32
  let v315 : BitVec 32 := Scalar.addi c0_i32_193 c1024_i32_194
  let c1_i32_195 : BitVec 32 := 1#32
  ⟨c0_i32_193, v315, c1_i32_195⟩
def k0_off24 (v5 : BitVec 32) (k0_t11 : Fin k0_t11_loop.trips) : Fin 1 → Nat :=
  let c163840_i32 : BitVec 32 := 163840#32
  let v289 : BitVec 32 := Scalar.subi c163840_i32 v5
  let c262144_i32_180 : BitVec 32 := 262144#32
  let v290 : BitVec 32 := Scalar.addi v289 c262144_i32_180
  let c262144_i32_181 : BitVec 32 := 262144#32
  let v291 : BitVec 32 := Scalar.remsi v290 c262144_i32_181
  let c0_i32_183 : BitVec 32 := 0#32
  let v293 : BitVec 1 := Scalar.cmpi .sgt v291 c0_i32_183
  let v294 : BitVec 32 := Scalar.extui v293
  let c0_i32_184 : BitVec 32 := 0#32
  let v295 : BitVec 1 := Scalar.cmpi .slt v291 c0_i32_184
  let v296 : BitVec 32 := Scalar.extui v295
  let v297 : BitVec 32 := Scalar.subi v294 v296
  let c16384_i32_182 : BitVec 32 := 16384#32
  let c0_i32_185 : BitVec 32 := 0#32
  let v298 : BitVec 1 := Scalar.cmpi .sgt c16384_i32_182 c0_i32_185
  let v299 : BitVec 32 := Scalar.extui v298
  let c0_i32_186 : BitVec 32 := 0#32
  let v300 : BitVec 1 := Scalar.cmpi .slt c16384_i32_182 c0_i32_186
  let v301 : BitVec 32 := Scalar.extui v300
  let v302 : BitVec 32 := Scalar.subi v299 v301
  let v303 : BitVec 1 := Scalar.cmpi .ne v297 v302
  let v304 : BitVec 32 := Scalar.remsi v291 c16384_i32_182
  let c0_i32_187 : BitVec 32 := 0#32
  let v305 : BitVec 1 := Scalar.cmpi .ne v304 c0_i32_187
  let v306 : BitVec 1 := Scalar.andi v303 v305
  let v292 : BitVec 32 := Scalar.divsi v291 c16384_i32_182
  let c1_i32_188 : BitVec 32 := 1#32
  let v307 : BitVec 32 := Scalar.subi v292 c1_i32_188
  let v308 : BitVec 32 := Scalar.select v306 v307 v292
  let c16384_i32_189 : BitVec 32 := 16384#32
  let v309 : BitVec 32 := Scalar.muli v308 c16384_i32_189
  let v312 : BitVec 32 := Scalar.subi v291 v309
  let c0_i32_193 : BitVec 32 := 0#32
  let c1_i32_195 : BitVec 32 := 1#32
  let arg8 : BitVec 32 := Scf.iv c0_i32_193 c1_i32_195 k0_t11
  let c16_i32 : BitVec 32 := 16#32
  let v908 : BitVec 32 := Scalar.muli arg8 c16_i32
  let v909 : BitVec 32 := Scalar.addi v312 v908
  let v910 : Index := Scalar.indexCast v909
  ![v910.toNat]
def k0_off25 (k0_t11 : Fin k0_t11_loop.trips) : Fin 1 → Nat :=
  let c0_i32_193 : BitVec 32 := 0#32
  let c1_i32_195 : BitVec 32 := 1#32
  let arg8 : BitVec 32 := Scf.iv c0_i32_193 c1_i32_195 k0_t11
  let c16_i32_595 : BitVec 32 := 16#32
  let v913 : BitVec 32 := Scalar.muli arg8 c16_i32_595
  let v914 : Index := Scalar.indexCast v913
  ![v914.toNat]
@[reducible] def k0_t12_loop : Scf.Loop 32 :=
  let c0_i32_211 : BitVec 32 := 0#32
  let c1024_i32_212 : BitVec 32 := 1024#32
  let v343 : BitVec 32 := Scalar.addi c0_i32_211 c1024_i32_212
  let c1_i32_213 : BitVec 32 := 1#32
  ⟨c0_i32_211, v343, c1_i32_213⟩
def k0_off26 (v5 : BitVec 32) (k0_t12 : Fin k0_t12_loop.trips) : Fin 1 → Nat :=
  let c180224_i32 : BitVec 32 := 180224#32
  let v317 : BitVec 32 := Scalar.subi c180224_i32 v5
  let c262144_i32_198 : BitVec 32 := 262144#32
  let v318 : BitVec 32 := Scalar.addi v317 c262144_i32_198
  let c262144_i32_199 : BitVec 32 := 262144#32
  let v319 : BitVec 32 := Scalar.remsi v318 c262144_i32_199
  let c0_i32_201 : BitVec 32 := 0#32
  let v321 : BitVec 1 := Scalar.cmpi .sgt v319 c0_i32_201
  let v322 : BitVec 32 := Scalar.extui v321
  let c0_i32_202 : BitVec 32 := 0#32
  let v323 : BitVec 1 := Scalar.cmpi .slt v319 c0_i32_202
  let v324 : BitVec 32 := Scalar.extui v323
  let v325 : BitVec 32 := Scalar.subi v322 v324
  let c16384_i32_200 : BitVec 32 := 16384#32
  let c0_i32_203 : BitVec 32 := 0#32
  let v326 : BitVec 1 := Scalar.cmpi .sgt c16384_i32_200 c0_i32_203
  let v327 : BitVec 32 := Scalar.extui v326
  let c0_i32_204 : BitVec 32 := 0#32
  let v328 : BitVec 1 := Scalar.cmpi .slt c16384_i32_200 c0_i32_204
  let v329 : BitVec 32 := Scalar.extui v328
  let v330 : BitVec 32 := Scalar.subi v327 v329
  let v331 : BitVec 1 := Scalar.cmpi .ne v325 v330
  let v332 : BitVec 32 := Scalar.remsi v319 c16384_i32_200
  let c0_i32_205 : BitVec 32 := 0#32
  let v333 : BitVec 1 := Scalar.cmpi .ne v332 c0_i32_205
  let v334 : BitVec 1 := Scalar.andi v331 v333
  let v320 : BitVec 32 := Scalar.divsi v319 c16384_i32_200
  let c1_i32_206 : BitVec 32 := 1#32
  let v335 : BitVec 32 := Scalar.subi v320 c1_i32_206
  let v336 : BitVec 32 := Scalar.select v334 v335 v320
  let c16384_i32_207 : BitVec 32 := 16384#32
  let v337 : BitVec 32 := Scalar.muli v336 c16384_i32_207
  let v340 : BitVec 32 := Scalar.subi v319 v337
  let c0_i32_211 : BitVec 32 := 0#32
  let c1_i32_213 : BitVec 32 := 1#32
  let arg8 : BitVec 32 := Scf.iv c0_i32_211 c1_i32_213 k0_t12
  let c16_i32 : BitVec 32 := 16#32
  let v908 : BitVec 32 := Scalar.muli arg8 c16_i32
  let v909 : BitVec 32 := Scalar.addi v340 v908
  let v910 : Index := Scalar.indexCast v909
  ![v910.toNat]
def k0_off27 (k0_t12 : Fin k0_t12_loop.trips) : Fin 1 → Nat :=
  let c0_i32_211 : BitVec 32 := 0#32
  let c1_i32_213 : BitVec 32 := 1#32
  let arg8 : BitVec 32 := Scf.iv c0_i32_211 c1_i32_213 k0_t12
  let c16_i32_595 : BitVec 32 := 16#32
  let v913 : BitVec 32 := Scalar.muli arg8 c16_i32_595
  let v914 : Index := Scalar.indexCast v913
  ![v914.toNat]
@[reducible] def k0_t13_loop : Scf.Loop 32 :=
  let c0_i32_229 : BitVec 32 := 0#32
  let c1024_i32_230 : BitVec 32 := 1024#32
  let v371 : BitVec 32 := Scalar.addi c0_i32_229 c1024_i32_230
  let c1_i32_231 : BitVec 32 := 1#32
  ⟨c0_i32_229, v371, c1_i32_231⟩
def k0_off28 (v5 : BitVec 32) (k0_t13 : Fin k0_t13_loop.trips) : Fin 1 → Nat :=
  let c196608_i32 : BitVec 32 := 196608#32
  let v345 : BitVec 32 := Scalar.subi c196608_i32 v5
  let c262144_i32_216 : BitVec 32 := 262144#32
  let v346 : BitVec 32 := Scalar.addi v345 c262144_i32_216
  let c262144_i32_217 : BitVec 32 := 262144#32
  let v347 : BitVec 32 := Scalar.remsi v346 c262144_i32_217
  let c0_i32_219 : BitVec 32 := 0#32
  let v349 : BitVec 1 := Scalar.cmpi .sgt v347 c0_i32_219
  let v350 : BitVec 32 := Scalar.extui v349
  let c0_i32_220 : BitVec 32 := 0#32
  let v351 : BitVec 1 := Scalar.cmpi .slt v347 c0_i32_220
  let v352 : BitVec 32 := Scalar.extui v351
  let v353 : BitVec 32 := Scalar.subi v350 v352
  let c16384_i32_218 : BitVec 32 := 16384#32
  let c0_i32_221 : BitVec 32 := 0#32
  let v354 : BitVec 1 := Scalar.cmpi .sgt c16384_i32_218 c0_i32_221
  let v355 : BitVec 32 := Scalar.extui v354
  let c0_i32_222 : BitVec 32 := 0#32
  let v356 : BitVec 1 := Scalar.cmpi .slt c16384_i32_218 c0_i32_222
  let v357 : BitVec 32 := Scalar.extui v356
  let v358 : BitVec 32 := Scalar.subi v355 v357
  let v359 : BitVec 1 := Scalar.cmpi .ne v353 v358
  let v360 : BitVec 32 := Scalar.remsi v347 c16384_i32_218
  let c0_i32_223 : BitVec 32 := 0#32
  let v361 : BitVec 1 := Scalar.cmpi .ne v360 c0_i32_223
  let v362 : BitVec 1 := Scalar.andi v359 v361
  let v348 : BitVec 32 := Scalar.divsi v347 c16384_i32_218
  let c1_i32_224 : BitVec 32 := 1#32
  let v363 : BitVec 32 := Scalar.subi v348 c1_i32_224
  let v364 : BitVec 32 := Scalar.select v362 v363 v348
  let c16384_i32_225 : BitVec 32 := 16384#32
  let v365 : BitVec 32 := Scalar.muli v364 c16384_i32_225
  let v368 : BitVec 32 := Scalar.subi v347 v365
  let c0_i32_229 : BitVec 32 := 0#32
  let c1_i32_231 : BitVec 32 := 1#32
  let arg8 : BitVec 32 := Scf.iv c0_i32_229 c1_i32_231 k0_t13
  let c16_i32 : BitVec 32 := 16#32
  let v908 : BitVec 32 := Scalar.muli arg8 c16_i32
  let v909 : BitVec 32 := Scalar.addi v368 v908
  let v910 : Index := Scalar.indexCast v909
  ![v910.toNat]
def k0_off29 (k0_t13 : Fin k0_t13_loop.trips) : Fin 1 → Nat :=
  let c0_i32_229 : BitVec 32 := 0#32
  let c1_i32_231 : BitVec 32 := 1#32
  let arg8 : BitVec 32 := Scf.iv c0_i32_229 c1_i32_231 k0_t13
  let c16_i32_595 : BitVec 32 := 16#32
  let v913 : BitVec 32 := Scalar.muli arg8 c16_i32_595
  let v914 : Index := Scalar.indexCast v913
  ![v914.toNat]
@[reducible] def k0_t14_loop : Scf.Loop 32 :=
  let c0_i32_247 : BitVec 32 := 0#32
  let c1024_i32_248 : BitVec 32 := 1024#32
  let v399 : BitVec 32 := Scalar.addi c0_i32_247 c1024_i32_248
  let c1_i32_249 : BitVec 32 := 1#32
  ⟨c0_i32_247, v399, c1_i32_249⟩
def k0_off30 (v5 : BitVec 32) (k0_t14 : Fin k0_t14_loop.trips) : Fin 1 → Nat :=
  let c212992_i32 : BitVec 32 := 212992#32
  let v373 : BitVec 32 := Scalar.subi c212992_i32 v5
  let c262144_i32_234 : BitVec 32 := 262144#32
  let v374 : BitVec 32 := Scalar.addi v373 c262144_i32_234
  let c262144_i32_235 : BitVec 32 := 262144#32
  let v375 : BitVec 32 := Scalar.remsi v374 c262144_i32_235
  let c0_i32_237 : BitVec 32 := 0#32
  let v377 : BitVec 1 := Scalar.cmpi .sgt v375 c0_i32_237
  let v378 : BitVec 32 := Scalar.extui v377
  let c0_i32_238 : BitVec 32 := 0#32
  let v379 : BitVec 1 := Scalar.cmpi .slt v375 c0_i32_238
  let v380 : BitVec 32 := Scalar.extui v379
  let v381 : BitVec 32 := Scalar.subi v378 v380
  let c16384_i32_236 : BitVec 32 := 16384#32
  let c0_i32_239 : BitVec 32 := 0#32
  let v382 : BitVec 1 := Scalar.cmpi .sgt c16384_i32_236 c0_i32_239
  let v383 : BitVec 32 := Scalar.extui v382
  let c0_i32_240 : BitVec 32 := 0#32
  let v384 : BitVec 1 := Scalar.cmpi .slt c16384_i32_236 c0_i32_240
  let v385 : BitVec 32 := Scalar.extui v384
  let v386 : BitVec 32 := Scalar.subi v383 v385
  let v387 : BitVec 1 := Scalar.cmpi .ne v381 v386
  let v388 : BitVec 32 := Scalar.remsi v375 c16384_i32_236
  let c0_i32_241 : BitVec 32 := 0#32
  let v389 : BitVec 1 := Scalar.cmpi .ne v388 c0_i32_241
  let v390 : BitVec 1 := Scalar.andi v387 v389
  let v376 : BitVec 32 := Scalar.divsi v375 c16384_i32_236
  let c1_i32_242 : BitVec 32 := 1#32
  let v391 : BitVec 32 := Scalar.subi v376 c1_i32_242
  let v392 : BitVec 32 := Scalar.select v390 v391 v376
  let c16384_i32_243 : BitVec 32 := 16384#32
  let v393 : BitVec 32 := Scalar.muli v392 c16384_i32_243
  let v396 : BitVec 32 := Scalar.subi v375 v393
  let c0_i32_247 : BitVec 32 := 0#32
  let c1_i32_249 : BitVec 32 := 1#32
  let arg8 : BitVec 32 := Scf.iv c0_i32_247 c1_i32_249 k0_t14
  let c16_i32 : BitVec 32 := 16#32
  let v908 : BitVec 32 := Scalar.muli arg8 c16_i32
  let v909 : BitVec 32 := Scalar.addi v396 v908
  let v910 : Index := Scalar.indexCast v909
  ![v910.toNat]
def k0_off31 (k0_t14 : Fin k0_t14_loop.trips) : Fin 1 → Nat :=
  let c0_i32_247 : BitVec 32 := 0#32
  let c1_i32_249 : BitVec 32 := 1#32
  let arg8 : BitVec 32 := Scf.iv c0_i32_247 c1_i32_249 k0_t14
  let c16_i32_595 : BitVec 32 := 16#32
  let v913 : BitVec 32 := Scalar.muli arg8 c16_i32_595
  let v914 : Index := Scalar.indexCast v913
  ![v914.toNat]
@[reducible] def k0_t15_loop : Scf.Loop 32 :=
  let c0_i32_265 : BitVec 32 := 0#32
  let c1024_i32_266 : BitVec 32 := 1024#32
  let v427 : BitVec 32 := Scalar.addi c0_i32_265 c1024_i32_266
  let c1_i32_267 : BitVec 32 := 1#32
  ⟨c0_i32_265, v427, c1_i32_267⟩
def k0_off32 (v5 : BitVec 32) (k0_t15 : Fin k0_t15_loop.trips) : Fin 1 → Nat :=
  let c229376_i32 : BitVec 32 := 229376#32
  let v401 : BitVec 32 := Scalar.subi c229376_i32 v5
  let c262144_i32_252 : BitVec 32 := 262144#32
  let v402 : BitVec 32 := Scalar.addi v401 c262144_i32_252
  let c262144_i32_253 : BitVec 32 := 262144#32
  let v403 : BitVec 32 := Scalar.remsi v402 c262144_i32_253
  let c0_i32_255 : BitVec 32 := 0#32
  let v405 : BitVec 1 := Scalar.cmpi .sgt v403 c0_i32_255
  let v406 : BitVec 32 := Scalar.extui v405
  let c0_i32_256 : BitVec 32 := 0#32
  let v407 : BitVec 1 := Scalar.cmpi .slt v403 c0_i32_256
  let v408 : BitVec 32 := Scalar.extui v407
  let v409 : BitVec 32 := Scalar.subi v406 v408
  let c16384_i32_254 : BitVec 32 := 16384#32
  let c0_i32_257 : BitVec 32 := 0#32
  let v410 : BitVec 1 := Scalar.cmpi .sgt c16384_i32_254 c0_i32_257
  let v411 : BitVec 32 := Scalar.extui v410
  let c0_i32_258 : BitVec 32 := 0#32
  let v412 : BitVec 1 := Scalar.cmpi .slt c16384_i32_254 c0_i32_258
  let v413 : BitVec 32 := Scalar.extui v412
  let v414 : BitVec 32 := Scalar.subi v411 v413
  let v415 : BitVec 1 := Scalar.cmpi .ne v409 v414
  let v416 : BitVec 32 := Scalar.remsi v403 c16384_i32_254
  let c0_i32_259 : BitVec 32 := 0#32
  let v417 : BitVec 1 := Scalar.cmpi .ne v416 c0_i32_259
  let v418 : BitVec 1 := Scalar.andi v415 v417
  let v404 : BitVec 32 := Scalar.divsi v403 c16384_i32_254
  let c1_i32_260 : BitVec 32 := 1#32
  let v419 : BitVec 32 := Scalar.subi v404 c1_i32_260
  let v420 : BitVec 32 := Scalar.select v418 v419 v404
  let c16384_i32_261 : BitVec 32 := 16384#32
  let v421 : BitVec 32 := Scalar.muli v420 c16384_i32_261
  let v424 : BitVec 32 := Scalar.subi v403 v421
  let c0_i32_265 : BitVec 32 := 0#32
  let c1_i32_267 : BitVec 32 := 1#32
  let arg8 : BitVec 32 := Scf.iv c0_i32_265 c1_i32_267 k0_t15
  let c16_i32 : BitVec 32 := 16#32
  let v908 : BitVec 32 := Scalar.muli arg8 c16_i32
  let v909 : BitVec 32 := Scalar.addi v424 v908
  let v910 : Index := Scalar.indexCast v909
  ![v910.toNat]
def k0_off33 (k0_t15 : Fin k0_t15_loop.trips) : Fin 1 → Nat :=
  let c0_i32_265 : BitVec 32 := 0#32
  let c1_i32_267 : BitVec 32 := 1#32
  let arg8 : BitVec 32 := Scf.iv c0_i32_265 c1_i32_267 k0_t15
  let c16_i32_595 : BitVec 32 := 16#32
  let v913 : BitVec 32 := Scalar.muli arg8 c16_i32_595
  let v914 : Index := Scalar.indexCast v913
  ![v914.toNat]
@[reducible] def k0_t16_loop : Scf.Loop 32 :=
  let c0_i32_283 : BitVec 32 := 0#32
  let c1024_i32_284 : BitVec 32 := 1024#32
  let v455 : BitVec 32 := Scalar.addi c0_i32_283 c1024_i32_284
  let c1_i32_285 : BitVec 32 := 1#32
  ⟨c0_i32_283, v455, c1_i32_285⟩
def k0_off34 (v5 : BitVec 32) (k0_t16 : Fin k0_t16_loop.trips) : Fin 1 → Nat :=
  let c245760_i32 : BitVec 32 := 245760#32
  let v429 : BitVec 32 := Scalar.subi c245760_i32 v5
  let c262144_i32_270 : BitVec 32 := 262144#32
  let v430 : BitVec 32 := Scalar.addi v429 c262144_i32_270
  let c262144_i32_271 : BitVec 32 := 262144#32
  let v431 : BitVec 32 := Scalar.remsi v430 c262144_i32_271
  let c0_i32_273 : BitVec 32 := 0#32
  let v433 : BitVec 1 := Scalar.cmpi .sgt v431 c0_i32_273
  let v434 : BitVec 32 := Scalar.extui v433
  let c0_i32_274 : BitVec 32 := 0#32
  let v435 : BitVec 1 := Scalar.cmpi .slt v431 c0_i32_274
  let v436 : BitVec 32 := Scalar.extui v435
  let v437 : BitVec 32 := Scalar.subi v434 v436
  let c16384_i32_272 : BitVec 32 := 16384#32
  let c0_i32_275 : BitVec 32 := 0#32
  let v438 : BitVec 1 := Scalar.cmpi .sgt c16384_i32_272 c0_i32_275
  let v439 : BitVec 32 := Scalar.extui v438
  let c0_i32_276 : BitVec 32 := 0#32
  let v440 : BitVec 1 := Scalar.cmpi .slt c16384_i32_272 c0_i32_276
  let v441 : BitVec 32 := Scalar.extui v440
  let v442 : BitVec 32 := Scalar.subi v439 v441
  let v443 : BitVec 1 := Scalar.cmpi .ne v437 v442
  let v444 : BitVec 32 := Scalar.remsi v431 c16384_i32_272
  let c0_i32_277 : BitVec 32 := 0#32
  let v445 : BitVec 1 := Scalar.cmpi .ne v444 c0_i32_277
  let v446 : BitVec 1 := Scalar.andi v443 v445
  let v432 : BitVec 32 := Scalar.divsi v431 c16384_i32_272
  let c1_i32_278 : BitVec 32 := 1#32
  let v447 : BitVec 32 := Scalar.subi v432 c1_i32_278
  let v448 : BitVec 32 := Scalar.select v446 v447 v432
  let c16384_i32_279 : BitVec 32 := 16384#32
  let v449 : BitVec 32 := Scalar.muli v448 c16384_i32_279
  let v452 : BitVec 32 := Scalar.subi v431 v449
  let c0_i32_283 : BitVec 32 := 0#32
  let c1_i32_285 : BitVec 32 := 1#32
  let arg8 : BitVec 32 := Scf.iv c0_i32_283 c1_i32_285 k0_t16
  let c16_i32 : BitVec 32 := 16#32
  let v908 : BitVec 32 := Scalar.muli arg8 c16_i32
  let v909 : BitVec 32 := Scalar.addi v452 v908
  let v910 : Index := Scalar.indexCast v909
  ![v910.toNat]
def k0_off35 (k0_t16 : Fin k0_t16_loop.trips) : Fin 1 → Nat :=
  let c0_i32_283 : BitVec 32 := 0#32
  let c1_i32_285 : BitVec 32 := 1#32
  let arg8 : BitVec 32 := Scf.iv c0_i32_283 c1_i32_285 k0_t16
  let c16_i32_595 : BitVec 32 := 16#32
  let v913 : BitVec 32 := Scalar.muli arg8 c16_i32_595
  let v914 : Index := Scalar.indexCast v913
  ![v914.toNat]
@[reducible] def k0_t17_loop : Scf.Loop 32 :=
  let c0_i32_305 : BitVec 32 := 0#32
  let c1024_i32_306 : BitVec 32 := 1024#32
  let v486 : BitVec 32 := Scalar.addi c0_i32_305 c1024_i32_306
  let c1_i32_307 : BitVec 32 := 1#32
  ⟨c0_i32_305, v486, c1_i32_307⟩
def k0_off36 (v5 : BitVec 32) (k0_t17 : Fin k0_t17_loop.trips) : Fin 1 → Nat :=
  let c0_i32_291 : BitVec 32 := 0#32
  let v460 : BitVec 32 := Scalar.subi c0_i32_291 v5
  let c262144_i32_292 : BitVec 32 := 262144#32
  let v461 : BitVec 32 := Scalar.addi v460 c262144_i32_292
  let c262144_i32_293 : BitVec 32 := 262144#32
  let v462 : BitVec 32 := Scalar.remsi v461 c262144_i32_293
  let c0_i32_295 : BitVec 32 := 0#32
  let v464 : BitVec 1 := Scalar.cmpi .sgt v462 c0_i32_295
  let v465 : BitVec 32 := Scalar.extui v464
  let c0_i32_296 : BitVec 32 := 0#32
  let v466 : BitVec 1 := Scalar.cmpi .slt v462 c0_i32_296
  let v467 : BitVec 32 := Scalar.extui v466
  let v468 : BitVec 32 := Scalar.subi v465 v467
  let c16384_i32_294 : BitVec 32 := 16384#32
  let c0_i32_297 : BitVec 32 := 0#32
  let v469 : BitVec 1 := Scalar.cmpi .sgt c16384_i32_294 c0_i32_297
  let v470 : BitVec 32 := Scalar.extui v469
  let c0_i32_298 : BitVec 32 := 0#32
  let v471 : BitVec 1 := Scalar.cmpi .slt c16384_i32_294 c0_i32_298
  let v472 : BitVec 32 := Scalar.extui v471
  let v473 : BitVec 32 := Scalar.subi v470 v472
  let v474 : BitVec 1 := Scalar.cmpi .ne v468 v473
  let v475 : BitVec 32 := Scalar.remsi v462 c16384_i32_294
  let c0_i32_299 : BitVec 32 := 0#32
  let v476 : BitVec 1 := Scalar.cmpi .ne v475 c0_i32_299
  let v477 : BitVec 1 := Scalar.andi v474 v476
  let v463 : BitVec 32 := Scalar.divsi v462 c16384_i32_294
  let c1_i32_300 : BitVec 32 := 1#32
  let v478 : BitVec 32 := Scalar.subi v463 c1_i32_300
  let v479 : BitVec 32 := Scalar.select v477 v478 v463
  let c16384_i32_301 : BitVec 32 := 16384#32
  let v480 : BitVec 32 := Scalar.muli v479 c16384_i32_301
  let v483 : BitVec 32 := Scalar.subi v462 v480
  let c0_i32_305 : BitVec 32 := 0#32
  let c1_i32_307 : BitVec 32 := 1#32
  let arg8 : BitVec 32 := Scf.iv c0_i32_305 c1_i32_307 k0_t17
  let c16_i32 : BitVec 32 := 16#32
  let v908 : BitVec 32 := Scalar.muli arg8 c16_i32
  let v909 : BitVec 32 := Scalar.addi v483 v908
  let v910 : Index := Scalar.indexCast v909
  ![v910.toNat]
def k0_off37 (k0_t17 : Fin k0_t17_loop.trips) : Fin 1 → Nat :=
  let c0_i32_305 : BitVec 32 := 0#32
  let c1_i32_307 : BitVec 32 := 1#32
  let arg8 : BitVec 32 := Scf.iv c0_i32_305 c1_i32_307 k0_t17
  let c16_i32_595 : BitVec 32 := 16#32
  let v913 : BitVec 32 := Scalar.muli arg8 c16_i32_595
  let v914 : Index := Scalar.indexCast v913
  ![v914.toNat]
@[reducible] def k0_t18_loop : Scf.Loop 32 :=
  let c0_i32_324 : BitVec 32 := 0#32
  let c1024_i32_325 : BitVec 32 := 1024#32
  let v514 : BitVec 32 := Scalar.addi c0_i32_324 c1024_i32_325
  let c1_i32_326 : BitVec 32 := 1#32
  ⟨c0_i32_324, v514, c1_i32_326⟩
def k0_off38 (v5 : BitVec 32) (k0_t18 : Fin k0_t18_loop.trips) : Fin 1 → Nat :=
  let c16384_i32_310 : BitVec 32 := 16384#32
  let v488 : BitVec 32 := Scalar.subi c16384_i32_310 v5
  let c262144_i32_311 : BitVec 32 := 262144#32
  let v489 : BitVec 32 := Scalar.addi v488 c262144_i32_311
  let c262144_i32_312 : BitVec 32 := 262144#32
  let v490 : BitVec 32 := Scalar.remsi v489 c262144_i32_312
  let c0_i32_314 : BitVec 32 := 0#32
  let v492 : BitVec 1 := Scalar.cmpi .sgt v490 c0_i32_314
  let v493 : BitVec 32 := Scalar.extui v492
  let c0_i32_315 : BitVec 32 := 0#32
  let v494 : BitVec 1 := Scalar.cmpi .slt v490 c0_i32_315
  let v495 : BitVec 32 := Scalar.extui v494
  let v496 : BitVec 32 := Scalar.subi v493 v495
  let c16384_i32_313 : BitVec 32 := 16384#32
  let c0_i32_316 : BitVec 32 := 0#32
  let v497 : BitVec 1 := Scalar.cmpi .sgt c16384_i32_313 c0_i32_316
  let v498 : BitVec 32 := Scalar.extui v497
  let c0_i32_317 : BitVec 32 := 0#32
  let v499 : BitVec 1 := Scalar.cmpi .slt c16384_i32_313 c0_i32_317
  let v500 : BitVec 32 := Scalar.extui v499
  let v501 : BitVec 32 := Scalar.subi v498 v500
  let v502 : BitVec 1 := Scalar.cmpi .ne v496 v501
  let v503 : BitVec 32 := Scalar.remsi v490 c16384_i32_313
  let c0_i32_318 : BitVec 32 := 0#32
  let v504 : BitVec 1 := Scalar.cmpi .ne v503 c0_i32_318
  let v505 : BitVec 1 := Scalar.andi v502 v504
  let v491 : BitVec 32 := Scalar.divsi v490 c16384_i32_313
  let c1_i32_319 : BitVec 32 := 1#32
  let v506 : BitVec 32 := Scalar.subi v491 c1_i32_319
  let v507 : BitVec 32 := Scalar.select v505 v506 v491
  let c16384_i32_320 : BitVec 32 := 16384#32
  let v508 : BitVec 32 := Scalar.muli v507 c16384_i32_320
  let v511 : BitVec 32 := Scalar.subi v490 v508
  let c0_i32_324 : BitVec 32 := 0#32
  let c1_i32_326 : BitVec 32 := 1#32
  let arg8 : BitVec 32 := Scf.iv c0_i32_324 c1_i32_326 k0_t18
  let c16_i32 : BitVec 32 := 16#32
  let v908 : BitVec 32 := Scalar.muli arg8 c16_i32
  let v909 : BitVec 32 := Scalar.addi v511 v908
  let v910 : Index := Scalar.indexCast v909
  ![v910.toNat]
def k0_off39 (k0_t18 : Fin k0_t18_loop.trips) : Fin 1 → Nat :=
  let c0_i32_324 : BitVec 32 := 0#32
  let c1_i32_326 : BitVec 32 := 1#32
  let arg8 : BitVec 32 := Scf.iv c0_i32_324 c1_i32_326 k0_t18
  let c16_i32_595 : BitVec 32 := 16#32
  let v913 : BitVec 32 := Scalar.muli arg8 c16_i32_595
  let v914 : Index := Scalar.indexCast v913
  ![v914.toNat]
@[reducible] def k0_t19_loop : Scf.Loop 32 :=
  let c0_i32_343 : BitVec 32 := 0#32
  let c1024_i32_344 : BitVec 32 := 1024#32
  let v542 : BitVec 32 := Scalar.addi c0_i32_343 c1024_i32_344
  let c1_i32_345 : BitVec 32 := 1#32
  ⟨c0_i32_343, v542, c1_i32_345⟩
def k0_off40 (v5 : BitVec 32) (k0_t19 : Fin k0_t19_loop.trips) : Fin 1 → Nat :=
  let c32768_i32_329 : BitVec 32 := 32768#32
  let v516 : BitVec 32 := Scalar.subi c32768_i32_329 v5
  let c262144_i32_330 : BitVec 32 := 262144#32
  let v517 : BitVec 32 := Scalar.addi v516 c262144_i32_330
  let c262144_i32_331 : BitVec 32 := 262144#32
  let v518 : BitVec 32 := Scalar.remsi v517 c262144_i32_331
  let c0_i32_333 : BitVec 32 := 0#32
  let v520 : BitVec 1 := Scalar.cmpi .sgt v518 c0_i32_333
  let v521 : BitVec 32 := Scalar.extui v520
  let c0_i32_334 : BitVec 32 := 0#32
  let v522 : BitVec 1 := Scalar.cmpi .slt v518 c0_i32_334
  let v523 : BitVec 32 := Scalar.extui v522
  let v524 : BitVec 32 := Scalar.subi v521 v523
  let c16384_i32_332 : BitVec 32 := 16384#32
  let c0_i32_335 : BitVec 32 := 0#32
  let v525 : BitVec 1 := Scalar.cmpi .sgt c16384_i32_332 c0_i32_335
  let v526 : BitVec 32 := Scalar.extui v525
  let c0_i32_336 : BitVec 32 := 0#32
  let v527 : BitVec 1 := Scalar.cmpi .slt c16384_i32_332 c0_i32_336
  let v528 : BitVec 32 := Scalar.extui v527
  let v529 : BitVec 32 := Scalar.subi v526 v528
  let v530 : BitVec 1 := Scalar.cmpi .ne v524 v529
  let v531 : BitVec 32 := Scalar.remsi v518 c16384_i32_332
  let c0_i32_337 : BitVec 32 := 0#32
  let v532 : BitVec 1 := Scalar.cmpi .ne v531 c0_i32_337
  let v533 : BitVec 1 := Scalar.andi v530 v532
  let v519 : BitVec 32 := Scalar.divsi v518 c16384_i32_332
  let c1_i32_338 : BitVec 32 := 1#32
  let v534 : BitVec 32 := Scalar.subi v519 c1_i32_338
  let v535 : BitVec 32 := Scalar.select v533 v534 v519
  let c16384_i32_339 : BitVec 32 := 16384#32
  let v536 : BitVec 32 := Scalar.muli v535 c16384_i32_339
  let v539 : BitVec 32 := Scalar.subi v518 v536
  let c0_i32_343 : BitVec 32 := 0#32
  let c1_i32_345 : BitVec 32 := 1#32
  let arg8 : BitVec 32 := Scf.iv c0_i32_343 c1_i32_345 k0_t19
  let c16_i32 : BitVec 32 := 16#32
  let v908 : BitVec 32 := Scalar.muli arg8 c16_i32
  let v909 : BitVec 32 := Scalar.addi v539 v908
  let v910 : Index := Scalar.indexCast v909
  ![v910.toNat]
def k0_off41 (k0_t19 : Fin k0_t19_loop.trips) : Fin 1 → Nat :=
  let c0_i32_343 : BitVec 32 := 0#32
  let c1_i32_345 : BitVec 32 := 1#32
  let arg8 : BitVec 32 := Scf.iv c0_i32_343 c1_i32_345 k0_t19
  let c16_i32_595 : BitVec 32 := 16#32
  let v913 : BitVec 32 := Scalar.muli arg8 c16_i32_595
  let v914 : Index := Scalar.indexCast v913
  ![v914.toNat]
@[reducible] def k0_t20_loop : Scf.Loop 32 :=
  let c0_i32_362 : BitVec 32 := 0#32
  let c1024_i32_363 : BitVec 32 := 1024#32
  let v570 : BitVec 32 := Scalar.addi c0_i32_362 c1024_i32_363
  let c1_i32_364 : BitVec 32 := 1#32
  ⟨c0_i32_362, v570, c1_i32_364⟩
def k0_off42 (v5 : BitVec 32) (k0_t20 : Fin k0_t20_loop.trips) : Fin 1 → Nat :=
  let c49152_i32_348 : BitVec 32 := 49152#32
  let v544 : BitVec 32 := Scalar.subi c49152_i32_348 v5
  let c262144_i32_349 : BitVec 32 := 262144#32
  let v545 : BitVec 32 := Scalar.addi v544 c262144_i32_349
  let c262144_i32_350 : BitVec 32 := 262144#32
  let v546 : BitVec 32 := Scalar.remsi v545 c262144_i32_350
  let c0_i32_352 : BitVec 32 := 0#32
  let v548 : BitVec 1 := Scalar.cmpi .sgt v546 c0_i32_352
  let v549 : BitVec 32 := Scalar.extui v548
  let c0_i32_353 : BitVec 32 := 0#32
  let v550 : BitVec 1 := Scalar.cmpi .slt v546 c0_i32_353
  let v551 : BitVec 32 := Scalar.extui v550
  let v552 : BitVec 32 := Scalar.subi v549 v551
  let c16384_i32_351 : BitVec 32 := 16384#32
  let c0_i32_354 : BitVec 32 := 0#32
  let v553 : BitVec 1 := Scalar.cmpi .sgt c16384_i32_351 c0_i32_354
  let v554 : BitVec 32 := Scalar.extui v553
  let c0_i32_355 : BitVec 32 := 0#32
  let v555 : BitVec 1 := Scalar.cmpi .slt c16384_i32_351 c0_i32_355
  let v556 : BitVec 32 := Scalar.extui v555
  let v557 : BitVec 32 := Scalar.subi v554 v556
  let v558 : BitVec 1 := Scalar.cmpi .ne v552 v557
  let v559 : BitVec 32 := Scalar.remsi v546 c16384_i32_351
  let c0_i32_356 : BitVec 32 := 0#32
  let v560 : BitVec 1 := Scalar.cmpi .ne v559 c0_i32_356
  let v561 : BitVec 1 := Scalar.andi v558 v560
  let v547 : BitVec 32 := Scalar.divsi v546 c16384_i32_351
  let c1_i32_357 : BitVec 32 := 1#32
  let v562 : BitVec 32 := Scalar.subi v547 c1_i32_357
  let v563 : BitVec 32 := Scalar.select v561 v562 v547
  let c16384_i32_358 : BitVec 32 := 16384#32
  let v564 : BitVec 32 := Scalar.muli v563 c16384_i32_358
  let v567 : BitVec 32 := Scalar.subi v546 v564
  let c0_i32_362 : BitVec 32 := 0#32
  let c1_i32_364 : BitVec 32 := 1#32
  let arg8 : BitVec 32 := Scf.iv c0_i32_362 c1_i32_364 k0_t20
  let c16_i32 : BitVec 32 := 16#32
  let v908 : BitVec 32 := Scalar.muli arg8 c16_i32
  let v909 : BitVec 32 := Scalar.addi v567 v908
  let v910 : Index := Scalar.indexCast v909
  ![v910.toNat]
def k0_off43 (k0_t20 : Fin k0_t20_loop.trips) : Fin 1 → Nat :=
  let c0_i32_362 : BitVec 32 := 0#32
  let c1_i32_364 : BitVec 32 := 1#32
  let arg8 : BitVec 32 := Scf.iv c0_i32_362 c1_i32_364 k0_t20
  let c16_i32_595 : BitVec 32 := 16#32
  let v913 : BitVec 32 := Scalar.muli arg8 c16_i32_595
  let v914 : Index := Scalar.indexCast v913
  ![v914.toNat]
@[reducible] def k0_t21_loop : Scf.Loop 32 :=
  let c0_i32_381 : BitVec 32 := 0#32
  let c1024_i32_382 : BitVec 32 := 1024#32
  let v598 : BitVec 32 := Scalar.addi c0_i32_381 c1024_i32_382
  let c1_i32_383 : BitVec 32 := 1#32
  ⟨c0_i32_381, v598, c1_i32_383⟩
def k0_off44 (v5 : BitVec 32) (k0_t21 : Fin k0_t21_loop.trips) : Fin 1 → Nat :=
  let c65536_i32_367 : BitVec 32 := 65536#32
  let v572 : BitVec 32 := Scalar.subi c65536_i32_367 v5
  let c262144_i32_368 : BitVec 32 := 262144#32
  let v573 : BitVec 32 := Scalar.addi v572 c262144_i32_368
  let c262144_i32_369 : BitVec 32 := 262144#32
  let v574 : BitVec 32 := Scalar.remsi v573 c262144_i32_369
  let c0_i32_371 : BitVec 32 := 0#32
  let v576 : BitVec 1 := Scalar.cmpi .sgt v574 c0_i32_371
  let v577 : BitVec 32 := Scalar.extui v576
  let c0_i32_372 : BitVec 32 := 0#32
  let v578 : BitVec 1 := Scalar.cmpi .slt v574 c0_i32_372
  let v579 : BitVec 32 := Scalar.extui v578
  let v580 : BitVec 32 := Scalar.subi v577 v579
  let c16384_i32_370 : BitVec 32 := 16384#32
  let c0_i32_373 : BitVec 32 := 0#32
  let v581 : BitVec 1 := Scalar.cmpi .sgt c16384_i32_370 c0_i32_373
  let v582 : BitVec 32 := Scalar.extui v581
  let c0_i32_374 : BitVec 32 := 0#32
  let v583 : BitVec 1 := Scalar.cmpi .slt c16384_i32_370 c0_i32_374
  let v584 : BitVec 32 := Scalar.extui v583
  let v585 : BitVec 32 := Scalar.subi v582 v584
  let v586 : BitVec 1 := Scalar.cmpi .ne v580 v585
  let v587 : BitVec 32 := Scalar.remsi v574 c16384_i32_370
  let c0_i32_375 : BitVec 32 := 0#32
  let v588 : BitVec 1 := Scalar.cmpi .ne v587 c0_i32_375
  let v589 : BitVec 1 := Scalar.andi v586 v588
  let v575 : BitVec 32 := Scalar.divsi v574 c16384_i32_370
  let c1_i32_376 : BitVec 32 := 1#32
  let v590 : BitVec 32 := Scalar.subi v575 c1_i32_376
  let v591 : BitVec 32 := Scalar.select v589 v590 v575
  let c16384_i32_377 : BitVec 32 := 16384#32
  let v592 : BitVec 32 := Scalar.muli v591 c16384_i32_377
  let v595 : BitVec 32 := Scalar.subi v574 v592
  let c0_i32_381 : BitVec 32 := 0#32
  let c1_i32_383 : BitVec 32 := 1#32
  let arg8 : BitVec 32 := Scf.iv c0_i32_381 c1_i32_383 k0_t21
  let c16_i32 : BitVec 32 := 16#32
  let v908 : BitVec 32 := Scalar.muli arg8 c16_i32
  let v909 : BitVec 32 := Scalar.addi v595 v908
  let v910 : Index := Scalar.indexCast v909
  ![v910.toNat]
def k0_off45 (k0_t21 : Fin k0_t21_loop.trips) : Fin 1 → Nat :=
  let c0_i32_381 : BitVec 32 := 0#32
  let c1_i32_383 : BitVec 32 := 1#32
  let arg8 : BitVec 32 := Scf.iv c0_i32_381 c1_i32_383 k0_t21
  let c16_i32_595 : BitVec 32 := 16#32
  let v913 : BitVec 32 := Scalar.muli arg8 c16_i32_595
  let v914 : Index := Scalar.indexCast v913
  ![v914.toNat]
@[reducible] def k0_t22_loop : Scf.Loop 32 :=
  let c0_i32_400 : BitVec 32 := 0#32
  let c1024_i32_401 : BitVec 32 := 1024#32
  let v626 : BitVec 32 := Scalar.addi c0_i32_400 c1024_i32_401
  let c1_i32_402 : BitVec 32 := 1#32
  ⟨c0_i32_400, v626, c1_i32_402⟩
def k0_off46 (v5 : BitVec 32) (k0_t22 : Fin k0_t22_loop.trips) : Fin 1 → Nat :=
  let c81920_i32_386 : BitVec 32 := 81920#32
  let v600 : BitVec 32 := Scalar.subi c81920_i32_386 v5
  let c262144_i32_387 : BitVec 32 := 262144#32
  let v601 : BitVec 32 := Scalar.addi v600 c262144_i32_387
  let c262144_i32_388 : BitVec 32 := 262144#32
  let v602 : BitVec 32 := Scalar.remsi v601 c262144_i32_388
  let c0_i32_390 : BitVec 32 := 0#32
  let v604 : BitVec 1 := Scalar.cmpi .sgt v602 c0_i32_390
  let v605 : BitVec 32 := Scalar.extui v604
  let c0_i32_391 : BitVec 32 := 0#32
  let v606 : BitVec 1 := Scalar.cmpi .slt v602 c0_i32_391
  let v607 : BitVec 32 := Scalar.extui v606
  let v608 : BitVec 32 := Scalar.subi v605 v607
  let c16384_i32_389 : BitVec 32 := 16384#32
  let c0_i32_392 : BitVec 32 := 0#32
  let v609 : BitVec 1 := Scalar.cmpi .sgt c16384_i32_389 c0_i32_392
  let v610 : BitVec 32 := Scalar.extui v609
  let c0_i32_393 : BitVec 32 := 0#32
  let v611 : BitVec 1 := Scalar.cmpi .slt c16384_i32_389 c0_i32_393
  let v612 : BitVec 32 := Scalar.extui v611
  let v613 : BitVec 32 := Scalar.subi v610 v612
  let v614 : BitVec 1 := Scalar.cmpi .ne v608 v613
  let v615 : BitVec 32 := Scalar.remsi v602 c16384_i32_389
  let c0_i32_394 : BitVec 32 := 0#32
  let v616 : BitVec 1 := Scalar.cmpi .ne v615 c0_i32_394
  let v617 : BitVec 1 := Scalar.andi v614 v616
  let v603 : BitVec 32 := Scalar.divsi v602 c16384_i32_389
  let c1_i32_395 : BitVec 32 := 1#32
  let v618 : BitVec 32 := Scalar.subi v603 c1_i32_395
  let v619 : BitVec 32 := Scalar.select v617 v618 v603
  let c16384_i32_396 : BitVec 32 := 16384#32
  let v620 : BitVec 32 := Scalar.muli v619 c16384_i32_396
  let v623 : BitVec 32 := Scalar.subi v602 v620
  let c0_i32_400 : BitVec 32 := 0#32
  let c1_i32_402 : BitVec 32 := 1#32
  let arg8 : BitVec 32 := Scf.iv c0_i32_400 c1_i32_402 k0_t22
  let c16_i32 : BitVec 32 := 16#32
  let v908 : BitVec 32 := Scalar.muli arg8 c16_i32
  let v909 : BitVec 32 := Scalar.addi v623 v908
  let v910 : Index := Scalar.indexCast v909
  ![v910.toNat]
def k0_off47 (k0_t22 : Fin k0_t22_loop.trips) : Fin 1 → Nat :=
  let c0_i32_400 : BitVec 32 := 0#32
  let c1_i32_402 : BitVec 32 := 1#32
  let arg8 : BitVec 32 := Scf.iv c0_i32_400 c1_i32_402 k0_t22
  let c16_i32_595 : BitVec 32 := 16#32
  let v913 : BitVec 32 := Scalar.muli arg8 c16_i32_595
  let v914 : Index := Scalar.indexCast v913
  ![v914.toNat]
@[reducible] def k0_t23_loop : Scf.Loop 32 :=
  let c0_i32_419 : BitVec 32 := 0#32
  let c1024_i32_420 : BitVec 32 := 1024#32
  let v654 : BitVec 32 := Scalar.addi c0_i32_419 c1024_i32_420
  let c1_i32_421 : BitVec 32 := 1#32
  ⟨c0_i32_419, v654, c1_i32_421⟩
def k0_off48 (v5 : BitVec 32) (k0_t23 : Fin k0_t23_loop.trips) : Fin 1 → Nat :=
  let c98304_i32_405 : BitVec 32 := 98304#32
  let v628 : BitVec 32 := Scalar.subi c98304_i32_405 v5
  let c262144_i32_406 : BitVec 32 := 262144#32
  let v629 : BitVec 32 := Scalar.addi v628 c262144_i32_406
  let c262144_i32_407 : BitVec 32 := 262144#32
  let v630 : BitVec 32 := Scalar.remsi v629 c262144_i32_407
  let c0_i32_409 : BitVec 32 := 0#32
  let v632 : BitVec 1 := Scalar.cmpi .sgt v630 c0_i32_409
  let v633 : BitVec 32 := Scalar.extui v632
  let c0_i32_410 : BitVec 32 := 0#32
  let v634 : BitVec 1 := Scalar.cmpi .slt v630 c0_i32_410
  let v635 : BitVec 32 := Scalar.extui v634
  let v636 : BitVec 32 := Scalar.subi v633 v635
  let c16384_i32_408 : BitVec 32 := 16384#32
  let c0_i32_411 : BitVec 32 := 0#32
  let v637 : BitVec 1 := Scalar.cmpi .sgt c16384_i32_408 c0_i32_411
  let v638 : BitVec 32 := Scalar.extui v637
  let c0_i32_412 : BitVec 32 := 0#32
  let v639 : BitVec 1 := Scalar.cmpi .slt c16384_i32_408 c0_i32_412
  let v640 : BitVec 32 := Scalar.extui v639
  let v641 : BitVec 32 := Scalar.subi v638 v640
  let v642 : BitVec 1 := Scalar.cmpi .ne v636 v641
  let v643 : BitVec 32 := Scalar.remsi v630 c16384_i32_408
  let c0_i32_413 : BitVec 32 := 0#32
  let v644 : BitVec 1 := Scalar.cmpi .ne v643 c0_i32_413
  let v645 : BitVec 1 := Scalar.andi v642 v644
  let v631 : BitVec 32 := Scalar.divsi v630 c16384_i32_408
  let c1_i32_414 : BitVec 32 := 1#32
  let v646 : BitVec 32 := Scalar.subi v631 c1_i32_414
  let v647 : BitVec 32 := Scalar.select v645 v646 v631
  let c16384_i32_415 : BitVec 32 := 16384#32
  let v648 : BitVec 32 := Scalar.muli v647 c16384_i32_415
  let v651 : BitVec 32 := Scalar.subi v630 v648
  let c0_i32_419 : BitVec 32 := 0#32
  let c1_i32_421 : BitVec 32 := 1#32
  let arg8 : BitVec 32 := Scf.iv c0_i32_419 c1_i32_421 k0_t23
  let c16_i32 : BitVec 32 := 16#32
  let v908 : BitVec 32 := Scalar.muli arg8 c16_i32
  let v909 : BitVec 32 := Scalar.addi v651 v908
  let v910 : Index := Scalar.indexCast v909
  ![v910.toNat]
def k0_off49 (k0_t23 : Fin k0_t23_loop.trips) : Fin 1 → Nat :=
  let c0_i32_419 : BitVec 32 := 0#32
  let c1_i32_421 : BitVec 32 := 1#32
  let arg8 : BitVec 32 := Scf.iv c0_i32_419 c1_i32_421 k0_t23
  let c16_i32_595 : BitVec 32 := 16#32
  let v913 : BitVec 32 := Scalar.muli arg8 c16_i32_595
  let v914 : Index := Scalar.indexCast v913
  ![v914.toNat]
@[reducible] def k0_t24_loop : Scf.Loop 32 :=
  let c0_i32_438 : BitVec 32 := 0#32
  let c1024_i32_439 : BitVec 32 := 1024#32
  let v682 : BitVec 32 := Scalar.addi c0_i32_438 c1024_i32_439
  let c1_i32_440 : BitVec 32 := 1#32
  ⟨c0_i32_438, v682, c1_i32_440⟩
def k0_off50 (v5 : BitVec 32) (k0_t24 : Fin k0_t24_loop.trips) : Fin 1 → Nat :=
  let c114688_i32_424 : BitVec 32 := 114688#32
  let v656 : BitVec 32 := Scalar.subi c114688_i32_424 v5
  let c262144_i32_425 : BitVec 32 := 262144#32
  let v657 : BitVec 32 := Scalar.addi v656 c262144_i32_425
  let c262144_i32_426 : BitVec 32 := 262144#32
  let v658 : BitVec 32 := Scalar.remsi v657 c262144_i32_426
  let c0_i32_428 : BitVec 32 := 0#32
  let v660 : BitVec 1 := Scalar.cmpi .sgt v658 c0_i32_428
  let v661 : BitVec 32 := Scalar.extui v660
  let c0_i32_429 : BitVec 32 := 0#32
  let v662 : BitVec 1 := Scalar.cmpi .slt v658 c0_i32_429
  let v663 : BitVec 32 := Scalar.extui v662
  let v664 : BitVec 32 := Scalar.subi v661 v663
  let c16384_i32_427 : BitVec 32 := 16384#32
  let c0_i32_430 : BitVec 32 := 0#32
  let v665 : BitVec 1 := Scalar.cmpi .sgt c16384_i32_427 c0_i32_430
  let v666 : BitVec 32 := Scalar.extui v665
  let c0_i32_431 : BitVec 32 := 0#32
  let v667 : BitVec 1 := Scalar.cmpi .slt c16384_i32_427 c0_i32_431
  let v668 : BitVec 32 := Scalar.extui v667
  let v669 : BitVec 32 := Scalar.subi v666 v668
  let v670 : BitVec 1 := Scalar.cmpi .ne v664 v669
  let v671 : BitVec 32 := Scalar.remsi v658 c16384_i32_427
  let c0_i32_432 : BitVec 32 := 0#32
  let v672 : BitVec 1 := Scalar.cmpi .ne v671 c0_i32_432
  let v673 : BitVec 1 := Scalar.andi v670 v672
  let v659 : BitVec 32 := Scalar.divsi v658 c16384_i32_427
  let c1_i32_433 : BitVec 32 := 1#32
  let v674 : BitVec 32 := Scalar.subi v659 c1_i32_433
  let v675 : BitVec 32 := Scalar.select v673 v674 v659
  let c16384_i32_434 : BitVec 32 := 16384#32
  let v676 : BitVec 32 := Scalar.muli v675 c16384_i32_434
  let v679 : BitVec 32 := Scalar.subi v658 v676
  let c0_i32_438 : BitVec 32 := 0#32
  let c1_i32_440 : BitVec 32 := 1#32
  let arg8 : BitVec 32 := Scf.iv c0_i32_438 c1_i32_440 k0_t24
  let c16_i32 : BitVec 32 := 16#32
  let v908 : BitVec 32 := Scalar.muli arg8 c16_i32
  let v909 : BitVec 32 := Scalar.addi v679 v908
  let v910 : Index := Scalar.indexCast v909
  ![v910.toNat]
def k0_off51 (k0_t24 : Fin k0_t24_loop.trips) : Fin 1 → Nat :=
  let c0_i32_438 : BitVec 32 := 0#32
  let c1_i32_440 : BitVec 32 := 1#32
  let arg8 : BitVec 32 := Scf.iv c0_i32_438 c1_i32_440 k0_t24
  let c16_i32_595 : BitVec 32 := 16#32
  let v913 : BitVec 32 := Scalar.muli arg8 c16_i32_595
  let v914 : Index := Scalar.indexCast v913
  ![v914.toNat]
@[reducible] def k0_t25_loop : Scf.Loop 32 :=
  let c0_i32_457 : BitVec 32 := 0#32
  let c1024_i32_458 : BitVec 32 := 1024#32
  let v710 : BitVec 32 := Scalar.addi c0_i32_457 c1024_i32_458
  let c1_i32_459 : BitVec 32 := 1#32
  ⟨c0_i32_457, v710, c1_i32_459⟩
def k0_off52 (v5 : BitVec 32) (k0_t25 : Fin k0_t25_loop.trips) : Fin 1 → Nat :=
  let c131072_i32_443 : BitVec 32 := 131072#32
  let v684 : BitVec 32 := Scalar.subi c131072_i32_443 v5
  let c262144_i32_444 : BitVec 32 := 262144#32
  let v685 : BitVec 32 := Scalar.addi v684 c262144_i32_444
  let c262144_i32_445 : BitVec 32 := 262144#32
  let v686 : BitVec 32 := Scalar.remsi v685 c262144_i32_445
  let c0_i32_447 : BitVec 32 := 0#32
  let v688 : BitVec 1 := Scalar.cmpi .sgt v686 c0_i32_447
  let v689 : BitVec 32 := Scalar.extui v688
  let c0_i32_448 : BitVec 32 := 0#32
  let v690 : BitVec 1 := Scalar.cmpi .slt v686 c0_i32_448
  let v691 : BitVec 32 := Scalar.extui v690
  let v692 : BitVec 32 := Scalar.subi v689 v691
  let c16384_i32_446 : BitVec 32 := 16384#32
  let c0_i32_449 : BitVec 32 := 0#32
  let v693 : BitVec 1 := Scalar.cmpi .sgt c16384_i32_446 c0_i32_449
  let v694 : BitVec 32 := Scalar.extui v693
  let c0_i32_450 : BitVec 32 := 0#32
  let v695 : BitVec 1 := Scalar.cmpi .slt c16384_i32_446 c0_i32_450
  let v696 : BitVec 32 := Scalar.extui v695
  let v697 : BitVec 32 := Scalar.subi v694 v696
  let v698 : BitVec 1 := Scalar.cmpi .ne v692 v697
  let v699 : BitVec 32 := Scalar.remsi v686 c16384_i32_446
  let c0_i32_451 : BitVec 32 := 0#32
  let v700 : BitVec 1 := Scalar.cmpi .ne v699 c0_i32_451
  let v701 : BitVec 1 := Scalar.andi v698 v700
  let v687 : BitVec 32 := Scalar.divsi v686 c16384_i32_446
  let c1_i32_452 : BitVec 32 := 1#32
  let v702 : BitVec 32 := Scalar.subi v687 c1_i32_452
  let v703 : BitVec 32 := Scalar.select v701 v702 v687
  let c16384_i32_453 : BitVec 32 := 16384#32
  let v704 : BitVec 32 := Scalar.muli v703 c16384_i32_453
  let v707 : BitVec 32 := Scalar.subi v686 v704
  let c0_i32_457 : BitVec 32 := 0#32
  let c1_i32_459 : BitVec 32 := 1#32
  let arg8 : BitVec 32 := Scf.iv c0_i32_457 c1_i32_459 k0_t25
  let c16_i32 : BitVec 32 := 16#32
  let v908 : BitVec 32 := Scalar.muli arg8 c16_i32
  let v909 : BitVec 32 := Scalar.addi v707 v908
  let v910 : Index := Scalar.indexCast v909
  ![v910.toNat]
def k0_off53 (k0_t25 : Fin k0_t25_loop.trips) : Fin 1 → Nat :=
  let c0_i32_457 : BitVec 32 := 0#32
  let c1_i32_459 : BitVec 32 := 1#32
  let arg8 : BitVec 32 := Scf.iv c0_i32_457 c1_i32_459 k0_t25
  let c16_i32_595 : BitVec 32 := 16#32
  let v913 : BitVec 32 := Scalar.muli arg8 c16_i32_595
  let v914 : Index := Scalar.indexCast v913
  ![v914.toNat]
@[reducible] def k0_t26_loop : Scf.Loop 32 :=
  let c0_i32_476 : BitVec 32 := 0#32
  let c1024_i32_477 : BitVec 32 := 1024#32
  let v738 : BitVec 32 := Scalar.addi c0_i32_476 c1024_i32_477
  let c1_i32_478 : BitVec 32 := 1#32
  ⟨c0_i32_476, v738, c1_i32_478⟩
def k0_off54 (v5 : BitVec 32) (k0_t26 : Fin k0_t26_loop.trips) : Fin 1 → Nat :=
  let c147456_i32_462 : BitVec 32 := 147456#32
  let v712 : BitVec 32 := Scalar.subi c147456_i32_462 v5
  let c262144_i32_463 : BitVec 32 := 262144#32
  let v713 : BitVec 32 := Scalar.addi v712 c262144_i32_463
  let c262144_i32_464 : BitVec 32 := 262144#32
  let v714 : BitVec 32 := Scalar.remsi v713 c262144_i32_464
  let c0_i32_466 : BitVec 32 := 0#32
  let v716 : BitVec 1 := Scalar.cmpi .sgt v714 c0_i32_466
  let v717 : BitVec 32 := Scalar.extui v716
  let c0_i32_467 : BitVec 32 := 0#32
  let v718 : BitVec 1 := Scalar.cmpi .slt v714 c0_i32_467
  let v719 : BitVec 32 := Scalar.extui v718
  let v720 : BitVec 32 := Scalar.subi v717 v719
  let c16384_i32_465 : BitVec 32 := 16384#32
  let c0_i32_468 : BitVec 32 := 0#32
  let v721 : BitVec 1 := Scalar.cmpi .sgt c16384_i32_465 c0_i32_468
  let v722 : BitVec 32 := Scalar.extui v721
  let c0_i32_469 : BitVec 32 := 0#32
  let v723 : BitVec 1 := Scalar.cmpi .slt c16384_i32_465 c0_i32_469
  let v724 : BitVec 32 := Scalar.extui v723
  let v725 : BitVec 32 := Scalar.subi v722 v724
  let v726 : BitVec 1 := Scalar.cmpi .ne v720 v725
  let v727 : BitVec 32 := Scalar.remsi v714 c16384_i32_465
  let c0_i32_470 : BitVec 32 := 0#32
  let v728 : BitVec 1 := Scalar.cmpi .ne v727 c0_i32_470
  let v729 : BitVec 1 := Scalar.andi v726 v728
  let v715 : BitVec 32 := Scalar.divsi v714 c16384_i32_465
  let c1_i32_471 : BitVec 32 := 1#32
  let v730 : BitVec 32 := Scalar.subi v715 c1_i32_471
  let v731 : BitVec 32 := Scalar.select v729 v730 v715
  let c16384_i32_472 : BitVec 32 := 16384#32
  let v732 : BitVec 32 := Scalar.muli v731 c16384_i32_472
  let v735 : BitVec 32 := Scalar.subi v714 v732
  let c0_i32_476 : BitVec 32 := 0#32
  let c1_i32_478 : BitVec 32 := 1#32
  let arg8 : BitVec 32 := Scf.iv c0_i32_476 c1_i32_478 k0_t26
  let c16_i32 : BitVec 32 := 16#32
  let v908 : BitVec 32 := Scalar.muli arg8 c16_i32
  let v909 : BitVec 32 := Scalar.addi v735 v908
  let v910 : Index := Scalar.indexCast v909
  ![v910.toNat]
def k0_off55 (k0_t26 : Fin k0_t26_loop.trips) : Fin 1 → Nat :=
  let c0_i32_476 : BitVec 32 := 0#32
  let c1_i32_478 : BitVec 32 := 1#32
  let arg8 : BitVec 32 := Scf.iv c0_i32_476 c1_i32_478 k0_t26
  let c16_i32_595 : BitVec 32 := 16#32
  let v913 : BitVec 32 := Scalar.muli arg8 c16_i32_595
  let v914 : Index := Scalar.indexCast v913
  ![v914.toNat]
@[reducible] def k0_t27_loop : Scf.Loop 32 :=
  let c0_i32_495 : BitVec 32 := 0#32
  let c1024_i32_496 : BitVec 32 := 1024#32
  let v766 : BitVec 32 := Scalar.addi c0_i32_495 c1024_i32_496
  let c1_i32_497 : BitVec 32 := 1#32
  ⟨c0_i32_495, v766, c1_i32_497⟩
def k0_off56 (v5 : BitVec 32) (k0_t27 : Fin k0_t27_loop.trips) : Fin 1 → Nat :=
  let c163840_i32_481 : BitVec 32 := 163840#32
  let v740 : BitVec 32 := Scalar.subi c163840_i32_481 v5
  let c262144_i32_482 : BitVec 32 := 262144#32
  let v741 : BitVec 32 := Scalar.addi v740 c262144_i32_482
  let c262144_i32_483 : BitVec 32 := 262144#32
  let v742 : BitVec 32 := Scalar.remsi v741 c262144_i32_483
  let c0_i32_485 : BitVec 32 := 0#32
  let v744 : BitVec 1 := Scalar.cmpi .sgt v742 c0_i32_485
  let v745 : BitVec 32 := Scalar.extui v744
  let c0_i32_486 : BitVec 32 := 0#32
  let v746 : BitVec 1 := Scalar.cmpi .slt v742 c0_i32_486
  let v747 : BitVec 32 := Scalar.extui v746
  let v748 : BitVec 32 := Scalar.subi v745 v747
  let c16384_i32_484 : BitVec 32 := 16384#32
  let c0_i32_487 : BitVec 32 := 0#32
  let v749 : BitVec 1 := Scalar.cmpi .sgt c16384_i32_484 c0_i32_487
  let v750 : BitVec 32 := Scalar.extui v749
  let c0_i32_488 : BitVec 32 := 0#32
  let v751 : BitVec 1 := Scalar.cmpi .slt c16384_i32_484 c0_i32_488
  let v752 : BitVec 32 := Scalar.extui v751
  let v753 : BitVec 32 := Scalar.subi v750 v752
  let v754 : BitVec 1 := Scalar.cmpi .ne v748 v753
  let v755 : BitVec 32 := Scalar.remsi v742 c16384_i32_484
  let c0_i32_489 : BitVec 32 := 0#32
  let v756 : BitVec 1 := Scalar.cmpi .ne v755 c0_i32_489
  let v757 : BitVec 1 := Scalar.andi v754 v756
  let v743 : BitVec 32 := Scalar.divsi v742 c16384_i32_484
  let c1_i32_490 : BitVec 32 := 1#32
  let v758 : BitVec 32 := Scalar.subi v743 c1_i32_490
  let v759 : BitVec 32 := Scalar.select v757 v758 v743
  let c16384_i32_491 : BitVec 32 := 16384#32
  let v760 : BitVec 32 := Scalar.muli v759 c16384_i32_491
  let v763 : BitVec 32 := Scalar.subi v742 v760
  let c0_i32_495 : BitVec 32 := 0#32
  let c1_i32_497 : BitVec 32 := 1#32
  let arg8 : BitVec 32 := Scf.iv c0_i32_495 c1_i32_497 k0_t27
  let c16_i32 : BitVec 32 := 16#32
  let v908 : BitVec 32 := Scalar.muli arg8 c16_i32
  let v909 : BitVec 32 := Scalar.addi v763 v908
  let v910 : Index := Scalar.indexCast v909
  ![v910.toNat]
def k0_off57 (k0_t27 : Fin k0_t27_loop.trips) : Fin 1 → Nat :=
  let c0_i32_495 : BitVec 32 := 0#32
  let c1_i32_497 : BitVec 32 := 1#32
  let arg8 : BitVec 32 := Scf.iv c0_i32_495 c1_i32_497 k0_t27
  let c16_i32_595 : BitVec 32 := 16#32
  let v913 : BitVec 32 := Scalar.muli arg8 c16_i32_595
  let v914 : Index := Scalar.indexCast v913
  ![v914.toNat]
@[reducible] def k0_t28_loop : Scf.Loop 32 :=
  let c0_i32_514 : BitVec 32 := 0#32
  let c1024_i32_515 : BitVec 32 := 1024#32
  let v794 : BitVec 32 := Scalar.addi c0_i32_514 c1024_i32_515
  let c1_i32_516 : BitVec 32 := 1#32
  ⟨c0_i32_514, v794, c1_i32_516⟩
def k0_off58 (v5 : BitVec 32) (k0_t28 : Fin k0_t28_loop.trips) : Fin 1 → Nat :=
  let c180224_i32_500 : BitVec 32 := 180224#32
  let v768 : BitVec 32 := Scalar.subi c180224_i32_500 v5
  let c262144_i32_501 : BitVec 32 := 262144#32
  let v769 : BitVec 32 := Scalar.addi v768 c262144_i32_501
  let c262144_i32_502 : BitVec 32 := 262144#32
  let v770 : BitVec 32 := Scalar.remsi v769 c262144_i32_502
  let c0_i32_504 : BitVec 32 := 0#32
  let v772 : BitVec 1 := Scalar.cmpi .sgt v770 c0_i32_504
  let v773 : BitVec 32 := Scalar.extui v772
  let c0_i32_505 : BitVec 32 := 0#32
  let v774 : BitVec 1 := Scalar.cmpi .slt v770 c0_i32_505
  let v775 : BitVec 32 := Scalar.extui v774
  let v776 : BitVec 32 := Scalar.subi v773 v775
  let c16384_i32_503 : BitVec 32 := 16384#32
  let c0_i32_506 : BitVec 32 := 0#32
  let v777 : BitVec 1 := Scalar.cmpi .sgt c16384_i32_503 c0_i32_506
  let v778 : BitVec 32 := Scalar.extui v777
  let c0_i32_507 : BitVec 32 := 0#32
  let v779 : BitVec 1 := Scalar.cmpi .slt c16384_i32_503 c0_i32_507
  let v780 : BitVec 32 := Scalar.extui v779
  let v781 : BitVec 32 := Scalar.subi v778 v780
  let v782 : BitVec 1 := Scalar.cmpi .ne v776 v781
  let v783 : BitVec 32 := Scalar.remsi v770 c16384_i32_503
  let c0_i32_508 : BitVec 32 := 0#32
  let v784 : BitVec 1 := Scalar.cmpi .ne v783 c0_i32_508
  let v785 : BitVec 1 := Scalar.andi v782 v784
  let v771 : BitVec 32 := Scalar.divsi v770 c16384_i32_503
  let c1_i32_509 : BitVec 32 := 1#32
  let v786 : BitVec 32 := Scalar.subi v771 c1_i32_509
  let v787 : BitVec 32 := Scalar.select v785 v786 v771
  let c16384_i32_510 : BitVec 32 := 16384#32
  let v788 : BitVec 32 := Scalar.muli v787 c16384_i32_510
  let v791 : BitVec 32 := Scalar.subi v770 v788
  let c0_i32_514 : BitVec 32 := 0#32
  let c1_i32_516 : BitVec 32 := 1#32
  let arg8 : BitVec 32 := Scf.iv c0_i32_514 c1_i32_516 k0_t28
  let c16_i32 : BitVec 32 := 16#32
  let v908 : BitVec 32 := Scalar.muli arg8 c16_i32
  let v909 : BitVec 32 := Scalar.addi v791 v908
  let v910 : Index := Scalar.indexCast v909
  ![v910.toNat]
def k0_off59 (k0_t28 : Fin k0_t28_loop.trips) : Fin 1 → Nat :=
  let c0_i32_514 : BitVec 32 := 0#32
  let c1_i32_516 : BitVec 32 := 1#32
  let arg8 : BitVec 32 := Scf.iv c0_i32_514 c1_i32_516 k0_t28
  let c16_i32_595 : BitVec 32 := 16#32
  let v913 : BitVec 32 := Scalar.muli arg8 c16_i32_595
  let v914 : Index := Scalar.indexCast v913
  ![v914.toNat]
@[reducible] def k0_t29_loop : Scf.Loop 32 :=
  let c0_i32_533 : BitVec 32 := 0#32
  let c1024_i32_534 : BitVec 32 := 1024#32
  let v822 : BitVec 32 := Scalar.addi c0_i32_533 c1024_i32_534
  let c1_i32_535 : BitVec 32 := 1#32
  ⟨c0_i32_533, v822, c1_i32_535⟩
def k0_off60 (v5 : BitVec 32) (k0_t29 : Fin k0_t29_loop.trips) : Fin 1 → Nat :=
  let c196608_i32_519 : BitVec 32 := 196608#32
  let v796 : BitVec 32 := Scalar.subi c196608_i32_519 v5
  let c262144_i32_520 : BitVec 32 := 262144#32
  let v797 : BitVec 32 := Scalar.addi v796 c262144_i32_520
  let c262144_i32_521 : BitVec 32 := 262144#32
  let v798 : BitVec 32 := Scalar.remsi v797 c262144_i32_521
  let c0_i32_523 : BitVec 32 := 0#32
  let v800 : BitVec 1 := Scalar.cmpi .sgt v798 c0_i32_523
  let v801 : BitVec 32 := Scalar.extui v800
  let c0_i32_524 : BitVec 32 := 0#32
  let v802 : BitVec 1 := Scalar.cmpi .slt v798 c0_i32_524
  let v803 : BitVec 32 := Scalar.extui v802
  let v804 : BitVec 32 := Scalar.subi v801 v803
  let c16384_i32_522 : BitVec 32 := 16384#32
  let c0_i32_525 : BitVec 32 := 0#32
  let v805 : BitVec 1 := Scalar.cmpi .sgt c16384_i32_522 c0_i32_525
  let v806 : BitVec 32 := Scalar.extui v805
  let c0_i32_526 : BitVec 32 := 0#32
  let v807 : BitVec 1 := Scalar.cmpi .slt c16384_i32_522 c0_i32_526
  let v808 : BitVec 32 := Scalar.extui v807
  let v809 : BitVec 32 := Scalar.subi v806 v808
  let v810 : BitVec 1 := Scalar.cmpi .ne v804 v809
  let v811 : BitVec 32 := Scalar.remsi v798 c16384_i32_522
  let c0_i32_527 : BitVec 32 := 0#32
  let v812 : BitVec 1 := Scalar.cmpi .ne v811 c0_i32_527
  let v813 : BitVec 1 := Scalar.andi v810 v812
  let v799 : BitVec 32 := Scalar.divsi v798 c16384_i32_522
  let c1_i32_528 : BitVec 32 := 1#32
  let v814 : BitVec 32 := Scalar.subi v799 c1_i32_528
  let v815 : BitVec 32 := Scalar.select v813 v814 v799
  let c16384_i32_529 : BitVec 32 := 16384#32
  let v816 : BitVec 32 := Scalar.muli v815 c16384_i32_529
  let v819 : BitVec 32 := Scalar.subi v798 v816
  let c0_i32_533 : BitVec 32 := 0#32
  let c1_i32_535 : BitVec 32 := 1#32
  let arg8 : BitVec 32 := Scf.iv c0_i32_533 c1_i32_535 k0_t29
  let c16_i32 : BitVec 32 := 16#32
  let v908 : BitVec 32 := Scalar.muli arg8 c16_i32
  let v909 : BitVec 32 := Scalar.addi v819 v908
  let v910 : Index := Scalar.indexCast v909
  ![v910.toNat]
def k0_off61 (k0_t29 : Fin k0_t29_loop.trips) : Fin 1 → Nat :=
  let c0_i32_533 : BitVec 32 := 0#32
  let c1_i32_535 : BitVec 32 := 1#32
  let arg8 : BitVec 32 := Scf.iv c0_i32_533 c1_i32_535 k0_t29
  let c16_i32_595 : BitVec 32 := 16#32
  let v913 : BitVec 32 := Scalar.muli arg8 c16_i32_595
  let v914 : Index := Scalar.indexCast v913
  ![v914.toNat]
@[reducible] def k0_t30_loop : Scf.Loop 32 :=
  let c0_i32_552 : BitVec 32 := 0#32
  let c1024_i32_553 : BitVec 32 := 1024#32
  let v850 : BitVec 32 := Scalar.addi c0_i32_552 c1024_i32_553
  let c1_i32_554 : BitVec 32 := 1#32
  ⟨c0_i32_552, v850, c1_i32_554⟩
def k0_off62 (v5 : BitVec 32) (k0_t30 : Fin k0_t30_loop.trips) : Fin 1 → Nat :=
  let c212992_i32_538 : BitVec 32 := 212992#32
  let v824 : BitVec 32 := Scalar.subi c212992_i32_538 v5
  let c262144_i32_539 : BitVec 32 := 262144#32
  let v825 : BitVec 32 := Scalar.addi v824 c262144_i32_539
  let c262144_i32_540 : BitVec 32 := 262144#32
  let v826 : BitVec 32 := Scalar.remsi v825 c262144_i32_540
  let c0_i32_542 : BitVec 32 := 0#32
  let v828 : BitVec 1 := Scalar.cmpi .sgt v826 c0_i32_542
  let v829 : BitVec 32 := Scalar.extui v828
  let c0_i32_543 : BitVec 32 := 0#32
  let v830 : BitVec 1 := Scalar.cmpi .slt v826 c0_i32_543
  let v831 : BitVec 32 := Scalar.extui v830
  let v832 : BitVec 32 := Scalar.subi v829 v831
  let c16384_i32_541 : BitVec 32 := 16384#32
  let c0_i32_544 : BitVec 32 := 0#32
  let v833 : BitVec 1 := Scalar.cmpi .sgt c16384_i32_541 c0_i32_544
  let v834 : BitVec 32 := Scalar.extui v833
  let c0_i32_545 : BitVec 32 := 0#32
  let v835 : BitVec 1 := Scalar.cmpi .slt c16384_i32_541 c0_i32_545
  let v836 : BitVec 32 := Scalar.extui v835
  let v837 : BitVec 32 := Scalar.subi v834 v836
  let v838 : BitVec 1 := Scalar.cmpi .ne v832 v837
  let v839 : BitVec 32 := Scalar.remsi v826 c16384_i32_541
  let c0_i32_546 : BitVec 32 := 0#32
  let v840 : BitVec 1 := Scalar.cmpi .ne v839 c0_i32_546
  let v841 : BitVec 1 := Scalar.andi v838 v840
  let v827 : BitVec 32 := Scalar.divsi v826 c16384_i32_541
  let c1_i32_547 : BitVec 32 := 1#32
  let v842 : BitVec 32 := Scalar.subi v827 c1_i32_547
  let v843 : BitVec 32 := Scalar.select v841 v842 v827
  let c16384_i32_548 : BitVec 32 := 16384#32
  let v844 : BitVec 32 := Scalar.muli v843 c16384_i32_548
  let v847 : BitVec 32 := Scalar.subi v826 v844
  let c0_i32_552 : BitVec 32 := 0#32
  let c1_i32_554 : BitVec 32 := 1#32
  let arg8 : BitVec 32 := Scf.iv c0_i32_552 c1_i32_554 k0_t30
  let c16_i32 : BitVec 32 := 16#32
  let v908 : BitVec 32 := Scalar.muli arg8 c16_i32
  let v909 : BitVec 32 := Scalar.addi v847 v908
  let v910 : Index := Scalar.indexCast v909
  ![v910.toNat]
def k0_off63 (k0_t30 : Fin k0_t30_loop.trips) : Fin 1 → Nat :=
  let c0_i32_552 : BitVec 32 := 0#32
  let c1_i32_554 : BitVec 32 := 1#32
  let arg8 : BitVec 32 := Scf.iv c0_i32_552 c1_i32_554 k0_t30
  let c16_i32_595 : BitVec 32 := 16#32
  let v913 : BitVec 32 := Scalar.muli arg8 c16_i32_595
  let v914 : Index := Scalar.indexCast v913
  ![v914.toNat]
@[reducible] def k0_t31_loop : Scf.Loop 32 :=
  let c0_i32_571 : BitVec 32 := 0#32
  let c1024_i32_572 : BitVec 32 := 1024#32
  let v878 : BitVec 32 := Scalar.addi c0_i32_571 c1024_i32_572
  let c1_i32_573 : BitVec 32 := 1#32
  ⟨c0_i32_571, v878, c1_i32_573⟩
def k0_off64 (v5 : BitVec 32) (k0_t31 : Fin k0_t31_loop.trips) : Fin 1 → Nat :=
  let c229376_i32_557 : BitVec 32 := 229376#32
  let v852 : BitVec 32 := Scalar.subi c229376_i32_557 v5
  let c262144_i32_558 : BitVec 32 := 262144#32
  let v853 : BitVec 32 := Scalar.addi v852 c262144_i32_558
  let c262144_i32_559 : BitVec 32 := 262144#32
  let v854 : BitVec 32 := Scalar.remsi v853 c262144_i32_559
  let c0_i32_561 : BitVec 32 := 0#32
  let v856 : BitVec 1 := Scalar.cmpi .sgt v854 c0_i32_561
  let v857 : BitVec 32 := Scalar.extui v856
  let c0_i32_562 : BitVec 32 := 0#32
  let v858 : BitVec 1 := Scalar.cmpi .slt v854 c0_i32_562
  let v859 : BitVec 32 := Scalar.extui v858
  let v860 : BitVec 32 := Scalar.subi v857 v859
  let c16384_i32_560 : BitVec 32 := 16384#32
  let c0_i32_563 : BitVec 32 := 0#32
  let v861 : BitVec 1 := Scalar.cmpi .sgt c16384_i32_560 c0_i32_563
  let v862 : BitVec 32 := Scalar.extui v861
  let c0_i32_564 : BitVec 32 := 0#32
  let v863 : BitVec 1 := Scalar.cmpi .slt c16384_i32_560 c0_i32_564
  let v864 : BitVec 32 := Scalar.extui v863
  let v865 : BitVec 32 := Scalar.subi v862 v864
  let v866 : BitVec 1 := Scalar.cmpi .ne v860 v865
  let v867 : BitVec 32 := Scalar.remsi v854 c16384_i32_560
  let c0_i32_565 : BitVec 32 := 0#32
  let v868 : BitVec 1 := Scalar.cmpi .ne v867 c0_i32_565
  let v869 : BitVec 1 := Scalar.andi v866 v868
  let v855 : BitVec 32 := Scalar.divsi v854 c16384_i32_560
  let c1_i32_566 : BitVec 32 := 1#32
  let v870 : BitVec 32 := Scalar.subi v855 c1_i32_566
  let v871 : BitVec 32 := Scalar.select v869 v870 v855
  let c16384_i32_567 : BitVec 32 := 16384#32
  let v872 : BitVec 32 := Scalar.muli v871 c16384_i32_567
  let v875 : BitVec 32 := Scalar.subi v854 v872
  let c0_i32_571 : BitVec 32 := 0#32
  let c1_i32_573 : BitVec 32 := 1#32
  let arg8 : BitVec 32 := Scf.iv c0_i32_571 c1_i32_573 k0_t31
  let c16_i32 : BitVec 32 := 16#32
  let v908 : BitVec 32 := Scalar.muli arg8 c16_i32
  let v909 : BitVec 32 := Scalar.addi v875 v908
  let v910 : Index := Scalar.indexCast v909
  ![v910.toNat]
def k0_off65 (k0_t31 : Fin k0_t31_loop.trips) : Fin 1 → Nat :=
  let c0_i32_571 : BitVec 32 := 0#32
  let c1_i32_573 : BitVec 32 := 1#32
  let arg8 : BitVec 32 := Scf.iv c0_i32_571 c1_i32_573 k0_t31
  let c16_i32_595 : BitVec 32 := 16#32
  let v913 : BitVec 32 := Scalar.muli arg8 c16_i32_595
  let v914 : Index := Scalar.indexCast v913
  ![v914.toNat]
@[reducible] def k0_t32_loop : Scf.Loop 32 :=
  let c0_i32_590 : BitVec 32 := 0#32
  let c1024_i32_591 : BitVec 32 := 1024#32
  let v906 : BitVec 32 := Scalar.addi c0_i32_590 c1024_i32_591
  let c1_i32_592 : BitVec 32 := 1#32
  ⟨c0_i32_590, v906, c1_i32_592⟩
def k0_off66 (v5 : BitVec 32) (k0_t32 : Fin k0_t32_loop.trips) : Fin 1 → Nat :=
  let c245760_i32_576 : BitVec 32 := 245760#32
  let v880 : BitVec 32 := Scalar.subi c245760_i32_576 v5
  let c262144_i32_577 : BitVec 32 := 262144#32
  let v881 : BitVec 32 := Scalar.addi v880 c262144_i32_577
  let c262144_i32_578 : BitVec 32 := 262144#32
  let v882 : BitVec 32 := Scalar.remsi v881 c262144_i32_578
  let c0_i32_580 : BitVec 32 := 0#32
  let v884 : BitVec 1 := Scalar.cmpi .sgt v882 c0_i32_580
  let v885 : BitVec 32 := Scalar.extui v884
  let c0_i32_581 : BitVec 32 := 0#32
  let v886 : BitVec 1 := Scalar.cmpi .slt v882 c0_i32_581
  let v887 : BitVec 32 := Scalar.extui v886
  let v888 : BitVec 32 := Scalar.subi v885 v887
  let c16384_i32_579 : BitVec 32 := 16384#32
  let c0_i32_582 : BitVec 32 := 0#32
  let v889 : BitVec 1 := Scalar.cmpi .sgt c16384_i32_579 c0_i32_582
  let v890 : BitVec 32 := Scalar.extui v889
  let c0_i32_583 : BitVec 32 := 0#32
  let v891 : BitVec 1 := Scalar.cmpi .slt c16384_i32_579 c0_i32_583
  let v892 : BitVec 32 := Scalar.extui v891
  let v893 : BitVec 32 := Scalar.subi v890 v892
  let v894 : BitVec 1 := Scalar.cmpi .ne v888 v893
  let v895 : BitVec 32 := Scalar.remsi v882 c16384_i32_579
  let c0_i32_584 : BitVec 32 := 0#32
  let v896 : BitVec 1 := Scalar.cmpi .ne v895 c0_i32_584
  let v897 : BitVec 1 := Scalar.andi v894 v896
  let v883 : BitVec 32 := Scalar.divsi v882 c16384_i32_579
  let c1_i32_585 : BitVec 32 := 1#32
  let v898 : BitVec 32 := Scalar.subi v883 c1_i32_585
  let v899 : BitVec 32 := Scalar.select v897 v898 v883
  let c16384_i32_586 : BitVec 32 := 16384#32
  let v900 : BitVec 32 := Scalar.muli v899 c16384_i32_586
  let v903 : BitVec 32 := Scalar.subi v882 v900
  let c0_i32_590 : BitVec 32 := 0#32
  let c1_i32_592 : BitVec 32 := 1#32
  let arg8 : BitVec 32 := Scf.iv c0_i32_590 c1_i32_592 k0_t32
  let c16_i32 : BitVec 32 := 16#32
  let v908 : BitVec 32 := Scalar.muli arg8 c16_i32
  let v909 : BitVec 32 := Scalar.addi v903 v908
  let v910 : Index := Scalar.indexCast v909
  ![v910.toNat]

def k0_chk1_0 (i : grid0.Coords) (v5 : BitVec 32) : Prop :=
  (∀ (r₁ : Fin 2) (r₂ : Fin 16), ∀ a, (k0_off1 i v5 (BitVec.ofNat 32 r₁.val) (BitVec.ofNat 32 (16384 * r₂.val))) a + S16384.size a ≤ S16777216.size a) ∧
  (∀ (r₁ : Fin 2) (r₂ : Fin 16), ∀ a, (k0_off2 i v5 (BitVec.ofNat 32 r₁.val) (BitVec.ofNat 32 (16384 * r₂.val))) a + S16384.size a ≤ S16777216.size a) ∧
  (∀ k0_t1 : Fin k0_t1_loop.trips, ∀ a, (k0_off3 v5 k0_t1) a + S16.size a ≤ S32768.size a) ∧
  (∀ k0_t2 : Fin k0_t2_loop.trips, ∀ a, (k0_off6 v5 k0_t2) a + S16.size a ≤ S32768.size a) ∧
  (∀ k0_t3 : Fin k0_t3_loop.trips, ∀ a, (k0_off8 v5 k0_t3) a + S16.size a ≤ S32768.size a) ∧
  (∀ k0_t4 : Fin k0_t4_loop.trips, ∀ a, (k0_off10 v5 k0_t4) a + S16.size a ≤ S32768.size a) ∧
  (∀ k0_t5 : Fin k0_t5_loop.trips, ∀ a, (k0_off12 v5 k0_t5) a + S16.size a ≤ S32768.size a) ∧
  (∀ k0_t6 : Fin k0_t6_loop.trips, ∀ a, (k0_off14 v5 k0_t6) a + S16.size a ≤ S32768.size a) ∧
  (∀ k0_t7 : Fin k0_t7_loop.trips, ∀ a, (k0_off16 v5 k0_t7) a + S16.size a ≤ S32768.size a) ∧
  (∀ k0_t8 : Fin k0_t8_loop.trips, ∀ a, (k0_off18 v5 k0_t8) a + S16.size a ≤ S32768.size a) ∧
  (∀ k0_t9 : Fin k0_t9_loop.trips, ∀ a, (k0_off20 v5 k0_t9) a + S16.size a ≤ S32768.size a) ∧
  (∀ k0_t10 : Fin k0_t10_loop.trips, ∀ a, (k0_off22 v5 k0_t10) a + S16.size a ≤ S32768.size a) ∧
  (∀ k0_t11 : Fin k0_t11_loop.trips, ∀ a, (k0_off24 v5 k0_t11) a + S16.size a ≤ S32768.size a) ∧
  (∀ k0_t12 : Fin k0_t12_loop.trips, ∀ a, (k0_off26 v5 k0_t12) a + S16.size a ≤ S32768.size a) ∧
  (∀ k0_t13 : Fin k0_t13_loop.trips, ∀ a, (k0_off28 v5 k0_t13) a + S16.size a ≤ S32768.size a) ∧
  (∀ k0_t14 : Fin k0_t14_loop.trips, ∀ a, (k0_off30 v5 k0_t14) a + S16.size a ≤ S32768.size a) ∧
  (∀ k0_t15 : Fin k0_t15_loop.trips, ∀ a, (k0_off32 v5 k0_t15) a + S16.size a ≤ S32768.size a) ∧
  (∀ k0_t16 : Fin k0_t16_loop.trips, ∀ a, (k0_off34 v5 k0_t16) a + S16.size a ≤ S32768.size a) ∧
  (∀ k0_t17 : Fin k0_t17_loop.trips, ∀ a, (k0_off36 v5 k0_t17) a + S16.size a ≤ S32768.size a) ∧
  (∀ k0_t18 : Fin k0_t18_loop.trips, ∀ a, (k0_off38 v5 k0_t18) a + S16.size a ≤ S32768.size a) ∧
  (∀ k0_t19 : Fin k0_t19_loop.trips, ∀ a, (k0_off40 v5 k0_t19) a + S16.size a ≤ S32768.size a) ∧
  (∀ k0_t20 : Fin k0_t20_loop.trips, ∀ a, (k0_off42 v5 k0_t20) a + S16.size a ≤ S32768.size a) ∧
  (∀ k0_t21 : Fin k0_t21_loop.trips, ∀ a, (k0_off44 v5 k0_t21) a + S16.size a ≤ S32768.size a) ∧
  (∀ k0_t22 : Fin k0_t22_loop.trips, ∀ a, (k0_off46 v5 k0_t22) a + S16.size a ≤ S32768.size a) ∧
  (∀ k0_t23 : Fin k0_t23_loop.trips, ∀ a, (k0_off48 v5 k0_t23) a + S16.size a ≤ S32768.size a) ∧
  (∀ k0_t24 : Fin k0_t24_loop.trips, ∀ a, (k0_off50 v5 k0_t24) a + S16.size a ≤ S32768.size a) ∧
  (∀ k0_t25 : Fin k0_t25_loop.trips, ∀ a, (k0_off52 v5 k0_t25) a + S16.size a ≤ S32768.size a) ∧
  (∀ k0_t26 : Fin k0_t26_loop.trips, ∀ a, (k0_off54 v5 k0_t26) a + S16.size a ≤ S32768.size a) ∧
  (∀ k0_t27 : Fin k0_t27_loop.trips, ∀ a, (k0_off56 v5 k0_t27) a + S16.size a ≤ S32768.size a) ∧
  (∀ k0_t28 : Fin k0_t28_loop.trips, ∀ a, (k0_off58 v5 k0_t28) a + S16.size a ≤ S32768.size a) ∧
  (∀ k0_t29 : Fin k0_t29_loop.trips, ∀ a, (k0_off60 v5 k0_t29) a + S16.size a ≤ S32768.size a) ∧
  (∀ k0_t30 : Fin k0_t30_loop.trips, ∀ a, (k0_off62 v5 k0_t30) a + S16.size a ≤ S32768.size a)
instance k0_chk1_0.dec : ∀ (i : grid0.Coords) (v5 : BitVec 32), Decidable (k0_chk1_0 i v5) := fun i v5 => decidable_of_iff' _ (Iff.of_eq (k0_chk1_0.eq_1 i v5))
def k0_chk1_1 (i : grid0.Coords) (v5 : BitVec 32) : Prop :=
  (∀ k0_t31 : Fin k0_t31_loop.trips, ∀ a, (k0_off64 v5 k0_t31) a + S16.size a ≤ S32768.size a) ∧
  (∀ k0_t32 : Fin k0_t32_loop.trips, ∀ a, (k0_off66 v5 k0_t32) a + S16.size a ≤ S32768.size a)
instance k0_chk1_1.dec : ∀ (i : grid0.Coords) (v5 : BitVec 32), Decidable (k0_chk1_1 i v5) := fun i v5 => decidable_of_iff' _ (Iff.of_eq (k0_chk1_1.eq_1 i v5))
def k0_chk1 (i : grid0.Coords) (v5 : BitVec 32) : Prop :=
  k0_chk1_0 i v5 ∧
  k0_chk1_1 i v5
instance k0_chk1.dec : ∀ (i : grid0.Coords) (v5 : BitVec 32), Decidable (k0_chk1 i v5) := fun i v5 => decidable_of_iff' _ (Iff.of_eq (k0_chk1.eq_1 i v5))
theorem k0_off1_inb : ∀ (i : grid0.Coords) (v5 : BitVec 32) (k0_hw1 : k0_chk1 i v5), ∀ (r₁ : Fin 2) (r₂ : Fin 16), ∀ a, (k0_off1 i v5 (BitVec.ofNat 32 r₁.val) (BitVec.ofNat 32 (16384 * r₂.val))) a + S16384.size a ≤ S16777216.size a := fun i v5 k0_hw1 r₁ r₂ => k0_hw1.1.1 r₁ r₂
theorem k0_off2_inb : ∀ (i : grid0.Coords) (v5 : BitVec 32) (k0_hw1 : k0_chk1 i v5), ∀ (r₁ : Fin 2) (r₂ : Fin 16), ∀ a, (k0_off2 i v5 (BitVec.ofNat 32 r₁.val) (BitVec.ofNat 32 (16384 * r₂.val))) a + S16384.size a ≤ S16777216.size a := fun i v5 k0_hw1 r₁ r₂ => k0_hw1.1.2.1 r₁ r₂
theorem k0_off3_inb : ∀ (i : grid0.Coords) (v5 : BitVec 32) (k0_hw1 : k0_chk1 i v5) (k0_t1 : Fin k0_t1_loop.trips), ∀ a, (k0_off3 v5 k0_t1) a + S16.size a ≤ S32768.size a := fun i v5 k0_hw1 k0_t1 => k0_hw1.1.2.2.1 k0_t1
theorem k0_off6_inb : ∀ (i : grid0.Coords) (v5 : BitVec 32) (k0_hw1 : k0_chk1 i v5) (k0_t2 : Fin k0_t2_loop.trips), ∀ a, (k0_off6 v5 k0_t2) a + S16.size a ≤ S32768.size a := fun i v5 k0_hw1 k0_t2 => k0_hw1.1.2.2.2.1 k0_t2
theorem k0_off8_inb : ∀ (i : grid0.Coords) (v5 : BitVec 32) (k0_hw1 : k0_chk1 i v5) (k0_t3 : Fin k0_t3_loop.trips), ∀ a, (k0_off8 v5 k0_t3) a + S16.size a ≤ S32768.size a := fun i v5 k0_hw1 k0_t3 => k0_hw1.1.2.2.2.2.1 k0_t3
theorem k0_off10_inb : ∀ (i : grid0.Coords) (v5 : BitVec 32) (k0_hw1 : k0_chk1 i v5) (k0_t4 : Fin k0_t4_loop.trips), ∀ a, (k0_off10 v5 k0_t4) a + S16.size a ≤ S32768.size a := fun i v5 k0_hw1 k0_t4 => k0_hw1.1.2.2.2.2.2.1 k0_t4
theorem k0_off12_inb : ∀ (i : grid0.Coords) (v5 : BitVec 32) (k0_hw1 : k0_chk1 i v5) (k0_t5 : Fin k0_t5_loop.trips), ∀ a, (k0_off12 v5 k0_t5) a + S16.size a ≤ S32768.size a := fun i v5 k0_hw1 k0_t5 => k0_hw1.1.2.2.2.2.2.2.1 k0_t5
theorem k0_off14_inb : ∀ (i : grid0.Coords) (v5 : BitVec 32) (k0_hw1 : k0_chk1 i v5) (k0_t6 : Fin k0_t6_loop.trips), ∀ a, (k0_off14 v5 k0_t6) a + S16.size a ≤ S32768.size a := fun i v5 k0_hw1 k0_t6 => k0_hw1.1.2.2.2.2.2.2.2.1 k0_t6
theorem k0_off16_inb : ∀ (i : grid0.Coords) (v5 : BitVec 32) (k0_hw1 : k0_chk1 i v5) (k0_t7 : Fin k0_t7_loop.trips), ∀ a, (k0_off16 v5 k0_t7) a + S16.size a ≤ S32768.size a := fun i v5 k0_hw1 k0_t7 => k0_hw1.1.2.2.2.2.2.2.2.2.1 k0_t7
theorem k0_off18_inb : ∀ (i : grid0.Coords) (v5 : BitVec 32) (k0_hw1 : k0_chk1 i v5) (k0_t8 : Fin k0_t8_loop.trips), ∀ a, (k0_off18 v5 k0_t8) a + S16.size a ≤ S32768.size a := fun i v5 k0_hw1 k0_t8 => k0_hw1.1.2.2.2.2.2.2.2.2.2.1 k0_t8
theorem k0_off20_inb : ∀ (i : grid0.Coords) (v5 : BitVec 32) (k0_hw1 : k0_chk1 i v5) (k0_t9 : Fin k0_t9_loop.trips), ∀ a, (k0_off20 v5 k0_t9) a + S16.size a ≤ S32768.size a := fun i v5 k0_hw1 k0_t9 => k0_hw1.1.2.2.2.2.2.2.2.2.2.2.1 k0_t9
theorem k0_off22_inb : ∀ (i : grid0.Coords) (v5 : BitVec 32) (k0_hw1 : k0_chk1 i v5) (k0_t10 : Fin k0_t10_loop.trips), ∀ a, (k0_off22 v5 k0_t10) a + S16.size a ≤ S32768.size a := fun i v5 k0_hw1 k0_t10 => k0_hw1.1.2.2.2.2.2.2.2.2.2.2.2.1 k0_t10
theorem k0_off24_inb : ∀ (i : grid0.Coords) (v5 : BitVec 32) (k0_hw1 : k0_chk1 i v5) (k0_t11 : Fin k0_t11_loop.trips), ∀ a, (k0_off24 v5 k0_t11) a + S16.size a ≤ S32768.size a := fun i v5 k0_hw1 k0_t11 => k0_hw1.1.2.2.2.2.2.2.2.2.2.2.2.2.1 k0_t11
theorem k0_off26_inb : ∀ (i : grid0.Coords) (v5 : BitVec 32) (k0_hw1 : k0_chk1 i v5) (k0_t12 : Fin k0_t12_loop.trips), ∀ a, (k0_off26 v5 k0_t12) a + S16.size a ≤ S32768.size a := fun i v5 k0_hw1 k0_t12 => k0_hw1.1.2.2.2.2.2.2.2.2.2.2.2.2.2.1 k0_t12
theorem k0_off28_inb : ∀ (i : grid0.Coords) (v5 : BitVec 32) (k0_hw1 : k0_chk1 i v5) (k0_t13 : Fin k0_t13_loop.trips), ∀ a, (k0_off28 v5 k0_t13) a + S16.size a ≤ S32768.size a := fun i v5 k0_hw1 k0_t13 => k0_hw1.1.2.2.2.2.2.2.2.2.2.2.2.2.2.2.1 k0_t13
theorem k0_off30_inb : ∀ (i : grid0.Coords) (v5 : BitVec 32) (k0_hw1 : k0_chk1 i v5) (k0_t14 : Fin k0_t14_loop.trips), ∀ a, (k0_off30 v5 k0_t14) a + S16.size a ≤ S32768.size a := fun i v5 k0_hw1 k0_t14 => k0_hw1.1.2.2.2.2.2.2.2.2.2.2.2.2.2.2.2.1 k0_t14
theorem k0_off32_inb : ∀ (i : grid0.Coords) (v5 : BitVec 32) (k0_hw1 : k0_chk1 i v5) (k0_t15 : Fin k0_t15_loop.trips), ∀ a, (k0_off32 v5 k0_t15) a + S16.size a ≤ S32768.size a := fun i v5 k0_hw1 k0_t15 => k0_hw1.1.2.2.2.2.2.2.2.2.2.2.2.2.2.2.2.2.1 k0_t15
theorem k0_off34_inb : ∀ (i : grid0.Coords) (v5 : BitVec 32) (k0_hw1 : k0_chk1 i v5) (k0_t16 : Fin k0_t16_loop.trips), ∀ a, (k0_off34 v5 k0_t16) a + S16.size a ≤ S32768.size a := fun i v5 k0_hw1 k0_t16 => k0_hw1.1.2.2.2.2.2.2.2.2.2.2.2.2.2.2.2.2.2.1 k0_t16
theorem k0_off36_inb : ∀ (i : grid0.Coords) (v5 : BitVec 32) (k0_hw1 : k0_chk1 i v5) (k0_t17 : Fin k0_t17_loop.trips), ∀ a, (k0_off36 v5 k0_t17) a + S16.size a ≤ S32768.size a := fun i v5 k0_hw1 k0_t17 => k0_hw1.1.2.2.2.2.2.2.2.2.2.2.2.2.2.2.2.2.2.2.1 k0_t17
theorem k0_off38_inb : ∀ (i : grid0.Coords) (v5 : BitVec 32) (k0_hw1 : k0_chk1 i v5) (k0_t18 : Fin k0_t18_loop.trips), ∀ a, (k0_off38 v5 k0_t18) a + S16.size a ≤ S32768.size a := fun i v5 k0_hw1 k0_t18 => k0_hw1.1.2.2.2.2.2.2.2.2.2.2.2.2.2.2.2.2.2.2.2.1 k0_t18
theorem k0_off40_inb : ∀ (i : grid0.Coords) (v5 : BitVec 32) (k0_hw1 : k0_chk1 i v5) (k0_t19 : Fin k0_t19_loop.trips), ∀ a, (k0_off40 v5 k0_t19) a + S16.size a ≤ S32768.size a := fun i v5 k0_hw1 k0_t19 => k0_hw1.1.2.2.2.2.2.2.2.2.2.2.2.2.2.2.2.2.2.2.2.2.1 k0_t19
theorem k0_off42_inb : ∀ (i : grid0.Coords) (v5 : BitVec 32) (k0_hw1 : k0_chk1 i v5) (k0_t20 : Fin k0_t20_loop.trips), ∀ a, (k0_off42 v5 k0_t20) a + S16.size a ≤ S32768.size a := fun i v5 k0_hw1 k0_t20 => k0_hw1.1.2.2.2.2.2.2.2.2.2.2.2.2.2.2.2.2.2.2.2.2.2.1 k0_t20
theorem k0_off44_inb : ∀ (i : grid0.Coords) (v5 : BitVec 32) (k0_hw1 : k0_chk1 i v5) (k0_t21 : Fin k0_t21_loop.trips), ∀ a, (k0_off44 v5 k0_t21) a + S16.size a ≤ S32768.size a := fun i v5 k0_hw1 k0_t21 => k0_hw1.1.2.2.2.2.2.2.2.2.2.2.2.2.2.2.2.2.2.2.2.2.2.2.1 k0_t21
theorem k0_off46_inb : ∀ (i : grid0.Coords) (v5 : BitVec 32) (k0_hw1 : k0_chk1 i v5) (k0_t22 : Fin k0_t22_loop.trips), ∀ a, (k0_off46 v5 k0_t22) a + S16.size a ≤ S32768.size a := fun i v5 k0_hw1 k0_t22 => k0_hw1.1.2.2.2.2.2.2.2.2.2.2.2.2.2.2.2.2.2.2.2.2.2.2.2.1 k0_t22
theorem k0_off48_inb : ∀ (i : grid0.Coords) (v5 : BitVec 32) (k0_hw1 : k0_chk1 i v5) (k0_t23 : Fin k0_t23_loop.trips), ∀ a, (k0_off48 v5 k0_t23) a + S16.size a ≤ S32768.size a := fun i v5 k0_hw1 k0_t23 => k0_hw1.1.2.2.2.2.2.2.2.2.2.2.2.2.2.2.2.2.2.2.2.2.2.2.2.2.1 k0_t23
theorem k0_off50_inb : ∀ (i : grid0.Coords) (v5 : BitVec 32) (k0_hw1 : k0_chk1 i v5) (k0_t24 : Fin k0_t24_loop.trips), ∀ a, (k0_off50 v5 k0_t24) a + S16.size a ≤ S32768.size a := fun i v5 k0_hw1 k0_t24 => k0_hw1.1.2.2.2.2.2.2.2.2.2.2.2.2.2.2.2.2.2.2.2.2.2.2.2.2.2.1 k0_t24
theorem k0_off52_inb : ∀ (i : grid0.Coords) (v5 : BitVec 32) (k0_hw1 : k0_chk1 i v5) (k0_t25 : Fin k0_t25_loop.trips), ∀ a, (k0_off52 v5 k0_t25) a + S16.size a ≤ S32768.size a := fun i v5 k0_hw1 k0_t25 => k0_hw1.1.2.2.2.2.2.2.2.2.2.2.2.2.2.2.2.2.2.2.2.2.2.2.2.2.2.2.1 k0_t25
theorem k0_off54_inb : ∀ (i : grid0.Coords) (v5 : BitVec 32) (k0_hw1 : k0_chk1 i v5) (k0_t26 : Fin k0_t26_loop.trips), ∀ a, (k0_off54 v5 k0_t26) a + S16.size a ≤ S32768.size a := fun i v5 k0_hw1 k0_t26 => k0_hw1.1.2.2.2.2.2.2.2.2.2.2.2.2.2.2.2.2.2.2.2.2.2.2.2.2.2.2.2.1 k0_t26
theorem k0_off56_inb : ∀ (i : grid0.Coords) (v5 : BitVec 32) (k0_hw1 : k0_chk1 i v5) (k0_t27 : Fin k0_t27_loop.trips), ∀ a, (k0_off56 v5 k0_t27) a + S16.size a ≤ S32768.size a := fun i v5 k0_hw1 k0_t27 => k0_hw1.1.2.2.2.2.2.2.2.2.2.2.2.2.2.2.2.2.2.2.2.2.2.2.2.2.2.2.2.2.1 k0_t27
theorem k0_off58_inb : ∀ (i : grid0.Coords) (v5 : BitVec 32) (k0_hw1 : k0_chk1 i v5) (k0_t28 : Fin k0_t28_loop.trips), ∀ a, (k0_off58 v5 k0_t28) a + S16.size a ≤ S32768.size a := fun i v5 k0_hw1 k0_t28 => k0_hw1.1.2.2.2.2.2.2.2.2.2.2.2.2.2.2.2.2.2.2.2.2.2.2.2.2.2.2.2.2.2.1 k0_t28
theorem k0_off60_inb : ∀ (i : grid0.Coords) (v5 : BitVec 32) (k0_hw1 : k0_chk1 i v5) (k0_t29 : Fin k0_t29_loop.trips), ∀ a, (k0_off60 v5 k0_t29) a + S16.size a ≤ S32768.size a := fun i v5 k0_hw1 k0_t29 => k0_hw1.1.2.2.2.2.2.2.2.2.2.2.2.2.2.2.2.2.2.2.2.2.2.2.2.2.2.2.2.2.2.2.1 k0_t29
theorem k0_off62_inb : ∀ (i : grid0.Coords) (v5 : BitVec 32) (k0_hw1 : k0_chk1 i v5) (k0_t30 : Fin k0_t30_loop.trips), ∀ a, (k0_off62 v5 k0_t30) a + S16.size a ≤ S32768.size a := fun i v5 k0_hw1 k0_t30 => k0_hw1.1.2.2.2.2.2.2.2.2.2.2.2.2.2.2.2.2.2.2.2.2.2.2.2.2.2.2.2.2.2.2.2 k0_t30
theorem k0_off64_inb : ∀ (i : grid0.Coords) (v5 : BitVec 32) (k0_hw1 : k0_chk1 i v5) (k0_t31 : Fin k0_t31_loop.trips), ∀ a, (k0_off64 v5 k0_t31) a + S16.size a ≤ S32768.size a := fun i v5 k0_hw1 k0_t31 => k0_hw1.2.1 k0_t31
theorem k0_off66_inb : ∀ (i : grid0.Coords) (v5 : BitVec 32) (k0_hw1 : k0_chk1 i v5) (k0_t32 : Fin k0_t32_loop.trips), ∀ a, (k0_off66 v5 k0_t32) a + S16.size a ≤ S32768.size a := fun i v5 k0_hw1 k0_t32 => k0_hw1.2.2 k0_t32

def k0_off67 (k0_t32 : Fin k0_t32_loop.trips) : Fin 1 → Nat :=
  let c0_i32_590 : BitVec 32 := 0#32
  let c1_i32_592 : BitVec 32 := 1#32
  let arg8 : BitVec 32 := Scf.iv c0_i32_590 c1_i32_592 k0_t32
  let c16_i32_595 : BitVec 32 := 16#32
  let v913 : BitVec 32 := Scalar.muli arg8 c16_i32_595
  let v914 : Index := Scalar.indexCast v913
  ![v914.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S16 : S_.BroadcastsInDim S16 (![] : Fin 0 → Fin S16.rank)
  shapeCasts_S64x512x512_S16777216 : S64x512x512.ShapeCasts S16777216
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  inb_S32768_S16384_0 : ∀ a, (![0] : Fin 1 → Nat) a + S16384.size a ≤ S32768.size a
  inb_S32768_S16384_16384 : ∀ a, (![16384] : Fin 1 → Nat) a + S16384.size a ≤ S32768.size a
  shapeCasts_S16777216_S64x512x512 : S16777216.ShapeCasts S64x512x512
  hcc0_scoped0 : 0 + S_.numel ≤ 97
  hcc0_scoped1 : 1 + S_.numel ≤ 97
  hcc0_scoped2 : 2 + S_.numel ≤ 97
  hcc0_scoped3 : 3 + S_.numel ≤ 97
  hcc0_scoped4 : 4 + S_.numel ≤ 97
  hcc0_scoped5 : 5 + S_.numel ≤ 97
  hcc0_scoped6 : 6 + S_.numel ≤ 97
  hcc0_scoped7 : 7 + S_.numel ≤ 97
  hcc0_scoped8 : 8 + S_.numel ≤ 97
  hcc0_scoped9 : 9 + S_.numel ≤ 97
  hcc0_scoped10 : 10 + S_.numel ≤ 97
  hcc0_scoped11 : 11 + S_.numel ≤ 97
  hcc0_scoped12 : 12 + S_.numel ≤ 97
  hcc0_scoped13 : 13 + S_.numel ≤ 97
  hcc0_scoped14 : 14 + S_.numel ≤ 97
  hcc0_scoped15 : 15 + S_.numel ≤ 97
  hcc0_scoped16 : 16 + S_.numel ≤ 97
  hcc0_scoped17 : 17 + S_.numel ≤ 97
  hcc0_scoped18 : 18 + S_.numel ≤ 97
  hcc0_scoped19 : 19 + S_.numel ≤ 97
  hcc0_scoped20 : 20 + S_.numel ≤ 97
  hcc0_scoped21 : 21 + S_.numel ≤ 97
  hcc0_scoped22 : 22 + S_.numel ≤ 97
  hcc0_scoped23 : 23 + S_.numel ≤ 97
  hcc0_scoped24 : 24 + S_.numel ≤ 97
  hcc0_scoped25 : 25 + S_.numel ≤ 97
  hcc0_scoped26 : 26 + S_.numel ≤ 97
  hcc0_scoped27 : 27 + S_.numel ≤ 97
  hcc0_scoped28 : 28 + S_.numel ≤ 97
  hcc0_scoped29 : 29 + S_.numel ≤ 97
  hcc0_scoped30 : 30 + S_.numel ≤ 97
  hcc0_scoped31 : 31 + S_.numel ≤ 97
  hcc0_scoped32 : 32 + S_.numel ≤ 97
  hcc0_scoped33 : 33 + S_.numel ≤ 97
  hcc0_scoped34 : 34 + S_.numel ≤ 97
  hcc0_scoped35 : 35 + S_.numel ≤ 97
  hcc0_scoped36 : 36 + S_.numel ≤ 97
  hcc0_scoped37 : 37 + S_.numel ≤ 97
  hcc0_scoped38 : 38 + S_.numel ≤ 97
  hcc0_scoped39 : 39 + S_.numel ≤ 97
  hcc0_scoped40 : 40 + S_.numel ≤ 97
  hcc0_scoped41 : 41 + S_.numel ≤ 97
  hcc0_scoped42 : 42 + S_.numel ≤ 97
  hcc0_scoped43 : 43 + S_.numel ≤ 97
  hcc0_scoped44 : 44 + S_.numel ≤ 97
  hcc0_scoped45 : 45 + S_.numel ≤ 97
  hcc0_scoped46 : 46 + S_.numel ≤ 97
  hcc0_scoped47 : 47 + S_.numel ≤ 97
  hcc0_scoped48 : 48 + S_.numel ≤ 97
  hcc0_scoped49 : 49 + S_.numel ≤ 97
  hcc0_scoped50 : 50 + S_.numel ≤ 97
  hcc0_scoped51 : 51 + S_.numel ≤ 97
  hcc0_scoped52 : 52 + S_.numel ≤ 97
  hcc0_scoped53 : 53 + S_.numel ≤ 97
  hcc0_scoped54 : 54 + S_.numel ≤ 97
  hcc0_scoped55 : 55 + S_.numel ≤ 97
  hcc0_scoped56 : 56 + S_.numel ≤ 97
  hcc0_scoped57 : 57 + S_.numel ≤ 97
  hcc0_scoped58 : 58 + S_.numel ≤ 97
  hcc0_scoped59 : 59 + S_.numel ≤ 97
  hcc0_scoped60 : 60 + S_.numel ≤ 97
  hcc0_scoped61 : 61 + S_.numel ≤ 97
  hcc0_scoped62 : 62 + S_.numel ≤ 97
  hcc0_scoped63 : 63 + S_.numel ≤ 97
  hcc0_scoped64 : 64 + S_.numel ≤ 97
  hcc0_scoped65 : 65 + S_.numel ≤ 97
  hcc0_scoped66 : 66 + S_.numel ≤ 97
  hcc0_scoped67 : 67 + S_.numel ≤ 97
  hcc0_scoped68 : 68 + S_.numel ≤ 97
  hcc0_scoped69 : 69 + S_.numel ≤ 97
  hcc0_scoped70 : 70 + S_.numel ≤ 97
  hcc0_scoped71 : 71 + S_.numel ≤ 97
  hcc0_scoped72 : 72 + S_.numel ≤ 97
  hcc0_scoped73 : 73 + S_.numel ≤ 97
  hcc0_scoped74 : 74 + S_.numel ≤ 97
  hcc0_scoped75 : 75 + S_.numel ≤ 97
  hcc0_scoped76 : 76 + S_.numel ≤ 97
  hcc0_scoped77 : 77 + S_.numel ≤ 97
  hcc0_scoped78 : 78 + S_.numel ≤ 97
  hcc0_scoped79 : 79 + S_.numel ≤ 97
  hcc0_scoped80 : 80 + S_.numel ≤ 97
  hcc0_scoped81 : 81 + S_.numel ≤ 97
  hcc0_scoped82 : 82 + S_.numel ≤ 97
  hcc0_scoped83 : 83 + S_.numel ≤ 97
  hcc0_scoped84 : 84 + S_.numel ≤ 97
  hcc0_scoped85 : 85 + S_.numel ≤ 97
  hcc0_scoped86 : 86 + S_.numel ≤ 97
  hcc0_scoped87 : 87 + S_.numel ≤ 97
  hcc0_scoped88 : 88 + S_.numel ≤ 97
  hcc0_scoped89 : 89 + S_.numel ≤ 97
  hcc0_scoped90 : 90 + S_.numel ≤ 97
  hcc0_scoped91 : 91 + S_.numel ≤ 97
  hcc0_scoped92 : 92 + S_.numel ≤ 97
  hcc0_scoped93 : 93 + S_.numel ≤ 97
  hcc0_scoped94 : 94 + S_.numel ≤ 97
  hcc0_scoped95 : 95 + S_.numel ≤ 97
  hcc0_scoped96 : 96 + S_.numel ≤ 97
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off4_inb : ∀ k0_t1 : Fin k0_t1_loop.trips, ∀ a, (k0_off4 k0_t1) a + S16.size a ≤ S16384.size a
  k0_off5_inb : ∀ i : grid0.Coords, ∀ (r₁ : Fin 2) (r₂ : Fin 16), ∀ a, (k0_off5 i (BitVec.ofNat 32 r₁.val) (BitVec.ofNat 32 (16384 * r₂.val))) a + S16384.size a ≤ S16777216.size a
  k0_t2_ok : k0_t2_loop.OK
  k0_off7_inb : ∀ k0_t2 : Fin k0_t2_loop.trips, ∀ a, (k0_off7 k0_t2) a + S16.size a ≤ S16384.size a
  k0_t3_ok : k0_t3_loop.OK
  k0_off9_inb : ∀ k0_t3 : Fin k0_t3_loop.trips, ∀ a, (k0_off9 k0_t3) a + S16.size a ≤ S16384.size a
  k0_t4_ok : k0_t4_loop.OK
  k0_off11_inb : ∀ k0_t4 : Fin k0_t4_loop.trips, ∀ a, (k0_off11 k0_t4) a + S16.size a ≤ S16384.size a
  k0_t5_ok : k0_t5_loop.OK
  k0_off13_inb : ∀ k0_t5 : Fin k0_t5_loop.trips, ∀ a, (k0_off13 k0_t5) a + S16.size a ≤ S16384.size a
  k0_t6_ok : k0_t6_loop.OK
  k0_off15_inb : ∀ k0_t6 : Fin k0_t6_loop.trips, ∀ a, (k0_off15 k0_t6) a + S16.size a ≤ S16384.size a
  k0_t7_ok : k0_t7_loop.OK
  k0_off17_inb : ∀ k0_t7 : Fin k0_t7_loop.trips, ∀ a, (k0_off17 k0_t7) a + S16.size a ≤ S16384.size a
  k0_t8_ok : k0_t8_loop.OK
  k0_off19_inb : ∀ k0_t8 : Fin k0_t8_loop.trips, ∀ a, (k0_off19 k0_t8) a + S16.size a ≤ S16384.size a
  k0_t9_ok : k0_t9_loop.OK
  k0_off21_inb : ∀ k0_t9 : Fin k0_t9_loop.trips, ∀ a, (k0_off21 k0_t9) a + S16.size a ≤ S16384.size a
  k0_t10_ok : k0_t10_loop.OK
  k0_off23_inb : ∀ k0_t10 : Fin k0_t10_loop.trips, ∀ a, (k0_off23 k0_t10) a + S16.size a ≤ S16384.size a
  k0_t11_ok : k0_t11_loop.OK
  k0_off25_inb : ∀ k0_t11 : Fin k0_t11_loop.trips, ∀ a, (k0_off25 k0_t11) a + S16.size a ≤ S16384.size a
  k0_t12_ok : k0_t12_loop.OK
  k0_off27_inb : ∀ k0_t12 : Fin k0_t12_loop.trips, ∀ a, (k0_off27 k0_t12) a + S16.size a ≤ S16384.size a
  k0_t13_ok : k0_t13_loop.OK
  k0_off29_inb : ∀ k0_t13 : Fin k0_t13_loop.trips, ∀ a, (k0_off29 k0_t13) a + S16.size a ≤ S16384.size a
  k0_t14_ok : k0_t14_loop.OK
  k0_off31_inb : ∀ k0_t14 : Fin k0_t14_loop.trips, ∀ a, (k0_off31 k0_t14) a + S16.size a ≤ S16384.size a
  k0_t15_ok : k0_t15_loop.OK
  k0_off33_inb : ∀ k0_t15 : Fin k0_t15_loop.trips, ∀ a, (k0_off33 k0_t15) a + S16.size a ≤ S16384.size a
  k0_t16_ok : k0_t16_loop.OK
  k0_off35_inb : ∀ k0_t16 : Fin k0_t16_loop.trips, ∀ a, (k0_off35 k0_t16) a + S16.size a ≤ S16384.size a
  k0_t17_ok : k0_t17_loop.OK
  k0_off37_inb : ∀ k0_t17 : Fin k0_t17_loop.trips, ∀ a, (k0_off37 k0_t17) a + S16.size a ≤ S16384.size a
  k0_t18_ok : k0_t18_loop.OK
  k0_off39_inb : ∀ k0_t18 : Fin k0_t18_loop.trips, ∀ a, (k0_off39 k0_t18) a + S16.size a ≤ S16384.size a
  k0_t19_ok : k0_t19_loop.OK
  k0_off41_inb : ∀ k0_t19 : Fin k0_t19_loop.trips, ∀ a, (k0_off41 k0_t19) a + S16.size a ≤ S16384.size a
  k0_t20_ok : k0_t20_loop.OK
  k0_off43_inb : ∀ k0_t20 : Fin k0_t20_loop.trips, ∀ a, (k0_off43 k0_t20) a + S16.size a ≤ S16384.size a
  k0_t21_ok : k0_t21_loop.OK
  k0_off45_inb : ∀ k0_t21 : Fin k0_t21_loop.trips, ∀ a, (k0_off45 k0_t21) a + S16.size a ≤ S16384.size a
  k0_t22_ok : k0_t22_loop.OK
  k0_off47_inb : ∀ k0_t22 : Fin k0_t22_loop.trips, ∀ a, (k0_off47 k0_t22) a + S16.size a ≤ S16384.size a
  k0_t23_ok : k0_t23_loop.OK
  k0_off49_inb : ∀ k0_t23 : Fin k0_t23_loop.trips, ∀ a, (k0_off49 k0_t23) a + S16.size a ≤ S16384.size a
  k0_t24_ok : k0_t24_loop.OK
  k0_off51_inb : ∀ k0_t24 : Fin k0_t24_loop.trips, ∀ a, (k0_off51 k0_t24) a + S16.size a ≤ S16384.size a
  k0_t25_ok : k0_t25_loop.OK
  k0_off53_inb : ∀ k0_t25 : Fin k0_t25_loop.trips, ∀ a, (k0_off53 k0_t25) a + S16.size a ≤ S16384.size a
  k0_t26_ok : k0_t26_loop.OK
  k0_off55_inb : ∀ k0_t26 : Fin k0_t26_loop.trips, ∀ a, (k0_off55 k0_t26) a + S16.size a ≤ S16384.size a
  k0_t27_ok : k0_t27_loop.OK
  k0_off57_inb : ∀ k0_t27 : Fin k0_t27_loop.trips, ∀ a, (k0_off57 k0_t27) a + S16.size a ≤ S16384.size a
  k0_t28_ok : k0_t28_loop.OK
  k0_off59_inb : ∀ k0_t28 : Fin k0_t28_loop.trips, ∀ a, (k0_off59 k0_t28) a + S16.size a ≤ S16384.size a
  k0_t29_ok : k0_t29_loop.OK
  k0_off61_inb : ∀ k0_t29 : Fin k0_t29_loop.trips, ∀ a, (k0_off61 k0_t29) a + S16.size a ≤ S16384.size a
  k0_t30_ok : k0_t30_loop.OK
  k0_off63_inb : ∀ k0_t30 : Fin k0_t30_loop.trips, ∀ a, (k0_off63 k0_t30) a + S16.size a ≤ S16384.size a
  k0_t31_ok : k0_t31_loop.OK
  k0_off65_inb : ∀ k0_t31 : Fin k0_t31_loop.trips, ∀ a, (k0_off65 k0_t31) a + S16.size a ≤ S16384.size a
  k0_t32_ok : k0_t32_loop.OK
  k0_off67_inb : ∀ k0_t32 : Fin k0_t32_loop.trips, ∀ a, (k0_off67 k0_t32) a + S16.size a ≤ S16384.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15
abbrev cc0_scoped16 : DmaSems sig S_ := SemArray.consecutive 16 S_ hcc0_scoped16
abbrev cc0_scoped17 : DmaSems sig S_ := SemArray.consecutive 17 S_ hcc0_scoped17
abbrev cc0_scoped18 : DmaSems sig S_ := SemArray.consecutive 18 S_ hcc0_scoped18
abbrev cc0_scoped19 : DmaSems sig S_ := SemArray.consecutive 19 S_ hcc0_scoped19
abbrev cc0_scoped20 : DmaSems sig S_ := SemArray.consecutive 20 S_ hcc0_scoped20
abbrev cc0_scoped21 : DmaSems sig S_ := SemArray.consecutive 21 S_ hcc0_scoped21
abbrev cc0_scoped22 : DmaSems sig S_ := SemArray.consecutive 22 S_ hcc0_scoped22
abbrev cc0_scoped23 : DmaSems sig S_ := SemArray.consecutive 23 S_ hcc0_scoped23
abbrev cc0_scoped24 : DmaSems sig S_ := SemArray.consecutive 24 S_ hcc0_scoped24
abbrev cc0_scoped25 : DmaSems sig S_ := SemArray.consecutive 25 S_ hcc0_scoped25
abbrev cc0_scoped26 : DmaSems sig S_ := SemArray.consecutive 26 S_ hcc0_scoped26
abbrev cc0_scoped27 : DmaSems sig S_ := SemArray.consecutive 27 S_ hcc0_scoped27
abbrev cc0_scoped28 : DmaSems sig S_ := SemArray.consecutive 28 S_ hcc0_scoped28
abbrev cc0_scoped29 : DmaSems sig S_ := SemArray.consecutive 29 S_ hcc0_scoped29
abbrev cc0_scoped30 : DmaSems sig S_ := SemArray.consecutive 30 S_ hcc0_scoped30
abbrev cc0_scoped31 : DmaSems sig S_ := SemArray.consecutive 31 S_ hcc0_scoped31
abbrev cc0_scoped32 : DmaSems sig S_ := SemArray.consecutive 32 S_ hcc0_scoped32
abbrev cc0_scoped33 : DmaSems sig S_ := SemArray.consecutive 33 S_ hcc0_scoped33
abbrev cc0_scoped34 : DmaSems sig S_ := SemArray.consecutive 34 S_ hcc0_scoped34
abbrev cc0_scoped35 : DmaSems sig S_ := SemArray.consecutive 35 S_ hcc0_scoped35
abbrev cc0_scoped36 : DmaSems sig S_ := SemArray.consecutive 36 S_ hcc0_scoped36
abbrev cc0_scoped37 : DmaSems sig S_ := SemArray.consecutive 37 S_ hcc0_scoped37
abbrev cc0_scoped38 : DmaSems sig S_ := SemArray.consecutive 38 S_ hcc0_scoped38
abbrev cc0_scoped39 : DmaSems sig S_ := SemArray.consecutive 39 S_ hcc0_scoped39
abbrev cc0_scoped40 : DmaSems sig S_ := SemArray.consecutive 40 S_ hcc0_scoped40
abbrev cc0_scoped41 : DmaSems sig S_ := SemArray.consecutive 41 S_ hcc0_scoped41
abbrev cc0_scoped42 : DmaSems sig S_ := SemArray.consecutive 42 S_ hcc0_scoped42
abbrev cc0_scoped43 : DmaSems sig S_ := SemArray.consecutive 43 S_ hcc0_scoped43
abbrev cc0_scoped44 : DmaSems sig S_ := SemArray.consecutive 44 S_ hcc0_scoped44
abbrev cc0_scoped45 : DmaSems sig S_ := SemArray.consecutive 45 S_ hcc0_scoped45
abbrev cc0_scoped46 : DmaSems sig S_ := SemArray.consecutive 46 S_ hcc0_scoped46
abbrev cc0_scoped47 : DmaSems sig S_ := SemArray.consecutive 47 S_ hcc0_scoped47
abbrev cc0_scoped48 : DmaSems sig S_ := SemArray.consecutive 48 S_ hcc0_scoped48
abbrev cc0_scoped49 : DmaSems sig S_ := SemArray.consecutive 49 S_ hcc0_scoped49
abbrev cc0_scoped50 : DmaSems sig S_ := SemArray.consecutive 50 S_ hcc0_scoped50
abbrev cc0_scoped51 : DmaSems sig S_ := SemArray.consecutive 51 S_ hcc0_scoped51
abbrev cc0_scoped52 : DmaSems sig S_ := SemArray.consecutive 52 S_ hcc0_scoped52
abbrev cc0_scoped53 : DmaSems sig S_ := SemArray.consecutive 53 S_ hcc0_scoped53
abbrev cc0_scoped54 : DmaSems sig S_ := SemArray.consecutive 54 S_ hcc0_scoped54
abbrev cc0_scoped55 : DmaSems sig S_ := SemArray.consecutive 55 S_ hcc0_scoped55
abbrev cc0_scoped56 : DmaSems sig S_ := SemArray.consecutive 56 S_ hcc0_scoped56
abbrev cc0_scoped57 : DmaSems sig S_ := SemArray.consecutive 57 S_ hcc0_scoped57
abbrev cc0_scoped58 : DmaSems sig S_ := SemArray.consecutive 58 S_ hcc0_scoped58
abbrev cc0_scoped59 : DmaSems sig S_ := SemArray.consecutive 59 S_ hcc0_scoped59
abbrev cc0_scoped60 : DmaSems sig S_ := SemArray.consecutive 60 S_ hcc0_scoped60
abbrev cc0_scoped61 : DmaSems sig S_ := SemArray.consecutive 61 S_ hcc0_scoped61
abbrev cc0_scoped62 : DmaSems sig S_ := SemArray.consecutive 62 S_ hcc0_scoped62
abbrev cc0_scoped63 : DmaSems sig S_ := SemArray.consecutive 63 S_ hcc0_scoped63
abbrev cc0_scoped64 : DmaSems sig S_ := SemArray.consecutive 64 S_ hcc0_scoped64
abbrev cc0_scoped65 : DmaSems sig S_ := SemArray.consecutive 65 S_ hcc0_scoped65
abbrev cc0_scoped66 : DmaSems sig S_ := SemArray.consecutive 66 S_ hcc0_scoped66
abbrev cc0_scoped67 : DmaSems sig S_ := SemArray.consecutive 67 S_ hcc0_scoped67
abbrev cc0_scoped68 : DmaSems sig S_ := SemArray.consecutive 68 S_ hcc0_scoped68
abbrev cc0_scoped69 : DmaSems sig S_ := SemArray.consecutive 69 S_ hcc0_scoped69
abbrev cc0_scoped70 : DmaSems sig S_ := SemArray.consecutive 70 S_ hcc0_scoped70
abbrev cc0_scoped71 : DmaSems sig S_ := SemArray.consecutive 71 S_ hcc0_scoped71
abbrev cc0_scoped72 : DmaSems sig S_ := SemArray.consecutive 72 S_ hcc0_scoped72
abbrev cc0_scoped73 : DmaSems sig S_ := SemArray.consecutive 73 S_ hcc0_scoped73
abbrev cc0_scoped74 : DmaSems sig S_ := SemArray.consecutive 74 S_ hcc0_scoped74
abbrev cc0_scoped75 : DmaSems sig S_ := SemArray.consecutive 75 S_ hcc0_scoped75
abbrev cc0_scoped76 : DmaSems sig S_ := SemArray.consecutive 76 S_ hcc0_scoped76
abbrev cc0_scoped77 : DmaSems sig S_ := SemArray.consecutive 77 S_ hcc0_scoped77
abbrev cc0_scoped78 : DmaSems sig S_ := SemArray.consecutive 78 S_ hcc0_scoped78
abbrev cc0_scoped79 : DmaSems sig S_ := SemArray.consecutive 79 S_ hcc0_scoped79
abbrev cc0_scoped80 : DmaSems sig S_ := SemArray.consecutive 80 S_ hcc0_scoped80
abbrev cc0_scoped81 : DmaSems sig S_ := SemArray.consecutive 81 S_ hcc0_scoped81
abbrev cc0_scoped82 : DmaSems sig S_ := SemArray.consecutive 82 S_ hcc0_scoped82
abbrev cc0_scoped83 : DmaSems sig S_ := SemArray.consecutive 83 S_ hcc0_scoped83
abbrev cc0_scoped84 : DmaSems sig S_ := SemArray.consecutive 84 S_ hcc0_scoped84
abbrev cc0_scoped85 : DmaSems sig S_ := SemArray.consecutive 85 S_ hcc0_scoped85
abbrev cc0_scoped86 : DmaSems sig S_ := SemArray.consecutive 86 S_ hcc0_scoped86
abbrev cc0_scoped87 : DmaSems sig S_ := SemArray.consecutive 87 S_ hcc0_scoped87
abbrev cc0_scoped88 : DmaSems sig S_ := SemArray.consecutive 88 S_ hcc0_scoped88
abbrev cc0_scoped89 : DmaSems sig S_ := SemArray.consecutive 89 S_ hcc0_scoped89
abbrev cc0_scoped90 : DmaSems sig S_ := SemArray.consecutive 90 S_ hcc0_scoped90
abbrev cc0_scoped91 : DmaSems sig S_ := SemArray.consecutive 91 S_ hcc0_scoped91
abbrev cc0_scoped92 : DmaSems sig S_ := SemArray.consecutive 92 S_ hcc0_scoped92
abbrev cc0_scoped93 : DmaSems sig S_ := SemArray.consecutive 93 S_ hcc0_scoped93
abbrev cc0_scoped94 : DmaSems sig S_ := SemArray.consecutive 94 S_ hcc0_scoped94
abbrev cc0_scoped95 : DmaSems sig S_ := SemArray.consecutive 95 S_ hcc0_scoped95
abbrev cc0_scoped96 : DmaSems sig S_ := SemArray.consecutive 96 S_ hcc0_scoped96

class Facts : Prop extends Facts₀ where

variable [Facts]
-- ==== ReferenceIdeal.lean ====
abbrev S64x512x512 : Shape := ⟨3, ![64, 512, 512]⟩
abbrev S_ : Shape := ⟨0, ![]⟩
abbrev S64x262144 : Shape := ⟨2, ![64, 262144]⟩
abbrev S262144 : Shape := ⟨1, ![262144]⟩
abbrev S262144x1 : Shape := ⟨2, ![262144, 1]⟩

abbrev nBuf : Space → Nat
  | .hbm => 46
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S_, .f32⟩
  | .hbm, ⟨2, _⟩ => ⟨S_, .f32⟩
  | .hbm, ⟨3, _⟩ => ⟨S64x262144, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S_, .i1⟩
  | .hbm, ⟨28, _⟩ => ⟨S262144, .i1⟩
  | .hbm, ⟨29, _⟩ => ⟨S262144, .i1⟩
  | .hbm, ⟨30, _⟩ => ⟨S262144, .i1⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S_, .f32⟩
  | .hbm, ⟨35, _⟩ => ⟨S64x262144, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S64x262144, .f32⟩
  | .hbm, ⟨45, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call1_v0 : Ref sig .tc := ⟨.hbm, 13, rfl⟩
abbrev main_call1_c : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_v5 : Ref sig .tc := ⟨.hbm, 21, rfl⟩
abbrev main_call1_v6 : Ref sig .tc := ⟨.hbm, 22, rfl⟩
abbrev main_call1_c_2 : Ref sig .tc := ⟨.hbm, 23, rfl⟩
abbrev main_call1_v7 : Ref sig .tc := ⟨.hbm, 24, rfl⟩
abbrev main_call1_v8 : Ref sig .tc := ⟨.hbm, 25, rfl⟩
abbrev main_call1_c_3 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩

abbrev nD : Nat := 1
abbrev τ : Topo := Topo.v7x

variable {F : FTy → Type} [FloatOps F]

class Facts₀ : Prop where
  shapeCasts_S64x512x512_S64x262144 : S64x512x512.ShapeCasts S64x262144
  bcast_S_S262144 : S_.BroadcastsInDim S262144 (![] : Fin 0 → Fin S262144.rank)
  bcast_S_S64x262144 : S_.BroadcastsInDim S64x262144 (![] : Fin 0 → Fin S64x262144.rank)
  bcast_S262144_S262144x1_0 : S262144.BroadcastsInDim S262144x1 (![0] : Fin 1 → Fin S262144x1.rank)
  shapeCasts_S64x262144_S64x512x512 : S64x262144.ShapeCasts S64x512x512
  scatter_S64x262144_S262144x1_S64x262144_0_1_1_1_wf : ScatterDims.WF S64x262144 S262144x1 S64x262144 [0] [1] [1] 1

variable [Facts₀]

def scatter_S64x262144_S262144x1_S64x262144_0_1_1_1 : ScatterDims S64x262144 S262144x1 S64x262144 where
  updateWindowDims := [0]
  insertedWindowDims := [1]
  scatterDimsToOperandDims := [1]
  indexVectorDim := 1
  wf := scatter_S64x262144_S262144x1_S64x262144_0_1_1_1_wf

class Facts : Prop extends Facts₀ where

variable [Facts]
-- ==== Proof.RefTerm.lean ====
/-
  The reference's result as one pure term of its three arguments: the operations of @main, with the
  bodies of the functions it calls in their places, composed in order. Each definition below is one
  value of the program that is read more than once; `out` is the result.
-/
import proofs.«215547_g4990751997953_cont_8to1_c_497_7_alg».proof.ReferenceIdeal

noncomputable section

namespace Cert.ReferenceIdeal.RefValue

open Cert.ReferenceIdeal Cert.ReferenceIdeal.Facts₀ Idealize.ShloMosaic

variable {F : FTy → Type} [FloatOps F] [Facts]

/-- The shift as a 32-bit word: the rounded sum of the first weight and 512 times the second, converted. -/
def shift (w1 w2 : FVec F S_ .f32) : IVec S_ 32 :=
  fptosi 32 (Host.roundeven (addf w1 (mulf (constant S_ .f32 0x44000000#32) w2)))

/-- Place `i` plus the shift, a wrapping 32-bit sum, for every place of a row. -/
def sums (w1 w2 : FVec F S_ .f32) : IVec S262144 32 :=
  addi (iotaInDim S262144 32 0) (broadcastInDim S262144 ![] bcast_S_S262144 (shift w1 w2))

/-- The divisor the remainder function uses: `262144`, or `1` were it zero. -/
def divisor : IVec S_ 32 :=
  select (cmpi .eq (id (constantI S_ 32 262144#32)) (constantI S_ 32 0#32)) (constantI S_ 32 1#32) (id (constantI S_ 32 262144#32))

/-- The truncated remainder of the sums by the divisor. -/
def trem (w1 w2 : FVec F S_ .f32) : IVec S262144 32 :=
  Host.remsi (sums w1 w2) (broadcastInDim S262144 ![] bcast_S_S262144 divisor)

/-- The floor remainder: the truncated one, plus the divisor where it is non-zero and of the other sign. -/
def frem (w1 w2 : FVec F S_ .f32) : IVec S262144 32 :=
  select
    (andi
      (cmpi .ne
        (cmpi .slt (trem w1 w2) (broadcastInDim S262144 ![] bcast_S_S262144 (constantI S_ 32 0#32)))
        (broadcastInDim S262144 ![] bcast_S_S262144 (cmpi .slt divisor (constantI S_ 32 0#32))))
      (cmpi .ne (trem w1 w2) (broadcastInDim S262144 ![] bcast_S_S262144 (constantI S_ 32 0#32))))
    (addi (trem w1 w2) (broadcastInDim S262144 ![] bcast_S_S262144 divisor))
    (trem w1 w2)

/-- The target place of every source place: the floor remainder, plus 262144 where negative. -/
def target (w1 w2 : FVec F S_ .f32) : IVec S262144 32 :=
  select
    (cmpi .slt (frem w1 w2) (broadcastInDim S262144 ![] bcast_S_S262144 (constantI S_ 32 0#32)))
    (addi (frem w1 w2) (broadcastInDim S262144 ![] bcast_S_S262144 (constantI S_ 32 262144#32)))
    (frem w1 w2)

/-- The rows of `x`, each scattered over a row of zeros: source place `i` written at its target place. -/
def scattered (x : FVec F S64x512x512 .f32) (w1 w2 : FVec F S_ .f32) : FVec F S64x262144 .f32 :=
  Host.scatter scatter_S64x262144_S262144x1_S64x262144_0_1_1_1 (fun _ b => b)
    (broadcastInDim S64x262144 ![] bcast_S_S64x262144 (constant S_ .f32 0x00000000#32))
    (broadcastInDim S262144x1 ![0] bcast_S262144_S262144x1_0 (target w1 w2))
    (shapeCast S64x262144 x shapeCasts_S64x512x512_S64x262144)

/-- The reference's result. -/
def out (x : FVec F S64x512x512 .f32) (w1 w2 : FVec F S_ .f32) : FVec F S64x512x512 .f32 :=
  shapeCast S64x512x512 (scattered x w1 w2) shapeCasts_S64x262144_S64x512x512

end Cert.ReferenceIdeal.RefValue

end
-- ==== Proof.RefRun.lean ====
/-
  The reference program's @main as a list of its 43 host operations — the three functions it calls
  (`round`, `remainder`, and `_where` inside `remainder`) written out at their call sites over the
  calls' buffer records — and its run read back: every weakly fair execution terminates with the
  result buffer at the operations' composed pure term of the arguments' launch contents
  (`RefValue.out`), the arguments unchanged.
-/
import proofs.«215547_g4990751997953_cont_8to1_c_497_7_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Facts]

/-- @main's operations in order, the called functions' bodies in their places. -/
abbrev ops : List (HloOp τ sig (Elt F)) :=
  [ reshape main_arg0 main_v0 rfl shapeCasts_S64x512x512_S64x262144,
    nullary main_cst (constant S_ .f32 0x44000000#32),
    binary main_cst main_arg2 main_v1 (mulf : (⟨S_, .f32⟩ : BufTy).Contents (Elt F) → (⟨S_, .f32⟩ : BufTy).Contents (Elt F) → (⟨S_, .f32⟩ : BufTy).Contents (Elt F)),
    binary main_arg1 main_v1 main_v2 (addf : (⟨S_, .f32⟩ : BufTy).Contents (Elt F) → (⟨S_, .f32⟩ : BufTy).Contents (Elt F) → (⟨S_, .f32⟩ : BufTy).Contents (Elt F)),
    -- round
    TRef.unary (.of main_v2) main_call0.v0 Host.roundeven,
    unary main_v3 main_v4 (fptosi 32 : (⟨S_, .f32⟩ : BufTy).Contents (Elt F) → (⟨S_, .i32⟩ : BufTy).Contents (Elt F)),
    nullary main_v5 (iotaInDim S262144 32 0),
    unary main_v4 main_v6 (broadcastInDim S262144 ![] bcast_S_S262144 : (⟨S_, .i32⟩ : BufTy).Contents (Elt F) → (⟨S262144, .i32⟩ : BufTy).Contents (Elt F)),
    binary main_v5 main_v6 main_v7 (addi : (⟨S262144, .i32⟩ : BufTy).Contents (Elt F) → (⟨S262144, .i32⟩ : BufTy).Contents (Elt F) → (⟨S262144, .i32⟩ : BufTy).Contents (Elt F)),
    nullary main_c (constantI S_ 32 262144#32),
    -- remainder
    TRef.unary (.of main_c) main_call1.v0 id,
    TRef.nullary main_call1.c (constantI S_ 32 0#32),
    TRef.binary main_call1.v0 main_call1.c main_call1.v1 (cmpi .eq),
    TRef.nullary main_call1.c_0 (constantI S_ 32 1#32),
    -- _where
    TRef.ternary main_call1.v1 main_call1.c_0 main_call1.v0 main_call1.call0.v0 select,
    TRef.unary main_call1.call0.v0 main_call1.v3 (broadcastInDim S262144 ![] bcast_S_S262144),
    TRef.binary (.of main_v7) main_call1.v3 main_call1.v4 Host.remsi,
    TRef.nullary main_call1.c_1 (constantI S_ 32 0#32),
    TRef.unary main_call1.c_1 main_call1.v5 (broadcastInDim S262144 ![] bcast_S_S262144),
    TRef.binary main_call1.v4 main_call1.v5 main_call1.v6 (cmpi .ne),
    TRef.nullary main_call1.c_2 (constantI S_ 32 0#32),
    TRef.unary main_call1.c_2 main_call1.v7 (broadcastInDim S262144 ![] bcast_S_S262144),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S262144 ![] bcast_S_S262144),
    TRef.binary main_call1.v8 main_call1.v10 main_call1.v11 (cmpi .ne),
    TRef.binary main_call1.v11 main_call1.v6 main_call1.v12 andi,
    TRef.unary main_call1.call0.v0 main_call1.v13 (broadcastInDim S262144 ![] bcast_S_S262144),
    TRef.binary main_call1.v4 main_call1.v13 main_call1.v14 addi,
    TRef.ternary main_call1.v12 main_call1.v14 main_call1.v4 main_call1.v15 select,
    -- @main again
    nullary main_cst_0 (constant S_ .f32 0x00000000#32),
    unary main_cst_0 main_v9 (broadcastInDim S64x262144 ![] bcast_S_S64x262144 : (⟨S_, .f32⟩ : BufTy).Contents (Elt F) → (⟨S64x262144, .f32⟩ : BufTy).Contents (Elt F)),
    nullary main_c_1 (constantI S_ 32 0#32),
    unary main_c_1 main_v10 (broadcastInDim S262144 ![] bcast_S_S262144 : (⟨S_, .i32⟩ : BufTy).Contents (Elt F) → (⟨S262144, .i32⟩ : BufTy).Contents (Elt F)),
    binary main_v8 main_v10 main_v11 (cmpi .slt : (⟨S262144, .i32⟩ : BufTy).Contents (Elt F) → (⟨S262144, .i32⟩ : BufTy).Contents (Elt F) → (⟨S262144, .i1⟩ : BufTy).Contents (Elt F)),
    nullary main_c_2 (constantI S_ 32 262144#32),
    unary main_c_2 main_v12 (broadcastInDim S262144 ![] bcast_S_S262144 : (⟨S_, .i32⟩ : BufTy).Contents (Elt F) → (⟨S262144, .i32⟩ : BufTy).Contents (Elt F)),
    binary main_v8 main_v12 main_v13 (addi : (⟨S262144, .i32⟩ : BufTy).Contents (Elt F) → (⟨S262144, .i32⟩ : BufTy).Contents (Elt F) → (⟨S262144, .i32⟩ : BufTy).Contents (Elt F)),
    ternary main_v11 main_v13 main_v8 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v14 main_v15 (broadcastInDim S262144x1 ![0] bcast_S262144_S262144x1_0 : (⟨S262144, .i32⟩ : BufTy).Contents (Elt F) → (⟨S262144x1, .i32⟩ : BufTy).Contents (Elt F)),
    ternary main_v9 main_v15 main_v0 main_v16 ((fun x i u => Host.scatter scatter_S64x262144_S262144x1_S64x262144_0_1_1_1 (fun _ b => b) x i u) : (⟨S64x262144, .f32⟩ : BufTy).Contents (Elt F) → (⟨S262144x1, .i32⟩ : BufTy).Contents (Elt F) → (⟨S64x262144, .f32⟩ : BufTy).Contents (Elt F) → (⟨S64x262144, .f32⟩ : BufTy).Contents (Elt F)),
    reshape main_v16 main_v17 rfl shapeCasts_S64x262144_S64x512x512 ]

-- forty-three binds re-associated: the rewrite under the chain recurses once per statement
set_option maxRecDepth 2048 in
/-- @main is that straight line: the functions' definitions unfolded at their calls, both sides are one
    chain of steps once sequencing is re-associated. -/
theorem main_eq (c : Dev nD) : main (F := F) c = seq ops := by
  simp only [main, fn_round.body, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., binary_bufs_sub .., unary_bufs_sub ..,
    unary_bufs_sub .., nullary_bufs_sub .., unary_bufs_sub .., binary_bufs_sub .., nullary_bufs_sub ..,
    unary_bufs_sub .., nullary_bufs_sub .., binary_bufs_sub .., nullary_bufs_sub .., ternary_bufs_sub ..,
    unary_bufs_sub .., binary_bufs_sub .., nullary_bufs_sub .., unary_bufs_sub .., binary_bufs_sub ..,
    nullary_bufs_sub .., unary_bufs_sub .., binary_bufs_sub .., nullary_bufs_sub .., binary_bufs_sub ..,
    unary_bufs_sub .., binary_bufs_sub .., binary_bufs_sub .., unary_bufs_sub .., binary_bufs_sub ..,
    ternary_bufs_sub ..,
    nullary_bufs_sub .., unary_bufs_sub .., nullary_bufs_sub .., unary_bufs_sub .., binary_bufs_sub ..,
    nullary_bufs_sub .., unary_bufs_sub .., binary_bufs_sub .., ternary_bufs_sub .., unary_bufs_sub ..,
    ternary_bufs_sub .., reshape_bufs_sub ..⟩

attribute [local irreducible] Host.scatter in
set_option maxRecDepth 8192 in
/-- The fold at the result buffer is `out` of the arguments by computation: each operation's result decides
    whether the buffer read is the one it writes, and the typed references' casts are the identity at these
    literal references. The scatter is kept folded meanwhile: the equation never looks inside it. -/
theorem out_eq (V : Valuation τ sig (Elt F)) :
    after ops V (main_v17 : DevRef τ sig)
      = out (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefValue

end
-- ==== Proof.RefFrame.lean ====
/-
  The reference's frame claim: it runs — every weakly fair execution terminates, nothing faulting — and its
  argument arrays end unchanged. This is the run of its straight line with the result's value dropped.
-/
import proofs.«215547_g4990751997953_cont_8to1_c_497_7_alg».proof.Defs
import proofs.«215547_g4990751997953_cont_8to1_c_497_7_alg».proof.Proof.Gen.ReferenceIdeal
import proofs.«215547_g4990751997953_cont_8to1_c_497_7_alg».proof.Proof.Gen.Pre_finite_inputs
import proofs.«215547_g4990751997953_cont_8to1_c_497_7_alg».proof.Proof.RefRun

noncomputable section

namespace Cert.ReferenceIdeal.RefValue

open Idealize.ShloMosaic Idealize.SL.Sem

theorem frame_ri : Cert.frame_ReferenceIdeal := fun m g _ =>
  (θ_run _ _ _).mono (fun _ h c => (h c).2) (run (F := Ideal) m g)

end Cert.ReferenceIdeal.RefValue

end
-- ==== Proof.Spec.lean ====
/-
  The function both programs compute. Each of the 64 rows of `x`, read as a flat vector of 512·512 = 262144
  entries, is rotated by `s` places: entry `o` of the result row is entry `(o - s) mod 262144` of the source row,
  where `s` is the integer shift `round(w_row + 512 · w_col)` reduced modulo 262144 to the range `[0, 262144)`.
  Over the flat array of 64 · 262144 = 16777216 entries: position `p` lies in row `p / 262144` at place
  `p % 262144`, and reads the source at the same row, place `(p % 262144 + 262144 - s) % 262144`.
-/
import Idealize.ShloMosaic.PureOps
import Idealize.ShloMosaic.Lib.ValueIdx

noncomputable section

namespace Cert.Roll

open Idealize.ShloMosaic Idealize.ShloMosaic.ValueIdx

abbrev S3 : Shape := ⟨3, ![64, 512, 512]⟩
abbrev S0 : Shape := ⟨0, ![]⟩
abbrev SF : Shape := ⟨1, ![16777216]⟩

/-- The source position of flat position `p` under a rotation of every row by `s`. -/
def srcPos (s p : ℕ) : ℕ := p / 262144 * 262144 + (p % 262144 + 262144 - s) % 262144

theorem srcPos_lt (s p : ℕ) (hp : p < 16777216) : srcPos s p < 16777216 := by
  unfold srcPos
  have h1 : p / 262144 < 64 := by omega
  have h2 : (p % 262144 + 262144 - s) % 262144 < 262144 := Nat.mod_lt _ (by omega)
  omega

/-- The flat array with every row of 262144 entries rotated by `s`. -/
def rollFlat {α : Type} (s : ℕ) (X : SF.Idx → α) : SF.Idx → α :=
  fun p => X (ix1 ⟨srcPos s (p 0).val, srcPos_lt s _ (p 0).isLt⟩)

/-- A signed 32-bit word reduced modulo 262144 into `[0, 262144)`. -/
def floorMod (w : BitVec 32) : BitVec 32 := BitVec.ofInt 32 (w.toInt % 262144)

theorem floorMod_toNat_lt (w : BitVec 32) : (floorMod w).toNat < 262144 := by
  unfold floorMod
  have h0 : 0 ≤ w.toInt % 262144 := Int.emod_nonneg _ (by omega)
  have h1 : w.toInt % 262144 < 262144 := Int.emod_lt_of_pos _ (by omega)
  rw [BitVec.toNat_ofInt]
  omega

variable {F : FTy → Type} [FloatOps F]

/-- The integer shift both programs compute from the two scalar weights: `round(w_row + 512 · w_col)` as a 32-bit word. -/
def shiftWord (w1 w2 : FVec F S0 .f32) : BitVec 32 :=
  (fptosi 32 (Host.roundeven (addf w1 (mulf (constant S0 .f32 0x44000000#32) w2))) : IVec S0 32) ix0

/-- The rotation, a number below 262144. -/
def sNat (w1 w2 : FVec F S0 .f32) : ℕ := (floorMod (shiftWord w1 w2)).toNat

/-- The result: `x` flattened, every row rotated by the shift, and given its shape back. -/
def Spec (x : FVec F S3 .f32) (w1 w2 : FVec F S0 .f32) : FVec F S3 .f32 :=
  shapeCast S3 (rollFlat (sNat w1 w2) (shapeCast SF x (by decide))) (by decide)

end Cert.Roll

end
-- ==== Proof.KISetup.lean ====
/-
  The rotation kernel's thirty-two tasks: the program as the launch theorem reads it, the ghost state (the launch
  handshakes' rounds beside the local transfers' counters), the arrays and scratches as each task names them, and
  how the flat arrays are dealt to the tasks: task (core c, subcore w) has number 2w + c, reads the flat input and
  the shift vector through a read share of its own, and owns the 524288 entries (two rows of 262144) of the
  flat output that start at 524288 · (2w + c).
-/
import proofs.«215547_g4990751997953_cont_8to1_c_497_7_alg».proof.Defs
import proofs.«215547_g4990751997953_cont_8to1_c_497_7_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«215547_g4990751997953_cont_8to1_c_497_7_alg».proof.Proof.Gen.KernelIdeal
import proofs.«215547_g4990751997953_cont_8to1_c_497_7_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

end Cert.Proof.KI

end
-- ==== Proof.KITileDefs.lean ====
import proofs.«215547_g4990751997953_cont_8to1_c_497_7_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and a task's share of them

Task (core c, subcore w) = coordinates `L = ![c, w]` owns the 524288 entries of the flat output starting at
1048576 · w + 524288 · c (rows 4w + 2c and 4w + 2c + 1 of the 64 × 262144 array). -/

abbrev xLoc (d : Dev nD) : Loc nD τ sig := (SparseCore.T d).loc main_v9
abbrev svLoc (d : Dev nD) : Loc nD τ sig := (SparseCore.T d).loc main_v8
abbrev oLoc (d : Dev nD) : Loc nD τ sig := (SparseCore.T d).loc main_v10

abbrev STile : Shape := ⟨1, ![524288]⟩

abbrev cV (L : grid0.Coords) : Fin τ.nSC := (L 0).castLE hcore0
abbrev jV (L : grid0.Coords) : Fin τ.nSub := (L 1).castLE hsub0

theorem tOff_inb (L : grid0.Coords) : ∀ a, (![1048576 * (L 1).val + 524288 * (L 0).val] : Fin 1 → Nat) a + STile.size a ≤ S16777216.size a := by
  have h0 : (L 0).val < 2 := (L 0).isLt
  have h1 : (L 1).val < 16 := (L 1).isLt
  intro a; match a with
  | ⟨0, _⟩ => show 1048576 * (L 1).val + 524288 * (L 0).val + 524288 ≤ 16777216; omega
abbrev tRect (L : grid0.Coords) : Rect S16777216 := Rect.unit (s := S16777216) ![1048576 * (L 1).val + 524288 * (L 0).val] STile.size (tOff_inb L)
abbrev tSet (L : grid0.Coords) : Finset S16777216.Idx :=
  (Memref.whole Cert.KernelIdeal.main_v10_scv : Memref Cert.KernelIdeal.sig Kind.scVector Space.hbm Cert.KernelIdeal.S16777216 EltTy.f32).view.setOn (tRect L).set

end Cert.Proof.KI

end
-- ==== Proof.KITileOwn.lean ====
/-
  What a task holds of its own: its ninety-seven DMA semaphores one by one (all at zero when the task starts), its
  three scratch buffers, and the shift it reads off the first word of the sixteen-word vector it has just copied in.
-/
import proofs.«215547_g4990751997953_cont_8to1_c_497_7_alg».proof.Proof.KISetup
import proofs.«215547_g4990751997953_cont_8to1_c_497_7_alg».proof.Proof.KITileDefs
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v9_scv : Memref Cert.KernelIdeal.sig Kind.scVector Space.hbm Cert.KernelIdeal.S16777216 EltTy.f32)
local notation "svV" => (Memref.whole Cert.KernelIdeal.main_v8_scv : Memref Cert.KernelIdeal.sig Kind.scVector Space.hbm Cert.KernelIdeal.S16 EltTy.i32)
local notation "oV" => (Memref.whole Cert.KernelIdeal.main_v10_scv : Memref Cert.KernelIdeal.sig Kind.scVector Space.hbm Cert.KernelIdeal.S16777216 EltTy.f32)
local notation "s5" => (Memref.whole Cert.KernelIdeal.cc0_scratch0 : Memref Cert.KernelIdeal.sig Kind.scVector Space.vmem Cert.KernelIdeal.S16 EltTy.i32)
local notation "s6" => (Memref.whole Cert.KernelIdeal.cc0_scratch1 : Memref Cert.KernelIdeal.sig Kind.scVector Space.vmem Cert.KernelIdeal.S32768 EltTy.f32)
local notation "s7" => (Memref.whole Cert.KernelIdeal.cc0_scratch2 : Memref Cert.KernelIdeal.sig Kind.scVector Space.vmem Cert.KernelIdeal.S16384 EltTy.f32)

variable [FloatOps F]

section Tile
variable (d : Dev nD) (L : grid0.Coords)

omit [FloatOps F] in
theorem ownCells_V : (ownCells (V d (cV L) (jV L)) : Finset (GSem nD τ sig)) = (Finset.univ : Finset (Fin 97)).image (fun k => ((V d (cV L) (jV L), SemLoc.dma k) : GSem nD τ sig)) := by
  have h0 : ∀ s : Sem sig, ¬ (SemLoc.reg s : SemLoc sig).isScoped .scVector = true := by decide
  have h1 : ∀ k : DmaSem sig, (SemLoc.dma k : SemLoc sig).isScoped .scVector = true := by decide
  ext ⟨t, sl⟩
  simp only [mem_ownCells, Finset.mem_image, Finset.mem_univ, true_and]
  constructor
  · rintro ⟨rfl, h⟩
    cases sl with
    | reg s => exact absurd h (h0 s)
    | dma s => exact ⟨s, rfl⟩
  · rintro ⟨k, hk⟩
    cases hk
    exact ⟨rfl, h1 k⟩

omit [FloatOps F] in
theorem ownSems0_V :
    (ownSems0 (V d (cV L) (jV L)) : sProp 𝕄)
      = iprop(semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0 ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0 ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0 ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0 ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0 ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0 ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0 ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0 ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0 ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0 ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0 ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0 ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0 ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0 ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0 ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0 ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0 ∗ semVal (V d (cV L) (jV L), SemLoc.dma cc0_scoped54.sem) 0 ∗ semVal (V d (cV L) (jV L), SemLoc.dma cc0_scoped55.sem) 0 ∗ semVal (V d (cV L) (jV L), SemLoc.dma cc0_scoped56.sem) 0 ∗ semVal (V d (cV L) (jV L), SemLoc.dma cc0_scoped57.sem) 0 ∗ semVal (V d (cV L) (jV L), SemLoc.dma cc0_scoped58.sem) 0 ∗ semVal (V d (cV L) (jV L), SemLoc.dma cc0_scoped59.sem) 0 ∗ semVal (V d (cV L) (jV L), SemLoc.dma cc0_scoped60.sem) 0 ∗ semVal (V d (cV L) (jV L), SemLoc.dma cc0_scoped61.sem) 0 ∗ semVal (V d (cV L) (jV L), SemLoc.dma cc0_scoped62.sem) 0 ∗ semVal (V d (cV L) (jV L), SemLoc.dma cc0_scoped63.sem) 0 ∗ semVal (V d (cV L) (jV L), SemLoc.dma cc0_scoped64.sem) 0 ∗ semVal (V d (cV L) (jV L), SemLoc.dma cc0_scoped65.sem) 0 ∗ semVal (V d (cV L) (jV L), SemLoc.dma cc0_scoped66.sem) 0 ∗ semVal (V d (cV L) (jV L), SemLoc.dma cc0_scoped67.sem) 0 ∗ semVal (V d (cV L) (jV L), SemLoc.dma cc0_scoped68.sem) 0 ∗ semVal (V d (cV L) (jV L), SemLoc.dma cc0_scoped69.sem) 0 ∗ semVal (V d (cV L) (jV L), SemLoc.dma cc0_scoped70.sem) 0 ∗ semVal (V d (cV L) (jV L), SemLoc.dma cc0_scoped71.sem) 0 ∗ semVal (V d (cV L) (jV L), SemLoc.dma cc0_scoped72.sem) 0 ∗ semVal (V d (cV L) (jV L), SemLoc.dma cc0_scoped73.sem) 0 ∗ semVal (V d (cV L) (jV L), SemLoc.dma cc0_scoped74.sem) 0 ∗ semVal (V d (cV L) (jV L), SemLoc.dma cc0_scoped75.sem) 0 ∗ semVal (V d (cV L) (jV L), SemLoc.dma cc0_scoped76.sem) 0 ∗ semVal (V d (cV L) (jV L), SemLoc.dma cc0_scoped77.sem) 0 ∗ semVal (V d (cV L) (jV L), SemLoc.dma cc0_scoped78.sem) 0 ∗ semVal (V d (cV L) (jV L), SemLoc.dma cc0_scoped79.sem) 0 ∗ semVal (V d (cV L) (jV L), SemLoc.dma cc0_scoped80.sem) 0 ∗ semVal (V d (cV L) (jV L), SemLoc.dma cc0_scoped81.sem) 0 ∗ semVal (V d (cV L) (jV L), SemLoc.dma cc0_scoped82.sem) 0 ∗ semVal (V d (cV L) (jV L), SemLoc.dma cc0_scoped83.sem) 0 ∗ semVal (V d (cV L) (jV L), SemLoc.dma cc0_scoped84.sem) 0 ∗ semVal (V d (cV L) (jV L), SemLoc.dma cc0_scoped85.sem) 0 ∗ semVal (V d (cV L) (jV L), SemLoc.dma cc0_scoped86.sem) 0 ∗ semVal (V d (cV L) (jV L), SemLoc.dma cc0_scoped87.sem) 0 ∗ semVal (V d (cV L) (jV L), SemLoc.dma cc0_scoped88.sem) 0 ∗ semVal (V d (cV L) (jV L), SemLoc.dma cc0_scoped89.sem) 0 ∗ semVal (V d (cV L) (jV L), SemLoc.dma cc0_scoped90.sem) 0 ∗ semVal (V d (cV L) (jV L), SemLoc.dma cc0_scoped91.sem) 0 ∗ semVal (V d (cV L) (jV L), SemLoc.dma cc0_scoped92.sem) 0 ∗ semVal (V d (cV L) (jV L), SemLoc.dma cc0_scoped93.sem) 0 ∗ semVal (V d (cV L) (jV L), SemLoc.dma cc0_scoped94.sem) 0 ∗ semVal (V d (cV L) (jV L), SemLoc.dma cc0_scoped95.sem) 0 ∗ semVal (V d (cV L) (jV L), SemLoc.dma cc0_scoped96.sem) 0) := by
  unfold SparseCore.Cfg.ownSems0
  rw [ownCells_V, SparseCore.bigSep_image_of_injOn (fun a _ b _ h => by cases h; rfl),
    bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96] : List (Fin 97)) (by decide) (by decide)]
  rfl

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

omit [FloatOps F] in
theorem v5_eq (f5 : Buf (Elt F) ((V d (cV L) (jV L)).loc cc0_scratch0)) (Sv : Buf (Elt F) (svLoc d)) :
    extractAt ![0] (extractStridedSlice S1 ![0] (shapeCast S16 (View.readAt (Elt F) (s5).view (Rect.unit (s := S16) ![0] S16.size inb_S16_S16_0).toLoadRect
      (View.write (Elt F) (s5).view f5 (ReadAs.same.apply (View.read (Elt F) (svV).view Sv)) Finset.univ)) shapeCasts_S16_S16) slices_S16_o0_S1) inpos_S1_p0
      = Sv (ValueIdx.ix1 0) := by
  rw [View.write_whole_univ]
  simp only [Memref.view_whole, View.read_whole]
  simp only [extractAt, extractStridedSlice]
  refine (shapeCast_apply _ shapeCasts_S16_S16 _ (ValueIdx.ix1 (0 : Fin 16)) rfl).trans ?_
  rw [View.readAt_apply, View.read_whole]
  exact congrArg Sv (funext fun a => Fin.ext (by match a with | ⟨0, _⟩ => rfl))

end Tile

end Cert.Proof.KI

end
-- ==== Proof.KernelIdealArithBase.lean ====
/-
  The integer arithmetic of the roll kernel's address computations, over 32-bit words.

  For a chunk constant c = 16384 * k (k < 16) and a shift word s with 0 ≤ s < 262144 the kernel computes
    g      = (c - s + 262144) rem 262144,
    start1 = floordiv(g, 16384) * 16384,
    start2 = (start1 + 16384) rem 262144,
    d      = g - start1,
  with signed 32-bit operations; floordiv is lowered as the truncated quotient, less one when the signs of
  dividend and divisor differ and the remainder is not zero. Every intermediate value is a natural number
  below 2^31, so each signed operation is the natural-number one: g = (16384 * k + 262144 - s) % 262144,
  start1 = g / 16384 * 16384, start2 = (start1 + 16384) % 262144, d = g % 16384.

  The word-level terms are stated here once, in the shape the printed programs have them (gW, fdivW, rowW),
  and read as integers with the signed-reading calculus of the library.
-/
import Idealize.ShloMosaic.Lib.Affine

namespace Cert.KernelIdeal.Arith

open Idealize.ShloMosaic

/-- The word g = (c - s + 262144) rem 262144. -/
def gW (c v5 : BitVec 32) : BitVec 32 :=
  Scalar.remsi (Scalar.addi (Scalar.subi c v5) 262144#32) 262144#32

/-- Floor division of a word by 16384 as lowered: the truncated quotient, less one when the sign of the
    dividend differs from the divisor's and the remainder is not zero. -/
def fdivW (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 16384#32 0#32)) (Scalar.extui (Scalar.cmpi .slt 16384#32 0#32))))
      (Scalar.cmpi .ne (Scalar.remsi x 16384#32) 0#32))
    (Scalar.subi (Scalar.divsi x 16384#32) 1#32)
    (Scalar.divsi x 16384#32)

/-- The word start1 = floordiv(g, 16384) * 16384. -/
def start1W (c v5 : BitVec 32) : BitVec 32 := Scalar.muli (fdivW (gW c v5)) 16384#32

/-- The word start2 = (start1 + 16384) rem 262144. -/
def start2W (c v5 : BitVec 32) : BitVec 32 := Scalar.remsi (Scalar.addi (start1W c v5) 16384#32) 262144#32

/-- The first entry of row ((2 * a1 + a0) * 2 + r) of 262144 entries. -/
def rowW (a1 a0 r : BitVec 32) : BitVec 32 :=
  Scalar.muli (Scalar.addi (Scalar.muli (Scalar.addi (Scalar.muli a1 2#32) a0) 2#32) r) 262144#32

/-- The word d + 16 * t, d = g - start1, t the trip of a loop from 0 by steps of 1. -/
def loadW (c v5 : BitVec 32) (t : Nat) : BitVec 32 :=
  Scalar.addi (Scalar.subi (gW c v5) (start1W c v5)) (Scalar.muli (Scf.iv 0#32 1#32 t) 16#32)

/-- g read as an integer: (16384 * k + 262144 - s) % 262144, for a shift below 262144. -/
theorem gW_isInt (k : Nat) (hk : k < 16) (v5 : BitVec 32) (h : v5.toNat < 262144) :
    Affine.IsInt (gW (BitVec.ofNat 32 (16384 * k)) v5) (((16384 * k + 262144 - v5.toNat) % 262144 : Nat) : Int) := by
  have hv : Affine.IsInt v5 (v5.toNat : Int) := by
    have hw := Affine.word v5
    rwa [BitVec.toInt_eq_toNat_of_lt (by omega)] at hw
  have h1 : Affine.IsInt (BitVec.ofNat 32 (16384 * k)) (16384 * (k : Int)) := Affine.ofNat _ (by omega)
  have h2 : Affine.IsInt _ (16384 * (k : Int) - (v5.toNat : Int)) := Affine.subi h1 hv (by omega)
  have h3 : Affine.IsInt 262144#32 262144 := Affine.ofNat _ (by omega)
  have h4 : Affine.IsInt _ (16384 * (k : Int) - (v5.toNat : Int) + 262144) := Affine.addi h2 h3 (by omega)
  exact Affine.remsi h4 h3 (by omega)

/-- The lowered floor division of a nonnegative word by 16384 is the quotient. -/
theorem fdivW_isInt {x : BitVec 32} {n : Int} (hx : Affine.IsInt x n) (h0 : 0 ≤ n) :
    Affine.IsInt (fdivW x) (n / 16384) := by
  have hz : Affine.IsInt 0#32 0 := Affine.ofNat _ (by omega)
  have hk : Affine.IsInt 16384#32 16384 := Affine.ofNat _ (by omega)
  have hq : Affine.IsInt (Scalar.divsi x 16384#32) (n / 16384) := Affine.divsi hx hk (by omega)
  have hr : Affine.IsInt (Scalar.remsi x 16384#32) (n % 16384) := Affine.remsi hx hk (by omega)
  have hsl : Affine.Fails (Scalar.cmpi .slt x 0#32) := Affine.slt_fails hx hz (by omega)
  -- the divisor's sign is 1
  have hks : Affine.IsInt
      (Scalar.subi (Scalar.extui (Scalar.cmpi .sgt 16384#32 0#32)) (Scalar.extui (Scalar.cmpi .slt 16384#32 0#32))) 1 :=
    Affine.subi (Affine.extui_holds (Affine.sgt_holds hk hz (by omega)) rfl)
      (Affine.extui_fails (Affine.slt_fails hk hz (by omega)) rfl) (by omega)
  unfold fdivW
  refine Affine.select_fails ?_ (Affine.word _) hq rfl
  by_cases hn : 0 < n
  · -- a positive dividend has the divisor's sign
    have hs : Affine.IsInt
        (Scalar.subi (Scalar.extui (Scalar.cmpi .sgt x 0#32)) (Scalar.extui (Scalar.cmpi .slt x 0#32))) 1 :=
      Affine.subi (Affine.extui_holds (Affine.sgt_holds hx hz hn) rfl) (Affine.extui_fails hsl rfl) (by omega)
    exact Affine.andi_fails_left (Affine.ne_fails hs hks rfl) (Affine.cmpi_term _ hr hz)
  · -- a zero dividend has remainder zero
    have hn0 : n = 0 := by omega
    have hs : Affine.IsInt
        (Scalar.subi (Scalar.extui (Scalar.cmpi .sgt x 0#32)) (Scalar.extui (Scalar.cmpi .slt x 0#32))) 0 :=
      Affine.subi (Affine.extui_fails (Affine.sgt_fails hx hz (by omega)) rfl) (Affine.extui_fails hsl rfl) (by omega)
    exact Affine.andi_fails_right (Affine.cmpi_term _ hs hks) (Affine.ne_fails hr hz (by omega))

/-- start1 read as an integer: g / 16384 * 16384. -/
theorem start1W_isInt (k : Nat) (hk : k < 16) (v5 : BitVec 32) (h : v5.toNat < 262144) :
    Affine.IsInt (start1W (BitVec.ofNat 32 (16384 * k)) v5)
      ((((16384 * k + 262144 - v5.toNat) % 262144 : Nat) : Int) / 16384 * 16384) := by
  have hg := gW_isInt k hk v5 h
  have hk16 : Affine.IsInt 16384#32 16384 := Affine.ofNat _ (by omega)
  have hf := fdivW_isInt hg (by omega)
  exact Affine.muli hf hk16 (by omega)

/-- The row's first entry read as an integer. -/
theorem rowW_isInt (a1 a0 r : Nat) (h1 : a1 < 16) (h0 : a0 < 2) (hr : r < 2) :
    Affine.IsInt (rowW (BitVec.ofNat 32 a1) (BitVec.ofNat 32 a0) (BitVec.ofNat 32 r))
      (1048576 * (a1 : Int) + 524288 * (a0 : Int) + 262144 * (r : Int)) := by
  have ha1 : Affine.IsInt (BitVec.ofNat 32 a1) (a1 : Int) := Affine.ofNat _ (by omega)
  have ha0 : Affine.IsInt (BitVec.ofNat 32 a0) (a0 : Int) := Affine.ofNat _ (by omega)
  have hrr : Affine.IsInt (BitVec.ofNat 32 r) (r : Int) := Affine.ofNat _ (by omega)
  have h2 : Affine.IsInt 2#32 2 := Affine.ofNat _ (by omega)
  have hc : Affine.IsInt 262144#32 262144 := Affine.ofNat _ (by omega)
  have hv0 : Affine.IsInt _ (2 * (a1 : Int)) := Affine.muli ha1 h2 (by omega)
  have hv1 : Affine.IsInt _ (2 * (a1 : Int) + (a0 : Int)) := Affine.addi hv0 ha0 (by omega)
  have hv6 : Affine.IsInt _ (4 * (a1 : Int) + 2 * (a0 : Int)) := Affine.muli hv1 h2 (by omega)
  have hv7 : Affine.IsInt _ (4 * (a1 : Int) + 2 * (a0 : Int) + (r : Int)) := Affine.addi hv6 hrr (by omega)
  exact Affine.muli hv7 hc (by omega)

/-- The first copy's source offset: the row's first entry plus start1. -/
theorem off1W_eq (a1 a0 r k : Nat) (h1 : a1 < 16) (h0 : a0 < 2) (hr : r < 2) (hk : k < 16)
    (v5 : BitVec 32) (h : v5.toNat < 262144) :
    (![(Scalar.addi (rowW (BitVec.ofNat 32 a1) (BitVec.ofNat 32 a0) (BitVec.ofNat 32 r))
          (start1W (BitVec.ofNat 32 (16384 * k)) v5)).toNat] : Fin 1 → Nat)
      = ![1048576 * a1 + 524288 * a0 + 262144 * r + (16384 * k + 262144 - v5.toNat) % 262144 / 16384 * 16384] := by
  have hs := start1W_isInt k hk v5 h
  have hrow := rowW_isInt a1 a0 r h1 h0 hr
  have hG : (16384 * k + 262144 - v5.toNat) % 262144 < 262144 := Nat.mod_lt _ (by omega)
  have hsum : Affine.IsInt _ (1048576 * (a1 : Int) + 524288 * (a0 : Int) + 262144 * (r : Int)
      + (((16384 * k + 262144 - v5.toNat) % 262144 : Nat) : Int) / 16384 * 16384) := Affine.addi hrow hs (by omega)
  exact Affine.vec_cons hsum (by omega) Affine.vec_nil

/-- The second copy's source offset: the row's first entry plus start2. -/
theorem off2W_eq (a1 a0 r k : Nat) (h1 : a1 < 16) (h0 : a0 < 2) (hr : r < 2) (hk : k < 16)
    (v5 : BitVec 32) (h : v5.toNat < 262144) :
    (![(Scalar.addi (rowW (BitVec.ofNat 32 a1) (BitVec.ofNat 32 a0) (BitVec.ofNat 32 r))
          (start2W (BitVec.ofNat 32 (16384 * k)) v5)).toNat] : Fin 1 → Nat)
      = ![1048576 * a1 + 524288 * a0 + 262144 * r
          + ((16384 * k + 262144 - v5.toNat) % 262144 / 16384 * 16384 + 16384) % 262144] := by
  have hs := start1W_isInt k hk v5 h
  have hrow := rowW_isInt a1 a0 r h1 h0 hr
  have hG : (16384 * k + 262144 - v5.toNat) % 262144 < 262144 := Nat.mod_lt _ (by omega)
  have hk16 : Affine.IsInt 16384#32 16384 := Affine.ofNat _ (by omega)
  have hc : Affine.IsInt 262144#32 262144 := Affine.ofNat _ (by omega)
  have ha : Affine.IsInt _ ((((16384 * k + 262144 - v5.toNat) % 262144 : Nat) : Int) / 16384 * 16384 + 16384) :=
    Affine.addi hs hk16 (by omega)
  have hs2 : Affine.IsInt (start2W (BitVec.ofNat 32 (16384 * k)) v5)
      (((((16384 * k + 262144 - v5.toNat) % 262144 : Nat) : Int) / 16384 * 16384 + 16384) % 262144) :=
    Affine.remsi ha hc (by omega)
  have hsum : Affine.IsInt _ (1048576 * (a1 : Int) + 524288 * (a0 : Int) + 262144 * (r : Int)
      + ((((16384 * k + 262144 - v5.toNat) % 262144 : Nat) : Int) / 16384 * 16384 + 16384) % 262144) :=
    Affine.addi hrow hs2 (by omega)
  exact Affine.vec_cons hsum (by omega) Affine.vec_nil

/-- A loop load's offset: d + 16 * t with d = g % 16384. -/
theorem loadW_eq (k : Nat) (hk : k < 16) (v5 : BitVec 32) (h : v5.toNat < 262144) (t : Nat) (ht : t < 1024) :
    (![(Scalar.indexCast (loadW (BitVec.ofNat 32 (16384 * k)) v5 t)).toNat] : Fin 1 → Nat)
      = ![(16384 * k + 262144 - v5.toNat) % 262144 % 16384 + 16 * t] := by
  have hg := gW_isInt k hk v5 h
  have hs := start1W_isInt k hk v5 h
  have hG : (16384 * k + 262144 - v5.toNat) % 262144 < 262144 := Nat.mod_lt _ (by omega)
  have hz : Affine.IsInt 0#32 0 := Affine.ofNat _ (by omega)
  have h1 : Affine.IsInt 1#32 1 := Affine.ofNat _ (by omega)
  have h16 : Affine.IsInt 16#32 16 := Affine.ofNat _ (by omega)
  have hd : Affine.IsInt _ ((((16384 * k + 262144 - v5.toNat) % 262144 : Nat) : Int) % 16384) :=
    Affine.subi hg hs (by omega)
  have hiv : Affine.IsInt (Scf.iv 0#32 1#32 t) (t : Int) := Affine.iv hz h1 t (by omega)
  have hm : Affine.IsInt _ (16 * (t : Int)) := Affine.muli hiv h16 (by omega)
  have hsum : Affine.IsInt (loadW (BitVec.ofNat 32 (16384 * k)) v5 t)
      ((((16384 * k + 262144 - v5.toNat) % 262144 : Nat) : Int) % 16384 + 16 * (t : Int)) :=
    Affine.addi hd hm (by omega)
  exact Affine.vec_cons (Affine.indexCast hsum) (by omega) Affine.vec_nil

end Cert.KernelIdeal.Arith
-- ==== Proof.KernelIdealArithOff.lean ====
/-
  Closed forms of the kernel's data-dependent offsets, for a shift word s = v5.toNat below 262144.
  With g = (16384 * ch + 262144 - s) % 262144 for chunk ch:
    the first copy of a chunk reads the row at g / 16384 * 16384,
    the second at (g / 16384 * 16384 + 16384) % 262144,
    and trip t of the chunk's loop loads from g % 16384 + 16 * t.
  Each printed chain is, term for term, the word-level chain read as integers in the base module.
-/
import proofs.«215547_g4990751997953_cont_8to1_c_497_7_alg».proof.Proof.Gen.KernelIdeal
import proofs.«215547_g4990751997953_cont_8to1_c_497_7_alg».proof.Proof.KernelIdealArithBase

namespace Cert.KernelIdeal.Arith

open Idealize.ShloMosaic

/-- The first copy's source offset. -/
theorem off1_eq (i : grid0.Coords) (v5 : BitVec 32) (h : v5.toNat < 262144) (r : Fin 2) (ch : Fin 16) :
    k0_off1 i v5 (BitVec.ofNat 32 r.val) (BitVec.ofNat 32 (16384 * ch.val))
      = ![1048576 * (i 1).val + 524288 * (i 0).val + 262144 * r.val
          + (16384 * ch.val + 262144 - v5.toNat) % 262144 / 16384 * 16384] :=
  off1W_eq (i 1).val (i 0).val r.val ch.val (i 1).isLt (i 0).isLt r.isLt ch.isLt v5 h

/-- The second copy's source offset. -/
theorem off2_eq (i : grid0.Coords) (v5 : BitVec 32) (h : v5.toNat < 262144) (r : Fin 2) (ch : Fin 16) :
    k0_off2 i v5 (BitVec.ofNat 32 r.val) (BitVec.ofNat 32 (16384 * ch.val))
      = ![1048576 * (i 1).val + 524288 * (i 0).val + 262144 * r.val
          + ((16384 * ch.val + 262144 - v5.toNat) % 262144 / 16384 * 16384 + 16384) % 262144] :=
  off2W_eq (i 1).val (i 0).val r.val ch.val (i 1).isLt (i 0).isLt r.isLt ch.isLt v5 h

/-- Loop 1 (chunk 0): the load offset at trip t. -/
theorem load1_eq (v5 : BitVec 32) (h : v5.toNat < 262144) (t : Fin k0_t1_loop.trips) :
    k0_off3 v5 t = ![(16384 * 0 + 262144 - v5.toNat) % 262144 % 16384 + 16 * t.val] :=
  loadW_eq 0 (by omega) v5 h t.val (Nat.lt_of_lt_of_le t.isLt Gen.k0_t1_abs.2.1)

/-- Loop 2 (chunk 1): the load offset at trip t. -/
theorem load2_eq (v5 : BitVec 32) (h : v5.toNat < 262144) (t : Fin k0_t2_loop.trips) :
    k0_off6 v5 t = ![(16384 * 1 + 262144 - v5.toNat) % 262144 % 16384 + 16 * t.val] :=
  loadW_eq 1 (by omega) v5 h t.val (Nat.lt_of_lt_of_le t.isLt Gen.k0_t2_abs.2.1)

/-- Loop 3 (chunk 2): the load offset at trip t. -/
theorem load3_eq (v5 : BitVec 32) (h : v5.toNat < 262144) (t : Fin k0_t3_loop.trips) :
    k0_off8 v5 t = ![(16384 * 2 + 262144 - v5.toNat) % 262144 % 16384 + 16 * t.val] :=
  loadW_eq 2 (by omega) v5 h t.val (Nat.lt_of_lt_of_le t.isLt Gen.k0_t3_abs.2.1)

/-- Loop 4 (chunk 3): the load offset at trip t. -/
theorem load4_eq (v5 : BitVec 32) (h : v5.toNat < 262144) (t : Fin k0_t4_loop.trips) :
    k0_off10 v5 t = ![(16384 * 3 + 262144 - v5.toNat) % 262144 % 16384 + 16 * t.val] :=
  loadW_eq 3 (by omega) v5 h t.val (Nat.lt_of_lt_of_le t.isLt Gen.k0_t4_abs.2.1)

/-- Loop 5 (chunk 4): the load offset at trip t. -/
theorem load5_eq (v5 : BitVec 32) (h : v5.toNat < 262144) (t : Fin k0_t5_loop.trips) :
    k0_off12 v5 t = ![(16384 * 4 + 262144 - v5.toNat) % 262144 % 16384 + 16 * t.val] :=
  loadW_eq 4 (by omega) v5 h t.val (Nat.lt_of_lt_of_le t.isLt Gen.k0_t5_abs.2.1)

/-- Loop 6 (chunk 5): the load offset at trip t. -/
theorem load6_eq (v5 : BitVec 32) (h : v5.toNat < 262144) (t : Fin k0_t6_loop.trips) :
    k0_off14 v5 t = ![(16384 * 5 + 262144 - v5.toNat) % 262144 % 16384 + 16 * t.val] :=
  loadW_eq 5 (by omega) v5 h t.val (Nat.lt_of_lt_of_le t.isLt Gen.k0_t6_abs.2.1)

/-- Loop 7 (chunk 6): the load offset at trip t. -/
theorem load7_eq (v5 : BitVec 32) (h : v5.toNat < 262144) (t : Fin k0_t7_loop.trips) :
    k0_off16 v5 t = ![(16384 * 6 + 262144 - v5.toNat) % 262144 % 16384 + 16 * t.val] :=
  loadW_eq 6 (by omega) v5 h t.val (Nat.lt_of_lt_of_le t.isLt Gen.k0_t7_abs.2.1)

/-- Loop 8 (chunk 7): the load offset at trip t. -/
theorem load8_eq (v5 : BitVec 32) (h : v5.toNat < 262144) (t : Fin k0_t8_loop.trips) :
    k0_off18 v5 t = ![(16384 * 7 + 262144 - v5.toNat) % 262144 % 16384 + 16 * t.val] :=
  loadW_eq 7 (by omega) v5 h t.val (Nat.lt_of_lt_of_le t.isLt Gen.k0_t8_abs.2.1)

/-- Loop 9 (chunk 8): the load offset at trip t. -/
theorem load9_eq (v5 : BitVec 32) (h : v5.toNat < 262144) (t : Fin k0_t9_loop.trips) :
    k0_off20 v5 t = ![(16384 * 8 + 262144 - v5.toNat) % 262144 % 16384 + 16 * t.val] :=
  loadW_eq 8 (by omega) v5 h t.val (Nat.lt_of_lt_of_le t.isLt Gen.k0_t9_abs.2.1)

/-- Loop 10 (chunk 9): the load offset at trip t. -/
theorem load10_eq (v5 : BitVec 32) (h : v5.toNat < 262144) (t : Fin k0_t10_loop.trips) :
    k0_off22 v5 t = ![(16384 * 9 + 262144 - v5.toNat) % 262144 % 16384 + 16 * t.val] :=
  loadW_eq 9 (by omega) v5 h t.val (Nat.lt_of_lt_of_le t.isLt Gen.k0_t10_abs.2.1)

/-- Loop 11 (chunk 10): the load offset at trip t. -/
theorem load11_eq (v5 : BitVec 32) (h : v5.toNat < 262144) (t : Fin k0_t11_loop.trips) :
    k0_off24 v5 t = ![(16384 * 10 + 262144 - v5.toNat) % 262144 % 16384 + 16 * t.val] :=
  loadW_eq 10 (by omega) v5 h t.val (Nat.lt_of_lt_of_le t.isLt Gen.k0_t11_abs.2.1)

/-- Loop 12 (chunk 11): the load offset at trip t. -/
theorem load12_eq (v5 : BitVec 32) (h : v5.toNat < 262144) (t : Fin k0_t12_loop.trips) :
    k0_off26 v5 t = ![(16384 * 11 + 262144 - v5.toNat) % 262144 % 16384 + 16 * t.val] :=
  loadW_eq 11 (by omega) v5 h t.val (Nat.lt_of_lt_of_le t.isLt Gen.k0_t12_abs.2.1)

/-- Loop 13 (chunk 12): the load offset at trip t. -/
theorem load13_eq (v5 : BitVec 32) (h : v5.toNat < 262144) (t : Fin k0_t13_loop.trips) :
    k0_off28 v5 t = ![(16384 * 12 + 262144 - v5.toNat) % 262144 % 16384 + 16 * t.val] :=
  loadW_eq 12 (by omega) v5 h t.val (Nat.lt_of_lt_of_le t.isLt Gen.k0_t13_abs.2.1)

/-- Loop 14 (chunk 13): the load offset at trip t. -/
theorem load14_eq (v5 : BitVec 32) (h : v5.toNat < 262144) (t : Fin k0_t14_loop.trips) :
    k0_off30 v5 t = ![(16384 * 13 + 262144 - v5.toNat) % 262144 % 16384 + 16 * t.val] :=
  loadW_eq 13 (by omega) v5 h t.val (Nat.lt_of_lt_of_le t.isLt Gen.k0_t14_abs.2.1)

/-- Loop 15 (chunk 14): the load offset at trip t. -/
theorem load15_eq (v5 : BitVec 32) (h : v5.toNat < 262144) (t : Fin k0_t15_loop.trips) :
    k0_off32 v5 t = ![(16384 * 14 + 262144 - v5.toNat) % 262144 % 16384 + 16 * t.val] :=
  loadW_eq 14 (by omega) v5 h t.val (Nat.lt_of_lt_of_le t.isLt Gen.k0_t15_abs.2.1)

/-- Loop 16 (chunk 15): the load offset at trip t. -/
theorem load16_eq (v5 : BitVec 32) (h : v5.toNat < 262144) (t : Fin k0_t16_loop.trips) :
    k0_off34 v5 t = ![(16384 * 15 + 262144 - v5.toNat) % 262144 % 16384 + 16 * t.val] :=
  loadW_eq 15 (by omega) v5 h t.val (Nat.lt_of_lt_of_le t.isLt Gen.k0_t16_abs.2.1)

/-- Loop 17 (chunk 0): the load offset at trip t. -/
theorem load17_eq (v5 : BitVec 32) (h : v5.toNat < 262144) (t : Fin k0_t17_loop.trips) :
    k0_off36 v5 t = ![(16384 * 0 + 262144 - v5.toNat) % 262144 % 16384 + 16 * t.val] :=
  loadW_eq 0 (by omega) v5 h t.val (Nat.lt_of_lt_of_le t.isLt Gen.k0_t17_abs.2.1)

/-- Loop 18 (chunk 1): the load offset at trip t. -/
theorem load18_eq (v5 : BitVec 32) (h : v5.toNat < 262144) (t : Fin k0_t18_loop.trips) :
    k0_off38 v5 t = ![(16384 * 1 + 262144 - v5.toNat) % 262144 % 16384 + 16 * t.val] :=
  loadW_eq 1 (by omega) v5 h t.val (Nat.lt_of_lt_of_le t.isLt Gen.k0_t18_abs.2.1)

/-- Loop 19 (chunk 2): the load offset at trip t. -/
theorem load19_eq (v5 : BitVec 32) (h : v5.toNat < 262144) (t : Fin k0_t19_loop.trips) :
    k0_off40 v5 t = ![(16384 * 2 + 262144 - v5.toNat) % 262144 % 16384 + 16 * t.val] :=
  loadW_eq 2 (by omega) v5 h t.val (Nat.lt_of_lt_of_le t.isLt Gen.k0_t19_abs.2.1)

/-- Loop 20 (chunk 3): the load offset at trip t. -/
theorem load20_eq (v5 : BitVec 32) (h : v5.toNat < 262144) (t : Fin k0_t20_loop.trips) :
    k0_off42 v5 t = ![(16384 * 3 + 262144 - v5.toNat) % 262144 % 16384 + 16 * t.val] :=
  loadW_eq 3 (by omega) v5 h t.val (Nat.lt_of_lt_of_le t.isLt Gen.k0_t20_abs.2.1)

/-- Loop 21 (chunk 4): the load offset at trip t. -/
theorem load21_eq (v5 : BitVec 32) (h : v5.toNat < 262144) (t : Fin k0_t21_loop.trips) :
    k0_off44 v5 t = ![(16384 * 4 + 262144 - v5.toNat) % 262144 % 16384 + 16 * t.val] :=
  loadW_eq 4 (by omega) v5 h t.val (Nat.lt_of_lt_of_le t.isLt Gen.k0_t21_abs.2.1)

/-- Loop 22 (chunk 5): the load offset at trip t. -/
theorem load22_eq (v5 : BitVec 32) (h : v5.toNat < 262144) (t : Fin k0_t22_loop.trips) :
    k0_off46 v5 t = ![(16384 * 5 + 262144 - v5.toNat) % 262144 % 16384 + 16 * t.val] :=
  loadW_eq 5 (by omega) v5 h t.val (Nat.lt_of_lt_of_le t.isLt Gen.k0_t22_abs.2.1)

/-- Loop 23 (chunk 6): the load offset at trip t. -/
theorem load23_eq (v5 : BitVec 32) (h : v5.toNat < 262144) (t : Fin k0_t23_loop.trips) :
    k0_off48 v5 t = ![(16384 * 6 + 262144 - v5.toNat) % 262144 % 16384 + 16 * t.val] :=
  loadW_eq 6 (by omega) v5 h t.val (Nat.lt_of_lt_of_le t.isLt Gen.k0_t23_abs.2.1)

/-- Loop 24 (chunk 7): the load offset at trip t. -/
theorem load24_eq (v5 : BitVec 32) (h : v5.toNat < 262144) (t : Fin k0_t24_loop.trips) :
    k0_off50 v5 t = ![(16384 * 7 + 262144 - v5.toNat) % 262144 % 16384 + 16 * t.val] :=
  loadW_eq 7 (by omega) v5 h t.val (Nat.lt_of_lt_of_le t.isLt Gen.k0_t24_abs.2.1)

/-- Loop 25 (chunk 8): the load offset at trip t. -/
theorem load25_eq (v5 : BitVec 32) (h : v5.toNat < 262144) (t : Fin k0_t25_loop.trips) :
    k0_off52 v5 t = ![(16384 * 8 + 262144 - v5.toNat) % 262144 % 16384 + 16 * t.val] :=
  loadW_eq 8 (by omega) v5 h t.val (Nat.lt_of_lt_of_le t.isLt Gen.k0_t25_abs.2.1)

/-- Loop 26 (chunk 9): the load offset at trip t. -/
theorem load26_eq (v5 : BitVec 32) (h : v5.toNat < 262144) (t : Fin k0_t26_loop.trips) :
    k0_off54 v5 t = ![(16384 * 9 + 262144 - v5.toNat) % 262144 % 16384 + 16 * t.val] :=
  loadW_eq 9 (by omega) v5 h t.val (Nat.lt_of_lt_of_le t.isLt Gen.k0_t26_abs.2.1)

/-- Loop 27 (chunk 10): the load offset at trip t. -/
theorem load27_eq (v5 : BitVec 32) (h : v5.toNat < 262144) (t : Fin k0_t27_loop.trips) :
    k0_off56 v5 t = ![(16384 * 10 + 262144 - v5.toNat) % 262144 % 16384 + 16 * t.val] :=
  loadW_eq 10 (by omega) v5 h t.val (Nat.lt_of_lt_of_le t.isLt Gen.k0_t27_abs.2.1)

/-- Loop 28 (chunk 11): the load offset at trip t. -/
theorem load28_eq (v5 : BitVec 32) (h : v5.toNat < 262144) (t : Fin k0_t28_loop.trips) :
    k0_off58 v5 t = ![(16384 * 11 + 262144 - v5.toNat) % 262144 % 16384 + 16 * t.val] :=
  loadW_eq 11 (by omega) v5 h t.val (Nat.lt_of_lt_of_le t.isLt Gen.k0_t28_abs.2.1)

/-- Loop 29 (chunk 12): the load offset at trip t. -/
theorem load29_eq (v5 : BitVec 32) (h : v5.toNat < 262144) (t : Fin k0_t29_loop.trips) :
    k0_off60 v5 t = ![(16384 * 12 + 262144 - v5.toNat) % 262144 % 16384 + 16 * t.val] :=
  loadW_eq 12 (by omega) v5 h t.val (Nat.lt_of_lt_of_le t.isLt Gen.k0_t29_abs.2.1)

/-- Loop 30 (chunk 13): the load offset at trip t. -/
theorem load30_eq (v5 : BitVec 32) (h : v5.toNat < 262144) (t : Fin k0_t30_loop.trips) :
    k0_off62 v5 t = ![(16384 * 13 + 262144 - v5.toNat) % 262144 % 16384 + 16 * t.val] :=
  loadW_eq 13 (by omega) v5 h t.val (Nat.lt_of_lt_of_le t.isLt Gen.k0_t30_abs.2.1)

/-- Loop 31 (chunk 14): the load offset at trip t. -/
theorem load31_eq (v5 : BitVec 32) (h : v5.toNat < 262144) (t : Fin k0_t31_loop.trips) :
    k0_off64 v5 t = ![(16384 * 14 + 262144 - v5.toNat) % 262144 % 16384 + 16 * t.val] :=
  loadW_eq 14 (by omega) v5 h t.val (Nat.lt_of_lt_of_le t.isLt Gen.k0_t31_abs.2.1)

/-- Loop 32 (chunk 15): the load offset at trip t. -/
theorem load32_eq (v5 : BitVec 32) (h : v5.toNat < 262144) (t : Fin k0_t32_loop.trips) :
    k0_off66 v5 t = ![(16384 * 15 + 262144 - v5.toNat) % 262144 % 16384 + 16 * t.val] :=
  loadW_eq 15 (by omega) v5 h t.val (Nat.lt_of_lt_of_le t.isLt Gen.k0_t32_abs.2.1)

end Cert.KernelIdeal.Arith
-- ==== Proof.KernelIdealArithChk.lean ====
/-
  The kernel's in-bounds side condition holds for every shift word below 262144.
  Each copy's source window of 16384 entries starts at a multiple of 16384 inside its row of 262144 entries
  (the row's first entry at most 63 * 262144), so it ends by 64 * 262144 = 16777216; each loop load of 16 entries
  starts at g % 16384 + 16 * t ≤ 16383 + 16 * 1023, so it ends by 32768.
-/
import proofs.«215547_g4990751997953_cont_8to1_c_497_7_alg».proof.Proof.KernelIdealArithOff

namespace Cert.KernelIdeal.Arith

open Idealize.ShloMosaic

/-- A one-entry offset vector known in closed form is in bounds when its entry is. -/
theorem inb_one {f : Fin 1 → Nat} {x s b : Nat} (hf : f = ![x]) (hx : x + s ≤ b) :
    ∀ a : Fin 1, f a + (![s] : Fin 1 → Nat) a ≤ (![b] : Fin 1 → Nat) a := by
  intro a
  have ha : a = 0 := Fin.fin_one_eq_zero a
  subst ha
  subst hf
  simpa using hx

/-- The first copy's source window lies in the flat array. -/
theorem off1_inb (i : grid0.Coords) (v5 : BitVec 32) (h : v5.toNat < 262144) (r : Fin 2) (ch : Fin 16) :
    ∀ a, (k0_off1 i v5 (BitVec.ofNat 32 r.val) (BitVec.ofNat 32 (16384 * ch.val))) a + S16384.size a ≤ S16777216.size a := by
  have hi1 : (i 1).val < 16 := (i 1).isLt
  have hi0 : (i 0).val < 2 := (i 0).isLt
  have hr : r.val < 2 := r.isLt
  have hG : (16384 * ch.val + 262144 - v5.toNat) % 262144 < 262144 := Nat.mod_lt _ (by omega)
  exact inb_one (off1_eq i v5 h r ch) (by omega)

/-- The second copy's source window lies in the flat array. -/
theorem off2_inb (i : grid0.Coords) (v5 : BitVec 32) (h : v5.toNat < 262144) (r : Fin 2) (ch : Fin 16) :
    ∀ a, (k0_off2 i v5 (BitVec.ofNat 32 r.val) (BitVec.ofNat 32 (16384 * ch.val))) a + S16384.size a ≤ S16777216.size a := by
  have hi1 : (i 1).val < 16 := (i 1).isLt
  have hi0 : (i 0).val < 2 := (i 0).isLt
  have hr : r.val < 2 := r.isLt
  have hG : (16384 * ch.val + 262144 - v5.toNat) % 262144 < 262144 := Nat.mod_lt _ (by omega)
  exact inb_one (off2_eq i v5 h r ch) (by omega)

/-- Loop 1: every load of 16 entries lies in the 32768-entry buffer. -/
theorem load1_inb (v5 : BitVec 32) (h : v5.toNat < 262144) (t : Fin k0_t1_loop.trips) :
    ∀ a, (k0_off3 v5 t) a + S16.size a ≤ S32768.size a := by
  have ht : t.val < 1024 := Nat.lt_of_lt_of_le t.isLt Gen.k0_t1_abs.2.1
  exact inb_one (load1_eq v5 h t) (by omega)

/-- Loop 2: every load of 16 entries lies in the 32768-entry buffer. -/
theorem load2_inb (v5 : BitVec 32) (h : v5.toNat < 262144) (t : Fin k0_t2_loop.trips) :
    ∀ a, (k0_off6 v5 t) a + S16.size a ≤ S32768.size a := by
  have ht : t.val < 1024 := Nat.lt_of_lt_of_le t.isLt Gen.k0_t2_abs.2.1
  exact inb_one (load2_eq v5 h t) (by omega)

/-- Loop 3: every load of 16 entries lies in the 32768-entry buffer. -/
theorem load3_inb (v5 : BitVec 32) (h : v5.toNat < 262144) (t : Fin k0_t3_loop.trips) :
    ∀ a, (k0_off8 v5 t) a + S16.size a ≤ S32768.size a := by
  have ht : t.val < 1024 := Nat.lt_of_lt_of_le t.isLt Gen.k0_t3_abs.2.1
  exact inb_one (load3_eq v5 h t) (by omega)

/-- Loop 4: every load of 16 entries lies in the 32768-entry buffer. -/
theorem load4_inb (v5 : BitVec 32) (h : v5.toNat < 262144) (t : Fin k0_t4_loop.trips) :
    ∀ a, (k0_off10 v5 t) a + S16.size a ≤ S32768.size a := by
  have ht : t.val < 1024 := Nat.lt_of_lt_of_le t.isLt Gen.k0_t4_abs.2.1
  exact inb_one (load4_eq v5 h t) (by omega)

/-- Loop 5: every load of 16 entries lies in the 32768-entry buffer. -/
theorem load5_inb (v5 : BitVec 32) (h : v5.toNat < 262144) (t : Fin k0_t5_loop.trips) :
    ∀ a, (k0_off12 v5 t) a + S16.size a ≤ S32768.size a := by
  have ht : t.val < 1024 := Nat.lt_of_lt_of_le t.isLt Gen.k0_t5_abs.2.1
  exact inb_one (load5_eq v5 h t) (by omega)

/-- Loop 6: every load of 16 entries lies in the 32768-entry buffer. -/
theorem load6_inb (v5 : BitVec 32) (h : v5.toNat < 262144) (t : Fin k0_t6_loop.trips) :
    ∀ a, (k0_off14 v5 t) a + S16.size a ≤ S32768.size a := by
  have ht : t.val < 1024 := Nat.lt_of_lt_of_le t.isLt Gen.k0_t6_abs.2.1
  exact inb_one (load6_eq v5 h t) (by omega)

/-- Loop 7: every load of 16 entries lies in the 32768-entry buffer. -/
theorem load7_inb (v5 : BitVec 32) (h : v5.toNat < 262144) (t : Fin k0_t7_loop.trips) :
    ∀ a, (k0_off16 v5 t) a + S16.size a ≤ S32768.size a := by
  have ht : t.val < 1024 := Nat.lt_of_lt_of_le t.isLt Gen.k0_t7_abs.2.1
  exact inb_one (load7_eq v5 h t) (by omega)

/-- Loop 8: every load of 16 entries lies in the 32768-entry buffer. -/
theorem load8_inb (v5 : BitVec 32) (h : v5.toNat < 262144) (t : Fin k0_t8_loop.trips) :
    ∀ a, (k0_off18 v5 t) a + S16.size a ≤ S32768.size a := by
  have ht : t.val < 1024 := Nat.lt_of_lt_of_le t.isLt Gen.k0_t8_abs.2.1
  exact inb_one (load8_eq v5 h t) (by omega)

/-- Loop 9: every load of 16 entries lies in the 32768-entry buffer. -/
theorem load9_inb (v5 : BitVec 32) (h : v5.toNat < 262144) (t : Fin k0_t9_loop.trips) :
    ∀ a, (k0_off20 v5 t) a + S16.size a ≤ S32768.size a := by
  have ht : t.val < 1024 := Nat.lt_of_lt_of_le t.isLt Gen.k0_t9_abs.2.1
  exact inb_one (load9_eq v5 h t) (by omega)

/-- Loop 10: every load of 16 entries lies in the 32768-entry buffer. -/
theorem load10_inb (v5 : BitVec 32) (h : v5.toNat < 262144) (t : Fin k0_t10_loop.trips) :
    ∀ a, (k0_off22 v5 t) a + S16.size a ≤ S32768.size a := by
  have ht : t.val < 1024 := Nat.lt_of_lt_of_le t.isLt Gen.k0_t10_abs.2.1
  exact inb_one (load10_eq v5 h t) (by omega)

/-- Loop 11: every load of 16 entries lies in the 32768-entry buffer. -/
theorem load11_inb (v5 : BitVec 32) (h : v5.toNat < 262144) (t : Fin k0_t11_loop.trips) :
    ∀ a, (k0_off24 v5 t) a + S16.size a ≤ S32768.size a := by
  have ht : t.val < 1024 := Nat.lt_of_lt_of_le t.isLt Gen.k0_t11_abs.2.1
  exact inb_one (load11_eq v5 h t) (by omega)

/-- Loop 12: every load of 16 entries lies in the 32768-entry buffer. -/
theorem load12_inb (v5 : BitVec 32) (h : v5.toNat < 262144) (t : Fin k0_t12_loop.trips) :
    ∀ a, (k0_off26 v5 t) a + S16.size a ≤ S32768.size a := by
  have ht : t.val < 1024 := Nat.lt_of_lt_of_le t.isLt Gen.k0_t12_abs.2.1
  exact inb_one (load12_eq v5 h t) (by omega)

/-- Loop 13: every load of 16 entries lies in the 32768-entry buffer. -/
theorem load13_inb (v5 : BitVec 32) (h : v5.toNat < 262144) (t : Fin k0_t13_loop.trips) :
    ∀ a, (k0_off28 v5 t) a + S16.size a ≤ S32768.size a := by
  have ht : t.val < 1024 := Nat.lt_of_lt_of_le t.isLt Gen.k0_t13_abs.2.1
  exact inb_one (load13_eq v5 h t) (by omega)

/-- Loop 14: every load of 16 entries lies in the 32768-entry buffer. -/
theorem load14_inb (v5 : BitVec 32) (h : v5.toNat < 262144) (t : Fin k0_t14_loop.trips) :
    ∀ a, (k0_off30 v5 t) a + S16.size a ≤ S32768.size a := by
  have ht : t.val < 1024 := Nat.lt_of_lt_of_le t.isLt Gen.k0_t14_abs.2.1
  exact inb_one (load14_eq v5 h t) (by omega)

/-- Loop 15: every load of 16 entries lies in the 32768-entry buffer. -/
theorem load15_inb (v5 : BitVec 32) (h : v5.toNat < 262144) (t : Fin k0_t15_loop.trips) :
    ∀ a, (k0_off32 v5 t) a + S16.size a ≤ S32768.size a := by
  have ht : t.val < 1024 := Nat.lt_of_lt_of_le t.isLt Gen.k0_t15_abs.2.1
  exact inb_one (load15_eq v5 h t) (by omega)

/-- Loop 16: every load of 16 entries lies in the 32768-entry buffer. -/
theorem load16_inb (v5 : BitVec 32) (h : v5.toNat < 262144) (t : Fin k0_t16_loop.trips) :
    ∀ a, (k0_off34 v5 t) a + S16.size a ≤ S32768.size a := by
  have ht : t.val < 1024 := Nat.lt_of_lt_of_le t.isLt Gen.k0_t16_abs.2.1
  exact inb_one (load16_eq v5 h t) (by omega)

/-- Loop 17: every load of 16 entries lies in the 32768-entry buffer. -/
theorem load17_inb (v5 : BitVec 32) (h : v5.toNat < 262144) (t : Fin k0_t17_loop.trips) :
    ∀ a, (k0_off36 v5 t) a + S16.size a ≤ S32768.size a := by
  have ht : t.val < 1024 := Nat.lt_of_lt_of_le t.isLt Gen.k0_t17_abs.2.1
  exact inb_one (load17_eq v5 h t) (by omega)

/-- Loop 18: every load of 16 entries lies in the 32768-entry buffer. -/
theorem load18_inb (v5 : BitVec 32) (h : v5.toNat < 262144) (t : Fin k0_t18_loop.trips) :
    ∀ a, (k0_off38 v5 t) a + S16.size a ≤ S32768.size a := by
  have ht : t.val < 1024 := Nat.lt_of_lt_of_le t.isLt Gen.k0_t18_abs.2.1
  exact inb_one (load18_eq v5 h t) (by omega)

/-- Loop 19: every load of 16 entries lies in the 32768-entry buffer. -/
theorem load19_inb (v5 : BitVec 32) (h : v5.toNat < 262144) (t : Fin k0_t19_loop.trips) :
    ∀ a, (k0_off40 v5 t) a + S16.size a ≤ S32768.size a := by
  have ht : t.val < 1024 := Nat.lt_of_lt_of_le t.isLt Gen.k0_t19_abs.2.1
  exact inb_one (load19_eq v5 h t) (by omega)

/-- Loop 20: every load of 16 entries lies in the 32768-entry buffer. -/
theorem load20_inb (v5 : BitVec 32) (h : v5.toNat < 262144) (t : Fin k0_t20_loop.trips) :
    ∀ a, (k0_off42 v5 t) a + S16.size a ≤ S32768.size a := by
  have ht : t.val < 1024 := Nat.lt_of_lt_of_le t.isLt Gen.k0_t20_abs.2.1
  exact inb_one (load20_eq v5 h t) (by omega)

/-- Loop 21: every load of 16 entries lies in the 32768-entry buffer. -/
theorem load21_inb (v5 : BitVec 32) (h : v5.toNat < 262144) (t : Fin k0_t21_loop.trips) :
    ∀ a, (k0_off44 v5 t) a + S16.size a ≤ S32768.size a := by
  have ht : t.val < 1024 := Nat.lt_of_lt_of_le t.isLt Gen.k0_t21_abs.2.1
  exact inb_one (load21_eq v5 h t) (by omega)

/-- Loop 22: every load of 16 entries lies in the 32768-entry buffer. -/
theorem load22_inb (v5 : BitVec 32) (h : v5.toNat < 262144) (t : Fin k0_t22_loop.trips) :
    ∀ a, (k0_off46 v5 t) a + S16.size a ≤ S32768.size a := by
  have ht : t.val < 1024 := Nat.lt_of_lt_of_le t.isLt Gen.k0_t22_abs.2.1
  exact inb_one (load22_eq v5 h t) (by omega)

/-- Loop 23: every load of 16 entries lies in the 32768-entry buffer. -/
theorem load23_inb (v5 : BitVec 32) (h : v5.toNat < 262144) (t : Fin k0_t23_loop.trips) :
    ∀ a, (k0_off48 v5 t) a + S16.size a ≤ S32768.size a := by
  have ht : t.val < 1024 := Nat.lt_of_lt_of_le t.isLt Gen.k0_t23_abs.2.1
  exact inb_one (load23_eq v5 h t) (by omega)

/-- Loop 24: every load of 16 entries lies in the 32768-entry buffer. -/
theorem load24_inb (v5 : BitVec 32) (h : v5.toNat < 262144) (t : Fin k0_t24_loop.trips) :
    ∀ a, (k0_off50 v5 t) a + S16.size a ≤ S32768.size a := by
  have ht : t.val < 1024 := Nat.lt_of_lt_of_le t.isLt Gen.k0_t24_abs.2.1
  exact inb_one (load24_eq v5 h t) (by omega)

/-- Loop 25: every load of 16 entries lies in the 32768-entry buffer. -/
theorem load25_inb (v5 : BitVec 32) (h : v5.toNat < 262144) (t : Fin k0_t25_loop.trips) :
    ∀ a, (k0_off52 v5 t) a + S16.size a ≤ S32768.size a := by
  have ht : t.val < 1024 := Nat.lt_of_lt_of_le t.isLt Gen.k0_t25_abs.2.1
  exact inb_one (load25_eq v5 h t) (by omega)

/-- Loop 26: every load of 16 entries lies in the 32768-entry buffer. -/
theorem load26_inb (v5 : BitVec 32) (h : v5.toNat < 262144) (t : Fin k0_t26_loop.trips) :
    ∀ a, (k0_off54 v5 t) a + S16.size a ≤ S32768.size a := by
  have ht : t.val < 1024 := Nat.lt_of_lt_of_le t.isLt Gen.k0_t26_abs.2.1
  exact inb_one (load26_eq v5 h t) (by omega)

/-- Loop 27: every load of 16 entries lies in the 32768-entry buffer. -/
theorem load27_inb (v5 : BitVec 32) (h : v5.toNat < 262144) (t : Fin k0_t27_loop.trips) :
    ∀ a, (k0_off56 v5 t) a + S16.size a ≤ S32768.size a := by
  have ht : t.val < 1024 := Nat.lt_of_lt_of_le t.isLt Gen.k0_t27_abs.2.1
  exact inb_one (load27_eq v5 h t) (by omega)

/-- Loop 28: every load of 16 entries lies in the 32768-entry buffer. -/
theorem load28_inb (v5 : BitVec 32) (h : v5.toNat < 262144) (t : Fin k0_t28_loop.trips) :
    ∀ a, (k0_off58 v5 t) a + S16.size a ≤ S32768.size a := by
  have ht : t.val < 1024 := Nat.lt_of_lt_of_le t.isLt Gen.k0_t28_abs.2.1
  exact inb_one (load28_eq v5 h t) (by omega)

/-- Loop 29: every load of 16 entries lies in the 32768-entry buffer. -/
theorem load29_inb (v5 : BitVec 32) (h : v5.toNat < 262144) (t : Fin k0_t29_loop.trips) :
    ∀ a, (k0_off60 v5 t) a + S16.size a ≤ S32768.size a := by
  have ht : t.val < 1024 := Nat.lt_of_lt_of_le t.isLt Gen.k0_t29_abs.2.1
  exact inb_one (load29_eq v5 h t) (by omega)

/-- Loop 30: every load of 16 entries lies in the 32768-entry buffer. -/
theorem load30_inb (v5 : BitVec 32) (h : v5.toNat < 262144) (t : Fin k0_t30_loop.trips) :
    ∀ a, (k0_off62 v5 t) a + S16.size a ≤ S32768.size a := by
  have ht : t.val < 1024 := Nat.lt_of_lt_of_le t.isLt Gen.k0_t30_abs.2.1
  exact inb_one (load30_eq v5 h t) (by omega)

/-- Loop 31: every load of 16 entries lies in the 32768-entry buffer. -/
theorem load31_inb (v5 : BitVec 32) (h : v5.toNat < 262144) (t : Fin k0_t31_loop.trips) :
    ∀ a, (k0_off64 v5 t) a + S16.size a ≤ S32768.size a := by
  have ht : t.val < 1024 := Nat.lt_of_lt_of_le t.isLt Gen.k0_t31_abs.2.1
  exact inb_one (load31_eq v5 h t) (by omega)

/-- Loop 32: every load of 16 entries lies in the 32768-entry buffer. -/
theorem load32_inb (v5 : BitVec 32) (h : v5.toNat < 262144) (t : Fin k0_t32_loop.trips) :
    ∀ a, (k0_off66 v5 t) a + S16.size a ≤ S32768.size a := by
  have ht : t.val < 1024 := Nat.lt_of_lt_of_le t.isLt Gen.k0_t32_abs.2.1
  exact inb_one (load32_eq v5 h t) (by omega)

/-- The side condition the kernel's body assumes of the shift word it reads. -/
theorem chk_of_lt (i : grid0.Coords) (v5 : BitVec 32) (h : v5.toNat < 262144) : k0_chk1 i v5 := by
  unfold k0_chk1 k0_chk1_0 k0_chk1_1
  exact
    ⟨⟨fun r ch => off1_inb i v5 h r ch, fun r ch => off2_inb i v5 h r ch,
     load1_inb v5 h,
     load2_inb v5 h,
     load3_inb v5 h,
     load4_inb v5 h,
     load5_inb v5 h,
     load6_inb v5 h,
     load7_inb v5 h,
     load8_inb v5 h,
     load9_inb v5 h,
     load10_inb v5 h,
     load11_inb v5 h,
     load12_inb v5 h,
     load13_inb v5 h,
     load14_inb v5 h,
     load15_inb v5 h,
     load16_inb v5 h,
     load17_inb v5 h,
     load18_inb v5 h,
     load19_inb v5 h,
     load20_inb v5 h,
     load21_inb v5 h,
     load22_inb v5 h,
     load23_inb v5 h,
     load24_inb v5 h,
     load25_inb v5 h,
     load26_inb v5 h,
     load27_inb v5 h,
     load28_inb v5 h,
     load29_inb v5 h,
     load30_inb v5 h⟩,
     ⟨load31_inb v5 h, load32_inb v5 h⟩⟩

end Cert.KernelIdeal.Arith
-- ==== Proof.KITileFrame.lean ====
/-
  A task of the rotation kernel runs to its end, faults nowhere, and gives back what it was handed: its read shares
  of the flat input and of the shift vector, its part of the flat output (at some contents), its scratch buffers
  and its semaphores at zero. The task copies the shift vector in and reads the shift off its first word (in range
  by hypothesis, so every slice below is inside its array); then, thirty-two times, it copies two consecutive
  16384-entry blocks of the input row into the double-width buffer, moves 16384 entries from there into the chunk
  buffer sixteen at a time (a counted loop of 1024 trips, run at an invariant), and copies the chunk buffer out.
-/
import proofs.«215547_g4990751997953_cont_8to1_c_497_7_alg».proof.Proof.KISetup
import proofs.«215547_g4990751997953_cont_8to1_c_497_7_alg».proof.Proof.KITileDefs
import proofs.«215547_g4990751997953_cont_8to1_c_497_7_alg».proof.Proof.KITileOwn
import proofs.«215547_g4990751997953_cont_8to1_c_497_7_alg».proof.Proof.KernelIdealArithChk
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v9_scv : Memref Cert.KernelIdeal.sig Kind.scVector Space.hbm Cert.KernelIdeal.S16777216 EltTy.f32)
local notation "svV" => (Memref.whole Cert.KernelIdeal.main_v8_scv : Memref Cert.KernelIdeal.sig Kind.scVector Space.hbm Cert.KernelIdeal.S16 EltTy.i32)
local notation "oV" => (Memref.whole Cert.KernelIdeal.main_v10_scv : Memref Cert.KernelIdeal.sig Kind.scVector Space.hbm Cert.KernelIdeal.S16777216 EltTy.f32)
local notation "s5" => (Memref.whole Cert.KernelIdeal.cc0_scratch0 : Memref Cert.KernelIdeal.sig Kind.scVector Space.vmem Cert.KernelIdeal.S16 EltTy.i32)
local notation "s6" => (Memref.whole Cert.KernelIdeal.cc0_scratch1 : Memref Cert.KernelIdeal.sig Kind.scVector Space.vmem Cert.KernelIdeal.S32768 EltTy.f32)
local notation "s7" => (Memref.whole Cert.KernelIdeal.cc0_scratch2 : Memref Cert.KernelIdeal.sig Kind.scVector Space.vmem Cert.KernelIdeal.S16384 EltTy.f32)

variable [FloatOps F]

section Tile
variable (d : Dev nD) (L : grid0.Coords)

/-- While a chunk's sixteen-entry pieces are moved, the double-width buffer and the chunk buffer are both held. -/
def invF (d : Dev nD) (L : grid0.Coords) (_ : Nat) (_ : PUnit) : sProp 𝕄 :=
  iprop((∃ B, (s6).view.loc (V d (cV L) (jV L)) ↦{fullShare} B) ∗ ∃ f, (s7).view.loc (V d (cV L) (jV L)) ↦{fullShare} f)

set_option maxHeartbeats 40000000 in
theorem tile_frame (hF : (K (F := F)).Facts) (qx qs : PosShare TreeShare) (X : Buf (Elt F) (xLoc d)) (Sv : Buf (Elt F) (svLoc d)) (fo : Buf (Elt F) (oLoc d))
    (hs : (Sv (ValueIdx.ix1 0)).toNat < 262144)
    (O : CellTallies nD τ sig (HIx 1)) (W : Waits sig (HIx 1)) (hO : ∀ g, O g none = 0) :
    iprop(levAts (K (F := F)).L (K (F := F)).lev ∗ emp
        ∗ ((xLoc d ↦{qx} X : sProp 𝕄) ∗ (svLoc d ↦{qs} Sv) ∗ (oLoc d ↦[tSet L]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_roll_k L xV (Memref.isWhole_whole _) svV (Memref.isWhole_whole _) oV (Memref.isWhole_whole _)
            s5 (Memref.isWhole_whole _) s6 (Memref.isWhole_whole _) s7 (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96)
          fun _ => (iprop(((xLoc d ↦{qx} X) ∗ (svLoc d ↦{qs} Sv) ∗ ∃ f, ⌜True⌝ ∗ (oLoc d ↦[tSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨Hx, Hsv, Ho⟩, ⟨⟨%f5, H5⟩, ⟨%f6, H6⟩, ⟨%f7, H7⟩, Hbufs⟩, ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63, Hs64, Hs65, Hs66, Hs67, Hs68, Hs69, Hs70, Hs71, Hs72, Hs73, Hs74, Hs75, Hs76, Hs77, Hs78, Hs79, Hs80, Hs81, Hs82, Hs83, Hs84, Hs85, Hs86, Hs87, Hs88, Hs89, Hs90, Hs91, Hs92, Hs93, Hs94, Hs95, Hs96⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xLoc d ↦{qx} X : sProp 𝕄) = ((xV).view.loc (V d (cV L) (jV L)) ↦{qx} X) from rfl)) $$ Hx
  ihave Hsv' := (Entails.of_eq (show (svLoc d ↦{qs} Sv : sProp 𝕄) = ((svV).view.loc (V d (cV L) (jV L)) ↦{qs} Sv) from rfl)) $$ Hsv
  ihave Ho' := (Entails.of_eq (show (oLoc d ↦[tSet L]{fullShare} fo : sProp 𝕄) = ((oV).view.loc (V d (cV L) (jV L)) ↦[(oV).view.setOn (tRect L).set]{fullShare} fo) from rfl)) $$ Ho
  ihave H5' := (Entails.of_eq (show ((V d (cV L) (jV L)).loc cc0_scratch0 ↦{fullShare} f5 : sProp 𝕄) = ((s5).view.loc (V d (cV L) (jV L)) ↦{fullShare} f5) from rfl)) $$ H5
  ihave H6' := (Entails.of_eq (show ((V d (cV L) (jV L)).loc cc0_scratch1 ↦{fullShare} f6 : sProp 𝕄) = ((s6).view.loc (V d (cV L) (jV L)) ↦{fullShare} f6) from rfl)) $$ H6
  ihave H7' := (Entails.of_eq (show ((V d (cV L) (jV L)).loc cc0_scratch2 ↦{fullShare} f7 : sProp 𝕄) = ((s7).view.loc (V d (cV L) (jV L)) ↦{fullShare} f7) from rfl)) $$ H7
  sl_exec_parts (disch := (refine Cert.KernelIdeal.Arith.chk_of_lt _ _ ?_; sl_unfold_run_names; exact lt_of_eq_of_lt (congrArg BitVec.toNat (v5_eq d L _ _)) hs))
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_step
  isplitl [Hx' Hsv' Ho']
  · isplitl [Hx']; · iexact Hx'
    isplitl [Hsv']; · iexact Hsv'
    iexists _; isplitr
    · ipureintro; trivial
    · iexact Ho'
  isplitl [H5' H6' H7' Hbufs]
  · isplitl [H5']; · iexists _; iexact H5'
    isplitl [H6']; · iexists _; iexact H6'
    isplitl [H7']; · iexists _; iexact H7'
    iexact Hbufs
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79 Hs80 Hs81 Hs82 Hs83 Hs84 Hs85 Hs86 Hs87 Hs88 Hs89 Hs90 Hs91 Hs92 Hs93 Hs94 Hs95 Hs96]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    isplitl [Hs39]; · iexact Hs39
    isplitl [Hs40]; · iexact Hs40
    isplitl [Hs41]; · iexact Hs41
    isplitl [Hs42]; · iexact Hs42
    isplitl [Hs43]; · iexact Hs43
    isplitl [Hs44]; · iexact Hs44
    isplitl [Hs45]; · iexact Hs45
    isplitl [Hs46]; · iexact Hs46
    isplitl [Hs47]; · iexact Hs47
    isplitl [Hs48]; · iexact Hs48
    isplitl [Hs49]; · iexact Hs49
    isplitl [Hs50]; · iexact Hs50
    isplitl [Hs51]; · iexact Hs51
    isplitl [Hs52]; · iexact Hs52
    isplitl [Hs53]; · iexact Hs53
    isplitl [Hs54]; · iexact Hs54
    isplitl [Hs55]; · iexact Hs55
    isplitl [Hs56]; · iexact Hs56
    isplitl [Hs57]; · iexact Hs57
    isplitl [Hs58]; · iexact Hs58
    isplitl [Hs59]; · iexact Hs59
    isplitl [Hs60]; · iexact Hs60
    isplitl [Hs61]; · iexact Hs61
    isplitl [Hs62]; · iexact Hs62
    isplitl [Hs63]; · iexact Hs63
    isplitl [Hs64]; · iexact Hs64
    isplitl [Hs65]; · iexact Hs65
    isplitl [Hs66]; · iexact Hs66
    isplitl [Hs67]; · iexact Hs67
    isplitl [Hs68]; · iexact Hs68
    isplitl [Hs69]; · iexact Hs69
    isplitl [Hs70]; · iexact Hs70
    isplitl [Hs71]; · iexact Hs71
    isplitl [Hs72]; · iexact Hs72
    isplitl [Hs73]; · iexact Hs73
    isplitl [Hs74]; · iexact Hs74
    isplitl [Hs75]; · iexact Hs75
    isplitl [Hs76]; · iexact Hs76
    isplitl [Hs77]; · iexact Hs77
    isplitl [Hs78]; · iexact Hs78
    isplitl [Hs79]; · iexact Hs79
    isplitl [Hs80]; · iexact Hs80
    isplitl [Hs81]; · iexact Hs81
    isplitl [Hs82]; · iexact Hs82
    isplitl [Hs83]; · iexact Hs83
    isplitl [Hs84]; · iexact Hs84
    isplitl [Hs85]; · iexact Hs85
    isplitl [Hs86]; · iexact Hs86
    isplitl [Hs87]; · iexact Hs87
    isplitl [Hs88]; · iexact Hs88
    isplitl [Hs89]; · iexact Hs89
    isplitl [Hs90]; · iexact Hs90
    isplitl [Hs91]; · iexact Hs91
    isplitl [Hs92]; · iexact Hs92
    isplitl [Hs93]; · iexact Hs93
    isplitl [Hs94]; · iexact Hs94
    isplitl [Hs95]; · iexact Hs95
    iexact Hs96
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hp
  all_goals first | exact .inr rfl | exact .inl hp

end Tile

end Cert.Proof.KI

end
-- ==== Proof.KILaunchPay.lean ====
/-
  What the one SparseCore call hands its thirty-two tasks and takes back. Task (core c, subcore i) has number
  2i + c; it is handed one of thirty-two read shares of the flat input and of the shift vector, and the whole of
  its own 524288 entries of the flat output; it hands back the two read shares and its entries of the output at
  contents of which a property Φ (a parameter) is known. A core's operands and results are its sixteen tasks'.
-/
import proofs.«215547_g4990751997953_cont_8to1_c_497_7_alg».proof.Proof.KITileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

/-- The coordinates of the task on core `c`, subcore `s` of the grid. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Task (c, i)'s number among the thirty-two: 2i + c. -/
def taskNo (c : Fin 2) (i : Fin 16) : Fin (31 + 1) := ⟨2 * i.val + c.val, by omega⟩

/-- The coordinates of the call's task (c, i). -/
abbrev LL (c : Fin ((K (F := F)).nCore 0)) (i : Fin ((K (F := F)).nSub 0)) : grid0.Coords :=
  coordsV ⟨c.val, c.isLt⟩ ⟨i.val, i.isLt⟩

/-- Its number. -/
abbrev tn (c : Fin ((K (F := F)).nCore 0)) (i : Fin ((K (F := F)).nSub 0)) : Fin (31 + 1) :=
  taskNo (Fin.cast nCore_zero c) (Fin.cast nSub_zero i)

section Pay

variable (Φ : (d : Dev nD) → grid0.Coords → Buf (Elt F) (xLoc d) → Buf (Elt F) (svLoc d) → Buf (Elt F) (oLoc d) → Prop)
variable (X : (d : Dev nD) → Buf (Elt F) (xLoc d)) (Sv : (d : Dev nD) → Buf (Elt F) (svLoc d)) (fo : (d : Dev nD) → Buf (Elt F) (oLoc d))

/-- What a task is handed: its read shares of the input and the shift vector, its entries of the output. -/
abbrev goT (d : Dev nD) (L : grid0.Coords) (k : Fin (31 + 1)) : sProp 𝕄 :=
  iprop((xLoc d ↦{piece fullShare 31 k} X d) ∗ (svLoc d ↦{piece fullShare 31 k} Sv d) ∗ (oLoc d ↦[tSet L]{fullShare} fo d))

/-- What it hands back: the read shares, and its entries of the output at contents of which `Φ` holds. -/
abbrev tdT (d : Dev nD) (L : grid0.Coords) (k : Fin (31 + 1)) : sProp 𝕄 :=
  iprop((xLoc d ↦{piece fullShare 31 k} X d) ∗ (svLoc d ↦{piece fullShare 31 k} Sv d)
    ∗ ∃ f, ⌜Φ d L (X d) (Sv d) f⌝ ∗ (oLoc d ↦[tSet L]{fullShare} f))

/-- The call's payloads. -/
def P : (K (F := F)).Pay (nD := nD) (Val := Elt F) (Name := ℕ) (U := UU) where
  st := fun q d c => match q with | 0 => bigSep Finset.univ fun i : Fin ((K (F := F)).nSub 0) => goT X Sv fo d (LL c i) (tn c i)
  dn := fun q d c => match q with | 0 => bigSep Finset.univ fun i : Fin ((K (F := F)).nSub 0) => tdT Φ X Sv d (LL c i) (tn c i)
  go := fun q d c i => match q with | 0 => goT X Sv fo d (LL c i) (tn c i)
  td := fun q d c i => match q with | 0 => tdT Φ X Sv d (LL c i) (tn c i)
  x := fun _ _ => iprop(emp)

instance P_storable : (P (F := F) Φ X Sv fo).IsStorable where
  st q d c := match q with
    | 0 => (inferInstance : BI.Storable (upEmb : UEmb _ 𝕄) (bigSep Finset.univ fun i : Fin ((K (F := F)).nSub 0) => goT X Sv fo d (LL c i) (tn c i)))
  dn q d c := match q with
    | 0 => (inferInstance : BI.Storable (upEmb : UEmb _ 𝕄) (bigSep Finset.univ fun i : Fin ((K (F := F)).nSub 0) => tdT Φ X Sv d (LL c i) (tn c i)))
  go q d c i := match q with
    | 0 => (inferInstance : BI.Storable (upEmb : UEmb _ 𝕄) (goT X Sv fo d (LL c i) (tn c i)))
  td q d c i := match q with
    | 0 => (inferInstance : BI.Storable (upEmb : UEmb _ 𝕄) (tdT Φ X Sv d (LL c i) (tn c i)))

/-- A core's operands are its tasks' and its results theirs. -/
theorem vecSplit : (K (F := F)).VecSplit' (P Φ X Sv fo) 0 := by
  intro d c
  show (bigSep Finset.univ fun i : Fin ((K (F := F)).nSub 0) => goT X Sv fo d (LL c i) (tn c i))
    ⊢ |={Set.univ}=> iprop((bigSep Finset.univ fun i : Fin ((K (F := F)).nSub 0) => goT X Sv fo d (LL c i) (tn c i))
      ∗ ((bigSep Finset.univ fun i : Fin ((K (F := F)).nSub 0) => tdT Φ X Sv d (LL c i) (tn c i))
          -∗ bigSep Finset.univ fun i : Fin ((K (F := F)).nSub 0) => tdT Φ X Sv d (LL c i) (tn c i)))
  iintro H; imodintro
  isplitl [H]; · iexact H
  iintro H; iexact H

end Pay

end Cert.Proof.KI

end
-- ==== Proof.KILaunchObl.lean ====
/-
  The task obligation of the launch, from the task body's statement. The body's statement is a hypothesis here
  (`TileHyp Φ`): on any task `L`, from any read shares of the flat input and the shift vector (entry 0 of which is
  below 262144) and the task's own entries of the flat output, the kernel function runs and leaves the shares and
  the entries at contents of which `Φ` holds.
-/
import proofs.«215547_g4990751997953_cont_8to1_c_497_7_alg».proof.Proof.KILaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

local notation "xV" => (Memref.whole Cert.KernelIdeal.main_v9_scv : Memref Cert.KernelIdeal.sig Kind.scVector Space.hbm Cert.KernelIdeal.S16777216 EltTy.f32)
local notation "svV" => (Memref.whole Cert.KernelIdeal.main_v8_scv : Memref Cert.KernelIdeal.sig Kind.scVector Space.hbm Cert.KernelIdeal.S16 EltTy.i32)
local notation "oV" => (Memref.whole Cert.KernelIdeal.main_v10_scv : Memref Cert.KernelIdeal.sig Kind.scVector Space.hbm Cert.KernelIdeal.S16777216 EltTy.f32)
local notation "s5" => (Memref.whole Cert.KernelIdeal.cc0_scratch0 : Memref Cert.KernelIdeal.sig Kind.scVector Space.vmem Cert.KernelIdeal.S16 EltTy.i32)
local notation "s6" => (Memref.whole Cert.KernelIdeal.cc0_scratch1 : Memref Cert.KernelIdeal.sig Kind.scVector Space.vmem Cert.KernelIdeal.S32768 EltTy.f32)
local notation "s7" => (Memref.whole Cert.KernelIdeal.cc0_scratch2 : Memref Cert.KernelIdeal.sig Kind.scVector Space.vmem Cert.KernelIdeal.S16384 EltTy.f32)

variable [FloatOps F]

/-- The task body's statement, for the property `Φ` of what a task leaves in its entries of the output. -/
def TileHyp (Φ : (d : Dev nD) → grid0.Coords → Buf (Elt F) (xLoc d) → Buf (Elt F) (svLoc d) → Buf (Elt F) (oLoc d) → Prop) : Prop :=
  ∀ (d : Dev nD) (L : grid0.Coords) (qx qs : PosShare TreeShare) (X : Buf (Elt F) (xLoc d)) (Sv : Buf (Elt F) (svLoc d)) (fo : Buf (Elt F) (oLoc d))
    (hs : (Sv (ValueIdx.ix1 0)).toNat < 262144) (O : CellTallies nD τ sig (HIx 1)) (W : Waits sig (HIx 1)) (hO : ∀ g, O g none = 0),
    iprop(levAts (K (F := F)).L (K (F := F)).lev ∗ emp ∗ ((xLoc d ↦{qx} X : sProp 𝕄) ∗ (svLoc d ↦{qs} Sv) ∗ (oLoc d ↦[tSet L]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_roll_k L xV (Memref.isWhole_whole _) svV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96)
          fun _ => iprop(((xLoc d ↦{qx} X) ∗ (svLoc d ↦{qs} Sv) ∗ ∃ f, ⌜Φ d L X Sv f⌝ ∗ (oLoc d ↦[tSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0_roll_k (coordsV c s) xV (Memref.isWhole_whole _) svV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

variable (Φ : (d : Dev nD) → grid0.Coords → Buf (Elt F) (xLoc d) → Buf (Elt F) (svLoc d) → Buf (Elt F) (oLoc d) → Prop)
variable (X : (d : Dev nD) → Buf (Elt F) (xLoc d)) (Sv : (d : Dev nD) → Buf (Elt F) (svLoc d)) (fo : (d : Dev nD) → Buf (Elt F) (oLoc d))

theorem tileObl (htile : TileHyp Φ) (hs : ∀ d, (Sv d (ValueIdx.ix1 0)).toNat < 262144) :
    (K (F := F)).TileObl (D (F := F)) 𝒱 (P Φ X Sv fo) v₀ 0 := by
  intro d c i O W hO _ _
  -- this kernel owes nothing for a protocol of its own
  simp only [show (P Φ X Sv fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) _ _ (X d) (Sv d) (fo d) (hs d) O W hO).trans (wp_mono frame _ _ fun _ => obl_post)

end Obl

end Cert.Proof.KI

end
-- ==== Proof.KITileHyp.lean ====
/-
  The task body in the form the launch asks for it, with nothing claimed of what a task leaves in the output.
-/
import proofs.«215547_g4990751997953_cont_8to1_c_497_7_alg».proof.Proof.KISetup
import proofs.«215547_g4990751997953_cont_8to1_c_497_7_alg».proof.Proof.KITileDefs
import proofs.«215547_g4990751997953_cont_8to1_c_497_7_alg».proof.Proof.KITileFrame
import proofs.«215547_g4990751997953_cont_8to1_c_497_7_alg».proof.Proof.KILaunchObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem tileHyp_frame : TileHyp (F := F) (fun _ _ _ _ _ => True) := by
  intro d L qx qs X Sv fo hs O W hO
  exact tile_frame d L facts qx qs X Sv fo hs O W hO

end Cert.Proof.KI

end
-- ==== Proof.KBSetup.lean ====
/-
  The rotation kernel's thirty-two tasks: the program as the launch theorem reads it, the ghost state (the launch
  handshakes' rounds beside the local transfers' counters), the arrays and scratches as each task names them, and
  how the flat arrays are dealt to the tasks: task (core c, subcore w) has number 2w + c, reads the flat input and
  the shift vector through a read share of its own, and owns the 524288 entries (two rows of 262144) of the
  flat output that start at 524288 · (2w + c).
-/
import proofs.«215547_g4990751997953_cont_8to1_c_497_7_alg».proof.Defs
import proofs.«215547_g4990751997953_cont_8to1_c_497_7_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«215547_g4990751997953_cont_8to1_c_497_7_alg».proof.Proof.Gen.Kernel
import proofs.«215547_g4990751997953_cont_8to1_c_497_7_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

end Cert.Proof.KB

end
-- ==== Proof.KBTileDefs.lean ====
import proofs.«215547_g4990751997953_cont_8to1_c_497_7_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and a task's share of them

Task (core c, subcore w) = coordinates `L = ![c, w]` owns the 524288 entries of the flat output starting at
1048576 · w + 524288 · c (rows 4w + 2c and 4w + 2c + 1 of the 64 × 262144 array). -/

abbrev xLoc (d : Dev nD) : Loc nD τ sig := (SparseCore.T d).loc main_v9
abbrev svLoc (d : Dev nD) : Loc nD τ sig := (SparseCore.T d).loc main_v8
abbrev oLoc (d : Dev nD) : Loc nD τ sig := (SparseCore.T d).loc main_v10

abbrev STile : Shape := ⟨1, ![524288]⟩

abbrev cV (L : grid0.Coords) : Fin τ.nSC := (L 0).castLE hcore0
abbrev jV (L : grid0.Coords) : Fin τ.nSub := (L 1).castLE hsub0

theorem tOff_inb (L : grid0.Coords) : ∀ a, (![1048576 * (L 1).val + 524288 * (L 0).val] : Fin 1 → Nat) a + STile.size a ≤ S16777216.size a := by
  have h0 : (L 0).val < 2 := (L 0).isLt
  have h1 : (L 1).val < 16 := (L 1).isLt
  intro a; match a with
  | ⟨0, _⟩ => show 1048576 * (L 1).val + 524288 * (L 0).val + 524288 ≤ 16777216; omega
abbrev tRect (L : grid0.Coords) : Rect S16777216 := Rect.unit (s := S16777216) ![1048576 * (L 1).val + 524288 * (L 0).val] STile.size (tOff_inb L)
abbrev tSet (L : grid0.Coords) : Finset S16777216.Idx :=
  (Memref.whole Cert.Kernel.main_v10_scv : Memref Cert.Kernel.sig Kind.scVector Space.hbm Cert.Kernel.S16777216 EltTy.f32).view.setOn (tRect L).set

end Cert.Proof.KB

end
-- ==== Proof.KBTileOwn.lean ====
/-
  What a task holds of its own: its ninety-seven DMA semaphores one by one (all at zero when the task starts), its
  three scratch buffers, and the shift it reads off the first word of the sixteen-word vector it has just copied in.
-/
import proofs.«215547_g4990751997953_cont_8to1_c_497_7_alg».proof.Proof.KBSetup
import proofs.«215547_g4990751997953_cont_8to1_c_497_7_alg».proof.Proof.KBTileDefs
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v9_scv : Memref Cert.Kernel.sig Kind.scVector Space.hbm Cert.Kernel.S16777216 EltTy.f32)
local notation "svV" => (Memref.whole Cert.Kernel.main_v8_scv : Memref Cert.Kernel.sig Kind.scVector Space.hbm Cert.Kernel.S16 EltTy.i32)
local notation "oV" => (Memref.whole Cert.Kernel.main_v10_scv : Memref Cert.Kernel.sig Kind.scVector Space.hbm Cert.Kernel.S16777216 EltTy.f32)
local notation "s5" => (Memref.whole Cert.Kernel.cc0_scratch0 : Memref Cert.Kernel.sig Kind.scVector Space.vmem Cert.Kernel.S16 EltTy.i32)
local notation "s6" => (Memref.whole Cert.Kernel.cc0_scratch1 : Memref Cert.Kernel.sig Kind.scVector Space.vmem Cert.Kernel.S32768 EltTy.f32)
local notation "s7" => (Memref.whole Cert.Kernel.cc0_scratch2 : Memref Cert.Kernel.sig Kind.scVector Space.vmem Cert.Kernel.S16384 EltTy.f32)

variable [FloatOps F]

section Tile
variable (d : Dev nD) (L : grid0.Coords)

omit [FloatOps F] in
theorem ownCells_V : (ownCells (V d (cV L) (jV L)) : Finset (GSem nD τ sig)) = (Finset.univ : Finset (Fin 97)).image (fun k => ((V d (cV L) (jV L), SemLoc.dma k) : GSem nD τ sig)) := by
  have h0 : ∀ s : Sem sig, ¬ (SemLoc.reg s : SemLoc sig).isScoped .scVector = true := by decide
  have h1 : ∀ k : DmaSem sig, (SemLoc.dma k : SemLoc sig).isScoped .scVector = true := by decide
  ext ⟨t, sl⟩
  simp only [mem_ownCells, Finset.mem_image, Finset.mem_univ, true_and]
  constructor
  · rintro ⟨rfl, h⟩
    cases sl with
    | reg s => exact absurd h (h0 s)
    | dma s => exact ⟨s, rfl⟩
  · rintro ⟨k, hk⟩
    cases hk
    exact ⟨rfl, h1 k⟩

omit [FloatOps F] in
theorem ownSems0_V :
    (ownSems0 (V d (cV L) (jV L)) : sProp 𝕄)
      = iprop(semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0 ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0 ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0 ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0 ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0 ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0 ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0 ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0 ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0 ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0 ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0 ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0 ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0 ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0 ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0 ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0 ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0 ∗ semVal (V d (cV L) (jV L), SemLoc.dma cc0_scoped54.sem) 0 ∗ semVal (V d (cV L) (jV L), SemLoc.dma cc0_scoped55.sem) 0 ∗ semVal (V d (cV L) (jV L), SemLoc.dma cc0_scoped56.sem) 0 ∗ semVal (V d (cV L) (jV L), SemLoc.dma cc0_scoped57.sem) 0 ∗ semVal (V d (cV L) (jV L), SemLoc.dma cc0_scoped58.sem) 0 ∗ semVal (V d (cV L) (jV L), SemLoc.dma cc0_scoped59.sem) 0 ∗ semVal (V d (cV L) (jV L), SemLoc.dma cc0_scoped60.sem) 0 ∗ semVal (V d (cV L) (jV L), SemLoc.dma cc0_scoped61.sem) 0 ∗ semVal (V d (cV L) (jV L), SemLoc.dma cc0_scoped62.sem) 0 ∗ semVal (V d (cV L) (jV L), SemLoc.dma cc0_scoped63.sem) 0 ∗ semVal (V d (cV L) (jV L), SemLoc.dma cc0_scoped64.sem) 0 ∗ semVal (V d (cV L) (jV L), SemLoc.dma cc0_scoped65.sem) 0 ∗ semVal (V d (cV L) (jV L), SemLoc.dma cc0_scoped66.sem) 0 ∗ semVal (V d (cV L) (jV L), SemLoc.dma cc0_scoped67.sem) 0 ∗ semVal (V d (cV L) (jV L), SemLoc.dma cc0_scoped68.sem) 0 ∗ semVal (V d (cV L) (jV L), SemLoc.dma cc0_scoped69.sem) 0 ∗ semVal (V d (cV L) (jV L), SemLoc.dma cc0_scoped70.sem) 0 ∗ semVal (V d (cV L) (jV L), SemLoc.dma cc0_scoped71.sem) 0 ∗ semVal (V d (cV L) (jV L), SemLoc.dma cc0_scoped72.sem) 0 ∗ semVal (V d (cV L) (jV L), SemLoc.dma cc0_scoped73.sem) 0 ∗ semVal (V d (cV L) (jV L), SemLoc.dma cc0_scoped74.sem) 0 ∗ semVal (V d (cV L) (jV L), SemLoc.dma cc0_scoped75.sem) 0 ∗ semVal (V d (cV L) (jV L), SemLoc.dma cc0_scoped76.sem) 0 ∗ semVal (V d (cV L) (jV L), SemLoc.dma cc0_scoped77.sem) 0 ∗ semVal (V d (cV L) (jV L), SemLoc.dma cc0_scoped78.sem) 0 ∗ semVal (V d (cV L) (jV L), SemLoc.dma cc0_scoped79.sem) 0 ∗ semVal (V d (cV L) (jV L), SemLoc.dma cc0_scoped80.sem) 0 ∗ semVal (V d (cV L) (jV L), SemLoc.dma cc0_scoped81.sem) 0 ∗ semVal (V d (cV L) (jV L), SemLoc.dma cc0_scoped82.sem) 0 ∗ semVal (V d (cV L) (jV L), SemLoc.dma cc0_scoped83.sem) 0 ∗ semVal (V d (cV L) (jV L), SemLoc.dma cc0_scoped84.sem) 0 ∗ semVal (V d (cV L) (jV L), SemLoc.dma cc0_scoped85.sem) 0 ∗ semVal (V d (cV L) (jV L), SemLoc.dma cc0_scoped86.sem) 0 ∗ semVal (V d (cV L) (jV L), SemLoc.dma cc0_scoped87.sem) 0 ∗ semVal (V d (cV L) (jV L), SemLoc.dma cc0_scoped88.sem) 0 ∗ semVal (V d (cV L) (jV L), SemLoc.dma cc0_scoped89.sem) 0 ∗ semVal (V d (cV L) (jV L), SemLoc.dma cc0_scoped90.sem) 0 ∗ semVal (V d (cV L) (jV L), SemLoc.dma cc0_scoped91.sem) 0 ∗ semVal (V d (cV L) (jV L), SemLoc.dma cc0_scoped92.sem) 0 ∗ semVal (V d (cV L) (jV L), SemLoc.dma cc0_scoped93.sem) 0 ∗ semVal (V d (cV L) (jV L), SemLoc.dma cc0_scoped94.sem) 0 ∗ semVal (V d (cV L) (jV L), SemLoc.dma cc0_scoped95.sem) 0 ∗ semVal (V d (cV L) (jV L), SemLoc.dma cc0_scoped96.sem) 0) := by
  unfold SparseCore.Cfg.ownSems0
  rw [ownCells_V, SparseCore.bigSep_image_of_injOn (fun a _ b _ h => by cases h; rfl),
    bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96] : List (Fin 97)) (by decide) (by decide)]
  rfl

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

omit [FloatOps F] in
theorem v5_eq (f5 : Buf (Elt F) ((V d (cV L) (jV L)).loc cc0_scratch0)) (Sv : Buf (Elt F) (svLoc d)) :
    extractAt ![0] (extractStridedSlice S1 ![0] (shapeCast S16 (View.readAt (Elt F) (s5).view (Rect.unit (s := S16) ![0] S16.size inb_S16_S16_0).toLoadRect
      (View.write (Elt F) (s5).view f5 (ReadAs.same.apply (View.read (Elt F) (svV).view Sv)) Finset.univ)) shapeCasts_S16_S16) slices_S16_o0_S1) inpos_S1_p0
      = Sv (ValueIdx.ix1 0) := by
  rw [View.write_whole_univ]
  simp only [Memref.view_whole, View.read_whole]
  simp only [extractAt, extractStridedSlice]
  refine (shapeCast_apply _ shapeCasts_S16_S16 _ (ValueIdx.ix1 (0 : Fin 16)) rfl).trans ?_
  rw [View.readAt_apply, View.read_whole]
  exact congrArg Sv (funext fun a => Fin.ext (by match a with | ⟨0, _⟩ => rfl))

end Tile

end Cert.Proof.KB

end
-- ==== Proof.KernelArithBase.lean ====
/-
  The integer arithmetic of the roll kernel's address computations, over 32-bit words.

  For a chunk constant c = 16384 * k (k < 16) and a shift word s with 0 ≤ s < 262144 the kernel computes
    g      = (c - s + 262144) rem 262144,
    start1 = floordiv(g, 16384) * 16384,
    start2 = (start1 + 16384) rem 262144,
    d      = g - start1,
  with signed 32-bit operations; floordiv is lowered as the truncated quotient, less one when the signs of
  dividend and divisor differ and the remainder is not zero. Every intermediate value is a natural number
  below 2^31, so each signed operation is the natural-number one: g = (16384 * k + 262144 - s) % 262144,
  start1 = g / 16384 * 16384, start2 = (start1 + 16384) % 262144, d = g % 16384.

  The word-level terms are stated here once, in the shape the printed programs have them (gW, fdivW, rowW),
  and read as integers with the signed-reading calculus of the library.
-/
import Idealize.ShloMosaic.Lib.Affine

namespace Cert.Kernel.Arith

open Idealize.ShloMosaic

/-- The word g = (c - s + 262144) rem 262144. -/
def gW (c v5 : BitVec 32) : BitVec 32 :=
  Scalar.remsi (Scalar.addi (Scalar.subi c v5) 262144#32) 262144#32

/-- Floor division of a word by 16384 as lowered: the truncated quotient, less one when the sign of the
    dividend differs from the divisor's and the remainder is not zero. -/
def fdivW (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 16384#32 0#32)) (Scalar.extui (Scalar.cmpi .slt 16384#32 0#32))))
      (Scalar.cmpi .ne (Scalar.remsi x 16384#32) 0#32))
    (Scalar.subi (Scalar.divsi x 16384#32) 1#32)
    (Scalar.divsi x 16384#32)

/-- The word start1 = floordiv(g, 16384) * 16384. -/
def start1W (c v5 : BitVec 32) : BitVec 32 := Scalar.muli (fdivW (gW c v5)) 16384#32

/-- The word start2 = (start1 + 16384) rem 262144. -/
def start2W (c v5 : BitVec 32) : BitVec 32 := Scalar.remsi (Scalar.addi (start1W c v5) 16384#32) 262144#32

/-- The first entry of row ((2 * a1 + a0) * 2 + r) of 262144 entries. -/
def rowW (a1 a0 r : BitVec 32) : BitVec 32 :=
  Scalar.muli (Scalar.addi (Scalar.muli (Scalar.addi (Scalar.muli a1 2#32) a0) 2#32) r) 262144#32

/-- The word d + 16 * t, d = g - start1, t the trip of a loop from 0 by steps of 1. -/
def loadW (c v5 : BitVec 32) (t : Nat) : BitVec 32 :=
  Scalar.addi (Scalar.subi (gW c v5) (start1W c v5)) (Scalar.muli (Scf.iv 0#32 1#32 t) 16#32)

/-- g read as an integer: (16384 * k + 262144 - s) % 262144, for a shift below 262144. -/
theorem gW_isInt (k : Nat) (hk : k < 16) (v5 : BitVec 32) (h : v5.toNat < 262144) :
    Affine.IsInt (gW (BitVec.ofNat 32 (16384 * k)) v5) (((16384 * k + 262144 - v5.toNat) % 262144 : Nat) : Int) := by
  have hv : Affine.IsInt v5 (v5.toNat : Int) := by
    have hw := Affine.word v5
    rwa [BitVec.toInt_eq_toNat_of_lt (by omega)] at hw
  have h1 : Affine.IsInt (BitVec.ofNat 32 (16384 * k)) (16384 * (k : Int)) := Affine.ofNat _ (by omega)
  have h2 : Affine.IsInt _ (16384 * (k : Int) - (v5.toNat : Int)) := Affine.subi h1 hv (by omega)
  have h3 : Affine.IsInt 262144#32 262144 := Affine.ofNat _ (by omega)
  have h4 : Affine.IsInt _ (16384 * (k : Int) - (v5.toNat : Int) + 262144) := Affine.addi h2 h3 (by omega)
  exact Affine.remsi h4 h3 (by omega)

/-- The lowered floor division of a nonnegative word by 16384 is the quotient. -/
theorem fdivW_isInt {x : BitVec 32} {n : Int} (hx : Affine.IsInt x n) (h0 : 0 ≤ n) :
    Affine.IsInt (fdivW x) (n / 16384) := by
  have hz : Affine.IsInt 0#32 0 := Affine.ofNat _ (by omega)
  have hk : Affine.IsInt 16384#32 16384 := Affine.ofNat _ (by omega)
  have hq : Affine.IsInt (Scalar.divsi x 16384#32) (n / 16384) := Affine.divsi hx hk (by omega)
  have hr : Affine.IsInt (Scalar.remsi x 16384#32) (n % 16384) := Affine.remsi hx hk (by omega)
  have hsl : Affine.Fails (Scalar.cmpi .slt x 0#32) := Affine.slt_fails hx hz (by omega)
  -- the divisor's sign is 1
  have hks : Affine.IsInt
      (Scalar.subi (Scalar.extui (Scalar.cmpi .sgt 16384#32 0#32)) (Scalar.extui (Scalar.cmpi .slt 16384#32 0#32))) 1 :=
    Affine.subi (Affine.extui_holds (Affine.sgt_holds hk hz (by omega)) rfl)
      (Affine.extui_fails (Affine.slt_fails hk hz (by omega)) rfl) (by omega)
  unfold fdivW
  refine Affine.select_fails ?_ (Affine.word _) hq rfl
  by_cases hn : 0 < n
  · -- a positive dividend has the divisor's sign
    have hs : Affine.IsInt
        (Scalar.subi (Scalar.extui (Scalar.cmpi .sgt x 0#32)) (Scalar.extui (Scalar.cmpi .slt x 0#32))) 1 :=
      Affine.subi (Affine.extui_holds (Affine.sgt_holds hx hz hn) rfl) (Affine.extui_fails hsl rfl) (by omega)
    exact Affine.andi_fails_left (Affine.ne_fails hs hks rfl) (Affine.cmpi_term _ hr hz)
  · -- a zero dividend has remainder zero
    have hn0 : n = 0 := by omega
    have hs : Affine.IsInt
        (Scalar.subi (Scalar.extui (Scalar.cmpi .sgt x 0#32)) (Scalar.extui (Scalar.cmpi .slt x 0#32))) 0 :=
      Affine.subi (Affine.extui_fails (Affine.sgt_fails hx hz (by omega)) rfl) (Affine.extui_fails hsl rfl) (by omega)
    exact Affine.andi_fails_right (Affine.cmpi_term _ hs hks) (Affine.ne_fails hr hz (by omega))

/-- start1 read as an integer: g / 16384 * 16384. -/
theorem start1W_isInt (k : Nat) (hk : k < 16) (v5 : BitVec 32) (h : v5.toNat < 262144) :
    Affine.IsInt (start1W (BitVec.ofNat 32 (16384 * k)) v5)
      ((((16384 * k + 262144 - v5.toNat) % 262144 : Nat) : Int) / 16384 * 16384) := by
  have hg := gW_isInt k hk v5 h
  have hk16 : Affine.IsInt 16384#32 16384 := Affine.ofNat _ (by omega)
  have hf := fdivW_isInt hg (by omega)
  exact Affine.muli hf hk16 (by omega)

/-- The row's first entry read as an integer. -/
theorem rowW_isInt (a1 a0 r : Nat) (h1 : a1 < 16) (h0 : a0 < 2) (hr : r < 2) :
    Affine.IsInt (rowW (BitVec.ofNat 32 a1) (BitVec.ofNat 32 a0) (BitVec.ofNat 32 r))
      (1048576 * (a1 : Int) + 524288 * (a0 : Int) + 262144 * (r : Int)) := by
  have ha1 : Affine.IsInt (BitVec.ofNat 32 a1) (a1 : Int) := Affine.ofNat _ (by omega)
  have ha0 : Affine.IsInt (BitVec.ofNat 32 a0) (a0 : Int) := Affine.ofNat _ (by omega)
  have hrr : Affine.IsInt (BitVec.ofNat 32 r) (r : Int) := Affine.ofNat _ (by omega)
  have h2 : Affine.IsInt 2#32 2 := Affine.ofNat _ (by omega)
  have hc : Affine.IsInt 262144#32 262144 := Affine.ofNat _ (by omega)
  have hv0 : Affine.IsInt _ (2 * (a1 : Int)) := Affine.muli ha1 h2 (by omega)
  have hv1 : Affine.IsInt _ (2 * (a1 : Int) + (a0 : Int)) := Affine.addi hv0 ha0 (by omega)
  have hv6 : Affine.IsInt _ (4 * (a1 : Int) + 2 * (a0 : Int)) := Affine.muli hv1 h2 (by omega)
  have hv7 : Affine.IsInt _ (4 * (a1 : Int) + 2 * (a0 : Int) + (r : Int)) := Affine.addi hv6 hrr (by omega)
  exact Affine.muli hv7 hc (by omega)

/-- The first copy's source offset: the row's first entry plus start1. -/
theorem off1W_eq (a1 a0 r k : Nat) (h1 : a1 < 16) (h0 : a0 < 2) (hr : r < 2) (hk : k < 16)
    (v5 : BitVec 32) (h : v5.toNat < 262144) :
    (![(Scalar.addi (rowW (BitVec.ofNat 32 a1) (BitVec.ofNat 32 a0) (BitVec.ofNat 32 r))
          (start1W (BitVec.ofNat 32 (16384 * k)) v5)).toNat] : Fin 1 → Nat)
      = ![1048576 * a1 + 524288 * a0 + 262144 * r + (16384 * k + 262144 - v5.toNat) % 262144 / 16384 * 16384] := by
  have hs := start1W_isInt k hk v5 h
  have hrow := rowW_isInt a1 a0 r h1 h0 hr
  have hG : (16384 * k + 262144 - v5.toNat) % 262144 < 262144 := Nat.mod_lt _ (by omega)
  have hsum : Affine.IsInt _ (1048576 * (a1 : Int) + 524288 * (a0 : Int) + 262144 * (r : Int)
      + (((16384 * k + 262144 - v5.toNat) % 262144 : Nat) : Int) / 16384 * 16384) := Affine.addi hrow hs (by omega)
  exact Affine.vec_cons hsum (by omega) Affine.vec_nil

/-- The second copy's source offset: the row's first entry plus start2. -/
theorem off2W_eq (a1 a0 r k : Nat) (h1 : a1 < 16) (h0 : a0 < 2) (hr : r < 2) (hk : k < 16)
    (v5 : BitVec 32) (h : v5.toNat < 262144) :
    (![(Scalar.addi (rowW (BitVec.ofNat 32 a1) (BitVec.ofNat 32 a0) (BitVec.ofNat 32 r))
          (start2W (BitVec.ofNat 32 (16384 * k)) v5)).toNat] : Fin 1 → Nat)
      = ![1048576 * a1 + 524288 * a0 + 262144 * r
          + ((16384 * k + 262144 - v5.toNat) % 262144 / 16384 * 16384 + 16384) % 262144] := by
  have hs := start1W_isInt k hk v5 h
  have hrow := rowW_isInt a1 a0 r h1 h0 hr
  have hG : (16384 * k + 262144 - v5.toNat) % 262144 < 262144 := Nat.mod_lt _ (by omega)
  have hk16 : Affine.IsInt 16384#32 16384 := Affine.ofNat _ (by omega)
  have hc : Affine.IsInt 262144#32 262144 := Affine.ofNat _ (by omega)
  have ha : Affine.IsInt _ ((((16384 * k + 262144 - v5.toNat) % 262144 : Nat) : Int) / 16384 * 16384 + 16384) :=
    Affine.addi hs hk16 (by omega)
  have hs2 : Affine.IsInt (start2W (BitVec.ofNat 32 (16384 * k)) v5)
      (((((16384 * k + 262144 - v5.toNat) % 262144 : Nat) : Int) / 16384 * 16384 + 16384) % 262144) :=
    Affine.remsi ha hc (by omega)
  have hsum : Affine.IsInt _ (1048576 * (a1 : Int) + 524288 * (a0 : Int) + 262144 * (r : Int)
      + ((((16384 * k + 262144 - v5.toNat) % 262144 : Nat) : Int) / 16384 * 16384 + 16384) % 262144) :=
    Affine.addi hrow hs2 (by omega)
  exact Affine.vec_cons hsum (by omega) Affine.vec_nil

/-- A loop load's offset: d + 16 * t with d = g % 16384. -/
theorem loadW_eq (k : Nat) (hk : k < 16) (v5 : BitVec 32) (h : v5.toNat < 262144) (t : Nat) (ht : t < 1024) :
    (![(Scalar.indexCast (loadW (BitVec.ofNat 32 (16384 * k)) v5 t)).toNat] : Fin 1 → Nat)
      = ![(16384 * k + 262144 - v5.toNat) % 262144 % 16384 + 16 * t] := by
  have hg := gW_isInt k hk v5 h
  have hs := start1W_isInt k hk v5 h
  have hG : (16384 * k + 262144 - v5.toNat) % 262144 < 262144 := Nat.mod_lt _ (by omega)
  have hz : Affine.IsInt 0#32 0 := Affine.ofNat _ (by omega)
  have h1 : Affine.IsInt 1#32 1 := Affine.ofNat _ (by omega)
  have h16 : Affine.IsInt 16#32 16 := Affine.ofNat _ (by omega)
  have hd : Affine.IsInt _ ((((16384 * k + 262144 - v5.toNat) % 262144 : Nat) : Int) % 16384) :=
    Affine.subi hg hs (by omega)
  have hiv : Affine.IsInt (Scf.iv 0#32 1#32 t) (t : Int) := Affine.iv hz h1 t (by omega)
  have hm : Affine.IsInt _ (16 * (t : Int)) := Affine.muli hiv h16 (by omega)
  have hsum : Affine.IsInt (loadW (BitVec.ofNat 32 (16384 * k)) v5 t)
      ((((16384 * k + 262144 - v5.toNat) % 262144 : Nat) : Int) % 16384 + 16 * (t : Int)) :=
    Affine.addi hd hm (by omega)
  exact Affine.vec_cons (Affine.indexCast hsum) (by omega) Affine.vec_nil

end Cert.Kernel.Arith
-- ==== Proof.KernelArithOff.lean ====
/-
  Closed forms of the kernel's data-dependent offsets, for a shift word s = v5.toNat below 262144.
  With g = (16384 * ch + 262144 - s) % 262144 for chunk ch:
    the first copy of a chunk reads the row at g / 16384 * 16384,
    the second at (g / 16384 * 16384 + 16384) % 262144,
    and trip t of the chunk's loop loads from g % 16384 + 16 * t.
  Each printed chain is, term for term, the word-level chain read as integers in the base module.
-/
import proofs.«215547_g4990751997953_cont_8to1_c_497_7_alg».proof.Proof.Gen.Kernel
import proofs.«215547_g4990751997953_cont_8to1_c_497_7_alg».proof.Proof.KernelArithBase

namespace Cert.Kernel.Arith

open Idealize.ShloMosaic

/-- The first copy's source offset. -/
theorem off1_eq (i : grid0.Coords) (v5 : BitVec 32) (h : v5.toNat < 262144) (r : Fin 2) (ch : Fin 16) :
    k0_off1 i v5 (BitVec.ofNat 32 r.val) (BitVec.ofNat 32 (16384 * ch.val))
      = ![1048576 * (i 1).val + 524288 * (i 0).val + 262144 * r.val
          + (16384 * ch.val + 262144 - v5.toNat) % 262144 / 16384 * 16384] :=
  off1W_eq (i 1).val (i 0).val r.val ch.val (i 1).isLt (i 0).isLt r.isLt ch.isLt v5 h

/-- The second copy's source offset. -/
theorem off2_eq (i : grid0.Coords) (v5 : BitVec 32) (h : v5.toNat < 262144) (r : Fin 2) (ch : Fin 16) :
    k0_off2 i v5 (BitVec.ofNat 32 r.val) (BitVec.ofNat 32 (16384 * ch.val))
      = ![1048576 * (i 1).val + 524288 * (i 0).val + 262144 * r.val
          + ((16384 * ch.val + 262144 - v5.toNat) % 262144 / 16384 * 16384 + 16384) % 262144] :=
  off2W_eq (i 1).val (i 0).val r.val ch.val (i 1).isLt (i 0).isLt r.isLt ch.isLt v5 h

/-- Loop 1 (chunk 0): the load offset at trip t. -/
theorem load1_eq (v5 : BitVec 32) (h : v5.toNat < 262144) (t : Fin k0_t1_loop.trips) :
    k0_off3 v5 t = ![(16384 * 0 + 262144 - v5.toNat) % 262144 % 16384 + 16 * t.val] :=
  loadW_eq 0 (by omega) v5 h t.val (Nat.lt_of_lt_of_le t.isLt Gen.k0_t1_abs.2.1)

/-- Loop 2 (chunk 1): the load offset at trip t. -/
theorem load2_eq (v5 : BitVec 32) (h : v5.toNat < 262144) (t : Fin k0_t2_loop.trips) :
    k0_off6 v5 t = ![(16384 * 1 + 262144 - v5.toNat) % 262144 % 16384 + 16 * t.val] :=
  loadW_eq 1 (by omega) v5 h t.val (Nat.lt_of_lt_of_le t.isLt Gen.k0_t2_abs.2.1)

/-- Loop 3 (chunk 2): the load offset at trip t. -/
theorem load3_eq (v5 : BitVec 32) (h : v5.toNat < 262144) (t : Fin k0_t3_loop.trips) :
    k0_off8 v5 t = ![(16384 * 2 + 262144 - v5.toNat) % 262144 % 16384 + 16 * t.val] :=
  loadW_eq 2 (by omega) v5 h t.val (Nat.lt_of_lt_of_le t.isLt Gen.k0_t3_abs.2.1)

/-- Loop 4 (chunk 3): the load offset at trip t. -/
theorem load4_eq (v5 : BitVec 32) (h : v5.toNat < 262144) (t : Fin k0_t4_loop.trips) :
    k0_off10 v5 t = ![(16384 * 3 + 262144 - v5.toNat) % 262144 % 16384 + 16 * t.val] :=
  loadW_eq 3 (by omega) v5 h t.val (Nat.lt_of_lt_of_le t.isLt Gen.k0_t4_abs.2.1)

/-- Loop 5 (chunk 4): the load offset at trip t. -/
theorem load5_eq (v5 : BitVec 32) (h : v5.toNat < 262144) (t : Fin k0_t5_loop.trips) :
    k0_off12 v5 t = ![(16384 * 4 + 262144 - v5.toNat) % 262144 % 16384 + 16 * t.val] :=
  loadW_eq 4 (by omega) v5 h t.val (Nat.lt_of_lt_of_le t.isLt Gen.k0_t5_abs.2.1)

/-- Loop 6 (chunk 5): the load offset at trip t. -/
theorem load6_eq (v5 : BitVec 32) (h : v5.toNat < 262144) (t : Fin k0_t6_loop.trips) :
    k0_off14 v5 t = ![(16384 * 5 + 262144 - v5.toNat) % 262144 % 16384 + 16 * t.val] :=
  loadW_eq 5 (by omega) v5 h t.val (Nat.lt_of_lt_of_le t.isLt Gen.k0_t6_abs.2.1)

/-- Loop 7 (chunk 6): the load offset at trip t. -/
theorem load7_eq (v5 : BitVec 32) (h : v5.toNat < 262144) (t : Fin k0_t7_loop.trips) :
    k0_off16 v5 t = ![(16384 * 6 + 262144 - v5.toNat) % 262144 % 16384 + 16 * t.val] :=
  loadW_eq 6 (by omega) v5 h t.val (Nat.lt_of_lt_of_le t.isLt Gen.k0_t7_abs.2.1)

/-- Loop 8 (chunk 7): the load offset at trip t. -/
theorem load8_eq (v5 : BitVec 32) (h : v5.toNat < 262144) (t : Fin k0_t8_loop.trips) :
    k0_off18 v5 t = ![(16384 * 7 + 262144 - v5.toNat) % 262144 % 16384 + 16 * t.val] :=
  loadW_eq 7 (by omega) v5 h t.val (Nat.lt_of_lt_of_le t.isLt Gen.k0_t8_abs.2.1)

/-- Loop 9 (chunk 8): the load offset at trip t. -/
theorem load9_eq (v5 : BitVec 32) (h : v5.toNat < 262144) (t : Fin k0_t9_loop.trips) :
    k0_off20 v5 t = ![(16384 * 8 + 262144 - v5.toNat) % 262144 % 16384 + 16 * t.val] :=
  loadW_eq 8 (by omega) v5 h t.val (Nat.lt_of_lt_of_le t.isLt Gen.k0_t9_abs.2.1)

/-- Loop 10 (chunk 9): the load offset at trip t. -/
theorem load10_eq (v5 : BitVec 32) (h : v5.toNat < 262144) (t : Fin k0_t10_loop.trips) :
    k0_off22 v5 t = ![(16384 * 9 + 262144 - v5.toNat) % 262144 % 16384 + 16 * t.val] :=
  loadW_eq 9 (by omega) v5 h t.val (Nat.lt_of_lt_of_le t.isLt Gen.k0_t10_abs.2.1)

/-- Loop 11 (chunk 10): the load offset at trip t. -/
theorem load11_eq (v5 : BitVec 32) (h : v5.toNat < 262144) (t : Fin k0_t11_loop.trips) :
    k0_off24 v5 t = ![(16384 * 10 + 262144 - v5.toNat) % 262144 % 16384 + 16 * t.val] :=
  loadW_eq 10 (by omega) v5 h t.val (Nat.lt_of_lt_of_le t.isLt Gen.k0_t11_abs.2.1)

/-- Loop 12 (chunk 11): the load offset at trip t. -/
theorem load12_eq (v5 : BitVec 32) (h : v5.toNat < 262144) (t : Fin k0_t12_loop.trips) :
    k0_off26 v5 t = ![(16384 * 11 + 262144 - v5.toNat) % 262144 % 16384 + 16 * t.val] :=
  loadW_eq 11 (by omega) v5 h t.val (Nat.lt_of_lt_of_le t.isLt Gen.k0_t12_abs.2.1)

/-- Loop 13 (chunk 12): the load offset at trip t. -/
theorem load13_eq (v5 : BitVec 32) (h : v5.toNat < 262144) (t : Fin k0_t13_loop.trips) :
    k0_off28 v5 t = ![(16384 * 12 + 262144 - v5.toNat) % 262144 % 16384 + 16 * t.val] :=
  loadW_eq 12 (by omega) v5 h t.val (Nat.lt_of_lt_of_le t.isLt Gen.k0_t13_abs.2.1)

/-- Loop 14 (chunk 13): the load offset at trip t. -/
theorem load14_eq (v5 : BitVec 32) (h : v5.toNat < 262144) (t : Fin k0_t14_loop.trips) :
    k0_off30 v5 t = ![(16384 * 13 + 262144 - v5.toNat) % 262144 % 16384 + 16 * t.val] :=
  loadW_eq 13 (by omega) v5 h t.val (Nat.lt_of_lt_of_le t.isLt Gen.k0_t14_abs.2.1)

/-- Loop 15 (chunk 14): the load offset at trip t. -/
theorem load15_eq (v5 : BitVec 32) (h : v5.toNat < 262144) (t : Fin k0_t15_loop.trips) :
    k0_off32 v5 t = ![(16384 * 14 + 262144 - v5.toNat) % 262144 % 16384 + 16 * t.val] :=
  loadW_eq 14 (by omega) v5 h t.val (Nat.lt_of_lt_of_le t.isLt Gen.k0_t15_abs.2.1)

/-- Loop 16 (chunk 15): the load offset at trip t. -/
theorem load16_eq (v5 : BitVec 32) (h : v5.toNat < 262144) (t : Fin k0_t16_loop.trips) :
    k0_off34 v5 t = ![(16384 * 15 + 262144 - v5.toNat) % 262144 % 16384 + 16 * t.val] :=
  loadW_eq 15 (by omega) v5 h t.val (Nat.lt_of_lt_of_le t.isLt Gen.k0_t16_abs.2.1)

/-- Loop 17 (chunk 0): the load offset at trip t. -/
theorem load17_eq (v5 : BitVec 32) (h : v5.toNat < 262144) (t : Fin k0_t17_loop.trips) :
    k0_off36 v5 t = ![(16384 * 0 + 262144 - v5.toNat) % 262144 % 16384 + 16 * t.val] :=
  loadW_eq 0 (by omega) v5 h t.val (Nat.lt_of_lt_of_le t.isLt Gen.k0_t17_abs.2.1)

/-- Loop 18 (chunk 1): the load offset at trip t. -/
theorem load18_eq (v5 : BitVec 32) (h : v5.toNat < 262144) (t : Fin k0_t18_loop.trips) :
    k0_off38 v5 t = ![(16384 * 1 + 262144 - v5.toNat) % 262144 % 16384 + 16 * t.val] :=
  loadW_eq 1 (by omega) v5 h t.val (Nat.lt_of_lt_of_le t.isLt Gen.k0_t18_abs.2.1)

/-- Loop 19 (chunk 2): the load offset at trip t. -/
theorem load19_eq (v5 : BitVec 32) (h : v5.toNat < 262144) (t : Fin k0_t19_loop.trips) :
    k0_off40 v5 t = ![(16384 * 2 + 262144 - v5.toNat) % 262144 % 16384 + 16 * t.val] :=
  loadW_eq 2 (by omega) v5 h t.val (Nat.lt_of_lt_of_le t.isLt Gen.k0_t19_abs.2.1)

/-- Loop 20 (chunk 3): the load offset at trip t. -/
theorem load20_eq (v5 : BitVec 32) (h : v5.toNat < 262144) (t : Fin k0_t20_loop.trips) :
    k0_off42 v5 t = ![(16384 * 3 + 262144 - v5.toNat) % 262144 % 16384 + 16 * t.val] :=
  loadW_eq 3 (by omega) v5 h t.val (Nat.lt_of_lt_of_le t.isLt Gen.k0_t20_abs.2.1)

/-- Loop 21 (chunk 4): the load offset at trip t. -/
theorem load21_eq (v5 : BitVec 32) (h : v5.toNat < 262144) (t : Fin k0_t21_loop.trips) :
    k0_off44 v5 t = ![(16384 * 4 + 262144 - v5.toNat) % 262144 % 16384 + 16 * t.val] :=
  loadW_eq 4 (by omega) v5 h t.val (Nat.lt_of_lt_of_le t.isLt Gen.k0_t21_abs.2.1)

/-- Loop 22 (chunk 5): the load offset at trip t. -/
theorem load22_eq (v5 : BitVec 32) (h : v5.toNat < 262144) (t : Fin k0_t22_loop.trips) :
    k0_off46 v5 t = ![(16384 * 5 + 262144 - v5.toNat) % 262144 % 16384 + 16 * t.val] :=
  loadW_eq 5 (by omega) v5 h t.val (Nat.lt_of_lt_of_le t.isLt Gen.k0_t22_abs.2.1)

/-- Loop 23 (chunk 6): the load offset at trip t. -/
theorem load23_eq (v5 : BitVec 32) (h : v5.toNat < 262144) (t : Fin k0_t23_loop.trips) :
    k0_off48 v5 t = ![(16384 * 6 + 262144 - v5.toNat) % 262144 % 16384 + 16 * t.val] :=
  loadW_eq 6 (by omega) v5 h t.val (Nat.lt_of_lt_of_le t.isLt Gen.k0_t23_abs.2.1)

/-- Loop 24 (chunk 7): the load offset at trip t. -/
theorem load24_eq (v5 : BitVec 32) (h : v5.toNat < 262144) (t : Fin k0_t24_loop.trips) :
    k0_off50 v5 t = ![(16384 * 7 + 262144 - v5.toNat) % 262144 % 16384 + 16 * t.val] :=
  loadW_eq 7 (by omega) v5 h t.val (Nat.lt_of_lt_of_le t.isLt Gen.k0_t24_abs.2.1)

/-- Loop 25 (chunk 8): the load offset at trip t. -/
theorem load25_eq (v5 : BitVec 32) (h : v5.toNat < 262144) (t : Fin k0_t25_loop.trips) :
    k0_off52 v5 t = ![(16384 * 8 + 262144 - v5.toNat) % 262144 % 16384 + 16 * t.val] :=
  loadW_eq 8 (by omega) v5 h t.val (Nat.lt_of_lt_of_le t.isLt Gen.k0_t25_abs.2.1)

/-- Loop 26 (chunk 9): the load offset at trip t. -/
theorem load26_eq (v5 : BitVec 32) (h : v5.toNat < 262144) (t : Fin k0_t26_loop.trips) :
    k0_off54 v5 t = ![(16384 * 9 + 262144 - v5.toNat) % 262144 % 16384 + 16 * t.val] :=
  loadW_eq 9 (by omega) v5 h t.val (Nat.lt_of_lt_of_le t.isLt Gen.k0_t26_abs.2.1)

/-- Loop 27 (chunk 10): the load offset at trip t. -/
theorem load27_eq (v5 : BitVec 32) (h : v5.toNat < 262144) (t : Fin k0_t27_loop.trips) :
    k0_off56 v5 t = ![(16384 * 10 + 262144 - v5.toNat) % 262144 % 16384 + 16 * t.val] :=
  loadW_eq 10 (by omega) v5 h t.val (Nat.lt_of_lt_of_le t.isLt Gen.k0_t27_abs.2.1)

/-- Loop 28 (chunk 11): the load offset at trip t. -/
theorem load28_eq (v5 : BitVec 32) (h : v5.toNat < 262144) (t : Fin k0_t28_loop.trips) :
    k0_off58 v5 t = ![(16384 * 11 + 262144 - v5.toNat) % 262144 % 16384 + 16 * t.val] :=
  loadW_eq 11 (by omega) v5 h t.val (Nat.lt_of_lt_of_le t.isLt Gen.k0_t28_abs.2.1)

/-- Loop 29 (chunk 12): the load offset at trip t. -/
theorem load29_eq (v5 : BitVec 32) (h : v5.toNat < 262144) (t : Fin k0_t29_loop.trips) :
    k0_off60 v5 t = ![(16384 * 12 + 262144 - v5.toNat) % 262144 % 16384 + 16 * t.val] :=
  loadW_eq 12 (by omega) v5 h t.val (Nat.lt_of_lt_of_le t.isLt Gen.k0_t29_abs.2.1)

/-- Loop 30 (chunk 13): the load offset at trip t. -/
theorem load30_eq (v5 : BitVec 32) (h : v5.toNat < 262144) (t : Fin k0_t30_loop.trips) :
    k0_off62 v5 t = ![(16384 * 13 + 262144 - v5.toNat) % 262144 % 16384 + 16 * t.val] :=
  loadW_eq 13 (by omega) v5 h t.val (Nat.lt_of_lt_of_le t.isLt Gen.k0_t30_abs.2.1)

/-- Loop 31 (chunk 14): the load offset at trip t. -/
theorem load31_eq (v5 : BitVec 32) (h : v5.toNat < 262144) (t : Fin k0_t31_loop.trips) :
    k0_off64 v5 t = ![(16384 * 14 + 262144 - v5.toNat) % 262144 % 16384 + 16 * t.val] :=
  loadW_eq 14 (by omega) v5 h t.val (Nat.lt_of_lt_of_le t.isLt Gen.k0_t31_abs.2.1)

/-- Loop 32 (chunk 15): the load offset at trip t. -/
theorem load32_eq (v5 : BitVec 32) (h : v5.toNat < 262144) (t : Fin k0_t32_loop.trips) :
    k0_off66 v5 t = ![(16384 * 15 + 262144 - v5.toNat) % 262144 % 16384 + 16 * t.val] :=
  loadW_eq 15 (by omega) v5 h t.val (Nat.lt_of_lt_of_le t.isLt Gen.k0_t32_abs.2.1)

end Cert.Kernel.Arith
-- ==== Proof.KernelArithChk.lean ====
/-
  The kernel's in-bounds side condition holds for every shift word below 262144.
  Each copy's source window of 16384 entries starts at a multiple of 16384 inside its row of 262144 entries
  (the row's first entry at most 63 * 262144), so it ends by 64 * 262144 = 16777216; each loop load of 16 entries
  starts at g % 16384 + 16 * t ≤ 16383 + 16 * 1023, so it ends by 32768.
-/
import proofs.«215547_g4990751997953_cont_8to1_c_497_7_alg».proof.Proof.KernelArithOff

namespace Cert.Kernel.Arith

open Idealize.ShloMosaic

/-- A one-entry offset vector known in closed form is in bounds when its entry is. -/
theorem inb_one {f : Fin 1 → Nat} {x s b : Nat} (hf : f = ![x]) (hx : x + s ≤ b) :
    ∀ a : Fin 1, f a + (![s] : Fin 1 → Nat) a ≤ (![b] : Fin 1 → Nat) a := by
  intro a
  have ha : a = 0 := Fin.fin_one_eq_zero a
  subst ha
  subst hf
  simpa using hx

/-- The first copy's source window lies in the flat array. -/
theorem off1_inb (i : grid0.Coords) (v5 : BitVec 32) (h : v5.toNat < 262144) (r : Fin 2) (ch : Fin 16) :
    ∀ a, (k0_off1 i v5 (BitVec.ofNat 32 r.val) (BitVec.ofNat 32 (16384 * ch.val))) a + S16384.size a ≤ S16777216.size a := by
  have hi1 : (i 1).val < 16 := (i 1).isLt
  have hi0 : (i 0).val < 2 := (i 0).isLt
  have hr : r.val < 2 := r.isLt
  have hG : (16384 * ch.val + 262144 - v5.toNat) % 262144 < 262144 := Nat.mod_lt _ (by omega)
  exact inb_one (off1_eq i v5 h r ch) (by omega)

/-- The second copy's source window lies in the flat array. -/
theorem off2_inb (i : grid0.Coords) (v5 : BitVec 32) (h : v5.toNat < 262144) (r : Fin 2) (ch : Fin 16) :
    ∀ a, (k0_off2 i v5 (BitVec.ofNat 32 r.val) (BitVec.ofNat 32 (16384 * ch.val))) a + S16384.size a ≤ S16777216.size a := by
  have hi1 : (i 1).val < 16 := (i 1).isLt
  have hi0 : (i 0).val < 2 := (i 0).isLt
  have hr : r.val < 2 := r.isLt
  have hG : (16384 * ch.val + 262144 - v5.toNat) % 262144 < 262144 := Nat.mod_lt _ (by omega)
  exact inb_one (off2_eq i v5 h r ch) (by omega)

/-- Loop 1: every load of 16 entries lies in the 32768-entry buffer. -/
theorem load1_inb (v5 : BitVec 32) (h : v5.toNat < 262144) (t : Fin k0_t1_loop.trips) :
    ∀ a, (k0_off3 v5 t) a + S16.size a ≤ S32768.size a := by
  have ht : t.val < 1024 := Nat.lt_of_lt_of_le t.isLt Gen.k0_t1_abs.2.1
  exact inb_one (load1_eq v5 h t) (by omega)

/-- Loop 2: every load of 16 entries lies in the 32768-entry buffer. -/
theorem load2_inb (v5 : BitVec 32) (h : v5.toNat < 262144) (t : Fin k0_t2_loop.trips) :
    ∀ a, (k0_off6 v5 t) a + S16.size a ≤ S32768.size a := by
  have ht : t.val < 1024 := Nat.lt_of_lt_of_le t.isLt Gen.k0_t2_abs.2.1
  exact inb_one (load2_eq v5 h t) (by omega)

/-- Loop 3: every load of 16 entries lies in the 32768-entry buffer. -/
theorem load3_inb (v5 : BitVec 32) (h : v5.toNat < 262144) (t : Fin k0_t3_loop.trips) :
    ∀ a, (k0_off8 v5 t) a + S16.size a ≤ S32768.size a := by
  have ht : t.val < 1024 := Nat.lt_of_lt_of_le t.isLt Gen.k0_t3_abs.2.1
  exact inb_one (load3_eq v5 h t) (by omega)

/-- Loop 4: every load of 16 entries lies in the 32768-entry buffer. -/
theorem load4_inb (v5 : BitVec 32) (h : v5.toNat < 262144) (t : Fin k0_t4_loop.trips) :
    ∀ a, (k0_off10 v5 t) a + S16.size a ≤ S32768.size a := by
  have ht : t.val < 1024 := Nat.lt_of_lt_of_le t.isLt Gen.k0_t4_abs.2.1
  exact inb_one (load4_eq v5 h t) (by omega)

/-- Loop 5: every load of 16 entries lies in the 32768-entry buffer. -/
theorem load5_inb (v5 : BitVec 32) (h : v5.toNat < 262144) (t : Fin k0_t5_loop.trips) :
    ∀ a, (k0_off12 v5 t) a + S16.size a ≤ S32768.size a := by
  have ht : t.val < 1024 := Nat.lt_of_lt_of_le t.isLt Gen.k0_t5_abs.2.1
  exact inb_one (load5_eq v5 h t) (by omega)

/-- Loop 6: every load of 16 entries lies in the 32768-entry buffer. -/
theorem load6_inb (v5 : BitVec 32) (h : v5.toNat < 262144) (t : Fin k0_t6_loop.trips) :
    ∀ a, (k0_off14 v5 t) a + S16.size a ≤ S32768.size a := by
  have ht : t.val < 1024 := Nat.lt_of_lt_of_le t.isLt Gen.k0_t6_abs.2.1
  exact inb_one (load6_eq v5 h t) (by omega)

/-- Loop 7: every load of 16 entries lies in the 32768-entry buffer. -/
theorem load7_inb (v5 : BitVec 32) (h : v5.toNat < 262144) (t : Fin k0_t7_loop.trips) :
    ∀ a, (k0_off16 v5 t) a + S16.size a ≤ S32768.size a := by
  have ht : t.val < 1024 := Nat.lt_of_lt_of_le t.isLt Gen.k0_t7_abs.2.1
  exact inb_one (load7_eq v5 h t) (by omega)

/-- Loop 8: every load of 16 entries lies in the 32768-entry buffer. -/
theorem load8_inb (v5 : BitVec 32) (h : v5.toNat < 262144) (t : Fin k0_t8_loop.trips) :
    ∀ a, (k0_off18 v5 t) a + S16.size a ≤ S32768.size a := by
  have ht : t.val < 1024 := Nat.lt_of_lt_of_le t.isLt Gen.k0_t8_abs.2.1
  exact inb_one (load8_eq v5 h t) (by omega)

/-- Loop 9: every load of 16 entries lies in the 32768-entry buffer. -/
theorem load9_inb (v5 : BitVec 32) (h : v5.toNat < 262144) (t : Fin k0_t9_loop.trips) :
    ∀ a, (k0_off20 v5 t) a + S16.size a ≤ S32768.size a := by
  have ht : t.val < 1024 := Nat.lt_of_lt_of_le t.isLt Gen.k0_t9_abs.2.1
  exact inb_one (load9_eq v5 h t) (by omega)

/-- Loop 10: every load of 16 entries lies in the 32768-entry buffer. -/
theorem load10_inb (v5 : BitVec 32) (h : v5.toNat < 262144) (t : Fin k0_t10_loop.trips) :
    ∀ a, (k0_off22 v5 t) a + S16.size a ≤ S32768.size a := by
  have ht : t.val < 1024 := Nat.lt_of_lt_of_le t.isLt Gen.k0_t10_abs.2.1
  exact inb_one (load10_eq v5 h t) (by omega)

/-- Loop 11: every load of 16 entries lies in the 32768-entry buffer. -/
theorem load11_inb (v5 : BitVec 32) (h : v5.toNat < 262144) (t : Fin k0_t11_loop.trips) :
    ∀ a, (k0_off24 v5 t) a + S16.size a ≤ S32768.size a := by
  have ht : t.val < 1024 := Nat.lt_of_lt_of_le t.isLt Gen.k0_t11_abs.2.1
  exact inb_one (load11_eq v5 h t) (by omega)

/-- Loop 12: every load of 16 entries lies in the 32768-entry buffer. -/
theorem load12_inb (v5 : BitVec 32) (h : v5.toNat < 262144) (t : Fin k0_t12_loop.trips) :
    ∀ a, (k0_off26 v5 t) a + S16.size a ≤ S32768.size a := by
  have ht : t.val < 1024 := Nat.lt_of_lt_of_le t.isLt Gen.k0_t12_abs.2.1
  exact inb_one (load12_eq v5 h t) (by omega)

/-- Loop 13: every load of 16 entries lies in the 32768-entry buffer. -/
theorem load13_inb (v5 : BitVec 32) (h : v5.toNat < 262144) (t : Fin k0_t13_loop.trips) :
    ∀ a, (k0_off28 v5 t) a + S16.size a ≤ S32768.size a := by
  have ht : t.val < 1024 := Nat.lt_of_lt_of_le t.isLt Gen.k0_t13_abs.2.1
  exact inb_one (load13_eq v5 h t) (by omega)

/-- Loop 14: every load of 16 entries lies in the 32768-entry buffer. -/
theorem load14_inb (v5 : BitVec 32) (h : v5.toNat < 262144) (t : Fin k0_t14_loop.trips) :
    ∀ a, (k0_off30 v5 t) a + S16.size a ≤ S32768.size a := by
  have ht : t.val < 1024 := Nat.lt_of_lt_of_le t.isLt Gen.k0_t14_abs.2.1
  exact inb_one (load14_eq v5 h t) (by omega)

/-- Loop 15: every load of 16 entries lies in the 32768-entry buffer. -/
theorem load15_inb (v5 : BitVec 32) (h : v5.toNat < 262144) (t : Fin k0_t15_loop.trips) :
    ∀ a, (k0_off32 v5 t) a + S16.size a ≤ S32768.size a := by
  have ht : t.val < 1024 := Nat.lt_of_lt_of_le t.isLt Gen.k0_t15_abs.2.1
  exact inb_one (load15_eq v5 h t) (by omega)

/-- Loop 16: every load of 16 entries lies in the 32768-entry buffer. -/
theorem load16_inb (v5 : BitVec 32) (h : v5.toNat < 262144) (t : Fin k0_t16_loop.trips) :
    ∀ a, (k0_off34 v5 t) a + S16.size a ≤ S32768.size a := by
  have ht : t.val < 1024 := Nat.lt_of_lt_of_le t.isLt Gen.k0_t16_abs.2.1
  exact inb_one (load16_eq v5 h t) (by omega)

/-- Loop 17: every load of 16 entries lies in the 32768-entry buffer. -/
theorem load17_inb (v5 : BitVec 32) (h : v5.toNat < 262144) (t : Fin k0_t17_loop.trips) :
    ∀ a, (k0_off36 v5 t) a + S16.size a ≤ S32768.size a := by
  have ht : t.val < 1024 := Nat.lt_of_lt_of_le t.isLt Gen.k0_t17_abs.2.1
  exact inb_one (load17_eq v5 h t) (by omega)

/-- Loop 18: every load of 16 entries lies in the 32768-entry buffer. -/
theorem load18_inb (v5 : BitVec 32) (h : v5.toNat < 262144) (t : Fin k0_t18_loop.trips) :
    ∀ a, (k0_off38 v5 t) a + S16.size a ≤ S32768.size a := by
  have ht : t.val < 1024 := Nat.lt_of_lt_of_le t.isLt Gen.k0_t18_abs.2.1
  exact inb_one (load18_eq v5 h t) (by omega)

/-- Loop 19: every load of 16 entries lies in the 32768-entry buffer. -/
theorem load19_inb (v5 : BitVec 32) (h : v5.toNat < 262144) (t : Fin k0_t19_loop.trips) :
    ∀ a, (k0_off40 v5 t) a + S16.size a ≤ S32768.size a := by
  have ht : t.val < 1024 := Nat.lt_of_lt_of_le t.isLt Gen.k0_t19_abs.2.1
  exact inb_one (load19_eq v5 h t) (by omega)

/-- Loop 20: every load of 16 entries lies in the 32768-entry buffer. -/
theorem load20_inb (v5 : BitVec 32) (h : v5.toNat < 262144) (t : Fin k0_t20_loop.trips) :
    ∀ a, (k0_off42 v5 t) a + S16.size a ≤ S32768.size a := by
  have ht : t.val < 1024 := Nat.lt_of_lt_of_le t.isLt Gen.k0_t20_abs.2.1
  exact inb_one (load20_eq v5 h t) (by omega)

/-- Loop 21: every load of 16 entries lies in the 32768-entry buffer. -/
theorem load21_inb (v5 : BitVec 32) (h : v5.toNat < 262144) (t : Fin k0_t21_loop.trips) :
    ∀ a, (k0_off44 v5 t) a + S16.size a ≤ S32768.size a := by
  have ht : t.val < 1024 := Nat.lt_of_lt_of_le t.isLt Gen.k0_t21_abs.2.1
  exact inb_one (load21_eq v5 h t) (by omega)

/-- Loop 22: every load of 16 entries lies in the 32768-entry buffer. -/
theorem load22_inb (v5 : BitVec 32) (h : v5.toNat < 262144) (t : Fin k0_t22_loop.trips) :
    ∀ a, (k0_off46 v5 t) a + S16.size a ≤ S32768.size a := by
  have ht : t.val < 1024 := Nat.lt_of_lt_of_le t.isLt Gen.k0_t22_abs.2.1
  exact inb_one (load22_eq v5 h t) (by omega)

/-- Loop 23: every load of 16 entries lies in the 32768-entry buffer. -/
theorem load23_inb (v5 : BitVec 32) (h : v5.toNat < 262144) (t : Fin k0_t23_loop.trips) :
    ∀ a, (k0_off48 v5 t) a + S16.size a ≤ S32768.size a := by
  have ht : t.val < 1024 := Nat.lt_of_lt_of_le t.isLt Gen.k0_t23_abs.2.1
  exact inb_one (load23_eq v5 h t) (by omega)

/-- Loop 24: every load of 16 entries lies in the 32768-entry buffer. -/
theorem load24_inb (v5 : BitVec 32) (h : v5.toNat < 262144) (t : Fin k0_t24_loop.trips) :
    ∀ a, (k0_off50 v5 t) a + S16.size a ≤ S32768.size a := by
  have ht : t.val < 1024 := Nat.lt_of_lt_of_le t.isLt Gen.k0_t24_abs.2.1
  exact inb_one (load24_eq v5 h t) (by omega)

/-- Loop 25: every load of 16 entries lies in the 32768-entry buffer. -/
theorem load25_inb (v5 : BitVec 32) (h : v5.toNat < 262144) (t : Fin k0_t25_loop.trips) :
    ∀ a, (k0_off52 v5 t) a + S16.size a ≤ S32768.size a := by
  have ht : t.val < 1024 := Nat.lt_of_lt_of_le t.isLt Gen.k0_t25_abs.2.1
  exact inb_one (load25_eq v5 h t) (by omega)

/-- Loop 26: every load of 16 entries lies in the 32768-entry buffer. -/
theorem load26_inb (v5 : BitVec 32) (h : v5.toNat < 262144) (t : Fin k0_t26_loop.trips) :
    ∀ a, (k0_off54 v5 t) a + S16.size a ≤ S32768.size a := by
  have ht : t.val < 1024 := Nat.lt_of_lt_of_le t.isLt Gen.k0_t26_abs.2.1
  exact inb_one (load26_eq v5 h t) (by omega)

/-- Loop 27: every load of 16 entries lies in the 32768-entry buffer. -/
theorem load27_inb (v5 : BitVec 32) (h : v5.toNat < 262144) (t : Fin k0_t27_loop.trips) :
    ∀ a, (k0_off56 v5 t) a + S16.size a ≤ S32768.size a := by
  have ht : t.val < 1024 := Nat.lt_of_lt_of_le t.isLt Gen.k0_t27_abs.2.1
  exact inb_one (load27_eq v5 h t) (by omega)

/-- Loop 28: every load of 16 entries lies in the 32768-entry buffer. -/
theorem load28_inb (v5 : BitVec 32) (h : v5.toNat < 262144) (t : Fin k0_t28_loop.trips) :
    ∀ a, (k0_off58 v5 t) a + S16.size a ≤ S32768.size a := by
  have ht : t.val < 1024 := Nat.lt_of_lt_of_le t.isLt Gen.k0_t28_abs.2.1
  exact inb_one (load28_eq v5 h t) (by omega)

/-- Loop 29: every load of 16 entries lies in the 32768-entry buffer. -/
theorem load29_inb (v5 : BitVec 32) (h : v5.toNat < 262144) (t : Fin k0_t29_loop.trips) :
    ∀ a, (k0_off60 v5 t) a + S16.size a ≤ S32768.size a := by
  have ht : t.val < 1024 := Nat.lt_of_lt_of_le t.isLt Gen.k0_t29_abs.2.1
  exact inb_one (load29_eq v5 h t) (by omega)

/-- Loop 30: every load of 16 entries lies in the 32768-entry buffer. -/
theorem load30_inb (v5 : BitVec 32) (h : v5.toNat < 262144) (t : Fin k0_t30_loop.trips) :
    ∀ a, (k0_off62 v5 t) a + S16.size a ≤ S32768.size a := by
  have ht : t.val < 1024 := Nat.lt_of_lt_of_le t.isLt Gen.k0_t30_abs.2.1
  exact inb_one (load30_eq v5 h t) (by omega)

/-- Loop 31: every load of 16 entries lies in the 32768-entry buffer. -/
theorem load31_inb (v5 : BitVec 32) (h : v5.toNat < 262144) (t : Fin k0_t31_loop.trips) :
    ∀ a, (k0_off64 v5 t) a + S16.size a ≤ S32768.size a := by
  have ht : t.val < 1024 := Nat.lt_of_lt_of_le t.isLt Gen.k0_t31_abs.2.1
  exact inb_one (load31_eq v5 h t) (by omega)

/-- Loop 32: every load of 16 entries lies in the 32768-entry buffer. -/
theorem load32_inb (v5 : BitVec 32) (h : v5.toNat < 262144) (t : Fin k0_t32_loop.trips) :
    ∀ a, (k0_off66 v5 t) a + S16.size a ≤ S32768.size a := by
  have ht : t.val < 1024 := Nat.lt_of_lt_of_le t.isLt Gen.k0_t32_abs.2.1
  exact inb_one (load32_eq v5 h t) (by omega)

/-- The side condition the kernel's body assumes of the shift word it reads. -/
theorem chk_of_lt (i : grid0.Coords) (v5 : BitVec 32) (h : v5.toNat < 262144) : k0_chk1 i v5 := by
  unfold k0_chk1 k0_chk1_0 k0_chk1_1
  exact
    ⟨⟨fun r ch => off1_inb i v5 h r ch, fun r ch => off2_inb i v5 h r ch,
     load1_inb v5 h,
     load2_inb v5 h,
     load3_inb v5 h,
     load4_inb v5 h,
     load5_inb v5 h,
     load6_inb v5 h,
     load7_inb v5 h,
     load8_inb v5 h,
     load9_inb v5 h,
     load10_inb v5 h,
     load11_inb v5 h,
     load12_inb v5 h,
     load13_inb v5 h,
     load14_inb v5 h,
     load15_inb v5 h,
     load16_inb v5 h,
     load17_inb v5 h,
     load18_inb v5 h,
     load19_inb v5 h,
     load20_inb v5 h,
     load21_inb v5 h,
     load22_inb v5 h,
     load23_inb v5 h,
     load24_inb v5 h,
     load25_inb v5 h,
     load26_inb v5 h,
     load27_inb v5 h,
     load28_inb v5 h,
     load29_inb v5 h,
     load30_inb v5 h⟩,
     ⟨load31_inb v5 h, load32_inb v5 h⟩⟩

end Cert.Kernel.Arith
-- ==== Proof.KBTileFrame.lean ====
/-
  A task of the rotation kernel runs to its end, faults nowhere, and gives back what it was handed: its read shares
  of the flat input and of the shift vector, its part of the flat output (at some contents), its scratch buffers
  and its semaphores at zero. The task copies the shift vector in and reads the shift off its first word (in range
  by hypothesis, so every slice below is inside its array); then, thirty-two times, it copies two consecutive
  16384-entry blocks of the input row into the double-width buffer, moves 16384 entries from there into the chunk
  buffer sixteen at a time (a counted loop of 1024 trips, run at an invariant), and copies the chunk buffer out.
-/
import proofs.«215547_g4990751997953_cont_8to1_c_497_7_alg».proof.Proof.KBSetup
import proofs.«215547_g4990751997953_cont_8to1_c_497_7_alg».proof.Proof.KBTileDefs
import proofs.«215547_g4990751997953_cont_8to1_c_497_7_alg».proof.Proof.KBTileOwn
import proofs.«215547_g4990751997953_cont_8to1_c_497_7_alg».proof.Proof.KernelArithChk
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v9_scv : Memref Cert.Kernel.sig Kind.scVector Space.hbm Cert.Kernel.S16777216 EltTy.f32)
local notation "svV" => (Memref.whole Cert.Kernel.main_v8_scv : Memref Cert.Kernel.sig Kind.scVector Space.hbm Cert.Kernel.S16 EltTy.i32)
local notation "oV" => (Memref.whole Cert.Kernel.main_v10_scv : Memref Cert.Kernel.sig Kind.scVector Space.hbm Cert.Kernel.S16777216 EltTy.f32)
local notation "s5" => (Memref.whole Cert.Kernel.cc0_scratch0 : Memref Cert.Kernel.sig Kind.scVector Space.vmem Cert.Kernel.S16 EltTy.i32)
local notation "s6" => (Memref.whole Cert.Kernel.cc0_scratch1 : Memref Cert.Kernel.sig Kind.scVector Space.vmem Cert.Kernel.S32768 EltTy.f32)
local notation "s7" => (Memref.whole Cert.Kernel.cc0_scratch2 : Memref Cert.Kernel.sig Kind.scVector Space.vmem Cert.Kernel.S16384 EltTy.f32)

variable [FloatOps F]

section Tile
variable (d : Dev nD) (L : grid0.Coords)

/-- While a chunk's sixteen-entry pieces are moved, the double-width buffer and the chunk buffer are both held. -/
def invF (d : Dev nD) (L : grid0.Coords) (_ : Nat) (_ : PUnit) : sProp 𝕄 :=
  iprop((∃ B, (s6).view.loc (V d (cV L) (jV L)) ↦{fullShare} B) ∗ ∃ f, (s7).view.loc (V d (cV L) (jV L)) ↦{fullShare} f)

set_option maxHeartbeats 40000000 in
theorem tile_frame (hF : (K (F := F)).Facts) (qx qs : PosShare TreeShare) (X : Buf (Elt F) (xLoc d)) (Sv : Buf (Elt F) (svLoc d)) (fo : Buf (Elt F) (oLoc d))
    (hs : (Sv (ValueIdx.ix1 0)).toNat < 262144)
    (O : CellTallies nD τ sig (HIx 1)) (W : Waits sig (HIx 1)) (hO : ∀ g, O g none = 0) :
    iprop(levAts (K (F := F)).L (K (F := F)).lev ∗ emp
        ∗ ((xLoc d ↦{qx} X : sProp 𝕄) ∗ (svLoc d ↦{qs} Sv) ∗ (oLoc d ↦[tSet L]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_roll_k L xV (Memref.isWhole_whole _) svV (Memref.isWhole_whole _) oV (Memref.isWhole_whole _)
            s5 (Memref.isWhole_whole _) s6 (Memref.isWhole_whole _) s7 (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96)
          fun _ => (iprop(((xLoc d ↦{qx} X) ∗ (svLoc d ↦{qs} Sv) ∗ ∃ f, ⌜True⌝ ∗ (oLoc d ↦[tSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨Hx, Hsv, Ho⟩, ⟨⟨%f5, H5⟩, ⟨%f6, H6⟩, ⟨%f7, H7⟩, Hbufs⟩, ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63, Hs64, Hs65, Hs66, Hs67, Hs68, Hs69, Hs70, Hs71, Hs72, Hs73, Hs74, Hs75, Hs76, Hs77, Hs78, Hs79, Hs80, Hs81, Hs82, Hs83, Hs84, Hs85, Hs86, Hs87, Hs88, Hs89, Hs90, Hs91, Hs92, Hs93, Hs94, Hs95, Hs96⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xLoc d ↦{qx} X : sProp 𝕄) = ((xV).view.loc (V d (cV L) (jV L)) ↦{qx} X) from rfl)) $$ Hx
  ihave Hsv' := (Entails.of_eq (show (svLoc d ↦{qs} Sv : sProp 𝕄) = ((svV).view.loc (V d (cV L) (jV L)) ↦{qs} Sv) from rfl)) $$ Hsv
  ihave Ho' := (Entails.of_eq (show (oLoc d ↦[tSet L]{fullShare} fo : sProp 𝕄) = ((oV).view.loc (V d (cV L) (jV L)) ↦[(oV).view.setOn (tRect L).set]{fullShare} fo) from rfl)) $$ Ho
  ihave H5' := (Entails.of_eq (show ((V d (cV L) (jV L)).loc cc0_scratch0 ↦{fullShare} f5 : sProp 𝕄) = ((s5).view.loc (V d (cV L) (jV L)) ↦{fullShare} f5) from rfl)) $$ H5
  ihave H6' := (Entails.of_eq (show ((V d (cV L) (jV L)).loc cc0_scratch1 ↦{fullShare} f6 : sProp 𝕄) = ((s6).view.loc (V d (cV L) (jV L)) ↦{fullShare} f6) from rfl)) $$ H6
  ihave H7' := (Entails.of_eq (show ((V d (cV L) (jV L)).loc cc0_scratch2 ↦{fullShare} f7 : sProp 𝕄) = ((s7).view.loc (V d (cV L) (jV L)) ↦{fullShare} f7) from rfl)) $$ H7
  sl_exec_parts (disch := (refine Cert.Kernel.Arith.chk_of_lt _ _ ?_; sl_unfold_run_names; exact lt_of_eq_of_lt (congrArg BitVec.toNat (v5_eq d L _ _)) hs))
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_for (invF (F := F) d L) $$ [H6' H7']
  case region =>
    intro k _
    unfold invF
    iintro ⟨⟨%B, H6⟩, %f, H7⟩
    sl_exec
    sl_step
    isplitl [H6]; · iexists _; iexact H6
    iexists _; iexact H7
  · unfold invF
    isplitl [H6']; · iexists _; iexact H6'
    iexists _; iexact H7'
  iintro %_ HI
  unfold invF
  icases HI with ⟨⟨%B6, H6'⟩, %f7', H7'⟩
  sl_exec_parts
  sl_step
  isplitl [Hx' Hsv' Ho']
  · isplitl [Hx']; · iexact Hx'
    isplitl [Hsv']; · iexact Hsv'
    iexists _; isplitr
    · ipureintro; trivial
    · iexact Ho'
  isplitl [H5' H6' H7' Hbufs]
  · isplitl [H5']; · iexists _; iexact H5'
    isplitl [H6']; · iexists _; iexact H6'
    isplitl [H7']; · iexists _; iexact H7'
    iexact Hbufs
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79 Hs80 Hs81 Hs82 Hs83 Hs84 Hs85 Hs86 Hs87 Hs88 Hs89 Hs90 Hs91 Hs92 Hs93 Hs94 Hs95 Hs96]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    isplitl [Hs39]; · iexact Hs39
    isplitl [Hs40]; · iexact Hs40
    isplitl [Hs41]; · iexact Hs41
    isplitl [Hs42]; · iexact Hs42
    isplitl [Hs43]; · iexact Hs43
    isplitl [Hs44]; · iexact Hs44
    isplitl [Hs45]; · iexact Hs45
    isplitl [Hs46]; · iexact Hs46
    isplitl [Hs47]; · iexact Hs47
    isplitl [Hs48]; · iexact Hs48
    isplitl [Hs49]; · iexact Hs49
    isplitl [Hs50]; · iexact Hs50
    isplitl [Hs51]; · iexact Hs51
    isplitl [Hs52]; · iexact Hs52
    isplitl [Hs53]; · iexact Hs53
    isplitl [Hs54]; · iexact Hs54
    isplitl [Hs55]; · iexact Hs55
    isplitl [Hs56]; · iexact Hs56
    isplitl [Hs57]; · iexact Hs57
    isplitl [Hs58]; · iexact Hs58
    isplitl [Hs59]; · iexact Hs59
    isplitl [Hs60]; · iexact Hs60
    isplitl [Hs61]; · iexact Hs61
    isplitl [Hs62]; · iexact Hs62
    isplitl [Hs63]; · iexact Hs63
    isplitl [Hs64]; · iexact Hs64
    isplitl [Hs65]; · iexact Hs65
    isplitl [Hs66]; · iexact Hs66
    isplitl [Hs67]; · iexact Hs67
    isplitl [Hs68]; · iexact Hs68
    isplitl [Hs69]; · iexact Hs69
    isplitl [Hs70]; · iexact Hs70
    isplitl [Hs71]; · iexact Hs71
    isplitl [Hs72]; · iexact Hs72
    isplitl [Hs73]; · iexact Hs73
    isplitl [Hs74]; · iexact Hs74
    isplitl [Hs75]; · iexact Hs75
    isplitl [Hs76]; · iexact Hs76
    isplitl [Hs77]; · iexact Hs77
    isplitl [Hs78]; · iexact Hs78
    isplitl [Hs79]; · iexact Hs79
    isplitl [Hs80]; · iexact Hs80
    isplitl [Hs81]; · iexact Hs81
    isplitl [Hs82]; · iexact Hs82
    isplitl [Hs83]; · iexact Hs83
    isplitl [Hs84]; · iexact Hs84
    isplitl [Hs85]; · iexact Hs85
    isplitl [Hs86]; · iexact Hs86
    isplitl [Hs87]; · iexact Hs87
    isplitl [Hs88]; · iexact Hs88
    isplitl [Hs89]; · iexact Hs89
    isplitl [Hs90]; · iexact Hs90
    isplitl [Hs91]; · iexact Hs91
    isplitl [Hs92]; · iexact Hs92
    isplitl [Hs93]; · iexact Hs93
    isplitl [Hs94]; · iexact Hs94
    isplitl [Hs95]; · iexact Hs95
    iexact Hs96
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hp
  all_goals first | exact .inr rfl | exact .inl hp

end Tile

end Cert.Proof.KB

end
-- ==== Proof.KBLaunchPay.lean ====
/-
  What the one SparseCore call hands its thirty-two tasks and takes back. Task (core c, subcore i) has number
  2i + c; it is handed one of thirty-two read shares of the flat input and of the shift vector, and the whole of
  its own 524288 entries of the flat output; it hands back the two read shares and its entries of the output at
  contents of which a property Φ (a parameter) is known. A core's operands and results are its sixteen tasks'.
-/
import proofs.«215547_g4990751997953_cont_8to1_c_497_7_alg».proof.Proof.KBTileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

/-- The coordinates of the task on core `c`, subcore `s` of the grid. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Task (c, i)'s number among the thirty-two: 2i + c. -/
def taskNo (c : Fin 2) (i : Fin 16) : Fin (31 + 1) := ⟨2 * i.val + c.val, by omega⟩

/-- The coordinates of the call's task (c, i). -/
abbrev LL (c : Fin ((K (F := F)).nCore 0)) (i : Fin ((K (F := F)).nSub 0)) : grid0.Coords :=
  coordsV ⟨c.val, c.isLt⟩ ⟨i.val, i.isLt⟩

/-- Its number. -/
abbrev tn (c : Fin ((K (F := F)).nCore 0)) (i : Fin ((K (F := F)).nSub 0)) : Fin (31 + 1) :=
  taskNo (Fin.cast nCore_zero c) (Fin.cast nSub_zero i)

section Pay

variable (Φ : (d : Dev nD) → grid0.Coords → Buf (Elt F) (xLoc d) → Buf (Elt F) (svLoc d) → Buf (Elt F) (oLoc d) → Prop)
variable (X : (d : Dev nD) → Buf (Elt F) (xLoc d)) (Sv : (d : Dev nD) → Buf (Elt F) (svLoc d)) (fo : (d : Dev nD) → Buf (Elt F) (oLoc d))

/-- What a task is handed: its read shares of the input and the shift vector, its entries of the output. -/
abbrev goT (d : Dev nD) (L : grid0.Coords) (k : Fin (31 + 1)) : sProp 𝕄 :=
  iprop((xLoc d ↦{piece fullShare 31 k} X d) ∗ (svLoc d ↦{piece fullShare 31 k} Sv d) ∗ (oLoc d ↦[tSet L]{fullShare} fo d))

/-- What it hands back: the read shares, and its entries of the output at contents of which `Φ` holds. -/
abbrev tdT (d : Dev nD) (L : grid0.Coords) (k : Fin (31 + 1)) : sProp 𝕄 :=
  iprop((xLoc d ↦{piece fullShare 31 k} X d) ∗ (svLoc d ↦{piece fullShare 31 k} Sv d)
    ∗ ∃ f, ⌜Φ d L (X d) (Sv d) f⌝ ∗ (oLoc d ↦[tSet L]{fullShare} f))

/-- The call's payloads. -/
def P : (K (F := F)).Pay (nD := nD) (Val := Elt F) (Name := ℕ) (U := UU) where
  st := fun q d c => match q with | 0 => bigSep Finset.univ fun i : Fin ((K (F := F)).nSub 0) => goT X Sv fo d (LL c i) (tn c i)
  dn := fun q d c => match q with | 0 => bigSep Finset.univ fun i : Fin ((K (F := F)).nSub 0) => tdT Φ X Sv d (LL c i) (tn c i)
  go := fun q d c i => match q with | 0 => goT X Sv fo d (LL c i) (tn c i)
  td := fun q d c i => match q with | 0 => tdT Φ X Sv d (LL c i) (tn c i)
  x := fun _ _ => iprop(emp)

instance P_storable : (P (F := F) Φ X Sv fo).IsStorable where
  st q d c := match q with
    | 0 => (inferInstance : BI.Storable (upEmb : UEmb _ 𝕄) (bigSep Finset.univ fun i : Fin ((K (F := F)).nSub 0) => goT X Sv fo d (LL c i) (tn c i)))
  dn q d c := match q with
    | 0 => (inferInstance : BI.Storable (upEmb : UEmb _ 𝕄) (bigSep Finset.univ fun i : Fin ((K (F := F)).nSub 0) => tdT Φ X Sv d (LL c i) (tn c i)))
  go q d c i := match q with
    | 0 => (inferInstance : BI.Storable (upEmb : UEmb _ 𝕄) (goT X Sv fo d (LL c i) (tn c i)))
  td q d c i := match q with
    | 0 => (inferInstance : BI.Storable (upEmb : UEmb _ 𝕄) (tdT Φ X Sv d (LL c i) (tn c i)))

/-- A core's operands are its tasks' and its results theirs. -/
theorem vecSplit : (K (F := F)).VecSplit' (P Φ X Sv fo) 0 := by
  intro d c
  show (bigSep Finset.univ fun i : Fin ((K (F := F)).nSub 0) => goT X Sv fo d (LL c i) (tn c i))
    ⊢ |={Set.univ}=> iprop((bigSep Finset.univ fun i : Fin ((K (F := F)).nSub 0) => goT X Sv fo d (LL c i) (tn c i))
      ∗ ((bigSep Finset.univ fun i : Fin ((K (F := F)).nSub 0) => tdT Φ X Sv d (LL c i) (tn c i))
          -∗ bigSep Finset.univ fun i : Fin ((K (F := F)).nSub 0) => tdT Φ X Sv d (LL c i) (tn c i)))
  iintro H; imodintro
  isplitl [H]; · iexact H
  iintro H; iexact H

end Pay

end Cert.Proof.KB

end
-- ==== Proof.KBLaunchObl.lean ====
/-
  The task obligation of the launch, from the task body's statement. The body's statement is a hypothesis here
  (`TileHyp Φ`): on any task `L`, from any read shares of the flat input and the shift vector (entry 0 of which is
  below 262144) and the task's own entries of the flat output, the kernel function runs and leaves the shares and
  the entries at contents of which `Φ` holds.
-/
import proofs.«215547_g4990751997953_cont_8to1_c_497_7_alg».proof.Proof.KBLaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

local notation "xV" => (Memref.whole Cert.Kernel.main_v9_scv : Memref Cert.Kernel.sig Kind.scVector Space.hbm Cert.Kernel.S16777216 EltTy.f32)
local notation "svV" => (Memref.whole Cert.Kernel.main_v8_scv : Memref Cert.Kernel.sig Kind.scVector Space.hbm Cert.Kernel.S16 EltTy.i32)
local notation "oV" => (Memref.whole Cert.Kernel.main_v10_scv : Memref Cert.Kernel.sig Kind.scVector Space.hbm Cert.Kernel.S16777216 EltTy.f32)
local notation "s5" => (Memref.whole Cert.Kernel.cc0_scratch0 : Memref Cert.Kernel.sig Kind.scVector Space.vmem Cert.Kernel.S16 EltTy.i32)
local notation "s6" => (Memref.whole Cert.Kernel.cc0_scratch1 : Memref Cert.Kernel.sig Kind.scVector Space.vmem Cert.Kernel.S32768 EltTy.f32)
local notation "s7" => (Memref.whole Cert.Kernel.cc0_scratch2 : Memref Cert.Kernel.sig Kind.scVector Space.vmem Cert.Kernel.S16384 EltTy.f32)

variable [FloatOps F]

/-- The task body's statement, for the property `Φ` of what a task leaves in its entries of the output. -/
def TileHyp (Φ : (d : Dev nD) → grid0.Coords → Buf (Elt F) (xLoc d) → Buf (Elt F) (svLoc d) → Buf (Elt F) (oLoc d) → Prop) : Prop :=
  ∀ (d : Dev nD) (L : grid0.Coords) (qx qs : PosShare TreeShare) (X : Buf (Elt F) (xLoc d)) (Sv : Buf (Elt F) (svLoc d)) (fo : Buf (Elt F) (oLoc d))
    (hs : (Sv (ValueIdx.ix1 0)).toNat < 262144) (O : CellTallies nD τ sig (HIx 1)) (W : Waits sig (HIx 1)) (hO : ∀ g, O g none = 0),
    iprop(levAts (K (F := F)).L (K (F := F)).lev ∗ emp ∗ ((xLoc d ↦{qx} X : sProp 𝕄) ∗ (svLoc d ↦{qs} Sv) ∗ (oLoc d ↦[tSet L]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_roll_k L xV (Memref.isWhole_whole _) svV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96)
          fun _ => iprop(((xLoc d ↦{qx} X) ∗ (svLoc d ↦{qs} Sv) ∗ ∃ f, ⌜Φ d L X Sv f⌝ ∗ (oLoc d ↦[tSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0_roll_k (coordsV c s) xV (Memref.isWhole_whole _) svV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

variable (Φ : (d : Dev nD) → grid0.Coords → Buf (Elt F) (xLoc d) → Buf (Elt F) (svLoc d) → Buf (Elt F) (oLoc d) → Prop)
variable (X : (d : Dev nD) → Buf (Elt F) (xLoc d)) (Sv : (d : Dev nD) → Buf (Elt F) (svLoc d)) (fo : (d : Dev nD) → Buf (Elt F) (oLoc d))

theorem tileObl (htile : TileHyp Φ) (hs : ∀ d, (Sv d (ValueIdx.ix1 0)).toNat < 262144) :
    (K (F := F)).TileObl (D (F := F)) 𝒱 (P Φ X Sv fo) v₀ 0 := by
  intro d c i O W hO _ _
  -- this kernel owes nothing for a protocol of its own
  simp only [show (P Φ X Sv fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) _ _ (X d) (Sv d) (fo d) (hs d) O W hO).trans (wp_mono frame _ _ fun _ => obl_post)

end Obl

end Cert.Proof.KB

end
-- ==== Proof.KBTileHyp.lean ====
/-
  The task body in the form the launch asks for it, with nothing claimed of what a task leaves in the output.
-/
import proofs.«215547_g4990751997953_cont_8to1_c_497_7_alg».proof.Proof.KBSetup
import proofs.«215547_g4990751997953_cont_8to1_c_497_7_alg».proof.Proof.KBTileDefs
import proofs.«215547_g4990751997953_cont_8to1_c_497_7_alg».proof.Proof.KBTileFrame
import proofs.«215547_g4990751997953_cont_8to1_c_497_7_alg».proof.Proof.KBLaunchObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem tileHyp_frame : TileHyp (F := F) (fun _ _ _ _ _ => True) := by
  intro d L qx qs X Sv fo hs O W hO
  exact tile_frame d L facts qx qs X Sv fo hs O W hO

end Cert.Proof.KB

end
-- ==== Proof.KILaunchDeal.lean ====
/-
  How the TensorCore's three arrays are dealt to the thirty-two tasks and gathered back. The flat input and the shift
  vector, held whole, are held at thirty-two read shares at once (a share halved thirty-one times), one per task in
  the order 2i + c. The flat output is the disjoint union of the tasks' runs of 524288 entries (task 2i + c's starts
  at 524288 · (2i + c)), so held whole it is held run by run; and runs held at contents of their own are the whole
  at contents agreeing with each on its run.
-/
import proofs.«215547_g4990751997953_cont_8to1_c_497_7_alg».proof.Proof.KILaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

/-- The thirty-two tasks numbered: (c, i) ↦ 2i + c, one-to-one onto the numbers below 32. -/
def taskEquiv : Fin ((K (F := F)).nCore 0) × Fin ((K (F := F)).nSub 0) ≃ Fin (31 + 1) where
  toFun p := tn p.1 p.2
  invFun k := (⟨k.val % 2, by show _ < 2; omega⟩, ⟨k.val / 2, by show _ < 16; omega⟩)
  left_inv p := by
    obtain ⟨c, i⟩ := p
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv k := by
    apply Fin.ext
    show 2 * (k.val / 2) + k.val % 2 = k.val; omega

/-- An array held whole is held at thirty-two read shares at once, one per task. -/
theorem pts_deal {ℓ : Loc nD τ sig} (f : Buf (Elt F) ℓ) :
    (ℓ ↦{fullShare} f : sProp 𝕄)
      = bigSep Finset.univ fun c : Fin ((K (F := F)).nCore 0) => bigSep Finset.univ fun i : Fin ((K (F := F)).nSub 0) =>
          ℓ ↦{piece fullShare 31 (tn c i)} f := by
  rw [pointsTo_pieces Finset.univ f 31 fullShare, bigSep_univ_equiv (taskEquiv (F := F)), bigSep_univ_prod]
  rfl

theorem mem_tSet_coords (L : grid0.Coords) (x : S16777216.Idx) :
    x ∈ tSet L ↔ 1048576 * (L 1).val + 524288 * (L 0).val ≤ (x 0).val
      ∧ (x 0).val < 1048576 * (L 1).val + 524288 * (L 0).val + 524288 := by
  have h : tSet L = (tRect L).set := Finset.map_refl
  rw [h, Rect.mem_set_unit]
  constructor
  · intro h; exact h 0
  · intro h a; match a with | ⟨0, _⟩ => exact h

/-- The tasks as pairs (core, subcore). -/
abbrev Task : Type := Fin ((K (F := F)).nCore 0) × Fin ((K (F := F)).nSub 0)

/-- Task `p`'s entries of the flat output. -/
abbrev tS (p : Task (F := F)) : Finset S16777216.Idx := tSet (LL p.1 p.2)

theorem tS_disjoint : ∀ p ∈ (Finset.univ : Finset (Task (F := F))), ∀ p' ∈ (Finset.univ : Finset (Task (F := F))), p ≠ p' →
    Disjoint (tS p) (tS p') := by
  intro p _ p' _ hne
  refine Finset.disjoint_left.mpr fun x h h' => hne ?_
  have h1 := (mem_tSet_coords _ x).mp h
  have h2 := (mem_tSet_coords _ x).mp h'
  obtain ⟨c, i⟩ := p
  obtain ⟨c', i'⟩ := p'
  have hc : c.val < 2 := c.isLt
  have hc' : c'.val < 2 := c'.isLt
  have e1 : ((LL c i) 1).val = i.val := rfl
  have e0 : ((LL c i) 0).val = c.val := rfl
  have e1' : ((LL c' i') 1).val = i'.val := rfl
  have e0' : ((LL c' i') 0).val = c'.val := rfl
  simp only [e1, e0, e1', e0'] at h1 h2
  refine Prod.ext (Fin.ext ?_) (Fin.ext ?_)
  · show c.val = c'.val; omega
  · show i.val = i'.val; omega

theorem tS_cover : (Finset.univ : Finset (Task (F := F))).biUnion tS = Finset.univ := by
  ext x
  simp only [Finset.mem_biUnion, Finset.mem_univ, true_and, iff_true]
  have hx : (x 0).val < 16777216 := (x 0).isLt
  refine ⟨(⟨((x 0).val / 524288) % 2, by show _ < 2; omega⟩, ⟨((x 0).val / 524288) / 2, by show _ < 16; omega⟩), ?_⟩
  rw [mem_tSet_coords]
  show 1048576 * ((x 0).val / 524288 / 2) + 524288 * ((x 0).val / 524288 % 2) ≤ (x 0).val
    ∧ (x 0).val < 1048576 * ((x 0).val / 524288 / 2) + 524288 * ((x 0).val / 524288 % 2) + 524288
  omega

/-- The flat output held whole is held by parts, each task's entries apart. -/
theorem oPts_deal (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[tSet (LL c i)]{fullShare} f := by
  rw [← bigSep_univ_prod (fun p : Task (F := F) => (oLoc d ↦[tS p]{fullShare} f : sProp 𝕄)),
    ← pointsTo_biUnion Finset.univ (ℓ := oLoc d) tS tS_disjoint, tS_cover]
  try rfl

/-- The join: the tasks' entries, each at contents of its own of which a property is known, are the whole output
    at contents that agree with each task's on its entries. -/
theorem oPts_join (d : Dev nD) (Φ' : Task (F := F) → Buf (Elt F) (oLoc d) → Prop) (f₀ : Buf (Elt F) (oLoc d)) :
    (bigSep Finset.univ fun c : Fin ((K (F := F)).nCore 0) => bigSep Finset.univ fun i : Fin ((K (F := F)).nSub 0) =>
        iprop(∃ f, ⌜Φ' (c, i) f⌝ ∗ (oLoc d ↦[tSet (LL c i)]{fullShare} f)) : sProp 𝕄)
      ⊢ iprop(∃ g, ⌜∀ p : Task (F := F), ∃ f, Φ' p f ∧ ∀ x ∈ tS p, g x = f x⌝ ∗ (oLoc d ↦{fullShare} g)) := by
  haveI : Nonempty (Buf (Elt F) (oLoc d)) := ⟨f₀⟩
  rw [← bigSep_univ_prod (fun p : Task (F := F) => (iprop(∃ f, ⌜Φ' p f⌝ ∗ (oLoc d ↦[tS p]{fullShare} f)) : sProp 𝕄))]
  refine (bigSep_exists_pi Finset.univ (fun (p : Task (F := F)) (f : Buf (Elt F) (oLoc d)) =>
    (iprop(⌜Φ' p f⌝ ∗ (oLoc d ↦[tS p]{fullShare} f)) : sProp 𝕄))).trans ?_
  iintro ⟨%fs, H⟩
  ihave H2 := (bigSep_pure_sep Finset.univ (fun p => Φ' p (fs p)) (fun p => (oLoc d ↦[tS p]{fullShare} fs p : sProp 𝕄))) $$ H
  icases H2 with ⟨%hΦ, H3⟩
  ihave H' := (pointsTo_biUnion_join Finset.univ tS fs f₀ tS_disjoint) $$ H3
  icases H' with ⟨%g, %hg, Hg⟩
  rw [tS_cover]
  iexists g
  isplitr
  · ipureintro; intro p; exact ⟨fs p, hΦ p (Finset.mem_univ p), fun x hx => hg p (Finset.mem_univ p) x hx⟩
  · iexact Hg

end Cert.Proof.KI

end
-- ==== Proof.KernelIdealArithHost.lean ====
/-
  The host program reduces the integer shift a modulo 262144 with the floored remainder as lowered:
  the divisor c' is 262144 (a zero divisor would be replaced by one; 262144 is not zero), r is the truncated
  remainder of a by c', and the result is r + c' when r and c' have different signs and r is not zero, r otherwise.
  The truncated remainder of a nonnegative a is a % 262144; of a negative a it is -((-a) % 262144), which is
  negative exactly when 262144 does not divide a, and then r + 262144 = a % 262144. So the result is the word of
  a % 262144 (the floored remainder, in [0, 262144)) whatever the sign of a.
-/
import proofs.«215547_g4990751997953_cont_8to1_c_497_7_alg».proof.Proof.Spec
import Idealize.ShloMosaic.Lib.Affine
import Idealize.ShloMosaic.Lib.WordArith

namespace Cert.KernelIdeal.Arith

open Idealize.ShloMosaic

/-- The word the host's remainder routine computes from the word a and the divisor 262144, one element's worth. -/
def hostModW (a : BitVec 32) : BitVec 32 :=
  Scalar.select
    (IntOp.andi
      (IntOp.cmpi .ne
        (IntOp.cmpi .slt
          (IntOp.remsi .host a (Scalar.select (IntOp.cmpi .eq (262144#32 : BitVec 32) 0#32) (1#32 : BitVec 32) 262144#32))
          0#32)
        (IntOp.cmpi .slt (Scalar.select (IntOp.cmpi .eq (262144#32 : BitVec 32) 0#32) (1#32 : BitVec 32) 262144#32) 0#32))
      (IntOp.cmpi .ne
        (IntOp.remsi .host a (Scalar.select (IntOp.cmpi .eq (262144#32 : BitVec 32) 0#32) (1#32 : BitVec 32) 262144#32))
        0#32))
    (IntOp.addi
      (IntOp.remsi .host a (Scalar.select (IntOp.cmpi .eq (262144#32 : BitVec 32) 0#32) (1#32 : BitVec 32) 262144#32))
      (Scalar.select (IntOp.cmpi .eq (262144#32 : BitVec 32) 0#32) (1#32 : BitVec 32) 262144#32))
    (IntOp.remsi .host a (Scalar.select (IntOp.cmpi .eq (262144#32 : BitVec 32) 0#32) (1#32 : BitVec 32) 262144#32))

/-- The floored remainder as the host computes it is the word reduced modulo 262144 into [0, 262144). -/
theorem hostModW_eq (a : BitVec 32) : hostModW a = Cert.Roll.floorMod a := by
  have hc : Scalar.select (IntOp.cmpi .eq (262144#32 : BitVec 32) 0#32) (1#32 : BitVec 32) 262144#32 = 262144#32 := by
    decide
  have hslt : IntOp.cmpi .slt (262144#32 : BitVec 32) 0#32 = 0#1 := by decide
  have z0 : (0#32 : BitVec 32).toInt = 0 := by decide
  have hm : (262144#32 : BitVec 32).toInt = 262144 := by decide
  have hnc : ¬ IntOp.SDivCorner a 262144#32 := by
    rintro (h0 | ⟨-, h1⟩)
    · exact absurd h0 (by decide)
    · exact absurd h1 (by decide)
  have hr : IntOp.remsi .host a 262144#32 = a.srem 262144#32 := if_neg hnc
  unfold hostModW
  rw [hc, hslt, hr]
  generalize hrdef : a.srem 262144#32 = r
  have hrI : r.toInt = a.toInt.tmod 262144 := by
    rw [← hrdef, BitVec.toInt_srem, hm]
  have hx := Affine.word_range a
  have hfm : (Cert.Roll.floorMod a).toInt = a.toInt % 262144 := by
    unfold Cert.Roll.floorMod
    rw [BitVec.toInt_ofInt]
    exact Int.bmod_eq_of_le (by omega) (by omega)
  -- the truncated remainder through the floored one
  have hrv : (0 ≤ a.toInt ∧ r.toInt = a.toInt % 262144) ∨ (a.toInt < 0 ∧ r.toInt = -((-a.toInt) % 262144)) := by
    by_cases h0 : 0 ≤ a.toInt
    · left
      exact ⟨h0, by rw [hrI, Int.tmod_eq_emod_of_nonneg h0]⟩
    · right
      refine ⟨by omega, ?_⟩
      have hneg := Int.neg_tmod (-a.toInt) 262144
      rw [Int.neg_neg] at hneg
      rw [hrI, hneg, Int.tmod_eq_emod_of_nonneg (by omega)]
  -- the condition selects the corrected value exactly when the remainder is negative
  have hs : IntOp.cmpi .slt r 0#32 = 1#1 ↔ r.toInt < 0 := by
    rw [IntOp.cmpi_slt, z0]
  have hC : (IntOp.andi (IntOp.cmpi .ne (IntOp.cmpi .slt r 0#32) 0#1) (IntOp.cmpi .ne r 0#32) = 1#1) ↔ r.toInt < 0 := by
    rw [IntOp.andi_eq_one, IntOp.cmpi_ne, IntOp.cmpi_ne]
    constructor
    · rintro ⟨h1, -⟩
      rcases BitVec.eq_zero_or_eq_one (IntOp.cmpi .slt r 0#32) with h | h
      · exact absurd h h1
      · exact hs.mp h
    · intro hlt
      refine ⟨?_, ?_⟩
      · rw [hs.mpr hlt]; decide
      · intro hr0
        rw [hr0, z0] at hlt
        omega
  apply BitVec.eq_of_toInt_eq
  rw [hfm]
  unfold Scalar.select
  by_cases hlt : r.toInt < 0
  · rw [if_pos (show _ = (1 : BitVec 1) from hC.mpr hlt)]
    show (r + 262144#32).toInt = a.toInt % 262144
    rw [WordArith.toInt_add_of_bounds r 262144#32 (by rw [hm]; omega) (by rw [hm]; omega), hm]
    omega
  · rw [if_neg (show ¬ _ = (1 : BitVec 1) from fun h => hlt (hC.mp h))]
    omega

/-- The host's remainder routine on tensors of any shape: elementwise the floored remainder modulo 262144.
    The operands are in the order the routine has them: the divisor 262144, replaced by one were it zero; the
    truncated remainder; its sign compared with the divisor's; the sum; the selection. -/
theorem hostMod_eq {s : Shape} (a : IVec s 32) :
    select
      (andi
        (cmpi .ne
          (cmpi .slt
            (Host.remsi a (select (cmpi .eq (constantI s 32 262144#32) (constantI s 32 0#32)) (constantI s 32 1#32) (constantI s 32 262144#32)))
            (constantI s 32 0#32))
          (cmpi .slt
            (select (cmpi .eq (constantI s 32 262144#32) (constantI s 32 0#32)) (constantI s 32 1#32) (constantI s 32 262144#32))
            (constantI s 32 0#32)))
        (cmpi .ne
          (Host.remsi a (select (cmpi .eq (constantI s 32 262144#32) (constantI s 32 0#32)) (constantI s 32 1#32) (constantI s 32 262144#32)))
          (constantI s 32 0#32)))
      (addi
        (Host.remsi a (select (cmpi .eq (constantI s 32 262144#32) (constantI s 32 0#32)) (constantI s 32 1#32) (constantI s 32 262144#32)))
        (select (cmpi .eq (constantI s 32 262144#32) (constantI s 32 0#32)) (constantI s 32 1#32) (constantI s 32 262144#32)))
      (Host.remsi a (select (cmpi .eq (constantI s 32 262144#32) (constantI s 32 0#32)) (constantI s 32 1#32) (constantI s 32 262144#32)))
    = fun j => Cert.Roll.floorMod (a j) := by
  funext j
  exact hostModW_eq (a j)

/-- The same on the scalar shape, whose one index is the empty one. -/
theorem hostMod_eq_scalar (a : IVec (⟨0, ![]⟩ : Shape) 32) :
    select
      (andi
        (cmpi .ne
          (cmpi .slt
            (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
            (constantI (⟨0, ![]⟩ : Shape) 32 0#32))
          (cmpi .slt
            (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32))
            (constantI (⟨0, ![]⟩ : Shape) 32 0#32)))
        (cmpi .ne
          (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
          (constantI (⟨0, ![]⟩ : Shape) 32 0#32)))
      (addi
        (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
        (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
      (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
    = fun _ => Cert.Roll.floorMod (a ValueIdx.ix0) := by
  rw [hostMod_eq a]
  funext j
  rw [ValueIdx.eq_ix0 j]

end Cert.KernelIdeal.Arith
-- ==== Proof.KernelIdealHostOps.lean ====
/-
  The kernel program's host side as two straight lines of operations around its one SparseCore call.
  Before the call: the shift round(w_row + 512 * w_col) as a 32-bit integer, its floored remainder modulo 262144
  (the remainder routine and the selection inside it written out at their call sites over the calls' own buffers),
  the 16-entry shift vector whose entry 0 is that remainder and whose other entries are zero, and the input
  flattened to 16777216 entries. After the call: the flat result given its three-dimensional shape back.
-/
import proofs.«215547_g4990751997953_cont_8to1_c_497_7_alg».proof.Proof.Gen.KernelIdeal
import proofs.«215547_g4990751997953_cont_8to1_c_497_7_alg».proof.Proof.Spec
import proofs.«215547_g4990751997953_cont_8to1_c_497_7_alg».proof.Proof.KernelIdealArithHost
import Idealize.ShloMosaic.Lib.StableHlo.Run

noncomputable section

namespace Cert.KernelIdeal.Host

open Cert.KernelIdeal Cert.KernelIdeal.Facts₀ Idealize.ShloMosaic Idealize.ShloMosaic.TcCoe Idealize.SL.Sem
  Idealize.ShloMosaic.StableHlo

variable {F : FTy → Type} [FloatOps F] [Facts]

/-- The operations before the call, in order, the called functions' bodies in their places. -/
abbrev ops1 : List (HloOp τ sig (Elt F)) :=
  [ nullary main_cst (constant S_ .f32 0x44000000#32),
    binary main_cst main_arg2 main_v0 (mulf : (⟨S_, .f32⟩ : BufTy).Contents (Elt F) → (⟨S_, .f32⟩ : BufTy).Contents (Elt F) → (⟨S_, .f32⟩ : BufTy).Contents (Elt F)),
    binary main_arg1 main_v0 main_v1 (addf : (⟨S_, .f32⟩ : BufTy).Contents (Elt F) → (⟨S_, .f32⟩ : BufTy).Contents (Elt F) → (⟨S_, .f32⟩ : BufTy).Contents (Elt F)),
    -- round
    TRef.unary (.of main_v1 : TRef sig ⟨S_, .f32⟩) main_call0.v0 Idealize.ShloMosaic.Host.roundeven,
    unary main_v2 main_v3 (fptosi 32 : (⟨S_, .f32⟩ : BufTy).Contents (Elt F) → (⟨S_, .i32⟩ : BufTy).Contents (Elt F)),
    nullary main_c (constantI S_ 32 262144#32),
    -- remainder
    TRef.unary (.of main_c : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    -- the selection inside remainder
    TRef.ternary main_call1.v1 main_call1.c_0 main_call1.v0 main_call1.call0.v0 select,
    TRef.binary (.of main_v3 : TRef sig ⟨S_, .i32⟩) main_call1.call0.v0 main_call1.v3 Idealize.ShloMosaic.Host.remsi,
    TRef.nullary main_call1.c_1 (constantI S_ 32 0#32),
    TRef.binary main_call1.v3 main_call1.c_1 main_call1.v4 (cmpi .ne),
    TRef.nullary main_call1.c_2 (constantI S_ 32 0#32),
    TRef.binary main_call1.v3 main_call1.c_2 main_call1.v5 (cmpi .slt),
    TRef.nullary main_call1.c_3 (constantI S_ 32 0#32),
    TRef.binary main_call1.call0.v0 main_call1.c_3 main_call1.v6 (cmpi .slt),
    TRef.binary main_call1.v5 main_call1.v6 main_call1.v7 (cmpi .ne),
    TRef.binary main_call1.v7 main_call1.v4 main_call1.v8 andi,
    TRef.binary main_call1.v3 main_call1.call0.v0 main_call1.v9 addi,
    TRef.ternary main_call1.v8 main_call1.v9 main_call1.v3 main_call1.v10 select,
    -- the shift vector
    nullary main_v5 (iotaInDim S16 32 0),
    nullary main_c_0 (constantI S_ 32 0#32),
    unary main_c_0 main_v6 (broadcastInDim S16 ![] bcast_S_S16 : (⟨S_, .i32⟩ : BufTy).Contents (Elt F) → (⟨S16, .i32⟩ : BufTy).Contents (Elt F)),
    binary main_v5 main_v6 main_v7 (cmpi .eq : (⟨S16, .i32⟩ : BufTy).Contents (Elt F) → (⟨S16, .i32⟩ : BufTy).Contents (Elt F) → (⟨S16, .i1⟩ : BufTy).Contents (Elt F)),
    nullary main_c_1 (constantI S_ 32 0#32),
    -- the selection of the shift at entry 0
    TRef.unary (.of main_c_1 : TRef sig ⟨S_, .i32⟩) main_call2.v0 id,
    TRef.unary (.of main_v4 : TRef sig ⟨S_, .i32⟩) main_call2.v1 (broadcastInDim S16 ![] bcast_S_S16),
    TRef.unary main_call2.v0 main_call2.v2 (broadcastInDim S16 ![] bcast_S_S16),
    TRef.ternary (.of main_v7 : TRef sig ⟨S16, .i1⟩) main_call2.v1 main_call2.v2 main_call2.v3 select,
    -- the input flattened
    reshape main_arg0 main_v9 rfl shapeCasts_S64x512x512_S16777216 ]

/-- The one operation after the call: the flat result reshaped. -/
abbrev ops2 : List (HloOp τ sig (Elt F)) :=
  [ reshape main_v10 main_v11 rfl shapeCasts_S16777216_S64x512x512 ]

-- thirty-odd binds re-associated: the rewrite under the chain recurses once per statement
set_option maxRecDepth 2048 in
/-- @main is the first line, the call, the second line: the functions' definitions unfolded at their calls,
    both sides are one chain of steps once sequencing is re-associated. -/
theorem main_eq (d : Dev nD) :
    main (F := F) d = (seq ops1 >>= fun _ => (sc (F := F)).run d 0 >>= fun _ => seq ops2) := by
  simp only [main, fn_round.body, fn_remainder.body, fn_where.body, fn_where_0.body, seq, bind_assoc, pure_bind]

end Cert.KernelIdeal.Host

end
-- ==== Proof.KernelIdealHostFrame.lean ====
/-
  What the launch needs of the two host lines: every buffer they touch is one of the TensorCore's references,
  none of their operations writes a buffer without contents, and the launch's grant of the TensorCore's unscoped
  references is the set of all its references held at the launch contents (this signature scopes none of them).
-/
import proofs.«215547_g4990751997953_cont_8to1_c_497_7_alg».proof.Proof.KernelIdealHostOps
import Idealize.ShloMosaic.Lib.SparseCore.Launch
import Idealize.ShloMosaic.Lib.SparseCore.Scatter

noncomputable section

namespace Cert.KernelIdeal.Host

open Cert.KernelIdeal Cert.KernelIdeal.Facts₀ Idealize.ShloMosaic Idealize.ShloMosaic.TcCoe Idealize.SL.Sem
  Idealize.ShloMosaic.StableHlo
open Idealize.SL Idealize.SL.RA Idealize.SL.BI
open scoped Idealize.SL.BI

variable {F : FTy → Type} [FloatOps F] [Facts]

/-- The signature scopes no TensorCore reference, -/
theorem scopedRefs_eq : (Finset.univ.filter fun b : Ref sig .tc => b.isScoped) = ∅ := by decide

/-- so the unscoped ones are all of them. -/
theorem unscopedRefs_eq : (Finset.univ.filter fun b : Ref sig .tc => ¬ b.isScoped) = Finset.univ := by decide

/-- The buffers the host lines run over: the TensorCore's references, as device buffers. -/
abbrev S : Finset (DevRef τ sig) := tcRefs τ sig

theorem ops1_forall_sub : (ops1 : List (HloOp τ sig (Elt F))).Forall fun op => op.bufs ⊆ S :=
  ⟨nullary_bufs_sub .., binary_bufs_sub .., binary_bufs_sub .., unary_bufs_sub .., unary_bufs_sub .., nullary_bufs_sub ..,
    unary_bufs_sub .., nullary_bufs_sub .., binary_bufs_sub .., nullary_bufs_sub .., ternary_bufs_sub .., binary_bufs_sub ..,
    nullary_bufs_sub .., binary_bufs_sub .., nullary_bufs_sub .., binary_bufs_sub .., nullary_bufs_sub .., binary_bufs_sub ..,
    binary_bufs_sub .., binary_bufs_sub .., binary_bufs_sub .., ternary_bufs_sub .., nullary_bufs_sub .., nullary_bufs_sub ..,
    unary_bufs_sub .., binary_bufs_sub .., nullary_bufs_sub .., unary_bufs_sub .., unary_bufs_sub .., unary_bufs_sub ..,
    ternary_bufs_sub .., reshape_bufs_sub ..⟩

theorem ops1_sub : ∀ op ∈ (ops1 : List (HloOp τ sig (Elt F))), op.bufs ⊆ S :=
  List.forall_iff_forall_mem.mp ops1_forall_sub

theorem ops1_forall_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops1_fresh : ∀ op ∈ (ops1 : List (HloOp τ sig (Elt F))), op.fresh = ∅ :=
  List.forall_iff_forall_mem.mp ops1_forall_fresh

theorem ops2_sub : ∀ op ∈ (ops2 : List (HloOp τ sig (Elt F))), op.bufs ⊆ S :=
  List.forall_iff_forall_mem.mp (show (ops2 : List (HloOp τ sig (Elt F))).Forall fun op => op.bufs ⊆ S from reshape_bufs_sub ..)

theorem ops2_fresh : ∀ op ∈ (ops2 : List (HloOp τ sig (Elt F))), op.fresh = ∅ :=
  List.forall_iff_forall_mem.mp (show (ops2 : List (HloOp τ sig (Elt F))).Forall fun op => op.fresh = ∅ from rfl)

section Held

variable {Ix : Type} [DecidableEq Ix] {Name : Type} [DecidableEq Name] {U : Type} [URA U] {Lvl : Type} [Preorder Lvl]

local notation "𝕄" => MT nD τ sig Ix (Elt F) Name U Lvl

/-- The launch's grant of the TensorCore's unscoped references, each whole at its launch contents, is the set of all
    its references held at the launch valuation. -/
theorem unscoped_held (m : (ℓ : Loc nD τ sig) → Buf (Elt F) ℓ) (d : Dev nD) :
    (unscopedBufs d (fun b => m ((SparseCore.T d).loc b)) : sProp 𝕄)
      = held (SparseCore.T d) S (launchContents m d) := by
  unfold unscopedBufs held
  rw [unscopedRefs_eq]
  show _ = bigSep (Finset.univ.map ⟨Proc.devRef (sig := sig) (.tc : Proc τ), Proc.devRef_injective _⟩) _
  rw [SparseCore.bigSep_map]
  rfl

end Held

end Cert.KernelIdeal.Host

end
-- ==== Proof.KernelIdealHostVals.lean ====
/-
  What the two host lines leave in the buffers the launch reads, from any contents V.
  After the first line: the flat input buffer holds the three-dimensional input's entries in row-major order;
  the scalar remainder buffer holds the shift round(w_row + 512 * w_col) reduced modulo 262144 into [0, 262144);
  entry 0 of the 16-entry shift vector is that word (the vector is the remainder where the index is 0, zero elsewhere);
  the arguments and the call's result buffers are untouched.
  After the second line: the result buffer holds the flat result's entries at the three-dimensional shape; the
  arguments are untouched.
-/
import proofs.«215547_g4990751997953_cont_8to1_c_497_7_alg».proof.Proof.KernelIdealHostOps

noncomputable section

namespace Cert.KernelIdeal.Host

open Cert.KernelIdeal Cert.KernelIdeal.Facts₀ Idealize.ShloMosaic Idealize.ShloMosaic.TcCoe Idealize.SL.Sem
  Idealize.ShloMosaic.StableHlo

variable {F : FTy → Type} [FloatOps F] [Facts]

/-! ## The first line -/

theorem after1_arg0 (V : Valuation τ sig (Elt F)) :
    after ops1 V (main_arg0 : DevRef τ sig) = V (main_arg0 : DevRef τ sig) := by
  after_results_simp

theorem after1_arg1 (V : Valuation τ sig (Elt F)) :
    after ops1 V (main_arg1 : DevRef τ sig) = V (main_arg1 : DevRef τ sig) := by
  after_results_simp

theorem after1_arg2 (V : Valuation τ sig (Elt F)) :
    after ops1 V (main_arg2 : DevRef τ sig) = V (main_arg2 : DevRef τ sig) := by
  after_results_simp

theorem after1_v10 (V : Valuation τ sig (Elt F)) :
    after ops1 V (main_v10 : DevRef τ sig) = V (main_v10 : DevRef τ sig) := by
  after_results_simp

theorem after1_v11 (V : Valuation τ sig (Elt F)) :
    after ops1 V (main_v11 : DevRef τ sig) = V (main_v11 : DevRef τ sig) := by
  after_results_simp

/-- The flat input: the input's entries in row-major order. -/
theorem after_v9 (V : Valuation τ sig (Elt F)) :
    after ops1 V (main_v9 : DevRef τ sig) = shapeCast Cert.Roll.SF (V (main_arg0 : DevRef τ sig)) (by decide) := by
  after_results_simp
  rfl

/-- The scalar remainder buffer: the shift reduced modulo 262144. -/
theorem after_v4 (V : Valuation τ sig (Elt F)) :
    after ops1 V (main_v4 : DevRef τ sig)
      = fun _ => Cert.Roll.floorMod (Cert.Roll.shiftWord (V (main_arg1 : DevRef τ sig)) (V (main_arg2 : DevRef τ sig))) := by
  after_results_simp
  exact Arith.hostMod_eq_scalar _

/-- The selection "the scalar where the index is 0, else the other operand" at index 0 is the scalar. -/
theorem select_iota_zero (X : IVec S_ 32) (B : IVec S16 32) :
    (select (cmpi .eq (iotaInDim S16 32 0) (broadcastInDim S16 ![] bcast_S_S16 (constantI S_ 32 0#32)))
        (broadcastInDim S16 ![] bcast_S_S16 X) B) (ValueIdx.ix1 0) = X ValueIdx.ix0 := by
  show Scalar.select (IntOp.cmpi .eq (BitVec.ofNat 32 0) 0#32) (X _) (B _) = X ValueIdx.ix0
  rw [show IntOp.cmpi .eq (BitVec.ofNat 32 0) (0#32 : BitVec 32) = 1#1 from by decide]
  unfold Scalar.select
  rw [if_pos (show (1#1 : BitVec 1) = 1 from rfl)]
  congr 1
  exact ValueIdx.eq_ix0 _

/-- The shift vector: the scalar remainder where the index is 0, zero elsewhere. -/
theorem after_v8_eq (V : Valuation τ sig (Elt F)) :
    after ops1 V (main_v8 : DevRef τ sig)
      = select (cmpi .eq (iotaInDim S16 32 0) (broadcastInDim S16 ![] bcast_S_S16 (constantI S_ 32 0#32)))
          (broadcastInDim S16 ![] bcast_S_S16 (after ops1 V (main_v4 : DevRef τ sig)))
          (broadcastInDim S16 ![] bcast_S_S16 (constantI S_ 32 0#32)) := by
  after_results_simp
  rfl

/-- Entry 0 of the shift vector: the shift reduced modulo 262144. -/
theorem after_v8_0 (V : Valuation τ sig (Elt F)) :
    (after ops1 V (main_v8 : DevRef τ sig)) (ValueIdx.ix1 0)
      = Cert.Roll.floorMod (Cert.Roll.shiftWord (V (main_arg1 : DevRef τ sig)) (V (main_arg2 : DevRef τ sig))) := by
  rw [after_v8_eq, select_iota_zero, after_v4]

/-- so it is a number below 262144. -/
theorem after_v8_0_lt (V : Valuation τ sig (Elt F)) :
    ((after ops1 V (main_v8 : DevRef τ sig)) (ValueIdx.ix1 0)).toNat < 262144 := by
  rw [after_v8_0]
  exact Cert.Roll.floorMod_toNat_lt _

/-! ## The second line -/

/-- The result: the flat result's entries at the three-dimensional shape. -/
theorem after2_v11 (V : Valuation τ sig (Elt F)) :
    after ops2 V (main_v11 : DevRef τ sig) = shapeCast Cert.Roll.S3 (V (main_v10 : DevRef τ sig)) (by decide) := by
  after_results_simp
  rfl

theorem after2_arg0 (V : Valuation τ sig (Elt F)) :
    after ops2 V (main_arg0 : DevRef τ sig) = V (main_arg0 : DevRef τ sig) := by
  after_results_simp

theorem after2_arg1 (V : Valuation τ sig (Elt F)) :
    after ops2 V (main_arg1 : DevRef τ sig) = V (main_arg1 : DevRef τ sig) := by
  after_results_simp

theorem after2_arg2 (V : Valuation τ sig (Elt F)) :
    after ops2 V (main_arg2 : DevRef τ sig) = V (main_arg2 : DevRef τ sig) := by
  after_results_simp

end Cert.KernelIdeal.Host

end
-- ==== Proof.KILaunchMain.lean ====
/-
  @main on the TensorCore around the one SparseCore call. The first host line (thirty-two operations) runs over all
  the TensorCore's buffers; the flat input, the shift vector and the flat output are taken out of them, dealt to the
  thirty-two tasks, handed to the call, gathered back — the output at contents that agree with each task's on its
  entries — and put back; the second host line (the final reshape) runs; what is left for the claim is the three
  arguments at their launch contents and the result at contents of which a property Ψ (a parameter) holds, given
  that what is known of the tasks' entries (Φ) yields Ψ of the reshaped output. Also the launch element of the ghost
  state: the handshakes' rounds, nothing of the kernel's own.
-/
import proofs.«215547_g4990751997953_cont_8to1_c_497_7_alg».proof.Proof.KILaunchObl
import proofs.«215547_g4990751997953_cont_8to1_c_497_7_alg».proof.Proof.KILaunchDeal
import proofs.«215547_g4990751997953_cont_8to1_c_497_7_alg».proof.Proof.KernelIdealHostFrame
import proofs.«215547_g4990751997953_cont_8to1_c_497_7_alg».proof.Proof.KernelIdealHostVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

open Cert.KernelIdeal.Host (ops1 ops2)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

section Main

variable (Φ : (d : Dev nD) → grid0.Coords → Buf (Elt F) (xLoc d) → Buf (Elt F) (svLoc d) → Buf (Elt F) (oLoc d) → Prop)
variable (m : (ℓ : Loc nD τ sig) → Buf (Elt F) ℓ) (ρ : Dev nD → PrngReg)

abbrev x' : DevRef τ sig := Proc.devRef .tc (main_v9 : Ref sig .tc)
abbrev sv' : DevRef τ sig := Proc.devRef .tc (main_v8 : Ref sig .tc)
abbrev o' : DevRef τ sig := Proc.devRef .tc (main_v10 : Ref sig .tc)
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev r' : DevRef τ sig := Proc.devRef .tc (main_v11 : Ref sig .tc)

/-- The contents when the call is entered: the launch contents after the first host line. -/
abbrev Va (d : Dev nD) : Valuation τ sig (Elt F) := after ops1 (launchContents m d)
abbrev Xa (d : Dev nD) : Buf (Elt F) (xLoc d) := Va m d x'
abbrev Sva (d : Dev nD) : Buf (Elt F) (svLoc d) := Va m d sv'
abbrev foa (d : Dev nD) : Buf (Elt F) (oLoc d) := Va m d o'

abbrev PP : (K (F := F)).Pay (nD := nD) (Val := Elt F) (Name := ℕ) (U := UU) := P Φ (Xa m) (Sva m) (foa m)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP Φ m).x q thr) := by
  unfold u₀
  iintro Hu
  ihave H := (ownU_pair _ _) $$ Hu
  icases H with ⟨HH, -⟩
  imodintro
  isplitl [HH]; · iexact HH
  isplitr; · rw [bigSep_emp']; iempintro
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The three arrays the call is entered with, and the four the claim speaks of. -/
abbrev T3 : Finset (DevRef τ sig) := {x', sv', o'}
abbrev T4 : Finset (DevRef τ sig) := {a0', a1', a2', r'}

omit [FloatOps F] in
theorem T3_sub : T3 ⊆ Cert.KernelIdeal.Host.S :=
  Finset.insert_subset_iff.mpr ⟨StableHlo.devRef_mem_tcRefs _, Finset.insert_subset_iff.mpr ⟨StableHlo.devRef_mem_tcRefs _,
    Finset.singleton_subset_iff.mpr (StableHlo.devRef_mem_tcRefs _)⟩⟩
omit [FloatOps F] in
theorem T4_sub : T4 ⊆ Cert.KernelIdeal.Host.S :=
  Finset.insert_subset_iff.mpr ⟨StableHlo.devRef_mem_tcRefs _, Finset.insert_subset_iff.mpr ⟨StableHlo.devRef_mem_tcRefs _,
    Finset.insert_subset_iff.mpr ⟨StableHlo.devRef_mem_tcRefs _, Finset.singleton_subset_iff.mpr (StableHlo.devRef_mem_tcRefs _)⟩⟩⟩

omit [FloatOps F] in
theorem held_T3 (d : Dev nD) (W : Valuation τ sig (Elt F)) :
    (held (T d) T3 W : sProp 𝕄) = iprop((xLoc d ↦{fullShare} W x') ∗ (svLoc d ↦{fullShare} W sv') ∗ (oLoc d ↦{fullShare} W o')) := by
  unfold held T3
  rw [SparseCore.bigSep_insert' (by decide), SparseCore.bigSep_insert' (by decide), bigSep_singleton]

omit [FloatOps F] in
theorem held_T4 (d : Dev nD) (W : Valuation τ sig (Elt F)) :
    (held (T d) T4 W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ ((SparseCore.T d).loc main_v11 ↦{fullShare} W r')) := by
  unfold held T4
  rw [SparseCore.bigSep_insert' (by decide), SparseCore.bigSep_insert' (by decide), SparseCore.bigSep_insert' (by decide), bigSep_singleton]

/-- The contents after the call: the output at what the tasks left. -/
def Vb (d : Dev nD) (g : Buf (Elt F) (oLoc d)) : Valuation τ sig (Elt F) := Function.update (Va m d) o' g

theorem Vb_o (d : Dev nD) (g : Buf (Elt F) (oLoc d)) : Vb m d g o' = g := Function.update_self _ _ _
theorem Vb_ne (d : Dev nD) (g : Buf (Elt F) (oLoc d)) {b : DevRef τ sig} (h : b ≠ o') : Vb m d g b = Va m d b :=
  Function.update_of_ne h _ _

/-- What the call takes for the two SparseCores, and what it hands back. -/
theorem st0_eq (d : Dev nD) :
    (bigSep Finset.univ fun c : Fin ((K (F := F)).nCore 0) => (PP Φ m).st 0 d c)
      = bigSep Finset.univ fun c : Fin ((K (F := F)).nCore 0) => bigSep Finset.univ fun i : Fin ((K (F := F)).nSub 0) =>
          goT (Xa m) (Sva m) (foa m) d (LL c i) (tn c i) := rfl
theorem dn0_eq (d : Dev nD) :
    (bigSep Finset.univ fun c : Fin ((K (F := F)).nCore 0) => (PP Φ m).dn 0 d c)
      = bigSep Finset.univ fun c : Fin ((K (F := F)).nCore 0) => bigSep Finset.univ fun i : Fin ((K (F := F)).nSub 0) =>
          tdT Φ (Xa m) (Sva m) d (LL c i) (tn c i) := rfl

omit [FloatOps F] in
/-- A double product of triples is the triple of the double products. -/
theorem bigSep2_sep3 {I J : Type} [Fintype I] [Fintype J] (A B C : I → J → sProp 𝕄) :
    (bigSep Finset.univ fun c : I => bigSep Finset.univ fun i : J => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  rw [bigSep_congr fun c _ => (by rw [bigSep_sep', bigSep_sep'] :
      (bigSep Finset.univ fun i : J => iprop(A c i ∗ B c i ∗ C c i))
        = iprop((bigSep Finset.univ fun i => A c i) ∗ (bigSep Finset.univ fun i => B c i) ∗ (bigSep Finset.univ fun i => C c i))),
    bigSep_sep', bigSep_sep']

/-- The three arrays, whole, are the call's operands. -/
theorem st_deal (d : Dev nD) :
    iprop((xLoc d ↦{fullShare} Xa m d) ∗ (svLoc d ↦{fullShare} Sva m d) ∗ (oLoc d ↦{fullShare} foa m d))
      ⊢ (bigSep Finset.univ fun c : Fin ((K (F := F)).nCore 0) => (PP Φ m).st 0 d c : sProp 𝕄) := by
  rw [st0_eq, bigSep2_sep3, ← pts_deal (Xa m d), ← pts_deal (Sva m d), ← oPts_deal d (foa m d)]

/-- The call's results are the input and the shift vector whole, and the output whole at contents that agree, on each
    task's entries, with contents of which `Φ` holds for the task. -/
theorem dn_gather (d : Dev nD) :
    (bigSep Finset.univ fun c : Fin ((K (F := F)).nCore 0) => (PP Φ m).dn 0 d c : sProp 𝕄)
      ⊢ iprop((xLoc d ↦{fullShare} Xa m d) ∗ (svLoc d ↦{fullShare} Sva m d)
          ∗ ∃ g, ⌜∀ p : Task (F := F), ∃ f, Φ d (LL p.1 p.2) (Xa m d) (Sva m d) f ∧ ∀ x ∈ tS p, g x = f x⌝ ∗ (oLoc d ↦{fullShare} g)) := by
  rw [dn0_eq, bigSep2_sep3, ← pts_deal (Xa m d), ← pts_deal (Sva m d)]
  iintro ⟨Hx, Hsv, Ho⟩
  isplitl [Hx]; · iexact Hx
  isplitl [Hsv]; · iexact Hsv
  iapply (oPts_join d (fun p f => Φ d (LL p.1 p.2) (Xa m d) (Sva m d) f) (foa m d))
  iexact Ho

section Fin
variable (Ψ : (d : Dev nD) → Buf (Elt F) ((SparseCore.T d).loc main_v11) → Prop)

/-- What @main leaves the claim: the three arguments at their launch contents, the result at contents of which `Ψ` holds. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ∃ r, ⌜Ψ d r⌝ ∗ ((SparseCore.T d).loc main_v11 ↦{fullShare} r))

omit [FloatOps F] in
theorem held_take3 (d : Dev nD) (W : Valuation τ sig (Elt F)) :
    (held (SparseCore.T d) Cert.KernelIdeal.Host.S W : sProp 𝕄)
      = iprop(((xLoc d ↦{fullShare} W x') ∗ (svLoc d ↦{fullShare} W sv') ∗ (oLoc d ↦{fullShare} W o'))
          ∗ held (SparseCore.T d) (Cert.KernelIdeal.Host.S \ T3) W) := by
  rw [held_sub_split (SparseCore.T d) T3_sub, held_T3]

omit [FloatOps F] in
theorem held_take4 (d : Dev nD) (W : Valuation τ sig (Elt F)) :
    (held (SparseCore.T d) Cert.KernelIdeal.Host.S W : sProp 𝕄)
      = iprop((((SparseCore.T d).loc main_arg0 ↦{fullShare} W a0') ∗ ((SparseCore.T d).loc main_arg1 ↦{fullShare} W a1')
          ∗ ((SparseCore.T d).loc main_arg2 ↦{fullShare} W a2') ∗ ((SparseCore.T d).loc main_v11 ↦{fullShare} W r'))
          ∗ held (SparseCore.T d) (Cert.KernelIdeal.Host.S \ T4) W) := by
  rw [held_sub_split (SparseCore.T d) T4_sub, held_T4]

/-- After the call the buffers but the output are as before it. -/
theorem held_rest (d : Dev nD) (g : Buf (Elt F) (oLoc d)) :
    (held (SparseCore.T d) (Cert.KernelIdeal.Host.S \ T3) (Va m d) : sProp 𝕄)
      = held (SparseCore.T d) (Cert.KernelIdeal.Host.S \ T3) (Vb m d g) :=
  held_congr (SparseCore.T d) fun b hb => (Vb_ne m d g (fun e => by
    subst e; exact (Finset.mem_sdiff.mp hb).2 (show o' ∈ T3 by decide))).symm

/-- The four buffers the claim speaks of, after the second host line. -/
theorem held_fin (d : Dev nD) (g : Buf (Elt F) (oLoc d)) :
    (held (SparseCore.T d) Cert.KernelIdeal.Host.S (after ops2 (Vb m d g)) : sProp 𝕄)
      = iprop((((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_v11 ↦{fullShare}
              shapeCast (s := S16777216) Cert.Roll.S3 g (show S16777216.ShapeCasts Cert.Roll.S3 by decide)))
          ∗ held (SparseCore.T d) (Cert.KernelIdeal.Host.S \ T4) (after ops2 (Vb m d g))) := by
  have e0 : after ops2 (Vb m d g) a0' = m ((SparseCore.T d).loc main_arg0) := by
    rw [Cert.KernelIdeal.Host.after2_arg0, Vb_ne m d g (by decide)]
    exact Cert.KernelIdeal.Host.after1_arg0 (launchContents m d)
  have e1 : after ops2 (Vb m d g) a1' = m ((SparseCore.T d).loc main_arg1) := by
    rw [Cert.KernelIdeal.Host.after2_arg1, Vb_ne m d g (by decide)]
    exact Cert.KernelIdeal.Host.after1_arg1 (launchContents m d)
  have e2 : after ops2 (Vb m d g) a2' = m ((SparseCore.T d).loc main_arg2) := by
    rw [Cert.KernelIdeal.Host.after2_arg2, Vb_ne m d g (by decide)]
    exact Cert.KernelIdeal.Host.after1_arg2 (launchContents m d)
  have er : after ops2 (Vb m d g) r' = shapeCast (s := S16777216) Cert.Roll.S3 g (show S16777216.ShapeCasts Cert.Roll.S3 by decide) := by
    rw [Cert.KernelIdeal.Host.after2_v11, Vb_o]
  rw [held_take4, e0, e1, e2, er]

/-- The second host line, from the buffers after the call: the arguments are at their launch contents and the result
    is the output reshaped. -/
theorem tail_wp (d : Dev nD) (g : Buf (Elt F) (oLoc d))
    (hg : Ψ d (shapeCast (s := S16777216) Cert.Roll.S3 g (show S16777216.ShapeCasts Cert.Roll.S3 by decide))) :
    iprop((K (F := F)).tcSt EH d 1 ∗ boundary (SparseCore.T d) ∗ (held (SparseCore.T d) Cert.KernelIdeal.Host.S (Vb m d g) : sProp 𝕄))
      ⊢ wp frame (wpE ((K (F := F)).defs (D (F := F))) 𝒱 (SparseCore.T d) none) Set.univ (seq ops2)
          fun _ => iprop((K (F := F)).tcSt EH d 1 ∗ FIN m Ψ d) := by
  rw [show (seq ops2 : Prog (TpuEff nD τ sig (Elt F) _ .tc) PUnit) = (seq ops2 >>= fun u => pure u) from (bind_pure _).symm]
  iintro ⟨Hst, Hb, Hheld⟩
  iapply (StableHlo.wp_seq 𝒱 none Set.univ d Cert.KernelIdeal.Host.S _ ops2 Cert.KernelIdeal.Host.ops2_sub
    Cert.KernelIdeal.Host.ops2_fresh (Vb m d g)) $$ [Hb Hheld]
  · isplitl [Hb]; · iexact Hb
    iexact Hheld
  iintro ⟨Hb, Hheld⟩
  ihave Hh := (Entails.of_eq (held_fin m d g)) $$ Hheld
  icases Hh with ⟨⟨H0, H1, H2, Hr⟩, -⟩
  rw [wp_pure]; imodintro
  isplitl [Hst]; · iexact Hst
  isplitl [H0]; · iexact H0
  isplitl [H1]; · iexact H1
  isplitl [H2]; · iexact H2
  iexists _
  isplitr
  · ipureintro; exact hg
  · iexact Hr

/-- The buffers after the call, from the three arrays as the call hands them back and the rest as it was. -/
theorem held_put3 (d : Dev nD) (g : Buf (Elt F) (oLoc d)) :
    (held (SparseCore.T d) Cert.KernelIdeal.Host.S (Vb m d g) : sProp 𝕄)
      = iprop(((xLoc d ↦{fullShare} Xa m d) ∗ (svLoc d ↦{fullShare} Sva m d) ∗ (oLoc d ↦{fullShare} g))
          ∗ held (SparseCore.T d) (Cert.KernelIdeal.Host.S \ T3) (Va m d)) := by
  rw [held_take3 d (Vb m d g), Vb_o, Vb_ne m d g (show x' ≠ o' by decide), Vb_ne m d g (show sv' ≠ o' by decide), held_rest m d g]

/-- The call and what follows it, from the buffers after the first host line. `hΨ`: what is known of the tasks'
    entries gives `Ψ` of the reshaped output. -/
theorem call_wp
    (hΨ : ∀ (d : Dev nD) (g : Buf (Elt F) (oLoc d)),
      (∀ p : Task (F := F), ∃ f, Φ d (LL p.1 p.2) (Xa m d) (Sva m d) f ∧ ∀ x ∈ tS p, g x = f x) →
        Ψ d (shapeCast (s := S16777216) Cert.Roll.S3 g (show S16777216.ShapeCasts Cert.Roll.S3 by decide)))
    (κ : GSem nD τ sig → ℕ) (d : Dev nD) :
    iprop((K (F := F)).ctx EH (PP Φ m) κ ∗ (K (F := F)).tcSt EH d 0 ∗ boundary (SparseCore.T d)
        ∗ (held (SparseCore.T d) Cert.KernelIdeal.Host.S (Va m d) : sProp 𝕄))
      ⊢ wp frame (wpE ((K (F := F)).defs (D (F := F))) 𝒱 (SparseCore.T d) none) Set.univ
          ((sc (F := F)).run d 0 >>= fun _ => seq ops2)
          fun _ => iprop((K (F := F)).tcSt EH d 1 ∗ FIN m Ψ d) := by
  rw [wp_bind]
  iintro ⟨#Hctx, Hst, Hb, Hheld⟩
  ihave Hh := (Entails.of_eq (held_take3 d _)) $$ Hheld
  icases Hh with ⟨⟨Hx, Hsv, Ho⟩, Hrest⟩
  iapply ((K (F := F)).wp_run (D (F := F)) 𝒱 (EH := EH) (P := PP Φ m) κ d 0) $$ [Hst Hx Hsv Ho Hb Hrest]
  isplitr; · iexact Hctx
  isplitl [Hst]; · iexact Hst
  isplitl [Hx Hsv Ho]
  · iapply (st_deal Φ m d)
    isplitl [Hx]; · iexact Hx
    isplitl [Hsv]; · iexact Hsv
    iexact Ho
  iintro ⟨Hst, Hdn⟩
  ihave Hdn' := (dn_gather Φ m d) $$ Hdn
  icases Hdn' with ⟨Hx, Hsv, %g, %hg, Ho⟩
  iapply (tail_wp m Ψ d g (hΨ d g hg))
  isplitl [Hst]; · iexact Hst
  isplitl [Hb]; · iexact Hb
  iapply (Entails.of_eq (held_put3 m d g).symm)
  isplitr [Hrest]
  · isplitl [Hx]; · iexact Hx
    isplitl [Hsv]; · iexact Hsv
    iexact Ho
  · iexact Hrest

/-- @main on device `d`'s TensorCore: the first host line over all the TensorCore's buffers, then the call and the
    second line. -/
theorem hmain
    (hΨ : ∀ (d : Dev nD) (g : Buf (Elt F) (oLoc d)),
      (∀ p : Task (F := F), ∃ f, Φ d (LL p.1 p.2) (Xa m d) (Sva m d) f ∧ ∀ x ∈ tS p, g x = f x) →
        Ψ d (shapeCast (s := S16777216) Cert.Roll.S3 g (show S16777216.ShapeCasts Cert.Roll.S3 by decide)))
    (κ : GSem nD τ sig → ℕ) (d : Dev nD) :
    iprop((K (F := F)).ctx EH (PP Φ m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Ψ d) := by
  unfold SparseCore.Cfg.tcRes
  rw [Cert.KernelIdeal.Host.unscoped_held, Cert.KernelIdeal.Host.main_eq]
  iintro ⟨#Hctx, Hst, ⟨Hb, Hheld, -, -⟩, -⟩
  iapply (StableHlo.wp_seq 𝒱 none Set.univ d Cert.KernelIdeal.Host.S _ ops1 Cert.KernelIdeal.Host.ops1_sub
    Cert.KernelIdeal.Host.ops1_fresh (launchContents m d)) $$ [Hb Hheld]
  · isplitl [Hb]; · iexact Hb
    iexact Hheld
  iintro ⟨Hb, Hheld⟩
  iapply (call_wp Φ m Ψ hΨ κ d)
  isplitr; · iexact Hctx
  isplitl [Hst]; · iexact Hst
  isplitl [Hb]; · iexact Hb
  iexact Hheld

end Fin

end Main

end Cert.Proof.KI

end
-- ==== Proof.KILaunchRun.lean ====
/-
  The program's run from the launch theorem, and the kernel's frame claim. What the final memory satisfies is read
  off what @main leaves (the three arguments whole at their launch contents, the result whole at contents of which Ψ
  holds) against the state interpretation; the launch theorem takes the task obligation (from the task body's
  statement), the split of a core's operands among its tasks, the launch element and @main's proof.
-/
import proofs.«215547_g4990751997953_cont_8to1_c_497_7_alg».proof.Proof.KILaunchMain
import proofs.«215547_g4990751997953_cont_8to1_c_497_7_alg».proof.Proof.Gen.Pre_finite_inputs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

variable [FloatOps F]

section Run

variable (Φ : (d : Dev nD) → grid0.Coords → Buf (Elt F) (xLoc d) → Buf (Elt F) (svLoc d) → Buf (Elt F) (oLoc d) → Prop)
variable (m : (ℓ : Loc nD τ sig) → Buf (Elt F) ℓ) (ρ : Dev nD → PrngReg)
variable (Ψ : (d : Dev nD) → Buf (Elt F) ((SparseCore.T d).loc main_v11) → Prop)

/-- What the final memory must satisfy on device `d`. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ Ψ d (s'.mem.mem ((SparseCore.T d).loc main_v11))

theorem hfin (d : Dev nD) (s' : Phys nD τ sig (Elt F)) : iprop(FIN m Ψ d ∗ SI s') ⊢ (⌜fq m Ψ d s'⌝ : sProp 𝕄) := by
  iintro ⟨⟨H0, H1, H2, %r, %hr, Hr⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare)
    (f := m ((SparseCore.T d).loc main_arg2)))) $$ [HSI H2]
  · isplitl [HSI] <;> iassumption
  icases H with ⟨%h2, HSI, -⟩
  ihave H := (SI_pointsTo_agree (st := s') (ℓ := (SparseCore.T d).loc main_v11) (I := Finset.univ) (q := fullShare) (f := r)) $$ [HSI Hr]
  · isplitl [HSI] <;> iassumption
  icases H with %h3
  ipureintro
  have e3 : s'.mem.mem ((SparseCore.T d).loc main_v11) = r := funext fun i => h3 i (Finset.mem_univ i)
  exact ⟨funext fun i => h0 i (Finset.mem_univ i), funext fun i => h1 i (Finset.mem_univ i),
    funext fun i => h2 i (Finset.mem_univ i), e3 ▸ hr⟩

/-- The claim's postcondition: on every device the arguments unchanged and `Ψ` of the result. -/
def QC : PUnit × MemSt nD τ sig (Elt F) → Prop := fun r => ∀ c : Dev nD,
  r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ Ψ c (r.2.mem ((SparseCore.T c).loc main_v11))

/-- The program's run, given the task body's statement for `Φ` and that `Φ` of every task yields `Ψ`. -/
theorem run_main [∀ e, Nonempty (Elt F e)] (htile : TileHyp Φ)
    (hΨ : ∀ (d : Dev nD) (g : Buf (Elt F) (oLoc d)),
      (∀ p : Task (F := F), ∃ f, Φ d (LL p.1 p.2) (Xa m d) (Sva m d) f ∧ ∀ x ∈ tS p, g x = f x) →
        Ψ d (shapeCast (s := S16777216) Cert.Roll.S3 g (show S16777216.ShapeCasts Cert.Roll.S3 by decide))) :
    θ_run (Cert.KernelIdeal.defs (F := F)) (Cert.KernelIdeal.threads (F := F)) ⟨m, fun _ => 0, ρ⟩ (QC m Ψ) :=
  SparseCore.Cfg.θ_run_sc (K := K (F := F)) (D := D (F := F)) (𝒱 := 𝒱) (EH := EH) (P := PP Φ m) facts v₀
    (fun q hq => match q with | 0 => nomatch hq)
    (fun q _ => match q with
      | 0 => tileObl Φ (Xa m) (Sva m) (foa m) htile (fun d => Cert.KernelIdeal.Host.after_v8_0_lt (launchContents m d)))
    (fun q _ => match q with | 0 => SparseCore.Cfg.VecSplit.of_plain (vecSplit Φ (Xa m) (Sva m) (foa m)))
    m ρ main (fun _ => iprop(emp)) (FIN m Ψ) (u₀ (F := F)) (sep_elim_left.trans (hu₀ Φ m)) (hmain Φ m ρ Ψ hΨ) (fq m Ψ) (hfin m Ψ)
    (QC m Ψ) (fun _ h => h)

end Run

/-- The kernel's frame claim, given the task body's statement with nothing asked of what the tasks leave. -/
theorem frame_pi_of (htile : TileHyp (F := Ideal) (fun _ _ _ _ _ => True)) : Cert.frame_KernelIdeal := fun m ρ _ =>
  (θ_run Cert.KernelIdeal.defs _ _).mono (fun _ h c => ⟨(h c).1, (h c).2.1, (h c).2.2.1⟩)
    (run_main (F := Ideal) (fun _ _ _ _ _ => True) m ρ (fun _ _ => True) htile (fun _ _ _ => trivial))

end Cert.Proof.KI

end
-- ==== Proof.KBLaunchDeal.lean ====
/-
  How the TensorCore's three arrays are dealt to the thirty-two tasks and gathered back. The flat input and the shift
  vector, held whole, are held at thirty-two read shares at once (a share halved thirty-one times), one per task in
  the order 2i + c. The flat output is the disjoint union of the tasks' runs of 524288 entries (task 2i + c's starts
  at 524288 · (2i + c)), so held whole it is held run by run; and runs held at contents of their own are the whole
  at contents agreeing with each on its run.
-/
import proofs.«215547_g4990751997953_cont_8to1_c_497_7_alg».proof.Proof.KBLaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

/-- The thirty-two tasks numbered: (c, i) ↦ 2i + c, one-to-one onto the numbers below 32. -/
def taskEquiv : Fin ((K (F := F)).nCore 0) × Fin ((K (F := F)).nSub 0) ≃ Fin (31 + 1) where
  toFun p := tn p.1 p.2
  invFun k := (⟨k.val % 2, by show _ < 2; omega⟩, ⟨k.val / 2, by show _ < 16; omega⟩)
  left_inv p := by
    obtain ⟨c, i⟩ := p
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv k := by
    apply Fin.ext
    show 2 * (k.val / 2) + k.val % 2 = k.val; omega

/-- An array held whole is held at thirty-two read shares at once, one per task. -/
theorem pts_deal {ℓ : Loc nD τ sig} (f : Buf (Elt F) ℓ) :
    (ℓ ↦{fullShare} f : sProp 𝕄)
      = bigSep Finset.univ fun c : Fin ((K (F := F)).nCore 0) => bigSep Finset.univ fun i : Fin ((K (F := F)).nSub 0) =>
          ℓ ↦{piece fullShare 31 (tn c i)} f := by
  rw [pointsTo_pieces Finset.univ f 31 fullShare, bigSep_univ_equiv (taskEquiv (F := F)), bigSep_univ_prod]
  rfl

theorem mem_tSet (L : grid0.Coords) (x : S16777216.Idx) :
    x ∈ tSet L ↔ 1048576 * (L 1).val + 524288 * (L 0).val ≤ (x 0).val
      ∧ (x 0).val < 1048576 * (L 1).val + 524288 * (L 0).val + 524288 := by
  have h : tSet L = (tRect L).set := Finset.map_refl
  rw [h, Rect.mem_set_unit]
  constructor
  · intro h; exact h 0
  · intro h a; match a with | ⟨0, _⟩ => exact h

/-- The tasks as pairs (core, subcore). -/
abbrev Task : Type := Fin ((K (F := F)).nCore 0) × Fin ((K (F := F)).nSub 0)

/-- Task `p`'s entries of the flat output. -/
abbrev tS (p : Task (F := F)) : Finset S16777216.Idx := tSet (LL p.1 p.2)

theorem tS_disjoint : ∀ p ∈ (Finset.univ : Finset (Task (F := F))), ∀ p' ∈ (Finset.univ : Finset (Task (F := F))), p ≠ p' →
    Disjoint (tS p) (tS p') := by
  intro p _ p' _ hne
  refine Finset.disjoint_left.mpr fun x h h' => hne ?_
  have h1 := (mem_tSet _ x).mp h
  have h2 := (mem_tSet _ x).mp h'
  obtain ⟨c, i⟩ := p
  obtain ⟨c', i'⟩ := p'
  have hc : c.val < 2 := c.isLt
  have hc' : c'.val < 2 := c'.isLt
  have e1 : ((LL c i) 1).val = i.val := rfl
  have e0 : ((LL c i) 0).val = c.val := rfl
  have e1' : ((LL c' i') 1).val = i'.val := rfl
  have e0' : ((LL c' i') 0).val = c'.val := rfl
  simp only [e1, e0, e1', e0'] at h1 h2
  refine Prod.ext (Fin.ext ?_) (Fin.ext ?_)
  · show c.val = c'.val; omega
  · show i.val = i'.val; omega

theorem tS_cover : (Finset.univ : Finset (Task (F := F))).biUnion tS = Finset.univ := by
  ext x
  simp only [Finset.mem_biUnion, Finset.mem_univ, true_and, iff_true]
  have hx : (x 0).val < 16777216 := (x 0).isLt
  refine ⟨(⟨((x 0).val / 524288) % 2, by show _ < 2; omega⟩, ⟨((x 0).val / 524288) / 2, by show _ < 16; omega⟩), ?_⟩
  rw [mem_tSet]
  show 1048576 * ((x 0).val / 524288 / 2) + 524288 * ((x 0).val / 524288 % 2) ≤ (x 0).val
    ∧ (x 0).val < 1048576 * ((x 0).val / 524288 / 2) + 524288 * ((x 0).val / 524288 % 2) + 524288
  omega

/-- The flat output held whole is held by parts, each task's entries apart. -/
theorem oPts_deal (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[tSet (LL c i)]{fullShare} f := by
  rw [← bigSep_univ_prod (fun p : Task (F := F) => (oLoc d ↦[tS p]{fullShare} f : sProp 𝕄)),
    ← pointsTo_biUnion Finset.univ (ℓ := oLoc d) tS tS_disjoint, tS_cover]
  try rfl

/-- The join: the tasks' entries, each at contents of its own of which a property is known, are the whole output
    at contents that agree with each task's on its entries. -/
theorem oPts_join (d : Dev nD) (Φ' : Task (F := F) → Buf (Elt F) (oLoc d) → Prop) (f₀ : Buf (Elt F) (oLoc d)) :
    (bigSep Finset.univ fun c : Fin ((K (F := F)).nCore 0) => bigSep Finset.univ fun i : Fin ((K (F := F)).nSub 0) =>
        iprop(∃ f, ⌜Φ' (c, i) f⌝ ∗ (oLoc d ↦[tSet (LL c i)]{fullShare} f)) : sProp 𝕄)
      ⊢ iprop(∃ g, ⌜∀ p : Task (F := F), ∃ f, Φ' p f ∧ ∀ x ∈ tS p, g x = f x⌝ ∗ (oLoc d ↦{fullShare} g)) := by
  haveI : Nonempty (Buf (Elt F) (oLoc d)) := ⟨f₀⟩
  rw [← bigSep_univ_prod (fun p : Task (F := F) => (iprop(∃ f, ⌜Φ' p f⌝ ∗ (oLoc d ↦[tS p]{fullShare} f)) : sProp 𝕄))]
  refine (bigSep_exists_pi Finset.univ (fun (p : Task (F := F)) (f : Buf (Elt F) (oLoc d)) =>
    (iprop(⌜Φ' p f⌝ ∗ (oLoc d ↦[tS p]{fullShare} f)) : sProp 𝕄))).trans ?_
  iintro ⟨%fs, H⟩
  ihave H2 := (bigSep_pure_sep Finset.univ (fun p => Φ' p (fs p)) (fun p => (oLoc d ↦[tS p]{fullShare} fs p : sProp 𝕄))) $$ H
  icases H2 with ⟨%hΦ, H3⟩
  ihave H' := (pointsTo_biUnion_join Finset.univ tS fs f₀ tS_disjoint) $$ H3
  icases H' with ⟨%g, %hg, Hg⟩
  rw [tS_cover]
  iexists g
  isplitr
  · ipureintro; intro p; exact ⟨fs p, hΦ p (Finset.mem_univ p), fun x hx => hg p (Finset.mem_univ p) x hx⟩
  · iexact Hg

end Cert.Proof.KB

end
-- ==== Proof.KernelArithHost.lean ====
/-
  The host program reduces the integer shift a modulo 262144 with the floored remainder as lowered:
  the divisor c' is 262144 (a zero divisor would be replaced by one; 262144 is not zero), r is the truncated
  remainder of a by c', and the result is r + c' when r and c' have different signs and r is not zero, r otherwise.
  The truncated remainder of a nonnegative a is a % 262144; of a negative a it is -((-a) % 262144), which is
  negative exactly when 262144 does not divide a, and then r + 262144 = a % 262144. So the result is the word of
  a % 262144 (the floored remainder, in [0, 262144)) whatever the sign of a.
-/
import proofs.«215547_g4990751997953_cont_8to1_c_497_7_alg».proof.Proof.Spec
import Idealize.ShloMosaic.Lib.Affine
import Idealize.ShloMosaic.Lib.WordArith

namespace Cert.Kernel.Arith

open Idealize.ShloMosaic

/-- The word the host's remainder routine computes from the word a and the divisor 262144, one element's worth. -/
def hostModW (a : BitVec 32) : BitVec 32 :=
  Scalar.select
    (IntOp.andi
      (IntOp.cmpi .ne
        (IntOp.cmpi .slt
          (IntOp.remsi .host a (Scalar.select (IntOp.cmpi .eq (262144#32 : BitVec 32) 0#32) (1#32 : BitVec 32) 262144#32))
          0#32)
        (IntOp.cmpi .slt (Scalar.select (IntOp.cmpi .eq (262144#32 : BitVec 32) 0#32) (1#32 : BitVec 32) 262144#32) 0#32))
      (IntOp.cmpi .ne
        (IntOp.remsi .host a (Scalar.select (IntOp.cmpi .eq (262144#32 : BitVec 32) 0#32) (1#32 : BitVec 32) 262144#32))
        0#32))
    (IntOp.addi
      (IntOp.remsi .host a (Scalar.select (IntOp.cmpi .eq (262144#32 : BitVec 32) 0#32) (1#32 : BitVec 32) 262144#32))
      (Scalar.select (IntOp.cmpi .eq (262144#32 : BitVec 32) 0#32) (1#32 : BitVec 32) 262144#32))
    (IntOp.remsi .host a (Scalar.select (IntOp.cmpi .eq (262144#32 : BitVec 32) 0#32) (1#32 : BitVec 32) 262144#32))

/-- The floored remainder as the host computes it is the word reduced modulo 262144 into [0, 262144). -/
theorem hostModW_eq (a : BitVec 32) : hostModW a = Cert.Roll.floorMod a := by
  have hc : Scalar.select (IntOp.cmpi .eq (262144#32 : BitVec 32) 0#32) (1#32 : BitVec 32) 262144#32 = 262144#32 := by
    decide
  have hslt : IntOp.cmpi .slt (262144#32 : BitVec 32) 0#32 = 0#1 := by decide
  have z0 : (0#32 : BitVec 32).toInt = 0 := by decide
  have hm : (262144#32 : BitVec 32).toInt = 262144 := by decide
  have hnc : ¬ IntOp.SDivCorner a 262144#32 := by
    rintro (h0 | ⟨-, h1⟩)
    · exact absurd h0 (by decide)
    · exact absurd h1 (by decide)
  have hr : IntOp.remsi .host a 262144#32 = a.srem 262144#32 := if_neg hnc
  unfold hostModW
  rw [hc, hslt, hr]
  generalize hrdef : a.srem 262144#32 = r
  have hrI : r.toInt = a.toInt.tmod 262144 := by
    rw [← hrdef, BitVec.toInt_srem, hm]
  have hx := Affine.word_range a
  have hfm : (Cert.Roll.floorMod a).toInt = a.toInt % 262144 := by
    unfold Cert.Roll.floorMod
    rw [BitVec.toInt_ofInt]
    exact Int.bmod_eq_of_le (by omega) (by omega)
  -- the truncated remainder through the floored one
  have hrv : (0 ≤ a.toInt ∧ r.toInt = a.toInt % 262144) ∨ (a.toInt < 0 ∧ r.toInt = -((-a.toInt) % 262144)) := by
    by_cases h0 : 0 ≤ a.toInt
    · left
      exact ⟨h0, by rw [hrI, Int.tmod_eq_emod_of_nonneg h0]⟩
    · right
      refine ⟨by omega, ?_⟩
      have hneg := Int.neg_tmod (-a.toInt) 262144
      rw [Int.neg_neg] at hneg
      rw [hrI, hneg, Int.tmod_eq_emod_of_nonneg (by omega)]
  -- the condition selects the corrected value exactly when the remainder is negative
  have hs : IntOp.cmpi .slt r 0#32 = 1#1 ↔ r.toInt < 0 := by
    rw [IntOp.cmpi_slt, z0]
  have hC : (IntOp.andi (IntOp.cmpi .ne (IntOp.cmpi .slt r 0#32) 0#1) (IntOp.cmpi .ne r 0#32) = 1#1) ↔ r.toInt < 0 := by
    rw [IntOp.andi_eq_one, IntOp.cmpi_ne, IntOp.cmpi_ne]
    constructor
    · rintro ⟨h1, -⟩
      rcases BitVec.eq_zero_or_eq_one (IntOp.cmpi .slt r 0#32) with h | h
      · exact absurd h h1
      · exact hs.mp h
    · intro hlt
      refine ⟨?_, ?_⟩
      · rw [hs.mpr hlt]; decide
      · intro hr0
        rw [hr0, z0] at hlt
        omega
  apply BitVec.eq_of_toInt_eq
  rw [hfm]
  unfold Scalar.select
  by_cases hlt : r.toInt < 0
  · rw [if_pos (show _ = (1 : BitVec 1) from hC.mpr hlt)]
    show (r + 262144#32).toInt = a.toInt % 262144
    rw [WordArith.toInt_add_of_bounds r 262144#32 (by rw [hm]; omega) (by rw [hm]; omega), hm]
    omega
  · rw [if_neg (show ¬ _ = (1 : BitVec 1) from fun h => hlt (hC.mp h))]
    omega

/-- The host's remainder routine on tensors of any shape: elementwise the floored remainder modulo 262144.
    The operands are in the order the routine has them: the divisor 262144, replaced by one were it zero; the
    truncated remainder; its sign compared with the divisor's; the sum; the selection. -/
theorem hostMod_eq {s : Shape} (a : IVec s 32) :
    select
      (andi
        (cmpi .ne
          (cmpi .slt
            (Host.remsi a (select (cmpi .eq (constantI s 32 262144#32) (constantI s 32 0#32)) (constantI s 32 1#32) (constantI s 32 262144#32)))
            (constantI s 32 0#32))
          (cmpi .slt
            (select (cmpi .eq (constantI s 32 262144#32) (constantI s 32 0#32)) (constantI s 32 1#32) (constantI s 32 262144#32))
            (constantI s 32 0#32)))
        (cmpi .ne
          (Host.remsi a (select (cmpi .eq (constantI s 32 262144#32) (constantI s 32 0#32)) (constantI s 32 1#32) (constantI s 32 262144#32)))
          (constantI s 32 0#32)))
      (addi
        (Host.remsi a (select (cmpi .eq (constantI s 32 262144#32) (constantI s 32 0#32)) (constantI s 32 1#32) (constantI s 32 262144#32)))
        (select (cmpi .eq (constantI s 32 262144#32) (constantI s 32 0#32)) (constantI s 32 1#32) (constantI s 32 262144#32)))
      (Host.remsi a (select (cmpi .eq (constantI s 32 262144#32) (constantI s 32 0#32)) (constantI s 32 1#32) (constantI s 32 262144#32)))
    = fun j => Cert.Roll.floorMod (a j) := by
  funext j
  exact hostModW_eq (a j)

/-- The same on the scalar shape, whose one index is the empty one. -/
theorem hostMod_eq_scalar (a : IVec (⟨0, ![]⟩ : Shape) 32) :
    select
      (andi
        (cmpi .ne
          (cmpi .slt
            (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
            (constantI (⟨0, ![]⟩ : Shape) 32 0#32))
          (cmpi .slt
            (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32))
            (constantI (⟨0, ![]⟩ : Shape) 32 0#32)))
        (cmpi .ne
          (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
          (constantI (⟨0, ![]⟩ : Shape) 32 0#32)))
      (addi
        (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
        (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
      (Host.remsi a (select (cmpi .eq (constantI (⟨0, ![]⟩ : Shape) 32 262144#32) (constantI (⟨0, ![]⟩ : Shape) 32 0#32)) (constantI (⟨0, ![]⟩ : Shape) 32 1#32) (constantI (⟨0, ![]⟩ : Shape) 32 262144#32)))
    = fun _ => Cert.Roll.floorMod (a ValueIdx.ix0) := by
  rw [hostMod_eq a]
  funext j
  rw [ValueIdx.eq_ix0 j]

end Cert.Kernel.Arith
-- ==== Proof.KernelHostOps.lean ====
/-
  The kernel program's host side as two straight lines of operations around its one SparseCore call.
  Before the call: the shift round(w_row + 512 * w_col) as a 32-bit integer, its floored remainder modulo 262144
  (the remainder routine and the selection inside it written out at their call sites over the calls' own buffers),
  the 16-entry shift vector whose entry 0 is that remainder and whose other entries are zero, and the input
  flattened to 16777216 entries. After the call: the flat result given its three-dimensional shape back.
-/
import proofs.«215547_g4990751997953_cont_8to1_c_497_7_alg».proof.Proof.Gen.Kernel
import proofs.«215547_g4990751997953_cont_8to1_c_497_7_alg».proof.Proof.Spec
import proofs.«215547_g4990751997953_cont_8to1_c_497_7_alg».proof.Proof.KernelArithHost
import Idealize.ShloMosaic.Lib.StableHlo.Run

noncomputable section

namespace Cert.Kernel.Host

open Cert.Kernel Cert.Kernel.Facts₀ Idealize.ShloMosaic Idealize.ShloMosaic.TcCoe Idealize.SL.Sem
  Idealize.ShloMosaic.StableHlo

variable {F : FTy → Type} [FloatOps F] [Facts]

/-- The operations before the call, in order, the called functions' bodies in their places. -/
abbrev ops1 : List (HloOp τ sig (Elt F)) :=
  [ nullary main_cst (constant S_ .f32 0x44000000#32),
    binary main_cst main_arg2 main_v0 (mulf : (⟨S_, .f32⟩ : BufTy).Contents (Elt F) → (⟨S_, .f32⟩ : BufTy).Contents (Elt F) → (⟨S_, .f32⟩ : BufTy).Contents (Elt F)),
    binary main_arg1 main_v0 main_v1 (addf : (⟨S_, .f32⟩ : BufTy).Contents (Elt F) → (⟨S_, .f32⟩ : BufTy).Contents (Elt F) → (⟨S_, .f32⟩ : BufTy).Contents (Elt F)),
    -- round
    TRef.unary (.of main_v1 : TRef sig ⟨S_, .f32⟩) main_call0.v0 Idealize.ShloMosaic.Host.roundeven,
    unary main_v2 main_v3 (fptosi 32 : (⟨S_, .f32⟩ : BufTy).Contents (Elt F) → (⟨S_, .i32⟩ : BufTy).Contents (Elt F)),
    nullary main_c (constantI S_ 32 262144#32),
    -- remainder
    TRef.unary (.of main_c : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    -- the selection inside remainder
    TRef.ternary main_call1.v1 main_call1.c_0 main_call1.v0 main_call1.call0.v0 select,
    TRef.binary (.of main_v3 : TRef sig ⟨S_, .i32⟩) main_call1.call0.v0 main_call1.v3 Idealize.ShloMosaic.Host.remsi,
    TRef.nullary main_call1.c_1 (constantI S_ 32 0#32),
    TRef.binary main_call1.v3 main_call1.c_1 main_call1.v4 (cmpi .ne),
    TRef.nullary main_call1.c_2 (constantI S_ 32 0#32),
    TRef.binary main_call1.v3 main_call1.c_2 main_call1.v5 (cmpi .slt),
    TRef.nullary main_call1.c_3 (constantI S_ 32 0#32),
    TRef.binary main_call1.call0.v0 main_call1.c_3 main_call1.v6 (cmpi .slt),
    TRef.binary main_call1.v5 main_call1.v6 main_call1.v7 (cmpi .ne),
    TRef.binary main_call1.v7 main_call1.v4 main_call1.v8 andi,
    TRef.binary main_call1.v3 main_call1.call0.v0 main_call1.v9 addi,
    TRef.ternary main_call1.v8 main_call1.v9 main_call1.v3 main_call1.v10 select,
    -- the shift vector
    nullary main_v5 (iotaInDim S16 32 0),
    nullary main_c_0 (constantI S_ 32 0#32),
    unary main_c_0 main_v6 (broadcastInDim S16 ![] bcast_S_S16 : (⟨S_, .i32⟩ : BufTy).Contents (Elt F) → (⟨S16, .i32⟩ : BufTy).Contents (Elt F)),
    binary main_v5 main_v6 main_v7 (cmpi .eq : (⟨S16, .i32⟩ : BufTy).Contents (Elt F) → (⟨S16, .i32⟩ : BufTy).Contents (Elt F) → (⟨S16, .i1⟩ : BufTy).Contents (Elt F)),
    nullary main_c_1 (constantI S_ 32 0#32),
    -- the selection of the shift at entry 0
    TRef.unary (.of main_c_1 : TRef sig ⟨S_, .i32⟩) main_call2.v0 id,
    TRef.unary (.of main_v4 : TRef sig ⟨S_, .i32⟩) main_call2.v1 (broadcastInDim S16 ![] bcast_S_S16),
    TRef.unary main_call2.v0 main_call2.v2 (broadcastInDim S16 ![] bcast_S_S16),
    TRef.ternary (.of main_v7 : TRef sig ⟨S16, .i1⟩) main_call2.v1 main_call2.v2 main_call2.v3 select,
    -- the input flattened
    reshape main_arg0 main_v9 rfl shapeCasts_S64x512x512_S16777216 ]

/-- The one operation after the call: the flat result reshaped. -/
abbrev ops2 : List (HloOp τ sig (Elt F)) :=
  [ reshape main_v10 main_v11 rfl shapeCasts_S16777216_S64x512x512 ]

-- thirty-odd binds re-associated: the rewrite under the chain recurses once per statement
set_option maxRecDepth 2048 in
/-- @main is the first line, the call, the second line: the functions' definitions unfolded at their calls,
    both sides are one chain of steps once sequencing is re-associated. -/
theorem main_eq (d : Dev nD) :
    main (F := F) d = (seq ops1 >>= fun _ => (sc (F := F)).run d 0 >>= fun _ => seq ops2) := by
  simp only [main, fn_round.body, fn_remainder.body, fn_where.body, fn_where_0.body, seq, bind_assoc, pure_bind]

end Cert.Kernel.Host

end
-- ==== Proof.KernelHostFrame.lean ====
/-
  What the launch needs of the two host lines: every buffer they touch is one of the TensorCore's references,
  none of their operations writes a buffer without contents, and the launch's grant of the TensorCore's unscoped
  references is the set of all its references held at the launch contents (this signature scopes none of them).
-/
import proofs.«215547_g4990751997953_cont_8to1_c_497_7_alg».proof.Proof.KernelHostOps
import Idealize.ShloMosaic.Lib.SparseCore.Launch
import Idealize.ShloMosaic.Lib.SparseCore.Scatter

noncomputable section

namespace Cert.Kernel.Host

open Cert.Kernel Cert.Kernel.Facts₀ Idealize.ShloMosaic Idealize.ShloMosaic.TcCoe Idealize.SL.Sem
  Idealize.ShloMosaic.StableHlo
open Idealize.SL Idealize.SL.RA Idealize.SL.BI
open scoped Idealize.SL.BI

variable {F : FTy → Type} [FloatOps F] [Facts]

/-- The signature scopes no TensorCore reference, -/
theorem scopedRefs_eq : (Finset.univ.filter fun b : Ref sig .tc => b.isScoped) = ∅ := by decide

/-- so the unscoped ones are all of them. -/
theorem unscopedRefs_eq : (Finset.univ.filter fun b : Ref sig .tc => ¬ b.isScoped) = Finset.univ := by decide

/-- The buffers the host lines run over: the TensorCore's references, as device buffers. -/
abbrev S : Finset (DevRef τ sig) := tcRefs τ sig

theorem ops1_forall_sub : (ops1 : List (HloOp τ sig (Elt F))).Forall fun op => op.bufs ⊆ S :=
  ⟨nullary_bufs_sub .., binary_bufs_sub .., binary_bufs_sub .., unary_bufs_sub .., unary_bufs_sub .., nullary_bufs_sub ..,
    unary_bufs_sub .., nullary_bufs_sub .., binary_bufs_sub .., nullary_bufs_sub .., ternary_bufs_sub .., binary_bufs_sub ..,
    nullary_bufs_sub .., binary_bufs_sub .., nullary_bufs_sub .., binary_bufs_sub .., nullary_bufs_sub .., binary_bufs_sub ..,
    binary_bufs_sub .., binary_bufs_sub .., binary_bufs_sub .., ternary_bufs_sub .., nullary_bufs_sub .., nullary_bufs_sub ..,
    unary_bufs_sub .., binary_bufs_sub .., nullary_bufs_sub .., unary_bufs_sub .., unary_bufs_sub .., unary_bufs_sub ..,
    ternary_bufs_sub .., reshape_bufs_sub ..⟩

theorem ops1_sub : ∀ op ∈ (ops1 : List (HloOp τ sig (Elt F))), op.bufs ⊆ S :=
  List.forall_iff_forall_mem.mp ops1_forall_sub

theorem ops1_forall_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops1_fresh : ∀ op ∈ (ops1 : List (HloOp τ sig (Elt F))), op.fresh = ∅ :=
  List.forall_iff_forall_mem.mp ops1_forall_fresh

theorem ops2_sub : ∀ op ∈ (ops2 : List (HloOp τ sig (Elt F))), op.bufs ⊆ S :=
  List.forall_iff_forall_mem.mp (show (ops2 : List (HloOp τ sig (Elt F))).Forall fun op => op.bufs ⊆ S from reshape_bufs_sub ..)

theorem ops2_fresh : ∀ op ∈ (ops2 : List (HloOp τ sig (Elt F))), op.fresh = ∅ :=
  List.forall_iff_forall_mem.mp (show (ops2 : List (HloOp τ sig (Elt F))).Forall fun op => op.fresh = ∅ from rfl)

section Held

variable {Ix : Type} [DecidableEq Ix] {Name : Type} [DecidableEq Name] {U : Type} [URA U] {Lvl : Type} [Preorder Lvl]

local notation "𝕄" => MT nD τ sig Ix (Elt F) Name U Lvl

/-- The launch's grant of the TensorCore's unscoped references, each whole at its launch contents, is the set of all
    its references held at the launch valuation. -/
theorem unscoped_held (m : (ℓ : Loc nD τ sig) → Buf (Elt F) ℓ) (d : Dev nD) :
    (unscopedBufs d (fun b => m ((SparseCore.T d).loc b)) : sProp 𝕄)
      = held (SparseCore.T d) S (launchContents m d) := by
  unfold unscopedBufs held
  rw [unscopedRefs_eq]
  show _ = bigSep (Finset.univ.map ⟨Proc.devRef (sig := sig) (.tc : Proc τ), Proc.devRef_injective _⟩) _
  rw [SparseCore.bigSep_map]
  rfl

end Held

end Cert.Kernel.Host

end
-- ==== Proof.KernelHostVals.lean ====
/-
  What the two host lines leave in the buffers the launch reads, from any contents V.
  After the first line: the flat input buffer holds the three-dimensional input's entries in row-major order;
  the scalar remainder buffer holds the shift round(w_row + 512 * w_col) reduced modulo 262144 into [0, 262144);
  entry 0 of the 16-entry shift vector is that word (the vector is the remainder where the index is 0, zero elsewhere);
  the arguments and the call's result buffers are untouched.
  After the second line: the result buffer holds the flat result's entries at the three-dimensional shape; the
  arguments are untouched.
-/
import proofs.«215547_g4990751997953_cont_8to1_c_497_7_alg».proof.Proof.KernelHostOps

noncomputable section

namespace Cert.Kernel.Host

open Cert.Kernel Cert.Kernel.Facts₀ Idealize.ShloMosaic Idealize.ShloMosaic.TcCoe Idealize.SL.Sem
  Idealize.ShloMosaic.StableHlo

variable {F : FTy → Type} [FloatOps F] [Facts]

/-! ## The first line -/

theorem after1_arg0 (V : Valuation τ sig (Elt F)) :
    after ops1 V (main_arg0 : DevRef τ sig) = V (main_arg0 : DevRef τ sig) := by
  after_results_simp

theorem after1_arg1 (V : Valuation τ sig (Elt F)) :
    after ops1 V (main_arg1 : DevRef τ sig) = V (main_arg1 : DevRef τ sig) := by
  after_results_simp

theorem after1_arg2 (V : Valuation τ sig (Elt F)) :
    after ops1 V (main_arg2 : DevRef τ sig) = V (main_arg2 : DevRef τ sig) := by
  after_results_simp

theorem after1_v10 (V : Valuation τ sig (Elt F)) :
    after ops1 V (main_v10 : DevRef τ sig) = V (main_v10 : DevRef τ sig) := by
  after_results_simp

theorem after1_v11 (V : Valuation τ sig (Elt F)) :
    after ops1 V (main_v11 : DevRef τ sig) = V (main_v11 : DevRef τ sig) := by
  after_results_simp

/-- The flat input: the input's entries in row-major order. -/
theorem after_v9 (V : Valuation τ sig (Elt F)) :
    after ops1 V (main_v9 : DevRef τ sig) = shapeCast Cert.Roll.SF (V (main_arg0 : DevRef τ sig)) (by decide) := by
  after_results_simp
  rfl

/-- The scalar remainder buffer: the shift reduced modulo 262144. -/
theorem after_v4 (V : Valuation τ sig (Elt F)) :
    after ops1 V (main_v4 : DevRef τ sig)
      = fun _ => Cert.Roll.floorMod (Cert.Roll.shiftWord (V (main_arg1 : DevRef τ sig)) (V (main_arg2 : DevRef τ sig))) := by
  after_results_simp
  exact Arith.hostMod_eq_scalar _

/-- The selection "the scalar where the index is 0, else the other operand" at index 0 is the scalar. -/
theorem select_iota_zero (X : IVec S_ 32) (B : IVec S16 32) :
    (select (cmpi .eq (iotaInDim S16 32 0) (broadcastInDim S16 ![] bcast_S_S16 (constantI S_ 32 0#32)))
        (broadcastInDim S16 ![] bcast_S_S16 X) B) (ValueIdx.ix1 0) = X ValueIdx.ix0 := by
  show Scalar.select (IntOp.cmpi .eq (BitVec.ofNat 32 0) 0#32) (X _) (B _) = X ValueIdx.ix0
  rw [show IntOp.cmpi .eq (BitVec.ofNat 32 0) (0#32 : BitVec 32) = 1#1 from by decide]
  unfold Scalar.select
  rw [if_pos (show (1#1 : BitVec 1) = 1 from rfl)]
  congr 1
  exact ValueIdx.eq_ix0 _

/-- The shift vector: the scalar remainder where the index is 0, zero elsewhere. -/
theorem after_v8_eq (V : Valuation τ sig (Elt F)) :
    after ops1 V (main_v8 : DevRef τ sig)
      = select (cmpi .eq (iotaInDim S16 32 0) (broadcastInDim S16 ![] bcast_S_S16 (constantI S_ 32 0#32)))
          (broadcastInDim S16 ![] bcast_S_S16 (after ops1 V (main_v4 : DevRef τ sig)))
          (broadcastInDim S16 ![] bcast_S_S16 (constantI S_ 32 0#32)) := by
  after_results_simp
  rfl

/-- Entry 0 of the shift vector: the shift reduced modulo 262144. -/
theorem after_v8_0 (V : Valuation τ sig (Elt F)) :
    (after ops1 V (main_v8 : DevRef τ sig)) (ValueIdx.ix1 0)
      = Cert.Roll.floorMod (Cert.Roll.shiftWord (V (main_arg1 : DevRef τ sig)) (V (main_arg2 : DevRef τ sig))) := by
  rw [after_v8_eq, select_iota_zero, after_v4]

/-- so it is a number below 262144. -/
theorem after_v8_0_lt (V : Valuation τ sig (Elt F)) :
    ((after ops1 V (main_v8 : DevRef τ sig)) (ValueIdx.ix1 0)).toNat < 262144 := by
  rw [after_v8_0]
  exact Cert.Roll.floorMod_toNat_lt _

/-! ## The second line -/

/-- The result: the flat result's entries at the three-dimensional shape. -/
theorem after2_v11 (V : Valuation τ sig (Elt F)) :
    after ops2 V (main_v11 : DevRef τ sig) = shapeCast Cert.Roll.S3 (V (main_v10 : DevRef τ sig)) (by decide) := by
  after_results_simp
  rfl

theorem after2_arg0 (V : Valuation τ sig (Elt F)) :
    after ops2 V (main_arg0 : DevRef τ sig) = V (main_arg0 : DevRef τ sig) := by
  after_results_simp

theorem after2_arg1 (V : Valuation τ sig (Elt F)) :
    after ops2 V (main_arg1 : DevRef τ sig) = V (main_arg1 : DevRef τ sig) := by
  after_results_simp

theorem after2_arg2 (V : Valuation τ sig (Elt F)) :
    after ops2 V (main_arg2 : DevRef τ sig) = V (main_arg2 : DevRef τ sig) := by
  after_results_simp

end Cert.Kernel.Host

end
-- ==== Proof.KBLaunchMain.lean ====
/-
  @main on the TensorCore around the one SparseCore call. The first host line (thirty-two operations) runs over all
  the TensorCore's buffers; the flat input, the shift vector and the flat output are taken out of them, dealt to the
  thirty-two tasks, handed to the call, gathered back — the output at contents that agree with each task's on its
  entries — and put back; the second host line (the final reshape) runs; what is left for the claim is the three
  arguments at their launch contents and the result at contents of which a property Ψ (a parameter) holds, given
  that what is known of the tasks' entries (Φ) yields Ψ of the reshaped output. Also the launch element of the ghost
  state: the handshakes' rounds, nothing of the kernel's own.
-/
import proofs.«215547_g4990751997953_cont_8to1_c_497_7_alg».proof.Proof.KBLaunchObl
import proofs.«215547_g4990751997953_cont_8to1_c_497_7_alg».proof.Proof.KBLaunchDeal
import proofs.«215547_g4990751997953_cont_8to1_c_497_7_alg».proof.Proof.KernelHostFrame
import proofs.«215547_g4990751997953_cont_8to1_c_497_7_alg».proof.Proof.KernelHostVals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

open Cert.Kernel.Host (ops1 ops2)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

section Main

variable (Φ : (d : Dev nD) → grid0.Coords → Buf (Elt F) (xLoc d) → Buf (Elt F) (svLoc d) → Buf (Elt F) (oLoc d) → Prop)
variable (m : (ℓ : Loc nD τ sig) → Buf (Elt F) ℓ) (ρ : Dev nD → PrngReg)

abbrev x' : DevRef τ sig := Proc.devRef .tc (main_v9 : Ref sig .tc)
abbrev sv' : DevRef τ sig := Proc.devRef .tc (main_v8 : Ref sig .tc)
abbrev o' : DevRef τ sig := Proc.devRef .tc (main_v10 : Ref sig .tc)
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev r' : DevRef τ sig := Proc.devRef .tc (main_v11 : Ref sig .tc)

/-- The contents when the call is entered: the launch contents after the first host line. -/
abbrev Va (d : Dev nD) : Valuation τ sig (Elt F) := after ops1 (launchContents m d)
abbrev Xa (d : Dev nD) : Buf (Elt F) (xLoc d) := Va m d x'
abbrev Sva (d : Dev nD) : Buf (Elt F) (svLoc d) := Va m d sv'
abbrev foa (d : Dev nD) : Buf (Elt F) (oLoc d) := Va m d o'

abbrev PP : (K (F := F)).Pay (nD := nD) (Val := Elt F) (Name := ℕ) (U := UU) := P Φ (Xa m) (Sva m) (foa m)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP Φ m).x q thr) := by
  unfold u₀
  iintro Hu
  ihave H := (ownU_pair _ _) $$ Hu
  icases H with ⟨HH, -⟩
  imodintro
  isplitl [HH]; · iexact HH
  isplitr; · rw [bigSep_emp']; iempintro
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The three arrays the call is entered with, and the four the claim speaks of. -/
abbrev T3 : Finset (DevRef τ sig) := {x', sv', o'}
abbrev T4 : Finset (DevRef τ sig) := {a0', a1', a2', r'}

omit [FloatOps F] in
theorem T3_sub : T3 ⊆ Cert.Kernel.Host.S :=
  Finset.insert_subset_iff.mpr ⟨StableHlo.devRef_mem_tcRefs _, Finset.insert_subset_iff.mpr ⟨StableHlo.devRef_mem_tcRefs _,
    Finset.singleton_subset_iff.mpr (StableHlo.devRef_mem_tcRefs _)⟩⟩
omit [FloatOps F] in
theorem T4_sub : T4 ⊆ Cert.Kernel.Host.S :=
  Finset.insert_subset_iff.mpr ⟨StableHlo.devRef_mem_tcRefs _, Finset.insert_subset_iff.mpr ⟨StableHlo.devRef_mem_tcRefs _,
    Finset.insert_subset_iff.mpr ⟨StableHlo.devRef_mem_tcRefs _, Finset.singleton_subset_iff.mpr (StableHlo.devRef_mem_tcRefs _)⟩⟩⟩

omit [FloatOps F] in
theorem held_T3 (d : Dev nD) (W : Valuation τ sig (Elt F)) :
    (held (T d) T3 W : sProp 𝕄) = iprop((xLoc d ↦{fullShare} W x') ∗ (svLoc d ↦{fullShare} W sv') ∗ (oLoc d ↦{fullShare} W o')) := by
  unfold held T3
  rw [SparseCore.bigSep_insert' (by decide), SparseCore.bigSep_insert' (by decide), bigSep_singleton]

omit [FloatOps F] in
theorem held_T4 (d : Dev nD) (W : Valuation τ sig (Elt F)) :
    (held (T d) T4 W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ ((SparseCore.T d).loc main_v11 ↦{fullShare} W r')) := by
  unfold held T4
  rw [SparseCore.bigSep_insert' (by decide), SparseCore.bigSep_insert' (by decide), SparseCore.bigSep_insert' (by decide), bigSep_singleton]

/-- The contents after the call: the output at what the tasks left. -/
def Vb (d : Dev nD) (g : Buf (Elt F) (oLoc d)) : Valuation τ sig (Elt F) := Function.update (Va m d) o' g

theorem Vb_o (d : Dev nD) (g : Buf (Elt F) (oLoc d)) : Vb m d g o' = g := Function.update_self _ _ _
theorem Vb_ne (d : Dev nD) (g : Buf (Elt F) (oLoc d)) {b : DevRef τ sig} (h : b ≠ o') : Vb m d g b = Va m d b :=
  Function.update_of_ne h _ _

/-- What the call takes for the two SparseCores, and what it hands back. -/
theorem st0_eq (d : Dev nD) :
    (bigSep Finset.univ fun c : Fin ((K (F := F)).nCore 0) => (PP Φ m).st 0 d c)
      = bigSep Finset.univ fun c : Fin ((K (F := F)).nCore 0) => bigSep Finset.univ fun i : Fin ((K (F := F)).nSub 0) =>
          goT (Xa m) (Sva m) (foa m) d (LL c i) (tn c i) := rfl
theorem dn0_eq (d : Dev nD) :
    (bigSep Finset.univ fun c : Fin ((K (F := F)).nCore 0) => (PP Φ m).dn 0 d c)
      = bigSep Finset.univ fun c : Fin ((K (F := F)).nCore 0) => bigSep Finset.univ fun i : Fin ((K (F := F)).nSub 0) =>
          tdT Φ (Xa m) (Sva m) d (LL c i) (tn c i) := rfl

omit [FloatOps F] in
/-- A double product of triples is the triple of the double products. -/
theorem bigSep2_sep3 {I J : Type} [Fintype I] [Fintype J] (A B C : I → J → sProp 𝕄) :
    (bigSep Finset.univ fun c : I => bigSep Finset.univ fun i : J => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  rw [bigSep_congr fun c _ => (by rw [bigSep_sep', bigSep_sep'] :
      (bigSep Finset.univ fun i : J => iprop(A c i ∗ B c i ∗ C c i))
        = iprop((bigSep Finset.univ fun i => A c i) ∗ (bigSep Finset.univ fun i => B c i) ∗ (bigSep Finset.univ fun i => C c i))),
    bigSep_sep', bigSep_sep']

/-- The three arrays, whole, are the call's operands. -/
theorem st_deal (d : Dev nD) :
    iprop((xLoc d ↦{fullShare} Xa m d) ∗ (svLoc d ↦{fullShare} Sva m d) ∗ (oLoc d ↦{fullShare} foa m d))
      ⊢ (bigSep Finset.univ fun c : Fin ((K (F := F)).nCore 0) => (PP Φ m).st 0 d c : sProp 𝕄) := by
  rw [st0_eq, bigSep2_sep3, ← pts_deal (Xa m d), ← pts_deal (Sva m d), ← oPts_deal d (foa m d)]

/-- The call's results are the input and the shift vector whole, and the output whole at contents that agree, on each
    task's entries, with contents of which `Φ` holds for the task. -/
theorem dn_gather (d : Dev nD) :
    (bigSep Finset.univ fun c : Fin ((K (F := F)).nCore 0) => (PP Φ m).dn 0 d c : sProp 𝕄)
      ⊢ iprop((xLoc d ↦{fullShare} Xa m d) ∗ (svLoc d ↦{fullShare} Sva m d)
          ∗ ∃ g, ⌜∀ p : Task (F := F), ∃ f, Φ d (LL p.1 p.2) (Xa m d) (Sva m d) f ∧ ∀ x ∈ tS p, g x = f x⌝ ∗ (oLoc d ↦{fullShare} g)) := by
  rw [dn0_eq, bigSep2_sep3, ← pts_deal (Xa m d), ← pts_deal (Sva m d)]
  iintro ⟨Hx, Hsv, Ho⟩
  isplitl [Hx]; · iexact Hx
  isplitl [Hsv]; · iexact Hsv
  iapply (oPts_join d (fun p f => Φ d (LL p.1 p.2) (Xa m d) (Sva m d) f) (foa m d))
  iexact Ho

section Fin
variable (Ψ : (d : Dev nD) → Buf (Elt F) ((SparseCore.T d).loc main_v11) → Prop)

/-- What @main leaves the claim: the three arguments at their launch contents, the result at contents of which `Ψ` holds. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ∃ r, ⌜Ψ d r⌝ ∗ ((SparseCore.T d).loc main_v11 ↦{fullShare} r))

omit [FloatOps F] in
theorem held_take3 (d : Dev nD) (W : Valuation τ sig (Elt F)) :
    (held (SparseCore.T d) Cert.Kernel.Host.S W : sProp 𝕄)
      = iprop(((xLoc d ↦{fullShare} W x') ∗ (svLoc d ↦{fullShare} W sv') ∗ (oLoc d ↦{fullShare} W o'))
          ∗ held (SparseCore.T d) (Cert.Kernel.Host.S \ T3) W) := by
  rw [held_sub_split (SparseCore.T d) T3_sub, held_T3]

omit [FloatOps F] in
theorem held_take4 (d : Dev nD) (W : Valuation τ sig (Elt F)) :
    (held (SparseCore.T d) Cert.Kernel.Host.S W : sProp 𝕄)
      = iprop((((SparseCore.T d).loc main_arg0 ↦{fullShare} W a0') ∗ ((SparseCore.T d).loc main_arg1 ↦{fullShare} W a1')
          ∗ ((SparseCore.T d).loc main_arg2 ↦{fullShare} W a2') ∗ ((SparseCore.T d).loc main_v11 ↦{fullShare} W r'))
          ∗ held (SparseCore.T d) (Cert.Kernel.Host.S \ T4) W) := by
  rw [held_sub_split (SparseCore.T d) T4_sub, held_T4]

/-- After the call the buffers but the output are as before it. -/
theorem held_rest (d : Dev nD) (g : Buf (Elt F) (oLoc d)) :
    (held (SparseCore.T d) (Cert.Kernel.Host.S \ T3) (Va m d) : sProp 𝕄)
      = held (SparseCore.T d) (Cert.Kernel.Host.S \ T3) (Vb m d g) :=
  held_congr (SparseCore.T d) fun b hb => (Vb_ne m d g (fun e => by
    subst e; exact (Finset.mem_sdiff.mp hb).2 (show o' ∈ T3 by decide))).symm

/-- The four buffers the claim speaks of, after the second host line. -/
theorem held_fin (d : Dev nD) (g : Buf (Elt F) (oLoc d)) :
    (held (SparseCore.T d) Cert.Kernel.Host.S (after ops2 (Vb m d g)) : sProp 𝕄)
      = iprop((((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_v11 ↦{fullShare}
              shapeCast (s := S16777216) Cert.Roll.S3 g (show S16777216.ShapeCasts Cert.Roll.S3 by decide)))
          ∗ held (SparseCore.T d) (Cert.Kernel.Host.S \ T4) (after ops2 (Vb m d g))) := by
  have e0 : after ops2 (Vb m d g) a0' = m ((SparseCore.T d).loc main_arg0) := by
    rw [Cert.Kernel.Host.after2_arg0, Vb_ne m d g (by decide)]
    exact Cert.Kernel.Host.after1_arg0 (launchContents m d)
  have e1 : after ops2 (Vb m d g) a1' = m ((SparseCore.T d).loc main_arg1) := by
    rw [Cert.Kernel.Host.after2_arg1, Vb_ne m d g (by decide)]
    exact Cert.Kernel.Host.after1_arg1 (launchContents m d)
  have e2 : after ops2 (Vb m d g) a2' = m ((SparseCore.T d).loc main_arg2) := by
    rw [Cert.Kernel.Host.after2_arg2, Vb_ne m d g (by decide)]
    exact Cert.Kernel.Host.after1_arg2 (launchContents m d)
  have er : after ops2 (Vb m d g) r' = shapeCast (s := S16777216) Cert.Roll.S3 g (show S16777216.ShapeCasts Cert.Roll.S3 by decide) := by
    rw [Cert.Kernel.Host.after2_v11, Vb_o]
  rw [held_take4, e0, e1, e2, er]

/-- The second host line, from the buffers after the call: the arguments are at their launch contents and the result
    is the output reshaped. -/
theorem tail_wp (d : Dev nD) (g : Buf (Elt F) (oLoc d))
    (hg : Ψ d (shapeCast (s := S16777216) Cert.Roll.S3 g (show S16777216.ShapeCasts Cert.Roll.S3 by decide))) :
    iprop((K (F := F)).tcSt EH d 1 ∗ boundary (SparseCore.T d) ∗ (held (SparseCore.T d) Cert.Kernel.Host.S (Vb m d g) : sProp 𝕄))
      ⊢ wp frame (wpE ((K (F := F)).defs (D (F := F))) 𝒱 (SparseCore.T d) none) Set.univ (seq ops2)
          fun _ => iprop((K (F := F)).tcSt EH d 1 ∗ FIN m Ψ d) := by
  rw [show (seq ops2 : Prog (TpuEff nD τ sig (Elt F) _ .tc) PUnit) = (seq ops2 >>= fun u => pure u) from (bind_pure _).symm]
  iintro ⟨Hst, Hb, Hheld⟩
  iapply (StableHlo.wp_seq 𝒱 none Set.univ d Cert.Kernel.Host.S _ ops2 Cert.Kernel.Host.ops2_sub
    Cert.Kernel.Host.ops2_fresh (Vb m d g)) $$ [Hb Hheld]
  · isplitl [Hb]; · iexact Hb
    iexact Hheld
  iintro ⟨Hb, Hheld⟩
  ihave Hh := (Entails.of_eq (held_fin m d g)) $$ Hheld
  icases Hh with ⟨⟨H0, H1, H2, Hr⟩, -⟩
  rw [wp_pure]; imodintro
  isplitl [Hst]; · iexact Hst
  isplitl [H0]; · iexact H0
  isplitl [H1]; · iexact H1
  isplitl [H2]; · iexact H2
  iexists _
  isplitr
  · ipureintro; exact hg
  · iexact Hr

/-- The buffers after the call, from the three arrays as the call hands them back and the rest as it was. -/
theorem held_put3 (d : Dev nD) (g : Buf (Elt F) (oLoc d)) :
    (held (SparseCore.T d) Cert.Kernel.Host.S (Vb m d g) : sProp 𝕄)
      = iprop(((xLoc d ↦{fullShare} Xa m d) ∗ (svLoc d ↦{fullShare} Sva m d) ∗ (oLoc d ↦{fullShare} g))
          ∗ held (SparseCore.T d) (Cert.Kernel.Host.S \ T3) (Va m d)) := by
  rw [held_take3 d (Vb m d g), Vb_o, Vb_ne m d g (show x' ≠ o' by decide), Vb_ne m d g (show sv' ≠ o' by decide), held_rest m d g]

/-- The call and what follows it, from the buffers after the first host line. `hΨ`: what is known of the tasks'
    entries gives `Ψ` of the reshaped output. -/
theorem call_wp
    (hΨ : ∀ (d : Dev nD) (g : Buf (Elt F) (oLoc d)),
      (∀ p : Task (F := F), ∃ f, Φ d (LL p.1 p.2) (Xa m d) (Sva m d) f ∧ ∀ x ∈ tS p, g x = f x) →
        Ψ d (shapeCast (s := S16777216) Cert.Roll.S3 g (show S16777216.ShapeCasts Cert.Roll.S3 by decide)))
    (κ : GSem nD τ sig → ℕ) (d : Dev nD) :
    iprop((K (F := F)).ctx EH (PP Φ m) κ ∗ (K (F := F)).tcSt EH d 0 ∗ boundary (SparseCore.T d)
        ∗ (held (SparseCore.T d) Cert.Kernel.Host.S (Va m d) : sProp 𝕄))
      ⊢ wp frame (wpE ((K (F := F)).defs (D (F := F))) 𝒱 (SparseCore.T d) none) Set.univ
          ((sc (F := F)).run d 0 >>= fun _ => seq ops2)
          fun _ => iprop((K (F := F)).tcSt EH d 1 ∗ FIN m Ψ d) := by
  rw [wp_bind]
  iintro ⟨#Hctx, Hst, Hb, Hheld⟩
  ihave Hh := (Entails.of_eq (held_take3 d _)) $$ Hheld
  icases Hh with ⟨⟨Hx, Hsv, Ho⟩, Hrest⟩
  iapply ((K (F := F)).wp_run (D (F := F)) 𝒱 (EH := EH) (P := PP Φ m) κ d 0) $$ [Hst Hx Hsv Ho Hb Hrest]
  isplitr; · iexact Hctx
  isplitl [Hst]; · iexact Hst
  isplitl [Hx Hsv Ho]
  · iapply (st_deal Φ m d)
    isplitl [Hx]; · iexact Hx
    isplitl [Hsv]; · iexact Hsv
    iexact Ho
  iintro ⟨Hst, Hdn⟩
  ihave Hdn' := (dn_gather Φ m d) $$ Hdn
  icases Hdn' with ⟨Hx, Hsv, %g, %hg, Ho⟩
  iapply (tail_wp m Ψ d g (hΨ d g hg))
  isplitl [Hst]; · iexact Hst
  isplitl [Hb]; · iexact Hb
  iapply (Entails.of_eq (held_put3 m d g).symm)
  isplitr [Hrest]
  · isplitl [Hx]; · iexact Hx
    isplitl [Hsv]; · iexact Hsv
    iexact Ho
  · iexact Hrest

/-- @main on device `d`'s TensorCore: the first host line over all the TensorCore's buffers, then the call and the
    second line. -/
theorem hmain
    (hΨ : ∀ (d : Dev nD) (g : Buf (Elt F) (oLoc d)),
      (∀ p : Task (F := F), ∃ f, Φ d (LL p.1 p.2) (Xa m d) (Sva m d) f ∧ ∀ x ∈ tS p, g x = f x) →
        Ψ d (shapeCast (s := S16777216) Cert.Roll.S3 g (show S16777216.ShapeCasts Cert.Roll.S3 by decide)))
    (κ : GSem nD τ sig → ℕ) (d : Dev nD) :
    iprop((K (F := F)).ctx EH (PP Φ m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Ψ d) := by
  unfold SparseCore.Cfg.tcRes
  rw [Cert.Kernel.Host.unscoped_held, Cert.Kernel.Host.main_eq]
  iintro ⟨#Hctx, Hst, ⟨Hb, Hheld, -, -⟩, -⟩
  iapply (StableHlo.wp_seq 𝒱 none Set.univ d Cert.Kernel.Host.S _ ops1 Cert.Kernel.Host.ops1_sub
    Cert.Kernel.Host.ops1_fresh (launchContents m d)) $$ [Hb Hheld]
  · isplitl [Hb]; · iexact Hb
    iexact Hheld
  iintro ⟨Hb, Hheld⟩
  iapply (call_wp Φ m Ψ hΨ κ d)
  isplitr; · iexact Hctx
  isplitl [Hst]; · iexact Hst
  isplitl [Hb]; · iexact Hb
  iexact Hheld

end Fin

end Main

end Cert.Proof.KB

end
-- ==== Proof.KBLaunchRun.lean ====
/-
  The program's run from the launch theorem, and the kernel's frame claim. What the final memory satisfies is read
  off what @main leaves (the three arguments whole at their launch contents, the result whole at contents of which Ψ
  holds) against the state interpretation; the launch theorem takes the task obligation (from the task body's
  statement), the split of a core's operands among its tasks, the launch element and @main's proof.
-/
import proofs.«215547_g4990751997953_cont_8to1_c_497_7_alg».proof.Proof.KBLaunchMain
import proofs.«215547_g4990751997953_cont_8to1_c_497_7_alg».proof.Proof.Gen.Pre_finite_inputs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

variable [FloatOps F]

section Run

variable (Φ : (d : Dev nD) → grid0.Coords → Buf (Elt F) (xLoc d) → Buf (Elt F) (svLoc d) → Buf (Elt F) (oLoc d) → Prop)
variable (m : (ℓ : Loc nD τ sig) → Buf (Elt F) ℓ) (ρ : Dev nD → PrngReg)
variable (Ψ : (d : Dev nD) → Buf (Elt F) ((SparseCore.T d).loc main_v11) → Prop)

/-- What the final memory must satisfy on device `d`. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ Ψ d (s'.mem.mem ((SparseCore.T d).loc main_v11))

theorem hfin (d : Dev nD) (s' : Phys nD τ sig (Elt F)) : iprop(FIN m Ψ d ∗ SI s') ⊢ (⌜fq m Ψ d s'⌝ : sProp 𝕄) := by
  iintro ⟨⟨H0, H1, H2, %r, %hr, Hr⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare)
    (f := m ((SparseCore.T d).loc main_arg2)))) $$ [HSI H2]
  · isplitl [HSI] <;> iassumption
  icases H with ⟨%h2, HSI, -⟩
  ihave H := (SI_pointsTo_agree (st := s') (ℓ := (SparseCore.T d).loc main_v11) (I := Finset.univ) (q := fullShare) (f := r)) $$ [HSI Hr]
  · isplitl [HSI] <;> iassumption
  icases H with %h3
  ipureintro
  have e3 : s'.mem.mem ((SparseCore.T d).loc main_v11) = r := funext fun i => h3 i (Finset.mem_univ i)
  exact ⟨funext fun i => h0 i (Finset.mem_univ i), funext fun i => h1 i (Finset.mem_univ i),
    funext fun i => h2 i (Finset.mem_univ i), e3 ▸ hr⟩

/-- The claim's postcondition: on every device the arguments unchanged and `Ψ` of the result. -/
def QC : PUnit × MemSt nD τ sig (Elt F) → Prop := fun r => ∀ c : Dev nD,
  r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ Ψ c (r.2.mem ((SparseCore.T c).loc main_v11))

/-- The program's run, given the task body's statement for `Φ` and that `Φ` of every task yields `Ψ`. -/
theorem run_main [∀ e, Nonempty (Elt F e)] (htile : TileHyp Φ)
    (hΨ : ∀ (d : Dev nD) (g : Buf (Elt F) (oLoc d)),
      (∀ p : Task (F := F), ∃ f, Φ d (LL p.1 p.2) (Xa m d) (Sva m d) f ∧ ∀ x ∈ tS p, g x = f x) →
        Ψ d (shapeCast (s := S16777216) Cert.Roll.S3 g (show S16777216.ShapeCasts Cert.Roll.S3 by decide))) :
    θ_run (Cert.Kernel.defs (F := F)) (Cert.Kernel.threads (F := F)) ⟨m, fun _ => 0, ρ⟩ (QC m Ψ) :=
  SparseCore.Cfg.θ_run_sc (K := K (F := F)) (D := D (F := F)) (𝒱 := 𝒱) (EH := EH) (P := PP Φ m) facts v₀
    (fun q hq => match q with | 0 => nomatch hq)
    (fun q _ => match q with
      | 0 => tileObl Φ (Xa m) (Sva m) (foa m) htile (fun d => Cert.Kernel.Host.after_v8_0_lt (launchContents m d)))
    (fun q _ => match q with | 0 => SparseCore.Cfg.VecSplit.of_plain (vecSplit Φ (Xa m) (Sva m) (foa m)))
    m ρ main (fun _ => iprop(emp)) (FIN m Ψ) (u₀ (F := F)) (sep_elim_left.trans (hu₀ Φ m)) (hmain Φ m ρ Ψ hΨ) (fq m Ψ) (hfin m Ψ)
    (QC m Ψ) (fun _ h => h)

end Run

/-- The kernel's frame claim, given the task body's statement with nothing asked of what the tasks leave. -/
theorem frame_pi_of (htile : TileHyp (F := Bits) (fun _ _ _ _ _ => True)) : Cert.frame_Kernel := fun m ρ _ =>
  (θ_run Cert.Kernel.defs _ _).mono (fun _ h c => ⟨(h c).1, (h c).2.1, (h c).2.2.1⟩)
    (run_main (F := Bits) (fun _ _ _ _ _ => True) m ρ (fun _ _ => True) htile (fun _ _ _ => trivial))

end Cert.Proof.KB

end
-- ==== Proof.KITileVal.lean ====
/-
  Three value facts for a task's body.
  One trip of the copy loop: trip k stores, at places 16k .. 16k + 15 of the 16384-entry buffer, the sixteen entries the
  32768-entry buffer holds at places dd + 16k .. dd + 16k + 15; if the places below 16k already held the entries at
  dd + (their place), the places below 16(k + 1) do afterwards.
  The two copies into the 32768-entry buffer: its lower half holds the flat array's 16384 entries from o1, its upper
  half those from o2.
  The arithmetic that joins them: with g = (16384 * ch + 262144 - s) % 262144, the entry the task reads for place
  16384 * ch + i of row b, through the two windows starting at g / 16384 * 16384 and (g / 16384 * 16384 + 16384) % 262144
  and the in-window displacement g % 16384, is the rotation's source position.
-/
import proofs.«215547_g4990751997953_cont_8to1_c_497_7_alg».proof.Proof.KISetup
import proofs.«215547_g4990751997953_cont_8to1_c_497_7_alg».proof.Proof.KITileDefs
import proofs.«215547_g4990751997953_cont_8to1_c_497_7_alg».proof.Proof.KITileOwn
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v9_scv : Memref Cert.KernelIdeal.sig Kind.scVector Space.hbm Cert.KernelIdeal.S16777216 EltTy.f32)
local notation "svV" => (Memref.whole Cert.KernelIdeal.main_v8_scv : Memref Cert.KernelIdeal.sig Kind.scVector Space.hbm Cert.KernelIdeal.S16 EltTy.i32)
local notation "oV" => (Memref.whole Cert.KernelIdeal.main_v10_scv : Memref Cert.KernelIdeal.sig Kind.scVector Space.hbm Cert.KernelIdeal.S16777216 EltTy.f32)
local notation "s5" => (Memref.whole Cert.KernelIdeal.cc0_scratch0 : Memref Cert.KernelIdeal.sig Kind.scVector Space.vmem Cert.KernelIdeal.S16 EltTy.i32)
local notation "s6" => (Memref.whole Cert.KernelIdeal.cc0_scratch1 : Memref Cert.KernelIdeal.sig Kind.scVector Space.vmem Cert.KernelIdeal.S32768 EltTy.f32)
local notation "s7" => (Memref.whole Cert.KernelIdeal.cc0_scratch2 : Memref Cert.KernelIdeal.sig Kind.scVector Space.vmem Cert.KernelIdeal.S16384 EltTy.f32)

variable [FloatOps F]

/-! ## The source position -/

/-- Through the two windows and the displacement, place 16384 * ch + i of row b reads the rotation's source. -/
theorem src_fact (s b ch i : ℕ) (hs : s < 262144) (hb : b < 64) (hch : ch < 16) (hi : i < 16384) :
    let g := (16384 * ch + 262144 - s) % 262144
    let st1 := g / 16384 * 16384
    let st2 := (st1 + 16384) % 262144
    let dd := g % 16384
    (if dd + i < 16384 then 262144 * b + st1 + (dd + i) else 262144 * b + st2 + (dd + i - 16384))
      = Cert.Roll.srcPos s (262144 * b + 16384 * ch + i) := by
  intro g st1 st2 dd
  have hg : g = (16384 * ch + 262144 - s) % 262144 := rfl
  have hst1 : st1 = g / 16384 * 16384 := rfl
  have hst2 : st2 = (st1 + 16384) % 262144 := rfl
  have hdd : dd = g % 16384 := rfl
  clear_value g st1 st2 dd
  unfold Cert.Roll.srcPos
  have hp1 : (262144 * b + 16384 * ch + i) / 262144 = b := by omega
  have hp2 : (262144 * b + 16384 * ch + i) % 262144 = 16384 * ch + i := by omega
  rw [hp1, hp2]
  split <;> omega

section Tile
variable (d : Dev nD) (L : grid0.Coords)

/-! ## One trip of the copy loop -/

omit [FloatOps F] in
theorem trip_fact (B : Buf (Elt F) ((V d (cV L) (jV L)).loc cc0_scratch1)) (f : Buf (Elt F) ((V d (cV L) (jV L)).loc cc0_scratch2))
    (dd k : ℕ) (offL offS : Fin 1 → Nat) (hL : offL = ![dd + 16 * k]) (hS : offS = ![16 * k])
    (hinbL : ∀ a, offL a + S16.size a ≤ S32768.size a) (hinbS : ∀ a, offS a + S16.size a ≤ S16384.size a)
    (h1 h2 : S16.ShapeCasts S16)
    (hf : ∀ (i : Fin 16384) (j : Fin 32768), i.val < 16 * k → j.val = dd + i.val → f (ValueIdx.ix1 i) = B (ValueIdx.ix1 j)) :
    ∀ (i : Fin 16384) (j : Fin 32768), i.val < 16 * (k + 1) → j.val = dd + i.val →
      (s7).view.writes (Elt F) f [⟨Rect.unit (s := S16384) offS S16.size hinbS, shapeCast S16 (shapeCast S16 (View.readAt (Elt F) (s6).view (Rect.unit (s := S32768) offL S16.size hinbL).toLoadRect B) h1) h2⟩] (ValueIdx.ix1 i) = B (ValueIdx.ix1 j) := by
  subst hL hS
  intro i j hi hj
  have hSb : 16 * k + 16 ≤ 16384 := hinbS 0
  have hLb : dd + 16 * k + 16 ≤ 32768 := hinbL 0
  by_cases hik : i.val < 16 * k
  · -- a place below 16k is not stored to
    have h0 := View.read_writes_apply_of_forall_not_mem (Val := Elt F) (s7).view f (ValueIdx.ix1 i)
      [⟨Rect.unit (s := S16384) ![16 * k] S16.size hinbS, shapeCast S16 (shapeCast S16 (View.readAt (Elt F) (s6).view (Rect.unit (s := S32768) ![dd + 16 * k] S16.size hinbL).toLoadRect B) h1) h2⟩]
      (by
        intro p hp
        rw [List.mem_singleton] at hp
        subst hp
        rw [Rect.mem_set_unit]
        intro h
        have h' := (h 0).1
        change 16 * k ≤ i.val at h'
        omega)
    exact h0.trans (hf i j hik hj)
  · -- a place 16k + x, x < 16, reads the stored word x
    have hlt : i.val - 16 * k < 16 := by omega
    have hx : (Rect.unit (s := S16384) ![16 * k] S16.size hinbS).emb (ValueIdx.ix1 (⟨i.val - 16 * k, hlt⟩ : Fin 16)) = ValueIdx.ix1 i := by
      funext a
      apply Fin.ext
      match a with
      | ⟨0, _⟩ =>
        show 16 * k + 1 * (i.val - 16 * k) = i.val
        omega
    have h0 := View.read_writes_cons_emb (Val := Elt F) (s7).view f (Rect.unit (s := S16384) ![16 * k] S16.size hinbS)
      (shapeCast S16 (shapeCast S16 (View.readAt (Elt F) (s6).view (Rect.unit (s := S32768) ![dd + 16 * k] S16.size hinbL).toLoadRect B) h1) h2)
      [] (ValueIdx.ix1 (⟨i.val - 16 * k, hlt⟩ : Fin 16))
    rw [hx] at h0
    refine h0.trans ?_
    refine (shapeCast_apply _ h2 _ (ValueIdx.ix1 (⟨i.val - 16 * k, hlt⟩ : Fin 16)) rfl).trans ?_
    refine (shapeCast_apply _ h1 _ (ValueIdx.ix1 (⟨i.val - 16 * k, hlt⟩ : Fin 16)) rfl).trans ?_
    rw [View.readAt_apply]
    simp only [Memref.view_whole, View.read_whole]
    refine congrArg B (funext fun a => Fin.ext ?_)
    match a with
    | ⟨0, _⟩ =>
      show dd + 16 * k + 1 * (i.val - 16 * k) = j.val
      omega

/-! ## The two copies into the double-width buffer -/

omit [FloatOps F] in
theorem entry_fact (X : Buf (Elt F) (xLoc d)) (junk : Buf (Elt F) ((V d (cV L) (jV L)).loc cc0_scratch1)) (o1 o2 : ℕ)
    (off1 off2 : Fin 1 → Nat) (e1 : off1 = ![o1]) (e2 : off2 = ![o2])
    (hinb1 : ∀ a, off1 a + S16384.size a ≤ S16777216.size a) (hinb2 : ∀ a, off2 a + S16384.size a ≤ S16777216.size a)
    (hst1 : ∀ a, (Rect.unit (s := S16777216) off1 S16384.size hinb1).stride a = 1)
    (hst2 : ∀ a, (Rect.unit (s := S16777216) off2 S16384.size hinb2).stride a = 1) :
    ∀ (j : Fin 32768) (p : Fin 16777216), p.val = (if j.val < 16384 then o1 + j.val else o2 + (j.val - 16384)) →
      (s6).view.writes (Elt F) junk
        [⟨Rect.unit (s := S32768) ![16384] S16384.size inb_S32768_S16384_16384, ReadAs.same.apply (View.read (Elt F) ((xV).slice (Rect.unit (s := S16777216) off2 S16384.size hinb2) hst2).view X)⟩,
         ⟨Rect.unit (s := S32768) ![0] S16384.size inb_S32768_S16384_0, ReadAs.same.apply (View.read (Elt F) ((xV).slice (Rect.unit (s := S16777216) off1 S16384.size hinb1) hst1).view X)⟩]
        (ValueIdx.ix1 j) = X (ValueIdx.ix1 p) := by
  subst e1 e2
  intro j p hp
  -- through the whole buffer's view, reading is applying
  have key : ∀ g : Buf (Elt F) ((V d (cV L) (jV L)).loc cc0_scratch1),
      g (ValueIdx.ix1 j) = (s6).view.read (Elt F) g (ValueIdx.ix1 j) := fun g => rfl
  refine (key _).trans ?_
  by_cases hj : j.val < 16384
  · -- a place in the lower half is not under the later store, and is place j of the first copy
    rw [if_pos hj] at hp
    have hnot : ValueIdx.ix1 j ∉ (Rect.unit (s := S32768) ![16384] S16384.size inb_S32768_S16384_16384).set := by
      rw [Rect.mem_set_unit]
      intro h
      have h' := (h 0).1
      change 16384 ≤ j.val at h'
      omega
    have hx : (Rect.unit (s := S32768) ![0] S16384.size inb_S32768_S16384_0).emb (ValueIdx.ix1 (⟨j.val, hj⟩ : Fin 16384)) = ValueIdx.ix1 j := by
      funext a
      apply Fin.ext
      match a with
      | ⟨0, _⟩ =>
        show 0 + 1 * j.val = j.val
        omega
    rw [View.writes_cons, View.read_slice_write_of_not_mem _ _ _ _ (by rw [Rect.map_emb_univ]; exact hnot), ← hx,
      View.read_writes_cons_emb]
    refine congrArg X (funext fun a => Fin.ext ?_)
    match a with
    | ⟨0, _⟩ =>
      show o1 + 1 * j.val = p.val
      omega
  · -- a place in the upper half, 16384 + q, is place q of the second copy, the later store
    rw [if_neg hj] at hp
    obtain ⟨q, hq⟩ : ∃ q, j.val = 16384 + q := ⟨j.val - 16384, by omega⟩
    have hqlt : q < 16384 := by have := j.isLt; omega
    have hx : (Rect.unit (s := S32768) ![16384] S16384.size inb_S32768_S16384_16384).emb (ValueIdx.ix1 (⟨q, hqlt⟩ : Fin 16384)) = ValueIdx.ix1 j := by
      funext a
      apply Fin.ext
      match a with
      | ⟨0, _⟩ =>
        show 16384 + 1 * q = j.val
        omega
    rw [← hx, View.read_writes_cons_emb]
    refine congrArg X (funext fun a => Fin.ext ?_)
    match a with
    | ⟨0, _⟩ =>
      show o2 + 1 * q = p.val
      omega

/-! ## The task's share of the output, written chunk by chunk -/

omit [FloatOps F] in
/-- The task's share of the flat output: the 524288 places from its first. -/
theorem mem_tSet (p : S16777216.Idx) :
    p ∈ tSet L ↔ (1048576 * (L 1).val + 524288 * (L 0).val ≤ (p 0).val ∧ (p 0).val < 1048576 * (L 1).val + 524288 * (L 0).val + 524288) := by
  have h : p ∈ tSet L ↔ p ∈ (tRect L).set := View.mem_setOn (v := (oV).view) (M := (tRect L).set) (x := p)
  rw [h, Rect.mem_set_unit]
  constructor
  · intro h'
    exact h' 0
  · intro h' a
    match a with
    | ⟨0, _⟩ => exact h'

omit [FloatOps F] in
/-- Before the first chunk nothing is claimed. -/
theorem write_start (X : Buf (Elt F) (xLoc d)) (s : ℕ) (fo : Buf (Elt F) (oLoc d)) :
    ∀ p ∈ tSet L, (p 0).val < 1048576 * (L 1).val + 524288 * (L 0).val + 16384 * 0 → fo p = Cert.Roll.rollFlat s X p := by
  intro p hp h
  have hm := (mem_tSet L p).mp hp
  omega

omit [FloatOps F] in
/-- After the thirty-second chunk the whole share is claimed. -/
theorem write_end {X : Buf (Elt F) (xLoc d)} {s : ℕ} {Wl : Buf (Elt F) (oLoc d)}
    (h : ∀ p ∈ tSet L, (p 0).val < 1048576 * (L 1).val + 524288 * (L 0).val + 16384 * 32 → Wl p = Cert.Roll.rollFlat s X p) :
    ∀ p ∈ tSet L, Wl p = Cert.Roll.rollFlat s X p := by
  intro p hp
  have hm := (mem_tSet L p).mp hp
  exact h p hp (by omega)

omit [FloatOps F] in
/-- Chunk k = 16 * rN + chN written out: the 16384 places from the share's first plus 16384 * k take the copy buffer's
    entries, which are the rotation's sources; the places below keep what they held. -/
theorem write_step (X : Buf (Elt F) (xLoc d)) (s : ℕ) (hs : s < 262144) (Wprev : Buf (Elt F) (oLoc d))
    (f : Buf (Elt F) ((V d (cV L) (jV L)).loc cc0_scratch2)) (k rN chN : ℕ) (hk : 16 * rN + chN = k) (hr : rN < 2) (hch : chN < 16)
    (off : Fin 1 → Nat) (e : off = ![1048576 * (L 1).val + 524288 * (L 0).val + 262144 * rN + 16384 * chN])
    (hinb : ∀ a, off a + S16384.size a ≤ S16777216.size a)
    (hst : ∀ a, (Rect.unit (s := S16777216) off S16384.size hinb).stride a = 1)
    (hc : ∀ (i : Fin 16384) (p : Fin 16777216),
      p.val = Cert.Roll.srcPos s (262144 * (4 * (L 1).val + 2 * (L 0).val + rN) + 16384 * chN + i.val) → f (ValueIdx.ix1 i) = X (ValueIdx.ix1 p))
    (hprev : ∀ p ∈ tSet L, (p 0).val < 1048576 * (L 1).val + 524288 * (L 0).val + 16384 * k → Wprev p = Cert.Roll.rollFlat s X p) :
    ∀ p ∈ tSet L, (p 0).val < 1048576 * (L 1).val + 524288 * (L 0).val + 16384 * (k + 1) →
      View.write (Elt F) ((oV).slice (Rect.unit (s := S16777216) off S16384.size hinb) hst).view Wprev (ReadAs.same.apply (View.read (Elt F) (s7).view f)) Finset.univ p
        = Cert.Roll.rollFlat s X p := by
  subst e
  intro p hp hlt
  have hm := (mem_tSet L p).mp hp
  by_cases hlo : (p 0).val < 1048576 * (L 1).val + 524288 * (L 0).val + 16384 * k
  · -- a place below the chunk is not written
    have hnot : p ∉ (Rect.unit (s := S16777216) ![1048576 * (L 1).val + 524288 * (L 0).val + 262144 * rN + 16384 * chN] S16384.size hinb).set := by
      rw [Rect.mem_set_unit]
      intro h
      have h' := (h 0).1
      change 1048576 * (L 1).val + 524288 * (L 0).val + 262144 * rN + 16384 * chN ≤ (p 0).val at h'
      omega
    have hset := View.set_slice_whole (Cert.KernelIdeal.main_v10_scv : Ref Cert.KernelIdeal.sig Kind.scVector)
      (Rect.unit (s := S16777216) ![1048576 * (L 1).val + 524288 * (L 0).val + 262144 * rN + 16384 * chN] S16384.size hinb)
    rw [View.write_of_not_mem _ _ _ (by rw [View.setOn_univ]; exact fun hh => hnot ((Finset.ext_iff.mp hset p).mp hh))]
    exact hprev p hp hlo
  · -- a place of the chunk, its first plus q, takes entry q of the copy buffer
    obtain ⟨q, hq⟩ : ∃ q, (p 0).val = 1048576 * (L 1).val + 524288 * (L 0).val + 262144 * rN + 16384 * chN + q :=
      ⟨(p 0).val - (1048576 * (L 1).val + 524288 * (L 0).val + 262144 * rN + 16384 * chN), by omega⟩
    have hqlt : q < 16384 := by omega
    have hpe : ((oV).slice (Rect.unit (s := S16777216) ![1048576 * (L 1).val + 524288 * (L 0).val + 262144 * rN + 16384 * chN] S16384.size hinb) hst).view.emb
        (ValueIdx.ix1 (⟨q, hqlt⟩ : Fin 16384)) = p := by
      funext a
      apply Fin.ext
      match a with
      | ⟨0, _⟩ =>
        show 1048576 * (L 1).val + 524288 * (L 0).val + 262144 * rN + 16384 * chN + 1 * q = (p 0).val
        omega
    have hsrc : Cert.Roll.srcPos s (p 0).val < 16777216 := Cert.Roll.srcPos_lt s _ (p 0).isLt
    have hval : f (ValueIdx.ix1 (⟨q, hqlt⟩ : Fin 16384)) = X (ValueIdx.ix1 (⟨Cert.Roll.srcPos s (p 0).val, hsrc⟩ : Fin 16777216)) :=
      hc ⟨q, hqlt⟩ ⟨Cert.Roll.srcPos s (p 0).val, hsrc⟩ (congrArg (Cert.Roll.srcPos s)
        (show (p 0).val = 262144 * (4 * (L 1).val + 2 * (L 0).val + rN) + 16384 * chN + q by omega))
    conv_lhs => rw [← hpe]
    rw [View.write_emb_of_mem _ _ (Finset.mem_univ _)]
    exact hval

end Tile

end Cert.Proof.KI

end
-- ==== Proof.KITileValue.lean ====
/-
  What a task leaves in its part of the flat output: the rotated input. The run is the frame's; carried along it are
  (i) after a chunk's two copies, the double-width buffer holds the two consecutive 16384-entry blocks of the input
  row that contain the chunk's 16384 source entries, starting at the block boundary at or below the first of them;
  (ii) trip by trip, the chunk buffer's first 16 k entries are the double-width buffer's entries from the offset of
  that first source entry inside its block; (iii) so a finished chunk buffer holds, entry by entry, the input at the
  source positions of the chunk; (iv) the chunks are written out in order and fill the task's part from its start.
-/
import proofs.«215547_g4990751997953_cont_8to1_c_497_7_alg».proof.Proof.KISetup
import proofs.«215547_g4990751997953_cont_8to1_c_497_7_alg».proof.Proof.KITileDefs
import proofs.«215547_g4990751997953_cont_8to1_c_497_7_alg».proof.Proof.KITileOwn
import proofs.«215547_g4990751997953_cont_8to1_c_497_7_alg».proof.Proof.KernelIdealArithChk
import Idealize.ShloMosaic.Lib.Pipeline.Value
import proofs.«215547_g4990751997953_cont_8to1_c_497_7_alg».proof.Proof.KITileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v9_scv : Memref Cert.KernelIdeal.sig Kind.scVector Space.hbm Cert.KernelIdeal.S16777216 EltTy.f32)
local notation "svV" => (Memref.whole Cert.KernelIdeal.main_v8_scv : Memref Cert.KernelIdeal.sig Kind.scVector Space.hbm Cert.KernelIdeal.S16 EltTy.i32)
local notation "oV" => (Memref.whole Cert.KernelIdeal.main_v10_scv : Memref Cert.KernelIdeal.sig Kind.scVector Space.hbm Cert.KernelIdeal.S16777216 EltTy.f32)
local notation "s5" => (Memref.whole Cert.KernelIdeal.cc0_scratch0 : Memref Cert.KernelIdeal.sig Kind.scVector Space.vmem Cert.KernelIdeal.S16 EltTy.i32)
local notation "s6" => (Memref.whole Cert.KernelIdeal.cc0_scratch1 : Memref Cert.KernelIdeal.sig Kind.scVector Space.vmem Cert.KernelIdeal.S32768 EltTy.f32)
local notation "s7" => (Memref.whole Cert.KernelIdeal.cc0_scratch2 : Memref Cert.KernelIdeal.sig Kind.scVector Space.vmem Cert.KernelIdeal.S16384 EltTy.f32)

variable [FloatOps F]

section Tile
variable (d : Dev nD) (L : grid0.Coords)

/-- What is known of the double-width buffer `B` once the two copies of a chunk have landed: entry `j` is the flat
    input's entry `o1 + j` (first half) or `o2 + (j - 16384)` (second half). -/
def PB (d : Dev nD) (L : grid0.Coords) (X : Buf (Elt F) (xLoc d)) (o1 o2 : ℕ) (B : Buf (Elt F) ((V d (cV L) (jV L)).loc cc0_scratch1)) : Prop :=
  ∀ (j : Fin 32768) (p : Fin 16777216), p.val = (if j.val < 16384 then o1 + j.val else o2 + (j.val - 16384)) → B (ValueIdx.ix1 j) = X (ValueIdx.ix1 p)

/-- While a chunk's pieces are moved: the double-width buffer keeps contents `B` of which `PB` is known, and the first
    `16 k` entries of the chunk buffer are `B`'s entries from `dd` on. -/
def invW (d : Dev nD) (L : grid0.Coords) (PB : Buf (Elt F) ((V d (cV L) (jV L)).loc cc0_scratch1) → Prop) (dd : ℕ) (k : Nat) (_ : PUnit) : sProp 𝕄 :=
  iprop(∃ B, ⌜PB B⌝ ∗ ((s6).view.loc (V d (cV L) (jV L)) ↦{fullShare} B)
    ∗ ∃ f, ⌜∀ (i : Fin 16384) (j : Fin 32768), i.val < 16 * k → j.val = dd + i.val → f (ValueIdx.ix1 i) = B (ValueIdx.ix1 j)⌝ ∗ (s7).view.loc (V d (cV L) (jV L)) ↦{fullShare} f)

omit [FloatOps F] in
/-- A chunk buffer filled from the double-width buffer holds the rotated entries of its chunk: entry `i` of chunk
    `chN` of row `b` is the input's entry at the source position of `262144 b + 16384 chN + i`. -/
theorem chunk_fact (X : Buf (Elt F) (xLoc d)) (s b chN : ℕ) (hs : s < 262144) (hb : b < 64) (hch : chN < 16)
    (B : Buf (Elt F) ((V d (cV L) (jV L)).loc cc0_scratch1)) (f : Buf (Elt F) ((V d (cV L) (jV L)).loc cc0_scratch2)) (o1 o2 dd T : ℕ)
    (ho1 : o1 = 262144 * b + (16384 * chN + 262144 - s) % 262144 / 16384 * 16384)
    (ho2 : o2 = 262144 * b + ((16384 * chN + 262144 - s) % 262144 / 16384 * 16384 + 16384) % 262144)
    (hdd : dd = (16384 * chN + 262144 - s) % 262144 % 16384) (hT : T = 1024)
    (hB : PB d L X o1 o2 B)
    (hf : ∀ (i : Fin 16384) (j : Fin 32768), i.val < 16 * T → j.val = dd + i.val → f (ValueIdx.ix1 i) = B (ValueIdx.ix1 j)) :
    ∀ (i : Fin 16384) (p : Fin 16777216), p.val = Cert.Roll.srcPos s (262144 * b + 16384 * chN + i.val) → f (ValueIdx.ix1 i) = X (ValueIdx.ix1 p) := by
  intro i p hp
  have hi := i.isLt
  have hdlt : dd < 16384 := by omega
  have hj : dd + i.val < 32768 := by omega
  rw [hf i ⟨dd + i.val, hj⟩ (by omega) rfl]
  refine hB ⟨dd + i.val, hj⟩ p ?_
  have h := src_fact s b chN i.val hs hb hch hi
  simp only at h
  show p.val = if dd + i.val < 16384 then o1 + (dd + i.val) else o2 + (dd + i.val - 16384)
  rw [hp, ← h, ho1, ho2, hdd]

set_option maxHeartbeats 40000000 in
theorem tile_value (hF : (K (F := F)).Facts) (qx qs : PosShare TreeShare) (X : Buf (Elt F) (xLoc d)) (Sv : Buf (Elt F) (svLoc d)) (fo : Buf (Elt F) (oLoc d))
    (hs : (Sv (ValueIdx.ix1 0)).toNat < 262144)
    (O : CellTallies nD τ sig (HIx 1)) (W : Waits sig (HIx 1)) (hO : ∀ g, O g none = 0) :
    iprop(levAts (K (F := F)).L (K (F := F)).lev ∗ emp
        ∗ ((xLoc d ↦{qx} X : sProp 𝕄) ∗ (svLoc d ↦{qs} Sv) ∗ (oLoc d ↦[tSet L]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_roll_k L xV (Memref.isWhole_whole _) svV (Memref.isWhole_whole _) oV (Memref.isWhole_whole _)
            s5 (Memref.isWhole_whole _) s6 (Memref.isWhole_whole _) s7 (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96)
          fun _ => (iprop(((xLoc d ↦{qx} X) ∗ (svLoc d ↦{qs} Sv) ∗ ∃ f, ⌜∀ p ∈ tSet L, f p = Cert.Roll.rollFlat (Sv (ValueIdx.ix1 0)).toNat X p⌝ ∗ (oLoc d ↦[tSet L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨Hx, Hsv, Ho⟩, ⟨⟨%f5, H5⟩, ⟨%f6, H6⟩, ⟨%f7, H7⟩, Hbufs⟩, ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63, Hs64, Hs65, Hs66, Hs67, Hs68, Hs69, Hs70, Hs71, Hs72, Hs73, Hs74, Hs75, Hs76, Hs77, Hs78, Hs79, Hs80, Hs81, Hs82, Hs83, Hs84, Hs85, Hs86, Hs87, Hs88, Hs89, Hs90, Hs91, Hs92, Hs93, Hs94, Hs95, Hs96⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xLoc d ↦{qx} X : sProp 𝕄) = ((xV).view.loc (V d (cV L) (jV L)) ↦{qx} X) from rfl)) $$ Hx
  ihave Hsv' := (Entails.of_eq (show (svLoc d ↦{qs} Sv : sProp 𝕄) = ((svV).view.loc (V d (cV L) (jV L)) ↦{qs} Sv) from rfl)) $$ Hsv
  ihave Ho' := (Entails.of_eq (show (oLoc d ↦[tSet L]{fullShare} fo : sProp 𝕄) = ((oV).view.loc (V d (cV L) (jV L)) ↦[(oV).view.setOn (tRect L).set]{fullShare} fo) from rfl)) $$ Ho
  ihave H5' := (Entails.of_eq (show ((V d (cV L) (jV L)).loc cc0_scratch0 ↦{fullShare} f5 : sProp 𝕄) = ((s5).view.loc (V d (cV L) (jV L)) ↦{fullShare} f5) from rfl)) $$ H5
  ihave H6' := (Entails.of_eq (show ((V d (cV L) (jV L)).loc cc0_scratch1 ↦{fullShare} f6 : sProp 𝕄) = ((s6).view.loc (V d (cV L) (jV L)) ↦{fullShare} f6) from rfl)) $$ H6
  ihave H7' := (Entails.of_eq (show ((V d (cV L) (jV L)).loc cc0_scratch2 ↦{fullShare} f7 : sProp 𝕄) = ((s7).view.loc (V d (cV L) (jV L)) ↦{fullShare} f7) from rfl)) $$ H7
  have hL0 : (L 0).val < 2 := (L 0).isLt
  have hL1 : (L 1).val < 16 := (L 1).isLt
  have hv5e := v5_eq d L f5 Sv
  have hv5 := lt_of_eq_of_lt (congrArg BitVec.toNat hv5e) hs
  sl_exec_parts (disch := (refine Cert.KernelIdeal.Arith.chk_of_lt _ _ ?_; sl_unfold_run_names; exact lt_of_eq_of_lt (congrArg BitVec.toNat (v5_eq d L _ _)) hs))
  sl_for (invW (F := F) d L (PB d L X (1048576 * (L 1).val + 524288 * (L 0).val + 262144 * 0 + (16384 * 0 + 262144 - (Sv (ValueIdx.ix1 0)).toNat) % 262144 / 16384 * 16384) (1048576 * (L 1).val + 524288 * (L 0).val + 262144 * 0 + ((16384 * 0 + 262144 - (Sv (ValueIdx.ix1 0)).toNat) % 262144 / 16384 * 16384 + 16384) % 262144)) ((16384 * 0 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 0 + 262144 - (Sv (ValueIdx.ix1 0)).toNat) % 262144 % 16384) k.val _ _ ((Cert.KernelIdeal.Arith.load1_eq _ hv5 k).trans (by rw [hv5e])) (k0_off4_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 0 + 262144 - (Sv (ValueIdx.ix1 0)).toNat) % 262144 / 16384 * 16384) (1048576 * (L 1).val + 524288 * (L 0).val + 262144 * 0 + ((16384 * 0 + 262144 - (Sv (ValueIdx.ix1 0)).toNat) % 262144 / 16384 * 16384 + 16384) % 262144) _ _
      ((Cert.KernelIdeal.Arith.off1_eq L _ hv5 0 0).trans (by rw [hv5e]; rfl))
      ((Cert.KernelIdeal.Arith.off2_eq L _ hv5 0 0).trans (by rw [hv5e]; rfl)) _ _ _ _
  iintro %_ HI
  unfold invW
  icases HI with ⟨%B6_1, %hB_1, H6', %f7_1, %hf_1, H7'⟩
  have hc_1 := chunk_fact d L X (Sv (ValueIdx.ix1 0)).toNat (4 * (L 1).val + 2 * (L 0).val + 0) 0 hs (by omega) (by omega) B6_1 f7_1 _ _ _ _
    (by omega) (by omega) rfl (show Scf.trips k0_t1_loop.lb k0_t1_loop.ub k0_t1_loop.st = 1024 by decide) hB_1 hf_1
  clear hB_1 hf_1
  sl_exec_parts
  sl_for (invW (F := F) d L (PB d L X (1048576 * (L 1).val + 524288 * (L 0).val + 262144 * 0 + (16384 * 1 + 262144 - (Sv (ValueIdx.ix1 0)).toNat) % 262144 / 16384 * 16384) (1048576 * (L 1).val + 524288 * (L 0).val + 262144 * 0 + ((16384 * 1 + 262144 - (Sv (ValueIdx.ix1 0)).toNat) % 262144 / 16384 * 16384 + 16384) % 262144)) ((16384 * 1 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 1 + 262144 - (Sv (ValueIdx.ix1 0)).toNat) % 262144 % 16384) k.val _ _ ((Cert.KernelIdeal.Arith.load2_eq _ hv5 k).trans (by rw [hv5e])) (k0_off7_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 1 + 262144 - (Sv (ValueIdx.ix1 0)).toNat) % 262144 / 16384 * 16384) (1048576 * (L 1).val + 524288 * (L 0).val + 262144 * 0 + ((16384 * 1 + 262144 - (Sv (ValueIdx.ix1 0)).toNat) % 262144 / 16384 * 16384 + 16384) % 262144) _ _
      ((Cert.KernelIdeal.Arith.off1_eq L _ hv5 0 1).trans (by rw [hv5e]; rfl))
      ((Cert.KernelIdeal.Arith.off2_eq L _ hv5 0 1).trans (by rw [hv5e]; rfl)) _ _ _ _
  iintro %_ HI
  unfold invW
  icases HI with ⟨%B6_2, %hB_2, H6', %f7_2, %hf_2, H7'⟩
  have hc_2 := chunk_fact d L X (Sv (ValueIdx.ix1 0)).toNat (4 * (L 1).val + 2 * (L 0).val + 0) 1 hs (by omega) (by omega) B6_2 f7_2 _ _ _ _
    (by omega) (by omega) rfl (show Scf.trips k0_t2_loop.lb k0_t2_loop.ub k0_t2_loop.st = 1024 by decide) hB_2 hf_2
  clear hB_2 hf_2
  sl_exec_parts
  sl_for (invW (F := F) d L (PB d L X (1048576 * (L 1).val + 524288 * (L 0).val + 262144 * 0 + (16384 * 2 + 262144 - (Sv (ValueIdx.ix1 0)).toNat) % 262144 / 16384 * 16384) (1048576 * (L 1).val + 524288 * (L 0).val + 262144 * 0 + ((16384 * 2 + 262144 - (Sv (ValueIdx.ix1 0)).toNat) % 262144 / 16384 * 16384 + 16384) % 262144)) ((16384 * 2 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 2 + 262144 - (Sv (ValueIdx.ix1 0)).toNat) % 262144 % 16384) k.val _ _ ((Cert.KernelIdeal.Arith.load3_eq _ hv5 k).trans (by rw [hv5e])) (k0_off9_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 2 + 262144 - (Sv (ValueIdx.ix1 0)).toNat) % 262144 / 16384 * 16384) (1048576 * (L 1).val + 524288 * (L 0).val + 262144 * 0 + ((16384 * 2 + 262144 - (Sv (ValueIdx.ix1 0)).toNat) % 262144 / 16384 * 16384 + 16384) % 262144) _ _
      ((Cert.KernelIdeal.Arith.off1_eq L _ hv5 0 2).trans (by rw [hv5e]; rfl))
      ((Cert.KernelIdeal.Arith.off2_eq L _ hv5 0 2).trans (by rw [hv5e]; rfl)) _ _ _ _
  iintro %_ HI
  unfold invW
  icases HI with ⟨%B6_3, %hB_3, H6', %f7_3, %hf_3, H7'⟩
  have hc_3 := chunk_fact d L X (Sv (ValueIdx.ix1 0)).toNat (4 * (L 1).val + 2 * (L 0).val + 0) 2 hs (by omega) (by omega) B6_3 f7_3 _ _ _ _
    (by omega) (by omega) rfl (show Scf.trips k0_t3_loop.lb k0_t3_loop.ub k0_t3_loop.st = 1024 by decide) hB_3 hf_3
  clear hB_3 hf_3
  sl_exec_parts
  sl_for (invW (F := F) d L (PB d L X (1048576 * (L 1).val + 524288 * (L 0).val + 262144 * 0 + (16384 * 3 + 262144 - (Sv (ValueIdx.ix1 0)).toNat) % 262144 / 16384 * 16384) (1048576 * (L 1).val + 524288 * (L 0).val + 262144 * 0 + ((16384 * 3 + 262144 - (Sv (ValueIdx.ix1 0)).toNat) % 262144 / 16384 * 16384 + 16384) % 262144)) ((16384 * 3 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 3 + 262144 - (Sv (ValueIdx.ix1 0)).toNat) % 262144 % 16384) k.val _ _ ((Cert.KernelIdeal.Arith.load4_eq _ hv5 k).trans (by rw [hv5e])) (k0_off11_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 3 + 262144 - (Sv (ValueIdx.ix1 0)).toNat) % 262144 / 16384 * 16384) (1048576 * (L 1).val + 524288 * (L 0).val + 262144 * 0 + ((16384 * 3 + 262144 - (Sv (ValueIdx.ix1 0)).toNat) % 262144 / 16384 * 16384 + 16384) % 262144) _ _
      ((Cert.KernelIdeal.Arith.off1_eq L _ hv5 0 3).trans (by rw [hv5e]; rfl))
      ((Cert.KernelIdeal.Arith.off2_eq L _ hv5 0 3).trans (by rw [hv5e]; rfl)) _ _ _ _
  iintro %_ HI
  unfold invW
  icases HI with ⟨%B6_4, %hB_4, H6', %f7_4, %hf_4, H7'⟩
  have hc_4 := chunk_fact d L X (Sv (ValueIdx.ix1 0)).toNat (4 * (L 1).val + 2 * (L 0).val + 0) 3 hs (by omega) (by omega) B6_4 f7_4 _ _ _ _
    (by omega) (by omega) rfl (show Scf.trips k0_t4_loop.lb k0_t4_loop.ub k0_t4_loop.st = 1024 by decide) hB_4 hf_4
  clear hB_4 hf_4
  sl_exec_parts
  sl_for (invW (F := F) d L (PB d L X (1048576 * (L 1).val + 524288 * (L 0).val + 262144 * 0 + (16384 * 4 + 262144 - (Sv (ValueIdx.ix1 0)).toNat) % 262144 / 16384 * 16384) (1048576 * (L 1).val + 524288 * (L 0).val + 262144 * 0 + ((16384 * 4 + 262144 - (Sv (ValueIdx.ix1 0)).toNat) % 262144 / 16384 * 16384 + 16384) % 262144)) ((16384 * 4 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 4 + 262144 - (Sv (ValueIdx.ix1 0)).toNat) % 262144 % 16384) k.val _ _ ((Cert.KernelIdeal.Arith.load5_eq _ hv5 k).trans (by rw [hv5e])) (k0_off13_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 4 + 262144 - (Sv (ValueIdx.ix1 0)).toNat) % 262144 / 16384 * 16384) (1048576 * (L 1).val + 524288 * (L 0).val + 262144 * 0 + ((16384 * 4 + 262144 - (Sv (ValueIdx.ix1 0)).toNat) % 262144 / 16384 * 16384 + 16384) % 262144) _ _
      ((Cert.KernelIdeal.Arith.off1_eq L _ hv5 0 4).trans (by rw [hv5e]; rfl))
      ((Cert.KernelIdeal.Arith.off2_eq L _ hv5 0 4).trans (by rw [hv5e]; rfl)) _ _ _ _
  iintro %_ HI
  unfold invW
  icases HI with ⟨%B6_5, %hB_5, H6', %f7_5, %hf_5, H7'⟩
  have hc_5 := chunk_fact d L X (Sv (ValueIdx.ix1 0)).toNat (4 * (L 1).val + 2 * (L 0).val + 0) 4 hs (by omega) (by omega) B6_5 f7_5 _ _ _ _
    (by omega) (by omega) rfl (show Scf.trips k0_t5_loop.lb k0_t5_loop.ub k0_t5_loop.st = 1024 by decide) hB_5 hf_5
  clear hB_5 hf_5
  sl_exec_parts
  sl_for (invW (F := F) d L (PB d L X (1048576 * (L 1).val + 524288 * (L 0).val + 262144 * 0 + (16384 * 5 + 262144 - (Sv (ValueIdx.ix1 0)).toNat) % 262144 / 16384 * 16384) (1048576 * (L 1).val + 524288 * (L 0).val + 262144 * 0 + ((16384 * 5 + 262144 - (Sv (ValueIdx.ix1 0)).toNat) % 262144 / 16384 * 16384 + 16384) % 262144)) ((16384 * 5 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 5 + 262144 - (Sv (ValueIdx.ix1 0)).toNat) % 262144 % 16384) k.val _ _ ((Cert.KernelIdeal.Arith.load6_eq _ hv5 k).trans (by rw [hv5e])) (k0_off15_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 5 + 262144 - (Sv (ValueIdx.ix1 0)).toNat) % 262144 / 16384 * 16384) (1048576 * (L 1).val + 524288 * (L 0).val + 262144 * 0 + ((16384 * 5 + 262144 - (Sv (ValueIdx.ix1 0)).toNat) % 262144 / 16384 * 16384 + 16384) % 262144) _ _
      ((Cert.KernelIdeal.Arith.off1_eq L _ hv5 0 5).trans (by rw [hv5e]; rfl))
      ((Cert.KernelIdeal.Arith.off2_eq L _ hv5 0 5).trans (by rw [hv5e]; rfl)) _ _ _ _
  iintro %_ HI
  unfold invW
  icases HI with ⟨%B6_6, %hB_6, H6', %f7_6, %hf_6, H7'⟩
  have hc_6 := chunk_fact d L X (Sv (ValueIdx.ix1 0)).toNat (4 * (L 1).val + 2 * (L 0).val + 0) 5 hs (by omega) (by omega) B6_6 f7_6 _ _ _ _
    (by omega) (by omega) rfl (show Scf.trips k0_t6_loop.lb k0_t6_loop.ub k0_t6_loop.st = 1024 by decide) hB_6 hf_6
  clear hB_6 hf_6
  sl_exec_parts
  sl_for (invW (F := F) d L (PB d L X (1048576 * (L 1).val + 524288 * (L 0).val + 262144 * 0 + (16384 * 6 + 262144 - (Sv (ValueIdx.ix1 0)).toNat) % 262144 / 16384 * 16384) (1048576 * (L 1).val + 524288 * (L 0).val + 262144 * 0 + ((16384 * 6 + 262144 - (Sv (ValueIdx.ix1 0)).toNat) % 262144 / 16384 * 16384 + 16384) % 262144)) ((16384 * 6 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 6 + 262144 - (Sv (ValueIdx.ix1 0)).toNat) % 262144 % 16384) k.val _ _ ((Cert.KernelIdeal.Arith.load7_eq _ hv5 k).trans (by rw [hv5e])) (k0_off17_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 6 + 262144 - (Sv (ValueIdx.ix1 0)).toNat) % 262144 / 16384 * 16384) (1048576 * (L 1).val + 524288 * (L 0).val + 262144 * 0 + ((16384 * 6 + 262144 - (Sv (ValueIdx.ix1 0)).toNat) % 262144 / 16384 * 16384 + 16384) % 262144) _ _
      ((Cert.KernelIdeal.Arith.off1_eq L _ hv5 0 6).trans (by rw [hv5e]; rfl))
      ((Cert.KernelIdeal.Arith.off2_eq L _ hv5 0 6).trans (by rw [hv5e]; rfl)) _ _ _ _
  iintro %_ HI
  unfold invW
  icases HI with ⟨%B6_7, %hB_7, H6', %f7_7, %hf_7, H7'⟩
  have hc_7 := chunk_fact d L X (Sv (ValueIdx.ix1 0)).toNat (4 * (L 1).val + 2 * (L 0).val + 0) 6 hs (by omega) (by omega) B6_7 f7_7 _ _ _ _
    (by omega) (by omega) rfl (show Scf.trips k0_t7_loop.lb k0_t7_loop.ub k0_t7_loop.st = 1024 by decide) hB_7 hf_7
  clear hB_7 hf_7
  sl_exec_parts
  sl_for (invW (F := F) d L (PB d L X (1048576 * (L 1).val + 524288 * (L 0).val + 262144 * 0 + (16384 * 7 + 262144 - (Sv (ValueIdx.ix1 0)).toNat) % 262144 / 16384 * 16384) (1048576 * (L 1).val + 524288 * (L 0).val + 262144 * 0 + ((16384 * 7 + 262144 - (Sv (ValueIdx.ix1 0)).toNat) % 262144 / 16384 * 16384 + 16384) % 262144)) ((16384 * 7 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 7 + 262144 - (Sv (ValueIdx.ix1 0)).toNat) % 262144 % 16384) k.val _ _ ((Cert.KernelIdeal.Arith.load8_eq _ hv5 k).trans (by rw [hv5e])) (k0_off19_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 7 + 262144 - (Sv (ValueIdx.ix1 0)).toNat) % 262144 / 16384 * 16384) (1048576 * (L 1).val + 524288 * (L 0).val + 262144 * 0 + ((16384 * 7 + 262144 - (Sv (ValueIdx.ix1 0)).toNat) % 262144 / 16384 * 16384 + 16384) % 262144) _ _
      ((Cert.KernelIdeal.Arith.off1_eq L _ hv5 0 7).trans (by rw [hv5e]; rfl))
      ((Cert.KernelIdeal.Arith.off2_eq L _ hv5 0 7).trans (by rw [hv5e]; rfl)) _ _ _ _
  iintro %_ HI
  unfold invW
  icases HI with ⟨%B6_8, %hB_8, H6', %f7_8, %hf_8, H7'⟩
  have hc_8 := chunk_fact d L X (Sv (ValueIdx.ix1 0)).toNat (4 * (L 1).val + 2 * (L 0).val + 0) 7 hs (by omega) (by omega) B6_8 f7_8 _ _ _ _
    (by omega) (by omega) rfl (show Scf.trips k0_t8_loop.lb k0_t8_loop.ub k0_t8_loop.st = 1024 by decide) hB_8 hf_8
  clear hB_8 hf_8
  sl_exec_parts
  sl_for (invW (F := F) d L (PB d L X (1048576 * (L 1).val + 524288 * (L 0).val + 262144 * 0 + (16384 * 8 + 262144 - (Sv (ValueIdx.ix1 0)).toNat) % 262144 / 16384 * 16384) (1048576 * (L 1).val + 524288 * (L 0).val + 262144 * 0 + ((16384 * 8 + 262144 - (Sv (ValueIdx.ix1 0)).toNat) % 262144 / 16384 * 16384 + 16384) % 262144)) ((16384 * 8 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 8 + 262144 - (Sv (ValueIdx.ix1 0)).toNat) % 262144 % 16384) k.val _ _ ((Cert.KernelIdeal.Arith.load9_eq _ hv5 k).trans (by rw [hv5e])) (k0_off21_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 8 + 262144 - (Sv (ValueIdx.ix1 0)).toNat) % 262144 / 16384 * 16384) (1048576 * (L 1).val + 524288 * (L 0).val + 262144 * 0 + ((16384 * 8 + 262144 - (Sv (ValueIdx.ix1 0)).toNat) % 262144 / 16384 * 16384 + 16384) % 262144) _ _
      ((Cert.KernelIdeal.Arith.off1_eq L _ hv5 0 8).trans (by rw [hv5e]; rfl))
      ((Cert.KernelIdeal.Arith.off2_eq L _ hv5 0 8).trans (by rw [hv5e]; rfl)) _ _ _ _
  iintro %_ HI
  unfold invW
  icases HI with ⟨%B6_9, %hB_9, H6', %f7_9, %hf_9, H7'⟩
  have hc_9 := chunk_fact d L X (Sv (ValueIdx.ix1 0)).toNat (4 * (L 1).val + 2 * (L 0).val + 0) 8 hs (by omega) (by omega) B6_9 f7_9 _ _ _ _
    (by omega) (by omega) rfl (show Scf.trips k0_t9_loop.lb k0_t9_loop.ub k0_t9_loop.st = 1024 by decide) hB_9 hf_9
  clear hB_9 hf_9
  sl_exec_parts
  sl_for (invW (F := F) d L (PB d L X (1048576 * (L 1).val + 524288 * (L 0).val + 262144 * 0 + (16384 * 9 + 262144 - (Sv (ValueIdx.ix1 0)).toNat) % 262144 / 16384 * 16384) (1048576 * (L 1).val + 524288 * (L 0).val + 262144 * 0 + ((16384 * 9 + 262144 - (Sv (ValueIdx.ix1 0)).toNat) % 262144 / 16384 * 16384 + 16384) % 262144)) ((16384 * 9 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 9 + 262144 - (Sv (ValueIdx.ix1 0)).toNat) % 262144 % 16384) k.val _ _ ((Cert.KernelIdeal.Arith.load10_eq _ hv5 k).trans (by rw [hv5e])) (k0_off23_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 9 + 262144 - (Sv (ValueIdx.ix1 0)).toNat) % 262144 / 16384 * 16384) (1048576 * (L 1).val + 524288 * (L 0).val + 262144 * 0 + ((16384 * 9 + 262144 - (Sv (ValueIdx.ix1 0)).toNat) % 262144 / 16384 * 16384 + 16384) % 262144) _ _
      ((Cert.KernelIdeal.Arith.off1_eq L _ hv5 0 9).trans (by rw [hv5e]; rfl))
      ((Cert.KernelIdeal.Arith.off2_eq L _ hv5 0 9).trans (by rw [hv5e]; rfl)) _ _ _ _
  iintro %_ HI
  unfold invW
  icases HI with ⟨%B6_10, %hB_10, H6', %f7_10, %hf_10, H7'⟩
  have hc_10 := chunk_fact d L X (Sv (ValueIdx.ix1 0)).toNat (4 * (L 1).val + 2 * (L 0).val + 0) 9 hs (by omega) (by omega) B6_10 f7_10 _ _ _ _
    (by omega) (by omega) rfl (show Scf.trips k0_t10_loop.lb k0_t10_loop.ub k0_t10_loop.st = 1024 by decide) hB_10 hf_10
  clear hB_10 hf_10
  sl_exec_parts
  sl_for (invW (F := F) d L (PB d L X (1048576 * (L 1).val + 524288 * (L 0).val + 262144 * 0 + (16384 * 10 + 262144 - (Sv (ValueIdx.ix1 0)).toNat) % 262144 / 16384 * 16384) (1048576 * (L 1).val + 524288 * (L 0).val + 262144 * 0 + ((16384 * 10 + 262144 - (Sv (ValueIdx.ix1 0)).toNat) % 262144 / 16384 * 16384 + 16384) % 262144)) ((16384 * 10 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 10 + 262144 - (Sv (ValueIdx.ix1 0)).toNat) % 262144 % 16384) k.val _ _ ((Cert.KernelIdeal.Arith.load11_eq _ hv5 k).trans (by rw [hv5e])) (k0_off25_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 10 + 262144 - (Sv (ValueIdx.ix1 0)).toNat) % 262144 / 16384 * 16384) (1048576 * (L 1).val + 524288 * (L 0).val + 262144 * 0 + ((16384 * 10 + 262144 - (Sv (ValueIdx.ix1 0)).toNat) % 262144 / 16384 * 16384 + 16384) % 262144) _ _
      ((Cert.KernelIdeal.Arith.off1_eq L _ hv5 0 10).trans (by rw [hv5e]; rfl))
      ((Cert.KernelIdeal.Arith.off2_eq L _ hv5 0 10).trans (by rw [hv5e]; rfl)) _ _ _ _
  iintro %_ HI
  unfold invW
  icases HI with ⟨%B6_11, %hB_11, H6', %f7_11, %hf_11, H7'⟩
  have hc_11 := chunk_fact d L X (Sv (ValueIdx.ix1 0)).toNat (4 * (L 1).val + 2 * (L 0).val + 0) 10 hs (by omega) (by omega) B6_11 f7_11 _ _ _ _
    (by omega) (by omega) rfl (show Scf.trips k0_t11_loop.lb k0_t11_loop.ub k0_t11_loop.st = 1024 by decide) hB_11 hf_11
  clear hB_11 hf_11
  sl_exec_parts
  sl_for (invW (F := F) d L (PB d L X (1048576 * (L 1).val + 524288 * (L 0).val + 262144 * 0 + (16384 * 11 + 262144 - (Sv (ValueIdx.ix1 0)).toNat) % 262144 / 16384 * 16384) (1048576 * (L 1).val + 524288 * (L 0).val + 262144 * 0 + ((16384 * 11 + 262144 - (Sv (ValueIdx.ix1 0)).toNat) % 262144 / 16384 * 16384 + 16384) % 262144)) ((16384 * 11 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 11 + 262144 - (Sv (ValueIdx.ix1 0)).toNat) % 262144 % 16384) k.val _ _ ((Cert.KernelIdeal.Arith.load12_eq _ hv5 k).trans (by rw [hv5e])) (k0_off27_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 11 + 262144 - (Sv (ValueIdx.ix1 0)).toNat) % 262144 / 16384 * 16384) (1048576 * (L 1).val + 524288 * (L 0).val + 262144 * 0 + ((16384 * 11 + 262144 - (Sv (ValueIdx.ix1 0)).toNat) % 262144 / 16384 * 16384 + 16384) % 262144) _ _
      ((Cert.KernelIdeal.Arith.off1_eq L _ hv5 0 11).trans (by rw [hv5e]; rfl))
      ((Cert.KernelIdeal.Arith.off2_eq L _ hv5 0 11).trans (by rw [hv5e]; rfl)) _ _ _ _
  iintro %_ HI
  unfold invW
  icases HI with ⟨%B6_12, %hB_12, H6', %f7_12, %hf_12, H7'⟩
  have hc_12 := chunk_fact d L X (Sv (ValueIdx.ix1 0)).toNat (4 * (L 1).val + 2 * (L 0).val + 0) 11 hs (by omega) (by omega) B6_12 f7_12 _ _ _ _
    (by omega) (by omega) rfl (show Scf.trips k0_t12_loop.lb k0_t12_loop.ub k0_t12_loop.st = 1024 by decide) hB_12 hf_12
  clear hB_12 hf_12
  sl_exec_parts
  sl_for (invW (F := F) d L (PB d L X (1048576 * (L 1).val + 524288 * (L 0).val + 262144 * 0 + (16384 * 12 + 262144 - (Sv (ValueIdx.ix1 0)).toNat) % 262144 / 16384 * 16384) (1048576 * (L 1).val + 524288 * (L 0).val + 262144 * 0 + ((16384 * 12 + 262144 - (Sv (ValueIdx.ix1 0)).toNat) % 262144 / 16384 * 16384 + 16384) % 262144)) ((16384 * 12 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 12 + 262144 - (Sv (ValueIdx.ix1 0)).toNat) % 262144 % 16384) k.val _ _ ((Cert.KernelIdeal.Arith.load13_eq _ hv5 k).trans (by rw [hv5e])) (k0_off29_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 12 + 262144 - (Sv (ValueIdx.ix1 0)).toNat) % 262144 / 16384 * 16384) (1048576 * (L 1).val + 524288 * (L 0).val + 262144 * 0 + ((16384 * 12 + 262144 - (Sv (ValueIdx.ix1 0)).toNat) % 262144 / 16384 * 16384 + 16384) % 262144) _ _
      ((Cert.KernelIdeal.Arith.off1_eq L _ hv5 0 12).trans (by rw [hv5e]; rfl))
      ((Cert.KernelIdeal.Arith.off2_eq L _ hv5 0 12).trans (by rw [hv5e]; rfl)) _ _ _ _
  iintro %_ HI
  unfold invW
  icases HI with ⟨%B6_13, %hB_13, H6', %f7_13, %hf_13, H7'⟩
  have hc_13 := chunk_fact d L X (Sv (ValueIdx.ix1 0)).toNat (4 * (L 1).val + 2 * (L 0).val + 0) 12 hs (by omega) (by omega) B6_13 f7_13 _ _ _ _
    (by omega) (by omega) rfl (show Scf.trips k0_t13_loop.lb k0_t13_loop.ub k0_t13_loop.st = 1024 by decide) hB_13 hf_13
  clear hB_13 hf_13
  sl_exec_parts
  sl_for (invW (F := F) d L (PB d L X (1048576 * (L 1).val + 524288 * (L 0).val + 262144 * 0 + (16384 * 13 + 262144 - (Sv (ValueIdx.ix1 0)).toNat) % 262144 / 16384 * 16384) (1048576 * (L 1).val + 524288 * (L 0).val + 262144 * 0 + ((16384 * 13 + 262144 - (Sv (ValueIdx.ix1 0)).toNat) % 262144 / 16384 * 16384 + 16384) % 262144)) ((16384 * 13 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 13 + 262144 - (Sv (ValueIdx.ix1 0)).toNat) % 262144 % 16384) k.val _ _ ((Cert.KernelIdeal.Arith.load14_eq _ hv5 k).trans (by rw [hv5e])) (k0_off31_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 13 + 262144 - (Sv (ValueIdx.ix1 0)).toNat) % 262144 / 16384 * 16384) (1048576 * (L 1).val + 524288 * (L 0).val + 262144 * 0 + ((16384 * 13 + 262144 - (Sv (ValueIdx.ix1 0)).toNat) % 262144 / 16384 * 16384 + 16384) % 262144) _ _
      ((Cert.KernelIdeal.Arith.off1_eq L _ hv5 0 13).trans (by rw [hv5e]; rfl))
      ((Cert.KernelIdeal.Arith.off2_eq L _ hv5 0 13).trans (by rw [hv5e]; rfl)) _ _ _ _
  iintro %_ HI
  unfold invW
  icases HI with ⟨%B6_14, %hB_14, H6', %f7_14, %hf_14, H7'⟩
  have hc_14 := chunk_fact d L X (Sv (ValueIdx.ix1 0)).toNat (4 * (L 1).val + 2 * (L 0).val + 0) 13 hs (by omega) (by omega) B6_14 f7_14 _ _ _ _
    (by omega) (by omega) rfl (show Scf.trips k0_t14_loop.lb k0_t14_loop.ub k0_t14_loop.st = 1024 by decide) hB_14 hf_14
  clear hB_14 hf_14
  sl_exec_parts
  sl_for (invW (F := F) d L (PB d L X (1048576 * (L 1).val + 524288 * (L 0).val + 262144 * 0 + (16384 * 14 + 262144 - (Sv (ValueIdx.ix1 0)).toNat) % 262144 / 16384 * 16384) (1048576 * (L 1).val + 524288 * (L 0).val + 262144 * 0 + ((16384 * 14 + 262144 - (Sv (ValueIdx.ix1 0)).toNat) % 262144 / 16384 * 16384 + 16384) % 262144)) ((16384 * 14 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 14 + 262144 - (Sv (ValueIdx.ix1 0)).toNat) % 262144 % 16384) k.val _ _ ((Cert.KernelIdeal.Arith.load15_eq _ hv5 k).trans (by rw [hv5e])) (k0_off33_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 14 + 262144 - (Sv (ValueIdx.ix1 0)).toNat) % 262144 / 16384 * 16384) (1048576 * (L 1).val + 524288 * (L 0).val + 262144 * 0 + ((16384 * 14 + 262144 - (Sv (ValueIdx.ix1 0)).toNat) % 262144 / 16384 * 16384 + 16384) % 262144) _ _
      ((Cert.KernelIdeal.Arith.off1_eq L _ hv5 0 14).trans (by rw [hv5e]; rfl))
      ((Cert.KernelIdeal.Arith.off2_eq L _ hv5 0 14).trans (by rw [hv5e]; rfl)) _ _ _ _
  iintro %_ HI
  unfold invW
  icases HI with ⟨%B6_15, %hB_15, H6', %f7_15, %hf_15, H7'⟩
  have hc_15 := chunk_fact d L X (Sv (ValueIdx.ix1 0)).toNat (4 * (L 1).val + 2 * (L 0).val + 0) 14 hs (by omega) (by omega) B6_15 f7_15 _ _ _ _
    (by omega) (by omega) rfl (show Scf.trips k0_t15_loop.lb k0_t15_loop.ub k0_t15_loop.st = 1024 by decide) hB_15 hf_15
  clear hB_15 hf_15
  sl_exec_parts
  sl_for (invW (F := F) d L (PB d L X (1048576 * (L 1).val + 524288 * (L 0).val + 262144 * 0 + (16384 * 15 + 262144 - (Sv (ValueIdx.ix1 0)).toNat) % 262144 / 16384 * 16384) (1048576 * (L 1).val + 524288 * (L 0).val + 262144 * 0 + ((16384 * 15 + 262144 - (Sv (ValueIdx.ix1 0)).toNat) % 262144 / 16384 * 16384 + 16384) % 262144)) ((16384 * 15 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 15 + 262144 - (Sv (ValueIdx.ix1 0)).toNat) % 262144 % 16384) k.val _ _ ((Cert.KernelIdeal.Arith.load16_eq _ hv5 k).trans (by rw [hv5e])) (k0_off35_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 0 + (16384 * 15 + 262144 - (Sv (ValueIdx.ix1 0)).toNat) % 262144 / 16384 * 16384) (1048576 * (L 1).val + 524288 * (L 0).val + 262144 * 0 + ((16384 * 15 + 262144 - (Sv (ValueIdx.ix1 0)).toNat) % 262144 / 16384 * 16384 + 16384) % 262144) _ _
      ((Cert.KernelIdeal.Arith.off1_eq L _ hv5 0 15).trans (by rw [hv5e]; rfl))
      ((Cert.KernelIdeal.Arith.off2_eq L _ hv5 0 15).trans (by rw [hv5e]; rfl)) _ _ _ _
  iintro %_ HI
  unfold invW
  icases HI with ⟨%B6_16, %hB_16, H6', %f7_16, %hf_16, H7'⟩
  have hc_16 := chunk_fact d L X (Sv (ValueIdx.ix1 0)).toNat (4 * (L 1).val + 2 * (L 0).val + 0) 15 hs (by omega) (by omega) B6_16 f7_16 _ _ _ _
    (by omega) (by omega) rfl (show Scf.trips k0_t16_loop.lb k0_t16_loop.ub k0_t16_loop.st = 1024 by decide) hB_16 hf_16
  clear hB_16 hf_16
  sl_exec_parts
  sl_for (invW (F := F) d L (PB d L X (1048576 * (L 1).val + 524288 * (L 0).val + 262144 * 1 + (16384 * 0 + 262144 - (Sv (ValueIdx.ix1 0)).toNat) % 262144 / 16384 * 16384) (1048576 * (L 1).val + 524288 * (L 0).val + 262144 * 1 + ((16384 * 0 + 262144 - (Sv (ValueIdx.ix1 0)).toNat) % 262144 / 16384 * 16384 + 16384) % 262144)) ((16384 * 0 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 0 + 262144 - (Sv (ValueIdx.ix1 0)).toNat) % 262144 % 16384) k.val _ _ ((Cert.KernelIdeal.Arith.load17_eq _ hv5 k).trans (by rw [hv5e])) (k0_off37_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 0 + 262144 - (Sv (ValueIdx.ix1 0)).toNat) % 262144 / 16384 * 16384) (1048576 * (L 1).val + 524288 * (L 0).val + 262144 * 1 + ((16384 * 0 + 262144 - (Sv (ValueIdx.ix1 0)).toNat) % 262144 / 16384 * 16384 + 16384) % 262144) _ _
      ((Cert.KernelIdeal.Arith.off1_eq L _ hv5 1 0).trans (by rw [hv5e]; rfl))
      ((Cert.KernelIdeal.Arith.off2_eq L _ hv5 1 0).trans (by rw [hv5e]; rfl)) _ _ _ _
  iintro %_ HI
  unfold invW
  icases HI with ⟨%B6_17, %hB_17, H6', %f7_17, %hf_17, H7'⟩
  have hc_17 := chunk_fact d L X (Sv (ValueIdx.ix1 0)).toNat (4 * (L 1).val + 2 * (L 0).val + 1) 0 hs (by omega) (by omega) B6_17 f7_17 _ _ _ _
    (by omega) (by omega) rfl (show Scf.trips k0_t17_loop.lb k0_t17_loop.ub k0_t17_loop.st = 1024 by decide) hB_17 hf_17
  clear hB_17 hf_17
  sl_exec_parts
  sl_for (invW (F := F) d L (PB d L X (1048576 * (L 1).val + 524288 * (L 0).val + 262144 * 1 + (16384 * 1 + 262144 - (Sv (ValueIdx.ix1 0)).toNat) % 262144 / 16384 * 16384) (1048576 * (L 1).val + 524288 * (L 0).val + 262144 * 1 + ((16384 * 1 + 262144 - (Sv (ValueIdx.ix1 0)).toNat) % 262144 / 16384 * 16384 + 16384) % 262144)) ((16384 * 1 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 1 + 262144 - (Sv (ValueIdx.ix1 0)).toNat) % 262144 % 16384) k.val _ _ ((Cert.KernelIdeal.Arith.load18_eq _ hv5 k).trans (by rw [hv5e])) (k0_off39_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 1 + 262144 - (Sv (ValueIdx.ix1 0)).toNat) % 262144 / 16384 * 16384) (1048576 * (L 1).val + 524288 * (L 0).val + 262144 * 1 + ((16384 * 1 + 262144 - (Sv (ValueIdx.ix1 0)).toNat) % 262144 / 16384 * 16384 + 16384) % 262144) _ _
      ((Cert.KernelIdeal.Arith.off1_eq L _ hv5 1 1).trans (by rw [hv5e]; rfl))
      ((Cert.KernelIdeal.Arith.off2_eq L _ hv5 1 1).trans (by rw [hv5e]; rfl)) _ _ _ _
  iintro %_ HI
  unfold invW
  icases HI with ⟨%B6_18, %hB_18, H6', %f7_18, %hf_18, H7'⟩
  have hc_18 := chunk_fact d L X (Sv (ValueIdx.ix1 0)).toNat (4 * (L 1).val + 2 * (L 0).val + 1) 1 hs (by omega) (by omega) B6_18 f7_18 _ _ _ _
    (by omega) (by omega) rfl (show Scf.trips k0_t18_loop.lb k0_t18_loop.ub k0_t18_loop.st = 1024 by decide) hB_18 hf_18
  clear hB_18 hf_18
  sl_exec_parts
  sl_for (invW (F := F) d L (PB d L X (1048576 * (L 1).val + 524288 * (L 0).val + 262144 * 1 + (16384 * 2 + 262144 - (Sv (ValueIdx.ix1 0)).toNat) % 262144 / 16384 * 16384) (1048576 * (L 1).val + 524288 * (L 0).val + 262144 * 1 + ((16384 * 2 + 262144 - (Sv (ValueIdx.ix1 0)).toNat) % 262144 / 16384 * 16384 + 16384) % 262144)) ((16384 * 2 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 2 + 262144 - (Sv (ValueIdx.ix1 0)).toNat) % 262144 % 16384) k.val _ _ ((Cert.KernelIdeal.Arith.load19_eq _ hv5 k).trans (by rw [hv5e])) (k0_off41_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 2 + 262144 - (Sv (ValueIdx.ix1 0)).toNat) % 262144 / 16384 * 16384) (1048576 * (L 1).val + 524288 * (L 0).val + 262144 * 1 + ((16384 * 2 + 262144 - (Sv (ValueIdx.ix1 0)).toNat) % 262144 / 16384 * 16384 + 16384) % 262144) _ _
      ((Cert.KernelIdeal.Arith.off1_eq L _ hv5 1 2).trans (by rw [hv5e]; rfl))
      ((Cert.KernelIdeal.Arith.off2_eq L _ hv5 1 2).trans (by rw [hv5e]; rfl)) _ _ _ _
  iintro %_ HI
  unfold invW
  icases HI with ⟨%B6_19, %hB_19, H6', %f7_19, %hf_19, H7'⟩
  have hc_19 := chunk_fact d L X (Sv (ValueIdx.ix1 0)).toNat (4 * (L 1).val + 2 * (L 0).val + 1) 2 hs (by omega) (by omega) B6_19 f7_19 _ _ _ _
    (by omega) (by omega) rfl (show Scf.trips k0_t19_loop.lb k0_t19_loop.ub k0_t19_loop.st = 1024 by decide) hB_19 hf_19
  clear hB_19 hf_19
  sl_exec_parts
  sl_for (invW (F := F) d L (PB d L X (1048576 * (L 1).val + 524288 * (L 0).val + 262144 * 1 + (16384 * 3 + 262144 - (Sv (ValueIdx.ix1 0)).toNat) % 262144 / 16384 * 16384) (1048576 * (L 1).val + 524288 * (L 0).val + 262144 * 1 + ((16384 * 3 + 262144 - (Sv (ValueIdx.ix1 0)).toNat) % 262144 / 16384 * 16384 + 16384) % 262144)) ((16384 * 3 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 3 + 262144 - (Sv (ValueIdx.ix1 0)).toNat) % 262144 % 16384) k.val _ _ ((Cert.KernelIdeal.Arith.load20_eq _ hv5 k).trans (by rw [hv5e])) (k0_off43_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 3 + 262144 - (Sv (ValueIdx.ix1 0)).toNat) % 262144 / 16384 * 16384) (1048576 * (L 1).val + 524288 * (L 0).val + 262144 * 1 + ((16384 * 3 + 262144 - (Sv (ValueIdx.ix1 0)).toNat) % 262144 / 16384 * 16384 + 16384) % 262144) _ _
      ((Cert.KernelIdeal.Arith.off1_eq L _ hv5 1 3).trans (by rw [hv5e]; rfl))
      ((Cert.KernelIdeal.Arith.off2_eq L _ hv5 1 3).trans (by rw [hv5e]; rfl)) _ _ _ _
  iintro %_ HI
  unfold invW
  icases HI with ⟨%B6_20, %hB_20, H6', %f7_20, %hf_20, H7'⟩
  have hc_20 := chunk_fact d L X (Sv (ValueIdx.ix1 0)).toNat (4 * (L 1).val + 2 * (L 0).val + 1) 3 hs (by omega) (by omega) B6_20 f7_20 _ _ _ _
    (by omega) (by omega) rfl (show Scf.trips k0_t20_loop.lb k0_t20_loop.ub k0_t20_loop.st = 1024 by decide) hB_20 hf_20
  clear hB_20 hf_20
  sl_exec_parts
  sl_for (invW (F := F) d L (PB d L X (1048576 * (L 1).val + 524288 * (L 0).val + 262144 * 1 + (16384 * 4 + 262144 - (Sv (ValueIdx.ix1 0)).toNat) % 262144 / 16384 * 16384) (1048576 * (L 1).val + 524288 * (L 0).val + 262144 * 1 + ((16384 * 4 + 262144 - (Sv (ValueIdx.ix1 0)).toNat) % 262144 / 16384 * 16384 + 16384) % 262144)) ((16384 * 4 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 4 + 262144 - (Sv (ValueIdx.ix1 0)).toNat) % 262144 % 16384) k.val _ _ ((Cert.KernelIdeal.Arith.load21_eq _ hv5 k).trans (by rw [hv5e])) (k0_off45_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 4 + 262144 - (Sv (ValueIdx.ix1 0)).toNat) % 262144 / 16384 * 16384) (1048576 * (L 1).val + 524288 * (L 0).val + 262144 * 1 + ((16384 * 4 + 262144 - (Sv (ValueIdx.ix1 0)).toNat) % 262144 / 16384 * 16384 + 16384) % 262144) _ _
      ((Cert.KernelIdeal.Arith.off1_eq L _ hv5 1 4).trans (by rw [hv5e]; rfl))
      ((Cert.KernelIdeal.Arith.off2_eq L _ hv5 1 4).trans (by rw [hv5e]; rfl)) _ _ _ _
  iintro %_ HI
  unfold invW
  icases HI with ⟨%B6_21, %hB_21, H6', %f7_21, %hf_21, H7'⟩
  have hc_21 := chunk_fact d L X (Sv (ValueIdx.ix1 0)).toNat (4 * (L 1).val + 2 * (L 0).val + 1) 4 hs (by omega) (by omega) B6_21 f7_21 _ _ _ _
    (by omega) (by omega) rfl (show Scf.trips k0_t21_loop.lb k0_t21_loop.ub k0_t21_loop.st = 1024 by decide) hB_21 hf_21
  clear hB_21 hf_21
  sl_exec_parts
  sl_for (invW (F := F) d L (PB d L X (1048576 * (L 1).val + 524288 * (L 0).val + 262144 * 1 + (16384 * 5 + 262144 - (Sv (ValueIdx.ix1 0)).toNat) % 262144 / 16384 * 16384) (1048576 * (L 1).val + 524288 * (L 0).val + 262144 * 1 + ((16384 * 5 + 262144 - (Sv (ValueIdx.ix1 0)).toNat) % 262144 / 16384 * 16384 + 16384) % 262144)) ((16384 * 5 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 5 + 262144 - (Sv (ValueIdx.ix1 0)).toNat) % 262144 % 16384) k.val _ _ ((Cert.KernelIdeal.Arith.load22_eq _ hv5 k).trans (by rw [hv5e])) (k0_off47_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 5 + 262144 - (Sv (ValueIdx.ix1 0)).toNat) % 262144 / 16384 * 16384) (1048576 * (L 1).val + 524288 * (L 0).val + 262144 * 1 + ((16384 * 5 + 262144 - (Sv (ValueIdx.ix1 0)).toNat) % 262144 / 16384 * 16384 + 16384) % 262144) _ _
      ((Cert.KernelIdeal.Arith.off1_eq L _ hv5 1 5).trans (by rw [hv5e]; rfl))
      ((Cert.KernelIdeal.Arith.off2_eq L _ hv5 1 5).trans (by rw [hv5e]; rfl)) _ _ _ _
  iintro %_ HI
  unfold invW
  icases HI with ⟨%B6_22, %hB_22, H6', %f7_22, %hf_22, H7'⟩
  have hc_22 := chunk_fact d L X (Sv (ValueIdx.ix1 0)).toNat (4 * (L 1).val + 2 * (L 0).val + 1) 5 hs (by omega) (by omega) B6_22 f7_22 _ _ _ _
    (by omega) (by omega) rfl (show Scf.trips k0_t22_loop.lb k0_t22_loop.ub k0_t22_loop.st = 1024 by decide) hB_22 hf_22
  clear hB_22 hf_22
  sl_exec_parts
  sl_for (invW (F := F) d L (PB d L X (1048576 * (L 1).val + 524288 * (L 0).val + 262144 * 1 + (16384 * 6 + 262144 - (Sv (ValueIdx.ix1 0)).toNat) % 262144 / 16384 * 16384) (1048576 * (L 1).val + 524288 * (L 0).val + 262144 * 1 + ((16384 * 6 + 262144 - (Sv (ValueIdx.ix1 0)).toNat) % 262144 / 16384 * 16384 + 16384) % 262144)) ((16384 * 6 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 6 + 262144 - (Sv (ValueIdx.ix1 0)).toNat) % 262144 % 16384) k.val _ _ ((Cert.KernelIdeal.Arith.load23_eq _ hv5 k).trans (by rw [hv5e])) (k0_off49_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 6 + 262144 - (Sv (ValueIdx.ix1 0)).toNat) % 262144 / 16384 * 16384) (1048576 * (L 1).val + 524288 * (L 0).val + 262144 * 1 + ((16384 * 6 + 262144 - (Sv (ValueIdx.ix1 0)).toNat) % 262144 / 16384 * 16384 + 16384) % 262144) _ _
      ((Cert.KernelIdeal.Arith.off1_eq L _ hv5 1 6).trans (by rw [hv5e]; rfl))
      ((Cert.KernelIdeal.Arith.off2_eq L _ hv5 1 6).trans (by rw [hv5e]; rfl)) _ _ _ _
  iintro %_ HI
  unfold invW
  icases HI with ⟨%B6_23, %hB_23, H6', %f7_23, %hf_23, H7'⟩
  have hc_23 := chunk_fact d L X (Sv (ValueIdx.ix1 0)).toNat (4 * (L 1).val + 2 * (L 0).val + 1) 6 hs (by omega) (by omega) B6_23 f7_23 _ _ _ _
    (by omega) (by omega) rfl (show Scf.trips k0_t23_loop.lb k0_t23_loop.ub k0_t23_loop.st = 1024 by decide) hB_23 hf_23
  clear hB_23 hf_23
  sl_exec_parts
  sl_for (invW (F := F) d L (PB d L X (1048576 * (L 1).val + 524288 * (L 0).val + 262144 * 1 + (16384 * 7 + 262144 - (Sv (ValueIdx.ix1 0)).toNat) % 262144 / 16384 * 16384) (1048576 * (L 1).val + 524288 * (L 0).val + 262144 * 1 + ((16384 * 7 + 262144 - (Sv (ValueIdx.ix1 0)).toNat) % 262144 / 16384 * 16384 + 16384) % 262144)) ((16384 * 7 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 7 + 262144 - (Sv (ValueIdx.ix1 0)).toNat) % 262144 % 16384) k.val _ _ ((Cert.KernelIdeal.Arith.load24_eq _ hv5 k).trans (by rw [hv5e])) (k0_off51_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 7 + 262144 - (Sv (ValueIdx.ix1 0)).toNat) % 262144 / 16384 * 16384) (1048576 * (L 1).val + 524288 * (L 0).val + 262144 * 1 + ((16384 * 7 + 262144 - (Sv (ValueIdx.ix1 0)).toNat) % 262144 / 16384 * 16384 + 16384) % 262144) _ _
      ((Cert.KernelIdeal.Arith.off1_eq L _ hv5 1 7).trans (by rw [hv5e]; rfl))
      ((Cert.KernelIdeal.Arith.off2_eq L _ hv5 1 7).trans (by rw [hv5e]; rfl)) _ _ _ _
  iintro %_ HI
  unfold invW
  icases HI with ⟨%B6_24, %hB_24, H6', %f7_24, %hf_24, H7'⟩
  have hc_24 := chunk_fact d L X (Sv (ValueIdx.ix1 0)).toNat (4 * (L 1).val + 2 * (L 0).val + 1) 7 hs (by omega) (by omega) B6_24 f7_24 _ _ _ _
    (by omega) (by omega) rfl (show Scf.trips k0_t24_loop.lb k0_t24_loop.ub k0_t24_loop.st = 1024 by decide) hB_24 hf_24
  clear hB_24 hf_24
  sl_exec_parts
  sl_for (invW (F := F) d L (PB d L X (1048576 * (L 1).val + 524288 * (L 0).val + 262144 * 1 + (16384 * 8 + 262144 - (Sv (ValueIdx.ix1 0)).toNat) % 262144 / 16384 * 16384) (1048576 * (L 1).val + 524288 * (L 0).val + 262144 * 1 + ((16384 * 8 + 262144 - (Sv (ValueIdx.ix1 0)).toNat) % 262144 / 16384 * 16384 + 16384) % 262144)) ((16384 * 8 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 8 + 262144 - (Sv (ValueIdx.ix1 0)).toNat) % 262144 % 16384) k.val _ _ ((Cert.KernelIdeal.Arith.load25_eq _ hv5 k).trans (by rw [hv5e])) (k0_off53_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 8 + 262144 - (Sv (ValueIdx.ix1 0)).toNat) % 262144 / 16384 * 16384) (1048576 * (L 1).val + 524288 * (L 0).val + 262144 * 1 + ((16384 * 8 + 262144 - (Sv (ValueIdx.ix1 0)).toNat) % 262144 / 16384 * 16384 + 16384) % 262144) _ _
      ((Cert.KernelIdeal.Arith.off1_eq L _ hv5 1 8).trans (by rw [hv5e]; rfl))
      ((Cert.KernelIdeal.Arith.off2_eq L _ hv5 1 8).trans (by rw [hv5e]; rfl)) _ _ _ _
  iintro %_ HI
  unfold invW
  icases HI with ⟨%B6_25, %hB_25, H6', %f7_25, %hf_25, H7'⟩
  have hc_25 := chunk_fact d L X (Sv (ValueIdx.ix1 0)).toNat (4 * (L 1).val + 2 * (L 0).val + 1) 8 hs (by omega) (by omega) B6_25 f7_25 _ _ _ _
    (by omega) (by omega) rfl (show Scf.trips k0_t25_loop.lb k0_t25_loop.ub k0_t25_loop.st = 1024 by decide) hB_25 hf_25
  clear hB_25 hf_25
  sl_exec_parts
  sl_for (invW (F := F) d L (PB d L X (1048576 * (L 1).val + 524288 * (L 0).val + 262144 * 1 + (16384 * 9 + 262144 - (Sv (ValueIdx.ix1 0)).toNat) % 262144 / 16384 * 16384) (1048576 * (L 1).val + 524288 * (L 0).val + 262144 * 1 + ((16384 * 9 + 262144 - (Sv (ValueIdx.ix1 0)).toNat) % 262144 / 16384 * 16384 + 16384) % 262144)) ((16384 * 9 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 9 + 262144 - (Sv (ValueIdx.ix1 0)).toNat) % 262144 % 16384) k.val _ _ ((Cert.KernelIdeal.Arith.load26_eq _ hv5 k).trans (by rw [hv5e])) (k0_off55_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 9 + 262144 - (Sv (ValueIdx.ix1 0)).toNat) % 262144 / 16384 * 16384) (1048576 * (L 1).val + 524288 * (L 0).val + 262144 * 1 + ((16384 * 9 + 262144 - (Sv (ValueIdx.ix1 0)).toNat) % 262144 / 16384 * 16384 + 16384) % 262144) _ _
      ((Cert.KernelIdeal.Arith.off1_eq L _ hv5 1 9).trans (by rw [hv5e]; rfl))
      ((Cert.KernelIdeal.Arith.off2_eq L _ hv5 1 9).trans (by rw [hv5e]; rfl)) _ _ _ _
  iintro %_ HI
  unfold invW
  icases HI with ⟨%B6_26, %hB_26, H6', %f7_26, %hf_26, H7'⟩
  have hc_26 := chunk_fact d L X (Sv (ValueIdx.ix1 0)).toNat (4 * (L 1).val + 2 * (L 0).val + 1) 9 hs (by omega) (by omega) B6_26 f7_26 _ _ _ _
    (by omega) (by omega) rfl (show Scf.trips k0_t26_loop.lb k0_t26_loop.ub k0_t26_loop.st = 1024 by decide) hB_26 hf_26
  clear hB_26 hf_26
  sl_exec_parts
  sl_for (invW (F := F) d L (PB d L X (1048576 * (L 1).val + 524288 * (L 0).val + 262144 * 1 + (16384 * 10 + 262144 - (Sv (ValueIdx.ix1 0)).toNat) % 262144 / 16384 * 16384) (1048576 * (L 1).val + 524288 * (L 0).val + 262144 * 1 + ((16384 * 10 + 262144 - (Sv (ValueIdx.ix1 0)).toNat) % 262144 / 16384 * 16384 + 16384) % 262144)) ((16384 * 10 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 10 + 262144 - (Sv (ValueIdx.ix1 0)).toNat) % 262144 % 16384) k.val _ _ ((Cert.KernelIdeal.Arith.load27_eq _ hv5 k).trans (by rw [hv5e])) (k0_off57_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 10 + 262144 - (Sv (ValueIdx.ix1 0)).toNat) % 262144 / 16384 * 16384) (1048576 * (L 1).val + 524288 * (L 0).val + 262144 * 1 + ((16384 * 10 + 262144 - (Sv (ValueIdx.ix1 0)).toNat) % 262144 / 16384 * 16384 + 16384) % 262144) _ _
      ((Cert.KernelIdeal.Arith.off1_eq L _ hv5 1 10).trans (by rw [hv5e]; rfl))
      ((Cert.KernelIdeal.Arith.off2_eq L _ hv5 1 10).trans (by rw [hv5e]; rfl)) _ _ _ _
  iintro %_ HI
  unfold invW
  icases HI with ⟨%B6_27, %hB_27, H6', %f7_27, %hf_27, H7'⟩
  have hc_27 := chunk_fact d L X (Sv (ValueIdx.ix1 0)).toNat (4 * (L 1).val + 2 * (L 0).val + 1) 10 hs (by omega) (by omega) B6_27 f7_27 _ _ _ _
    (by omega) (by omega) rfl (show Scf.trips k0_t27_loop.lb k0_t27_loop.ub k0_t27_loop.st = 1024 by decide) hB_27 hf_27
  clear hB_27 hf_27
  sl_exec_parts
  sl_for (invW (F := F) d L (PB d L X (1048576 * (L 1).val + 524288 * (L 0).val + 262144 * 1 + (16384 * 11 + 262144 - (Sv (ValueIdx.ix1 0)).toNat) % 262144 / 16384 * 16384) (1048576 * (L 1).val + 524288 * (L 0).val + 262144 * 1 + ((16384 * 11 + 262144 - (Sv (ValueIdx.ix1 0)).toNat) % 262144 / 16384 * 16384 + 16384) % 262144)) ((16384 * 11 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 11 + 262144 - (Sv (ValueIdx.ix1 0)).toNat) % 262144 % 16384) k.val _ _ ((Cert.KernelIdeal.Arith.load28_eq _ hv5 k).trans (by rw [hv5e])) (k0_off59_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 11 + 262144 - (Sv (ValueIdx.ix1 0)).toNat) % 262144 / 16384 * 16384) (1048576 * (L 1).val + 524288 * (L 0).val + 262144 * 1 + ((16384 * 11 + 262144 - (Sv (ValueIdx.ix1 0)).toNat) % 262144 / 16384 * 16384 + 16384) % 262144) _ _
      ((Cert.KernelIdeal.Arith.off1_eq L _ hv5 1 11).trans (by rw [hv5e]; rfl))
      ((Cert.KernelIdeal.Arith.off2_eq L _ hv5 1 11).trans (by rw [hv5e]; rfl)) _ _ _ _
  iintro %_ HI
  unfold invW
  icases HI with ⟨%B6_28, %hB_28, H6', %f7_28, %hf_28, H7'⟩
  have hc_28 := chunk_fact d L X (Sv (ValueIdx.ix1 0)).toNat (4 * (L 1).val + 2 * (L 0).val + 1) 11 hs (by omega) (by omega) B6_28 f7_28 _ _ _ _
    (by omega) (by omega) rfl (show Scf.trips k0_t28_loop.lb k0_t28_loop.ub k0_t28_loop.st = 1024 by decide) hB_28 hf_28
  clear hB_28 hf_28
  sl_exec_parts
  sl_for (invW (F := F) d L (PB d L X (1048576 * (L 1).val + 524288 * (L 0).val + 262144 * 1 + (16384 * 12 + 262144 - (Sv (ValueIdx.ix1 0)).toNat) % 262144 / 16384 * 16384) (1048576 * (L 1).val + 524288 * (L 0).val + 262144 * 1 + ((16384 * 12 + 262144 - (Sv (ValueIdx.ix1 0)).toNat) % 262144 / 16384 * 16384 + 16384) % 262144)) ((16384 * 12 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 12 + 262144 - (Sv (ValueIdx.ix1 0)).toNat) % 262144 % 16384) k.val _ _ ((Cert.KernelIdeal.Arith.load29_eq _ hv5 k).trans (by rw [hv5e])) (k0_off61_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 12 + 262144 - (Sv (ValueIdx.ix1 0)).toNat) % 262144 / 16384 * 16384) (1048576 * (L 1).val + 524288 * (L 0).val + 262144 * 1 + ((16384 * 12 + 262144 - (Sv (ValueIdx.ix1 0)).toNat) % 262144 / 16384 * 16384 + 16384) % 262144) _ _
      ((Cert.KernelIdeal.Arith.off1_eq L _ hv5 1 12).trans (by rw [hv5e]; rfl))
      ((Cert.KernelIdeal.Arith.off2_eq L _ hv5 1 12).trans (by rw [hv5e]; rfl)) _ _ _ _
  iintro %_ HI
  unfold invW
  icases HI with ⟨%B6_29, %hB_29, H6', %f7_29, %hf_29, H7'⟩
  have hc_29 := chunk_fact d L X (Sv (ValueIdx.ix1 0)).toNat (4 * (L 1).val + 2 * (L 0).val + 1) 12 hs (by omega) (by omega) B6_29 f7_29 _ _ _ _
    (by omega) (by omega) rfl (show Scf.trips k0_t29_loop.lb k0_t29_loop.ub k0_t29_loop.st = 1024 by decide) hB_29 hf_29
  clear hB_29 hf_29
  sl_exec_parts
  sl_for (invW (F := F) d L (PB d L X (1048576 * (L 1).val + 524288 * (L 0).val + 262144 * 1 + (16384 * 13 + 262144 - (Sv (ValueIdx.ix1 0)).toNat) % 262144 / 16384 * 16384) (1048576 * (L 1).val + 524288 * (L 0).val + 262144 * 1 + ((16384 * 13 + 262144 - (Sv (ValueIdx.ix1 0)).toNat) % 262144 / 16384 * 16384 + 16384) % 262144)) ((16384 * 13 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 13 + 262144 - (Sv (ValueIdx.ix1 0)).toNat) % 262144 % 16384) k.val _ _ ((Cert.KernelIdeal.Arith.load30_eq _ hv5 k).trans (by rw [hv5e])) (k0_off63_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 13 + 262144 - (Sv (ValueIdx.ix1 0)).toNat) % 262144 / 16384 * 16384) (1048576 * (L 1).val + 524288 * (L 0).val + 262144 * 1 + ((16384 * 13 + 262144 - (Sv (ValueIdx.ix1 0)).toNat) % 262144 / 16384 * 16384 + 16384) % 262144) _ _
      ((Cert.KernelIdeal.Arith.off1_eq L _ hv5 1 13).trans (by rw [hv5e]; rfl))
      ((Cert.KernelIdeal.Arith.off2_eq L _ hv5 1 13).trans (by rw [hv5e]; rfl)) _ _ _ _
  iintro %_ HI
  unfold invW
  icases HI with ⟨%B6_30, %hB_30, H6', %f7_30, %hf_30, H7'⟩
  have hc_30 := chunk_fact d L X (Sv (ValueIdx.ix1 0)).toNat (4 * (L 1).val + 2 * (L 0).val + 1) 13 hs (by omega) (by omega) B6_30 f7_30 _ _ _ _
    (by omega) (by omega) rfl (show Scf.trips k0_t30_loop.lb k0_t30_loop.ub k0_t30_loop.st = 1024 by decide) hB_30 hf_30
  clear hB_30 hf_30
  sl_exec_parts
  sl_for (invW (F := F) d L (PB d L X (1048576 * (L 1).val + 524288 * (L 0).val + 262144 * 1 + (16384 * 14 + 262144 - (Sv (ValueIdx.ix1 0)).toNat) % 262144 / 16384 * 16384) (1048576 * (L 1).val + 524288 * (L 0).val + 262144 * 1 + ((16384 * 14 + 262144 - (Sv (ValueIdx.ix1 0)).toNat) % 262144 / 16384 * 16384 + 16384) % 262144)) ((16384 * 14 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 14 + 262144 - (Sv (ValueIdx.ix1 0)).toNat) % 262144 % 16384) k.val _ _ ((Cert.KernelIdeal.Arith.load31_eq _ hv5 k).trans (by rw [hv5e])) (k0_off65_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 14 + 262144 - (Sv (ValueIdx.ix1 0)).toNat) % 262144 / 16384 * 16384) (1048576 * (L 1).val + 524288 * (L 0).val + 262144 * 1 + ((16384 * 14 + 262144 - (Sv (ValueIdx.ix1 0)).toNat) % 262144 / 16384 * 16384 + 16384) % 262144) _ _
      ((Cert.KernelIdeal.Arith.off1_eq L _ hv5 1 14).trans (by rw [hv5e]; rfl))
      ((Cert.KernelIdeal.Arith.off2_eq L _ hv5 1 14).trans (by rw [hv5e]; rfl)) _ _ _ _
  iintro %_ HI
  unfold invW
  icases HI with ⟨%B6_31, %hB_31, H6', %f7_31, %hf_31, H7'⟩
  have hc_31 := chunk_fact d L X (Sv (ValueIdx.ix1 0)).toNat (4 * (L 1).val + 2 * (L 0).val + 1) 14 hs (by omega) (by omega) B6_31 f7_31 _ _ _ _
    (by omega) (by omega) rfl (show Scf.trips k0_t31_loop.lb k0_t31_loop.ub k0_t31_loop.st = 1024 by decide) hB_31 hf_31
  clear hB_31 hf_31
  sl_exec_parts
  sl_for (invW (F := F) d L (PB d L X (1048576 * (L 1).val + 524288 * (L 0).val + 262144 * 1 + (16384 * 15 + 262144 - (Sv (ValueIdx.ix1 0)).toNat) % 262144 / 16384 * 16384) (1048576 * (L 1).val + 524288 * (L 0).val + 262144 * 1 + ((16384 * 15 + 262144 - (Sv (ValueIdx.ix1 0)).toNat) % 262144 / 16384 * 16384 + 16384) % 262144)) ((16384 * 15 + 262144 - (Sv (ValueIdx.ix1 0)).toNat) % 262144 % 16384)) $$ [H6' H7']
  case region =>
    intro k _
    unfold invW
    iintro ⟨%B, %hB, H6, %f, %hf, H7⟩
    sl_exec
    sl_step
    iexists _; isplitr; · ipureintro; exact hB
    isplitl [H6]; · iexact H6
    iexists _; isplitr
    swap; · iexact H7
    ipureintro
    sl_unfold_run_names
    exact trip_fact d L B f ((16384 * 15 + 262144 - (Sv (ValueIdx.ix1 0)).toNat) % 262144 % 16384) k.val _ _ ((Cert.KernelIdeal.Arith.load32_eq _ hv5 k).trans (by rw [hv5e])) (k0_off67_eq k) _ _ _ _ hf
  · unfold invW
    iexists _; isplitr
    swap
    · isplitl [H6']; · iexact H6'
      iexists _; isplitr; swap; · iexact H7'
      ipureintro; intro i j hi; omega
    ipureintro
    sl_unfold_run_names
    exact entry_fact d L X _ (1048576 * (L 1).val + 524288 * (L 0).val + 262144 * 1 + (16384 * 15 + 262144 - (Sv (ValueIdx.ix1 0)).toNat) % 262144 / 16384 * 16384) (1048576 * (L 1).val + 524288 * (L 0).val + 262144 * 1 + ((16384 * 15 + 262144 - (Sv (ValueIdx.ix1 0)).toNat) % 262144 / 16384 * 16384 + 16384) % 262144) _ _
      ((Cert.KernelIdeal.Arith.off1_eq L _ hv5 1 15).trans (by rw [hv5e]; rfl))
      ((Cert.KernelIdeal.Arith.off2_eq L _ hv5 1 15).trans (by rw [hv5e]; rfl)) _ _ _ _
  iintro %_ HI
  unfold invW
  icases HI with ⟨%B6_32, %hB_32, H6', %f7_32, %hf_32, H7'⟩
  have hc_32 := chunk_fact d L X (Sv (ValueIdx.ix1 0)).toNat (4 * (L 1).val + 2 * (L 0).val + 1) 15 hs (by omega) (by omega) B6_32 f7_32 _ _ _ _
    (by omega) (by omega) rfl (show Scf.trips k0_t32_loop.lb k0_t32_loop.ub k0_t32_loop.st = 1024 by decide) hB_32 hf_32
  clear hB_32 hf_32
  sl_exec_parts
  sl_step
  isplitl [Hx' Hsv' Ho']
  · isplitl [Hx']; · iexact Hx'
    isplitl [Hsv']; · iexact Hsv'
    iexists _; isplitr
    swap; · iexact Ho'
    ipureintro
    sl_unfold_run_names
    refine write_end d L ?_
    refine write_step d L X (Sv (ValueIdx.ix1 0)).toNat hs _ f7_32 31 1 15 rfl (by omega) (by omega) _ (k0_off5_eq L 1 15) _ _ hc_32 ?_
    refine write_step d L X (Sv (ValueIdx.ix1 0)).toNat hs _ f7_31 30 1 14 rfl (by omega) (by omega) _ (k0_off5_eq L 1 14) _ _ hc_31 ?_
    refine write_step d L X (Sv (ValueIdx.ix1 0)).toNat hs _ f7_30 29 1 13 rfl (by omega) (by omega) _ (k0_off5_eq L 1 13) _ _ hc_30 ?_
    refine write_step d L X (Sv (ValueIdx.ix1 0)).toNat hs _ f7_29 28 1 12 rfl (by omega) (by omega) _ (k0_off5_eq L 1 12) _ _ hc_29 ?_
    refine write_step d L X (Sv (ValueIdx.ix1 0)).toNat hs _ f7_28 27 1 11 rfl (by omega) (by omega) _ (k0_off5_eq L 1 11) _ _ hc_28 ?_
    refine write_step d L X (Sv (ValueIdx.ix1 0)).toNat hs _ f7_27 26 1 10 rfl (by omega) (by omega) _ (k0_off5_eq L 1 10) _ _ hc_27 ?_
    refine write_step d L X (Sv (ValueIdx.ix1 0)).toNat hs _ f7_26 25 1 9 rfl (by omega) (by omega) _ (k0_off5_eq L 1 9) _ _ hc_26 ?_
    refine write_step d L X (Sv (ValueIdx.ix1 0)).toNat hs _ f7_25 24 1 8 rfl (by omega) (by omega) _ (k0_off5_eq L 1 8) _ _ hc_25 ?_
    refine write_step d L X (Sv (ValueIdx.ix1 0)).toNat hs _ f7_24 23 1 7 rfl (by omega) (by omega) _ (k0_off5_eq L 1 7) _ _ hc_24 ?_
    refine write_step d L X (Sv (ValueIdx.ix1 0)).toNat hs _ f7_23 22 1 6 rfl (by omega) (by omega) _ (k0_off5_eq L 1 6) _ _ hc_23 ?_
    refine write_step d L X (Sv (ValueIdx.ix1 0)).toNat hs _ f7_22 21 1 5 rfl (by omega) (by omega) _ (k0_off5_eq L 1 5) _ _ hc_22 ?_
    refine write_step d L X (Sv (ValueIdx.ix1 0)).toNat hs _ f7_21 20 1 4 rfl (by omega) (by omega) _ (k0_off5_eq L 1 4) _ _ hc_21 ?_
    refine write_step d L X (Sv (ValueIdx.ix1 0)).toNat hs _ f7_20 19 1 3 rfl (by omega) (by omega) _ (k0_off5_eq L 1 3) _ _ hc_20 ?_
    refine write_step d L X (Sv (ValueIdx.ix1 0)).toNat hs _ f7_19 18 1 2 rfl (by omega) (by omega) _ (k0_off5_eq L 1 2) _ _ hc_19 ?_
    refine write_step d L X (Sv (ValueIdx.ix1 0)).toNat hs _ f7_18 17 1 1 rfl (by omega) (by omega) _ (k0_off5_eq L 1 1) _ _ hc_18 ?_
    refine write_step d L X (Sv (ValueIdx.ix1 0)).toNat hs _ f7_17 16 1 0 rfl (by omega) (by omega) _ (k0_off5_eq L 1 0) _ _ hc_17 ?_
    refine write_step d L X (Sv (ValueIdx.ix1 0)).toNat hs _ f7_16 15 0 15 rfl (by omega) (by omega) _ (k0_off5_eq L 0 15) _ _ hc_16 ?_
    refine write_step d L X (Sv (ValueIdx.ix1 0)).toNat hs _ f7_15 14 0 14 rfl (by omega) (by omega) _ (k0_off5_eq L 0 14) _ _ hc_15 ?_
    refine write_step d L X (Sv (ValueIdx.ix1 0)).toNat hs _ f7_14 13 0 13 rfl (by omega) (by omega) _ (k0_off5_eq L 0 13) _ _ hc_14 ?_
    refine write_step d L X (Sv (ValueIdx.ix1 0)).toNat hs _ f7_13 12 0 12 rfl (by omega) (by omega) _ (k0_off5_eq L 0 12) _ _ hc_13 ?_
    refine write_step d L X (Sv (ValueIdx.ix1 0)).toNat hs _ f7_12 11 0 11 rfl (by omega) (by omega) _ (k0_off5_eq L 0 11) _ _ hc_12 ?_
    refine write_step d L X (Sv (ValueIdx.ix1 0)).toNat hs _ f7_11 10 0 10 rfl (by omega) (by omega) _ (k0_off5_eq L 0 10) _ _ hc_11 ?_
    refine write_step d L X (Sv (ValueIdx.ix1 0)).toNat hs _ f7_10 9 0 9 rfl (by omega) (by omega) _ (k0_off5_eq L 0 9) _ _ hc_10 ?_
    refine write_step d L X (Sv (ValueIdx.ix1 0)).toNat hs _ f7_9 8 0 8 rfl (by omega) (by omega) _ (k0_off5_eq L 0 8) _ _ hc_9 ?_
    refine write_step d L X (Sv (ValueIdx.ix1 0)).toNat hs _ f7_8 7 0 7 rfl (by omega) (by omega) _ (k0_off5_eq L 0 7) _ _ hc_8 ?_
    refine write_step d L X (Sv (ValueIdx.ix1 0)).toNat hs _ f7_7 6 0 6 rfl (by omega) (by omega) _ (k0_off5_eq L 0 6) _ _ hc_7 ?_
    refine write_step d L X (Sv (ValueIdx.ix1 0)).toNat hs _ f7_6 5 0 5 rfl (by omega) (by omega) _ (k0_off5_eq L 0 5) _ _ hc_6 ?_
    refine write_step d L X (Sv (ValueIdx.ix1 0)).toNat hs _ f7_5 4 0 4 rfl (by omega) (by omega) _ (k0_off5_eq L 0 4) _ _ hc_5 ?_
    refine write_step d L X (Sv (ValueIdx.ix1 0)).toNat hs _ f7_4 3 0 3 rfl (by omega) (by omega) _ (k0_off5_eq L 0 3) _ _ hc_4 ?_
    refine write_step d L X (Sv (ValueIdx.ix1 0)).toNat hs _ f7_3 2 0 2 rfl (by omega) (by omega) _ (k0_off5_eq L 0 2) _ _ hc_3 ?_
    refine write_step d L X (Sv (ValueIdx.ix1 0)).toNat hs _ f7_2 1 0 1 rfl (by omega) (by omega) _ (k0_off5_eq L 0 1) _ _ hc_2 ?_
    refine write_step d L X (Sv (ValueIdx.ix1 0)).toNat hs _ f7_1 0 0 0 rfl (by omega) (by omega) _ (k0_off5_eq L 0 0) _ _ hc_1 ?_
    exact write_start d L X (Sv (ValueIdx.ix1 0)).toNat fo
  isplitl [H5' H6' H7' Hbufs]
  · isplitl [H5']; · iexists _; iexact H5'
    isplitl [H6']; · iexists _; iexact H6'
    isplitl [H7']; · iexists _; iexact H7'
    iexact Hbufs
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79 Hs80 Hs81 Hs82 Hs83 Hs84 Hs85 Hs86 Hs87 Hs88 Hs89 Hs90 Hs91 Hs92 Hs93 Hs94 Hs95 Hs96]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    isplitl [Hs39]; · iexact Hs39
    isplitl [Hs40]; · iexact Hs40
    isplitl [Hs41]; · iexact Hs41
    isplitl [Hs42]; · iexact Hs42
    isplitl [Hs43]; · iexact Hs43
    isplitl [Hs44]; · iexact Hs44
    isplitl [Hs45]; · iexact Hs45
    isplitl [Hs46]; · iexact Hs46
    isplitl [Hs47]; · iexact Hs47
    isplitl [Hs48]; · iexact Hs48
    isplitl [Hs49]; · iexact Hs49
    isplitl [Hs50]; · iexact Hs50
    isplitl [Hs51]; · iexact Hs51
    isplitl [Hs52]; · iexact Hs52
    isplitl [Hs53]; · iexact Hs53
    isplitl [Hs54]; · iexact Hs54
    isplitl [Hs55]; · iexact Hs55
    isplitl [Hs56]; · iexact Hs56
    isplitl [Hs57]; · iexact Hs57
    isplitl [Hs58]; · iexact Hs58
    isplitl [Hs59]; · iexact Hs59
    isplitl [Hs60]; · iexact Hs60
    isplitl [Hs61]; · iexact Hs61
    isplitl [Hs62]; · iexact Hs62
    isplitl [Hs63]; · iexact Hs63
    isplitl [Hs64]; · iexact Hs64
    isplitl [Hs65]; · iexact Hs65
    isplitl [Hs66]; · iexact Hs66
    isplitl [Hs67]; · iexact Hs67
    isplitl [Hs68]; · iexact Hs68
    isplitl [Hs69]; · iexact Hs69
    isplitl [Hs70]; · iexact Hs70
    isplitl [Hs71]; · iexact Hs71
    isplitl [Hs72]; · iexact Hs72
    isplitl [Hs73]; · iexact Hs73
    isplitl [Hs74]; · iexact Hs74
    isplitl [Hs75]; · iexact Hs75
    isplitl [Hs76]; · iexact Hs76
    isplitl [Hs77]; · iexact Hs77
    isplitl [Hs78]; · iexact Hs78
    isplitl [Hs79]; · iexact Hs79
    isplitl [Hs80]; · iexact Hs80
    isplitl [Hs81]; · iexact Hs81
    isplitl [Hs82]; · iexact Hs82
    isplitl [Hs83]; · iexact Hs83
    isplitl [Hs84]; · iexact Hs84
    isplitl [Hs85]; · iexact Hs85
    isplitl [Hs86]; · iexact Hs86
    isplitl [Hs87]; · iexact Hs87
    isplitl [Hs88]; · iexact Hs88
    isplitl [Hs89]; · iexact Hs89
    isplitl [Hs90]; · iexact Hs90
    isplitl [Hs91]; · iexact Hs91
    isplitl [Hs92]; · iexact Hs92
    isplitl [Hs93]; · iexact Hs93
    isplitl [Hs94]; · iexact Hs94
    isplitl [Hs95]; · iexact Hs95
    iexact Hs96
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hp
  all_goals first | exact .inr rfl | exact .inl hp

end Tile

end Cert.Proof.KI

end
-- ==== Proof.KILaunchValue.lean ====
/-
  The kernel program's value, given the task body's statement for the rotation: every task leaves, in its entries of
  the flat output, the flat input rotated row by row by entry 0 of the shift vector. The tasks' entries cover the
  output, the flat input is the first argument flattened, and entry 0 of the shift vector is the reduced shift of the
  other two arguments: so the result, the output reshaped, is the specification.
-/
import proofs.«215547_g4990751997953_cont_8to1_c_497_7_alg».proof.Proof.KILaunchRun

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after launchContents tcRefs)
open Idealize.ShloMosaic.Tactic

variable {F : FTy → Type}

local notation "𝕄" => MT nD τ sig (HIx 1) (Elt F) ℕ UU ℕ

variable [FloatOps F]

/-- What a task leaves in its entries of the flat output: the flat input rotated row by row by the shift vector's
    entry 0. -/
def ΦV : (d : Dev nD) → grid0.Coords → Buf (Elt F) (xLoc d) → Buf (Elt F) (svLoc d) → Buf (Elt F) (oLoc d) → Prop :=
  fun d L X Sv f => ∀ p ∈ tSet L, f p = Cert.Roll.rollFlat (Sv (ValueIdx.ix1 0)).toNat X p

section Value

variable (m : (ℓ : Loc nD τ sig) → Buf (Elt F) ℓ) (ρ : Dev nD → PrngReg)

/-- The result is the specification of the three arguments' launch contents. -/
def ΨV : (d : Dev nD) → Buf (Elt F) ((SparseCore.T d : Thread nD τ).loc main_v11) → Prop :=
  fun d r => r = Cert.Roll.Spec (m ((SparseCore.T d).loc main_arg0)) (m ((SparseCore.T d).loc main_arg1)) (m ((SparseCore.T d).loc main_arg2))

/-- The tasks' entries cover the flat output, so contents agreeing with each task's rotation on its entries are the
    rotation of the flat input; the flat input is the first argument flattened and the shift vector's entry 0 the
    reduced shift of the other two, so the reshaped output is the specification. -/
theorem hΨV (d : Dev nD) (g : Buf (Elt F) (oLoc d))
    (h : ∀ p : Task (F := F), ∃ f, ΦV d (LL p.1 p.2) (Xa m d) (Sva m d) f ∧ ∀ x ∈ tS p, g x = f x) :
    ΨV m d (shapeCast (s := S16777216) Cert.Roll.S3 g (show S16777216.ShapeCasts Cert.Roll.S3 by decide)) := by
  have hg : g = Cert.Roll.rollFlat (Sva m d (ValueIdx.ix1 0)).toNat (Xa m d) := by
    funext x
    have hx : x ∈ (Finset.univ : Finset (Task (F := F))).biUnion tS := by rw [tS_cover]; exact Finset.mem_univ x
    obtain ⟨p, -, hp⟩ := Finset.mem_biUnion.mp hx
    obtain ⟨f, hf, hgf⟩ := h p
    rw [hgf x hp]; exact hf x hp
  have e1 : Xa m d = shapeCast (s := S64x512x512) Cert.Roll.SF (m ((SparseCore.T d).loc main_arg0))
        (show S64x512x512.ShapeCasts Cert.Roll.SF by decide) :=
    Cert.KernelIdeal.Host.after_v9 (launchContents m d)
  have e2 : Sva m d (ValueIdx.ix1 0)
      = Cert.Roll.floorMod (Cert.Roll.shiftWord (m ((SparseCore.T d).loc main_arg1)) (m ((SparseCore.T d).loc main_arg2))) :=
    Cert.KernelIdeal.Host.after_v8_0 (launchContents m d)
  unfold ΨV Cert.Roll.Spec Cert.Roll.sNat
  rw [hg, e1, e2]

/-- The program's run with its value: the arguments unchanged, the result the specification. -/
theorem run_value [∀ e, Nonempty (Elt F e)] (htile : TileHyp (F := F) ΦV) :
    θ_run (Cert.KernelIdeal.defs (F := F)) (Cert.KernelIdeal.threads (F := F)) ⟨m, fun _ => 0, ρ⟩ fun r => ∀ c : Dev nD,
      r.2.mem ((SparseCore.T c).loc main_v11)
          = Cert.Roll.Spec (m ((SparseCore.T c).loc main_arg0)) (m ((SparseCore.T c).loc main_arg1)) (m ((SparseCore.T c).loc main_arg2))
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2) :=
  (θ_run Cert.KernelIdeal.defs _ _).mono (fun _ h c => ⟨(h c).2.2.2, (h c).1, (h c).2.1, (h c).2.2.1⟩)
    (run_main ΦV m ρ (ΨV m) htile (hΨV m))

end Value

end Cert.Proof.KI

end
-- ==== Proof.KITileHypV.lean ====
/-
  The task body in the form the launch asks for it, with the value: a task leaves the rotated input in its part of
  the flat output.
-/
import proofs.«215547_g4990751997953_cont_8to1_c_497_7_alg».proof.Proof.KISetup
import proofs.«215547_g4990751997953_cont_8to1_c_497_7_alg».proof.Proof.KITileDefs
import proofs.«215547_g4990751997953_cont_8to1_c_497_7_alg».proof.Proof.KITileValue
import proofs.«215547_g4990751997953_cont_8to1_c_497_7_alg».proof.Proof.KILaunchValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem tileHyp_value : TileHyp (F := F) ΦV := by
  intro d L qx qs X Sv fo hs O W hO
  exact tile_value d L facts qx qs X Sv fo hs O W hO

end Cert.Proof.KI

end
-- ==== Proof.RefArith.lean ====
/-
  Word arithmetic of the reference's remainder chain, on one 32-bit word. The chain computes the
  truncated remainder of `t` by 262144, adds 262144 where that is non-zero and negative (the floor
  remainder), and once more adds 262144 where the result is negative (never). Read as an integer the
  result is `t mod 262144` in `[0, 262144)`; and for `t` the wrapping sum of a place `k < 262144`
  and a shift word, that is `(k + s) mod 262144` with `s` the shift reduced into `[0, 262144)`,
  because 262144 divides 2^32.
-/
import proofs.«215547_g4990751997953_cont_8to1_c_497_7_alg».proof.Proof.Spec
import Idealize.ShloMosaic.PureOps
import Idealize.ShloMosaic.Lib.ValueIdx

namespace Cert.Roll

open Idealize.ShloMosaic

/-- The divisor the remainder function uses: 262144, or 1 were it zero. -/
def divW : BitVec 32 := Scalar.select (IntOp.cmpi .eq 262144#32 0#32) 1#32 262144#32

/-- The truncated remainder. -/
def tremW (t : BitVec 32) : BitVec 32 := IntOp.remsi .host t divW

/-- The floor remainder: the truncated one, plus the divisor where it is non-zero and of the other sign. -/
def fremW (t : BitVec 32) : BitVec 32 :=
  Scalar.select
    (IntOp.andi (IntOp.cmpi .ne (IntOp.cmpi .slt (tremW t) 0#32) (IntOp.cmpi .slt divW 0#32)) (IntOp.cmpi .ne (tremW t) 0#32))
    (IntOp.addi (tremW t) divW) (tremW t)

/-- The target: the floor remainder, plus 262144 where negative. -/
def targetW (t : BitVec 32) : BitVec 32 :=
  Scalar.select (IntOp.cmpi .slt (fremW t) 0#32) (IntOp.addi (fremW t) 262144#32) (fremW t)

theorem divW_eq : divW = 262144#32 := by decide

theorem tremW_eq (t : BitVec 32) : tremW t = t.srem 262144#32 := by
  unfold tremW IntOp.remsi
  rw [divW_eq, if_neg]
  rintro (h | ⟨_, h⟩) <;> exact absurd h (by decide)

theorem tremW_toInt (t : BitVec 32) : (tremW t).toInt = t.toInt.tmod 262144 := by
  rw [tremW_eq, BitVec.toInt_srem]
  rfl

/-- The truncated remainder by 262144 in terms of the floor one: equal for a non-negative dividend, and the
    negative of the negated dividend's for a negative one. -/
theorem tmod_cases (x : ℤ) :
    (0 ≤ x ∧ x.tmod 262144 = x % 262144) ∨ (x < 0 ∧ x.tmod 262144 = -((-x) % 262144)) := by
  rcases lt_or_ge x 0 with h | h
  · right
    refine ⟨h, ?_⟩
    have h1 : x.tmod 262144 = -((-x).tmod 262144) := by rw [Int.neg_tmod, neg_neg]
    rw [h1, Int.tmod_eq_emod_of_nonneg (by omega)]
  · left
    exact ⟨h, Int.tmod_eq_emod_of_nonneg h⟩

theorem slt_zero (a : BitVec 32) : a.slt 0#32 = decide (a.toInt < 0) := rfl

theorem toInt_add_small (a : BitVec 32) (h0 : -262144 < a.toInt) (h1 : a.toInt < 0) :
    (a + 262144#32).toInt = a.toInt + 262144 := by
  rw [BitVec.toInt_add, Int.bmod_def]
  have : (262144#32 : BitVec 32).toInt = 262144 := by decide
  rw [this]
  norm_num
  split <;> omega

theorem fremW_toInt (t : BitVec 32) : (fremW t).toInt = t.toInt % 262144 := by
  unfold fremW
  rw [divW_eq]
  have ha := tremW_toInt t
  generalize tremW t = a at ha ⊢
  have h2 : IntOp.cmpi .slt 262144#32 0#32 = 0#1 := by decide
  rw [h2]
  by_cases hneg : a.toInt < 0
  · have h1 : IntOp.cmpi .slt a 0#32 = 1#1 := by
      show BitVec.ofBool (a.slt 0#32) = 1#1
      rw [slt_zero, decide_eq_true hneg]; rfl
    have h3 : IntOp.cmpi .ne a 0#32 = 1#1 := by
      have hne : a ≠ 0#32 := by rintro rfl; exact absurd hneg (by decide)
      show BitVec.ofBool (a != 0#32) = 1#1
      rw [bne_iff_ne.mpr hne]; rfl
    rw [h1, h3]
    have h4 : IntOp.andi (IntOp.cmpi .ne 1#1 0#1) 1#1 = 1#1 := by decide
    rw [h4, ValueIdx.select_one]
    unfold IntOp.addi
    rcases tmod_cases t.toInt with ⟨hx, hr⟩ | ⟨hx, hr⟩
    · rw [hr] at ha; omega
    · rw [hr] at ha
      rw [toInt_add_small a (by omega) hneg]
      omega
  · have h1 : IntOp.cmpi .slt a 0#32 = 0#1 := by
      show BitVec.ofBool (a.slt 0#32) = 0#1
      rw [slt_zero, decide_eq_false hneg]; rfl
    rw [h1]
    have h4 : ∀ b : BitVec 1, IntOp.andi (IntOp.cmpi .ne 0#1 0#1) b = 0#1 := by decide
    rw [h4, ValueIdx.select_zero]
    rcases tmod_cases t.toInt with ⟨hx, hr⟩ | ⟨hx, hr⟩
    · rw [hr] at ha; exact ha
    · rw [hr] at ha; omega

theorem targetW_toInt (t : BitVec 32) : (targetW t).toInt = t.toInt % 262144 := by
  unfold targetW
  have h := fremW_toInt t
  have h0 : ¬ (fremW t).toInt < 0 := by rw [h]; have := Int.emod_nonneg t.toInt (show (262144 : ℤ) ≠ 0 by omega); omega
  have h1 : IntOp.cmpi .slt (fremW t) 0#32 = 0#1 := by
    show BitVec.ofBool ((fremW t).slt 0#32) = 0#1
    rw [slt_zero, decide_eq_false h0]; rfl
  rw [h1, ValueIdx.select_zero, h]

/-- The wrapping sum of a place below 262144 and a shift word, reduced: the place plus the reduced shift, reduced. -/
theorem sum_emod (k : ℕ) (hk : k < 262144) (sh : BitVec 32) :
    (BitVec.ofNat 32 k + sh).toInt % 262144 = (((k + (floorMod sh).toNat) % 262144 : ℕ) : ℤ) := by
  have hs : ((floorMod sh).toNat : ℤ) = sh.toInt % 262144 := by
    unfold floorMod
    have h0 : 0 ≤ sh.toInt % 262144 := Int.emod_nonneg _ (by omega)
    have h1 : sh.toInt % 262144 < 262144 := Int.emod_lt_of_pos _ (by omega)
    rw [BitVec.toNat_ofInt]
    omega
  have hk' : (BitVec.ofNat 32 k).toInt = k := by
    rw [BitVec.toInt_ofNat', Int.bmod_def]
    norm_num
    split <;> omega
  rw [BitVec.toInt_add, hk', Int.bmod_def]
  norm_num
  push_cast
  rw [hs]
  split <;> omega

/-- The target place of place `k` under the shift word `sh`, as a natural number. -/
theorem targetW_sum (k : ℕ) (hk : k < 262144) (sh : BitVec 32) :
    (targetW (BitVec.ofNat 32 k + sh)).toInt = (((k + (floorMod sh).toNat) % 262144 : ℕ) : ℤ) := by
  rw [targetW_toInt, sum_emod k hk]

end Cert.Roll
-- ==== Proof.RefScatter.lean ====
/-
  A scatter that overwrites, whose update indices all land inside the operand at pairwise distinct places:
  at the place an update lands, the result is that update, whatever the operand held there and whatever the
  order of the updates. Proved over the scatter's definition, a left fold of single-place overwrites.
-/
import Idealize.ShloMosaic.PureOps

namespace Cert.Roll

open Idealize.ShloMosaic

/-- A fold of single-place overwrites leaves a place none of them names as it was. -/
theorem foldl_set_miss {ι α : Type} [DecidableEq ι] {N : Nat} (G : Fin N → ι) (U : Fin N → α) (i : ι) :
    ∀ (L : List (Fin N)) (r : ι → α), (∀ n ∈ L, G n ≠ i) →
      (L.foldl (fun r n => fun i' => if i' = G n then U n else r i') r) i = r i
  | [], _, _ => rfl
  | a :: L, r, h => by
      rw [List.foldl_cons, foldl_set_miss G U i L _ (fun n hn => h n (List.mem_cons_of_mem _ hn))]
      exact if_neg (fun e => h a List.mem_cons_self e.symm)

/-- A fold of single-place overwrites at pairwise distinct places: the place the `n0`-th names holds its value. -/
theorem foldl_set_hit {ι α : Type} [DecidableEq ι] {N : Nat} (G : Fin N → ι) (U : Fin N → α)
    (hG : Function.Injective G) (n0 : Fin N) :
    ∀ (L : List (Fin N)) (r : ι → α), n0 ∈ L →
      (L.foldl (fun r n => fun i' => if i' = G n then U n else r i') r) (G n0) = U n0
  | [], _, h => absurd h List.not_mem_nil
  | a :: L, r, h => by
      rw [List.foldl_cons]
      by_cases hm : n0 ∈ L
      · exact foldl_set_hit G U hG n0 L _ hm
      · have ha : n0 = a := by
          rcases List.mem_cons.mp h with h | h
          · exact h
          · exact absurd h hm
        subst ha
        rw [foldl_set_miss G U (G n0) L _ (fun n hn e => hm (hG e ▸ hn))]
        exact if_pos rfl

variable {α : Type} {s si u : Shape} {w : Nat}

/-- An overwriting scatter whose every update index `j` lands inside the operand, at `g j`, with `g`
    one-to-one: the result at `g j` is update `j`. -/
theorem scatter_set_apply (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  simp only [hg]
  have h := foldl_set_hit (fun n => g (u.rowMajor.symm n)) (fun n => upd (u.rowMajor.symm n))
    (fun a b e => u.rowMajor.symm.injective (hinj e)) (u.rowMajor j) (List.finRange u.numel) x (List.mem_finRange _)
  simpa using h

end Cert.Roll
-- ==== Proof.RefValue.lean ====
/-
  The reference's result is the specification, index by index.

  The scatter's index column holds, at source place `i` of a row, the word the remainder chain makes of the
  wrapping sum `i + shift`; read as an integer it is `(i + s) mod 262144` with `s` the shift reduced into
  `[0, 262144)` (the word arithmetic is in RefArith). So update `(b, i)` lands inside the operand, at
  `(b, (i + s) mod 262144)`, and `i ↦ (i + s) mod 262144` is one-to-one on `[0, 262144)`: every place of the
  result is written exactly once, by the update whose place is `(o + 262144 - s) mod 262144`, so neither the
  zeros scattered into nor the order of the updates survives (the overwriting scatter at pairwise distinct
  places is in RefScatter). In flat positions that is the specification's `srcPos`.
-/
import proofs.«215547_g4990751997953_cont_8to1_c_497_7_alg».proof.Proof.RefTerm
import proofs.«215547_g4990751997953_cont_8to1_c_497_7_alg».proof.Proof.RefArith
import proofs.«215547_g4990751997953_cont_8to1_c_497_7_alg».proof.Proof.RefScatter
import proofs.«215547_g4990751997953_cont_8to1_c_497_7_alg».proof.Proof.Spec
import Idealize.ShloMosaic.Lib.ValueIdx

noncomputable section

namespace Cert.ReferenceIdeal.RefValue

open Cert.ReferenceIdeal Cert.ReferenceIdeal.Facts₀ Idealize.ShloMosaic Idealize.ShloMosaic.ValueIdx Cert.Roll

variable {F : FTy → Type} [FloatOps F] [Facts]

/-- The shift word, at the one index of a scalar. -/
theorem shift_apply (w1 w2 : FVec F S_ .f32) (j : S_.Idx) : shift w1 w2 j = shiftWord w1 w2 := by
  rw [eq_ix0 j]; rfl

/-- The target at place `i` is the remainder chain on the word `i + shift`. -/
theorem target_eq (w1 w2 : FVec F S_ .f32) (i : S262144.Idx) :
    target w1 w2 i = targetW (BitVec.ofNat 32 (i 0).val + shiftWord w1 w2) := by
  rw [← shift_apply w1 w2 ix0]
  show targetW (BitVec.ofNat 32 (i 0).val + shift w1 w2 _) = _
  rw [shift_apply, shift_apply]

/-- Read as an integer, the target at place `i` is `(i + s) mod 262144`. -/
theorem target_toInt (w1 w2 : FVec F S_ .f32) (i : S262144.Idx) :
    (target w1 w2 i).toInt = ((((i 0).val + sNat w1 w2) % 262144 : ℕ) : ℤ) := by
  rw [target_eq, targetW_sum _ (i 0).isLt]
  rfl

/-- The scatter's dimension numbers: updates `[64, 262144]` whose axis 0 is a window over the operand's axis 0,
    the operand's axis 1 indexed by the one component of each index vector. -/
abbrev dS := scatter_S64x262144_S262144x1_S64x262144_0_1_1_1

/-! The start and window coordinates of update index `j` on the operand's two axes: axis 0 is not indexed
(start `0`) and carries the window coordinate `j₀`; axis 1 starts at the index column's entry `j₁` and has no
window coordinate. -/

theorem start_0 (j : S64x262144.Idx) (idx : IVec S262144x1 32) : dS.start j idx 0 = 0 := rfl
theorem window_1 (j : S64x262144.Idx) : dS.window j 1 = 0 := rfl
theorem window_0 (j : S64x262144.Idx) : dS.window j 0 = (j 0).val := rfl
theorem start_1 (j : S64x262144.Idx) (idx : IVec S262144x1 32) :
    dS.start j idx 1 = (idx (ix2 ⟨(j 1).val, idx2_lt1 j⟩ ⟨0, Nat.one_pos⟩)).toInt := by
  unfold ScatterDims.start
  rw [dif_pos (show (1 : Fin 2) ∈ dS.scatterDimsToOperandDims from List.mem_singleton.mpr rfl)]
  congr 2
  funext b
  refine Fin.ext ?_
  match b with
  | ⟨0, _⟩ => rfl
  | ⟨1, _⟩ => rfl

/-- The scatter's index array: the targets as a column. -/
abbrev idxT (w1 w2 : FVec F S_ .f32) : IVec S262144x1 32 :=
  broadcastInDim S262144x1 ![0] bcast_S262144_S262144x1_0 (target w1 w2)

/-- Where update index `j` lands: the same row, place `(j₁ + s) mod 262144`. -/
def land (s : ℕ) (j : S64x262144.Idx) : S64x262144.Idx :=
  ix2 ⟨(j 0).val, idx2_lt0 j⟩ ⟨((j 1).val + s) % 262144, Nat.mod_lt _ (by omega)⟩

/-- Distinct update indices land at distinct places: adding `s` modulo 262144 is one-to-one below 262144. -/
theorem land_injective (s : ℕ) : Function.Injective (land s) := by
  intro j j' h
  have e0 : (j 0).val = (j' 0).val := by
    have := congrArg (fun i : S64x262144.Idx => (i 0).val) h; exact this
  have e1 : ((j 1).val + s) % 262144 = ((j' 1).val + s) % 262144 := by
    have := congrArg (fun i : S64x262144.Idx => (i 1).val) h; exact this
  have l1 := idx2_lt1 j
  have l1' := idx2_lt1 j'
  rw [eq_ix2 j, eq_ix2 j']
  congr 1 <;> apply Fin.ext <;> omega

/-- The index column's entry for update index `j`, read as an integer. -/
theorem idx_toInt (w1 w2 : FVec F S_ .f32) (j : S64x262144.Idx) :
    (idxT w1 w2 (ix2 ⟨(j 1).val, idx2_lt1 j⟩ ⟨0, Nat.one_pos⟩)).toInt
      = ((((j 1).val + sNat w1 w2) % 262144 : ℕ) : ℤ) := by
  show (target w1 w2 _).toInt = _
  rw [target_toInt]
  rfl

/-- Every update index lands inside the operand, at `land s j`. -/
theorem resultIdx_eq (w1 w2 : FVec F S_ .f32) (j : S64x262144.Idx) :
    dS.resultIdx? j (idxT w1 w2) = some (land (sNat w1 w2) j) := by
  have hs1 := (start_1 j _).trans (idx_toInt w1 w2 j)
  have hlt : ((j 1).val + sNat w1 w2) % 262144 < 262144 := Nat.mod_lt _ (by omega)
  have hj0 := idx2_lt0 j
  unfold ScatterDims.resultIdx?
  rw [dif_pos]
  · congr 1
    funext a
    refine Fin.ext ?_
    match a with
    | ⟨0, _⟩ =>
      show (dS.start j (idxT w1 w2) 0 + dS.window j 0).toNat = (j 0).val
      rw [start_0, window_0]; omega
    | ⟨1, _⟩ =>
      show (dS.start j (idxT w1 w2) 1 + dS.window j 1).toNat = ((j 1).val + sNat w1 w2) % 262144
      rw [hs1, window_1]; omega
  · intro a
    match a with
    | ⟨0, _⟩ =>
      show 0 ≤ dS.start j (idxT w1 w2) 0 + dS.window j 0 ∧ dS.start j (idxT w1 w2) 0 + dS.window j 0 < (64 : ℕ)
      rw [start_0, window_0]; omega
    | ⟨1, _⟩ =>
      show 0 ≤ dS.start j (idxT w1 w2) 1 + dS.window j 1 ∧ dS.start j (idxT w1 w2) 1 + dS.window j 1 < (262144 : ℕ)
      rw [hs1, window_1]; omega

/-- The scattered rows at the place update `j` lands hold update `j`: the source row's place `j₁`. -/
theorem scattered_apply (x : FVec F S64x512x512 .f32) (w1 w2 : FVec F S_ .f32) (j : S64x262144.Idx) :
    scattered x w1 w2 (land (sNat w1 w2) j) = shapeCast S64x262144 x shapeCasts_S64x512x512_S64x262144 j :=
  scatter_set_apply dS _ (idxT w1 w2) _ (land (sNat w1 w2)) (resultIdx_eq w1 w2) (land_injective _) j

/-- The flat position of an index of the three-axis array. -/
theorem flat_val (h : S64x512x512.numel = SF.numel) (p : S64x512x512.Idx) :
    ((Shape.reshapeEquiv h p : SF.Idx) 0).val = (S64x512x512.rowMajor p : ℕ) := by
  rw [← Shape.rowMajor_val_one, Shape.rowMajor_reshapeEquiv]

/-- The reference's composed term is the specification. At result index `p`, in row `q₀` at place `q₁`: the
    update landing there has place `(q₁ + 262144 - s) mod 262144`; its flat position is `srcPos s` of `p`'s. -/
theorem out_eq_spec (x : FVec F S64x512x512 .f32) (w1 w2 : FVec F S_ .f32) : out x w1 w2 = Cert.Roll.Spec x w1 w2 := by
  funext p
  have hs : sNat w1 w2 < 262144 := floorMod_toNat_lt (shiftWord w1 w2)
  generalize hq : (Shape.reshapeEquiv shapeCasts_S64x262144_S64x512x512 p : S64x262144.Idx) = q
  have hq1 := idx2_lt1 q
  have hland : land (sNat w1 w2) (ix2 ⟨(q 0).val, idx2_lt0 q⟩ ⟨((q 1).val + 262144 - sNat w1 w2) % 262144, Nat.mod_lt _ (by omega)⟩) = q := by
    funext a
    apply Fin.ext
    match a with
    | ⟨0, _⟩ => rfl
    | ⟨1, _⟩ =>
      show (((q 1).val + 262144 - sNat w1 w2) % 262144 + sNat w1 w2) % 262144 = (q 1).val
      omega
  have hL : out x w1 w2 p = scattered x w1 w2 q := by rw [← hq]; rfl
  rw [hL, ← hland, scattered_apply]
  unfold Cert.Roll.Spec rollFlat shapeCast
  beta_reduce
  refine congrArg x (S64x512x512.rowMajor.injective (Fin.ext ?_))
  rw [Shape.rowMajor_reshapeEquiv, Shape.rowMajor_reshapeEquiv, Shape.rowMajor_val_two, Shape.rowMajor_val_one]
  show (q 0).val * 262144 + ((q 1).val + 262144 - sNat w1 w2) % 262144
      = srcPos (sNat w1 w2) ((Shape.reshapeEquiv _ p : SF.Idx) 0).val
  rw [flat_val]
  have hQ : (q 0).val * 262144 + (q 1).val = (S64x512x512.rowMajor p : ℕ) := by
    have h2 := Shape.rowMajor_val_two q
    have h3 := Shape.rowMajor_reshapeEquiv shapeCasts_S64x262144_S64x512x512 p
    rw [hq] at h3
    rw [← h3, h2]
    rfl
  unfold srcPos
  omega

end Cert.ReferenceIdeal.RefValue

end
-- ==== Proof.RefSpec.lean ====
/-
  The reference's run against the specification: every weakly fair execution of the reference terminates with
  the result buffer at `Cert.Roll.Spec` of the three arguments' launch contents, the arguments unchanged.
  It is the run of the straight line (RefRun) with its composed term replaced by the specification (RefValue).
-/
import proofs.«215547_g4990751997953_cont_8to1_c_497_7_alg».proof.Proof.RefRun
import proofs.«215547_g4990751997953_cont_8to1_c_497_7_alg».proof.Proof.RefValue

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]

theorem run_spec (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = Cert.Roll.Spec (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_eq_spec _ _ _), (h c).2⟩) (run m ρ)

end Cert.ReferenceIdeal.RefValue

end
-- ==== Proof.KILaunchAlg.lean ====
/-
  The algebraic claim from the two runs: at the ideal instance, from memories agreeing on the arguments, the kernel
  program (given its task body's statement for the rotation) and the reference both end with the result at the
  specification of the arguments, which are unchanged.
-/
import proofs.«215547_g4990751997953_cont_8to1_c_497_7_alg».proof.Proof.KILaunchValue
import proofs.«215547_g4990751997953_cont_8to1_c_497_7_alg».proof.Proof.RefSpec
import proofs.«215547_g4990751997953_cont_8to1_c_497_7_alg».proof.Proof.Gen.ReferenceIdeal
import proofs.«215547_g4990751997953_cont_8to1_c_497_7_alg».proof.Proof.Gen.Pre_finite_inputs

noncomputable section

namespace Cert.Proof.KI

open Idealize.ShloMosaic Idealize.SL.Sem

theorem algebraic_of (htile : TileHyp (F := Ideal) ΦV) : Cert.algebraic_KernelIdeal_ReferenceIdeal := by
  intro m g m' g' _ hag
  refine ⟨fun c => Cert.Roll.Spec (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact run_value (F := Ideal) m g htile
  · refine (θ_run _ _ _).mono (fun _ h c => ?_) (Cert.ReferenceIdeal.RefValue.run_spec (F := Ideal) m' g')
    obtain ⟨h0, h1, h2⟩ := hag c
    refine ⟨?_, (h c).2⟩
    rw [(h c).1, h0, h1, h2]

end Cert.Proof.KI

end
-- ==== Proof.lean ====
/-
  The certificate: the rotation kernel and its reference compute the same array.

  Both programs read the integer shift `round(w_row + 512 · w_col)` off the two scalar weights. The reference scatters
  entry `i` of every row of the flattened input (64 rows of 262144 entries) to place `(i + shift) mod 262144` of a zero
  array; `i ↦ (i + shift) mod 262144` is a bijection of the places, so every place is written exactly once and place
  `o` ends at the input's entry `(o − s) mod 262144`, `s` the shift reduced into `[0, 262144)`. The kernel reduces the
  shift to that `s` on the host, hands it to thirty-two tasks in the first word of a sixteen-word vector, and each task
  rotates two rows chunk by chunk: for the chunk of 16384 places starting at `o₀` it copies in the two consecutive
  blocks of the row that hold places `(o₀ − s) mod 262144` onwards (wrapping at the row's end), moves the 16384 wanted
  entries out of the pair, and writes them to the chunk. Index by index the two results are the same function of the
  arguments (Proof/Spec.lean); no arithmetic on the entries is involved, so the equality holds on all extended reals.

  The three frames: each program runs to its end without a fault and leaves its arguments as they were — the
  reference by its run read back operation by operation, the kernel (as printed, and idealized) by the launch of its
  tasks over their shares of the arrays, every slice a task takes being inside its array because the shift it reads is
  below 262144. The idealization changed no operation, so there is nothing to preserve.
-/
import proofs.«215547_g4990751997953_cont_8to1_c_497_7_alg».proof.Defs
import proofs.«215547_g4990751997953_cont_8to1_c_497_7_alg».proof.Proof.Gen.Kernel
import proofs.«215547_g4990751997953_cont_8to1_c_497_7_alg».proof.Proof.Gen.KernelIdeal
import proofs.«215547_g4990751997953_cont_8to1_c_497_7_alg».proof.Proof.Gen.ReferenceIdeal
import proofs.«215547_g4990751997953_cont_8to1_c_497_7_alg».proof.Proof.Gen.Pre_finite_inputs
import proofs.«215547_g4990751997953_cont_8to1_c_497_7_alg».proof.Proof.RefFrame
import proofs.«215547_g4990751997953_cont_8to1_c_497_7_alg».proof.Proof.KITileHyp
import proofs.«215547_g4990751997953_cont_8to1_c_497_7_alg».proof.Proof.KBTileHyp
import proofs.«215547_g4990751997953_cont_8to1_c_497_7_alg».proof.Proof.KILaunchRun
import proofs.«215547_g4990751997953_cont_8to1_c_497_7_alg».proof.Proof.KBLaunchRun
import proofs.«215547_g4990751997953_cont_8to1_c_497_7_alg».proof.Proof.KITileHypV
import proofs.«215547_g4990751997953_cont_8to1_c_497_7_alg».proof.Proof.KILaunchAlg

noncomputable section

namespace Cert.Proof

open Idealize.ShloMosaic Idealize.SL.Sem

/-- The printed kernel's frame: the launch over the tasks' frame. -/
theorem frame_p : Cert.frame_Kernel := Cert.Proof.KB.frame_pi_of Cert.Proof.KB.tileHyp_frame

/-- The idealized kernel's frame, likewise. -/
theorem frame_pi : Cert.frame_KernelIdeal := Cert.Proof.KI.frame_pi_of Cert.Proof.KI.tileHyp_frame

/-- The reference's frame: its run with the result dropped. -/
theorem frame_ri : Cert.frame_ReferenceIdeal := Cert.ReferenceIdeal.RefValue.frame_ri

/-- The ideal pass rewrote nothing. -/
theorem preserves : Cert.preserves_Kernel_KernelIdeal := trivial

/-- At the ideal instance both programs end, from memories agreeing on the arguments, with the rotated input as their
    result: the kernel by the launch with the value carried through its tasks, the reference by its run. -/
theorem algebraic : Cert.algebraic_KernelIdeal_ReferenceIdeal := Cert.Proof.KI.algebraic_of Cert.Proof.KI.tileHyp_value

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
